-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S2x512x1024 : Shape := ⟨3, ![2, 512, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S2x512x1024 : S_.BroadcastsInDim S2x512x1024 (![] : Fin 0 → Fin S2x512x1024.rank)
  reducesTo_S2x512x1024_S_d0_1_2 : S2x512x1024.ReducesTo [0, 1, 2] S_

variable [Facts]

def fn {F : FTy → Type} [FloatOps F] (main_arg0 : FVec F S8192x512 .f32) (main_arg1 : FVec F S8192x8192 .f32) (main_arg2 : FVec F S2x512x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S2x512x1024 .f32 := Host.absf main_arg2
  let main_cst_2 : FVec F S_ .f32 := constant S_ .f32 0x7F800000#32
  let main_v10 : FVec F S2x512x1024 .f32 := broadcastInDim S2x512x1024 ![] bcast_S_S2x512x1024 main_cst_2
  let main_v11 : IVec S2x512x1024 1 := cmpf .olt main_v9 main_v10
  let main_c_3 : IVec S_ 1 := constantI S_ 1 1#1
  let main_v12 : IVec S_ 1 := (fun x v => Host.reduce IntOp.andi x v reducesTo_S2x512x1024_S_d0_1_2 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S2x512x1024 : Shape := ⟨3, ![2, 512, 1024]⟩
abbrev S1x512x1024 : Shape := ⟨3, ![1, 512, 1024]⟩
abbrev S512x1024 : Shape := ⟨2, ![512, 1024]⟩
abbrev S512x512 : Shape := ⟨2, ![512, 512]⟩
abbrev S1024x512 : Shape := ⟨2, ![1024, 512]⟩
abbrev S512x1 : Shape := ⟨2, ![512, 1]⟩
abbrev S512 : Shape := ⟨1, ![512]⟩

abbrev nBuf : Space → Nat
  | .hbm => 18
  | .vmem => 42
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S2x512x1024, .f32⟩
  | .hbm, ⟨3, _⟩ => ⟨S2x512x1024, .bf16⟩
  | .hbm, ⟨4, _⟩ => ⟨S1x512x1024, .bf16⟩
  | .hbm, ⟨5, _⟩ => ⟨S512x1024, .bf16⟩
  | .hbm, ⟨6, _⟩ => ⟨S512x512, .bf16⟩
  | .hbm, ⟨7, _⟩ => ⟨S512x512, .bf16⟩
  | .hbm, ⟨8, _⟩ => ⟨S8192x512, .bf16⟩
  | .hbm, ⟨9, _⟩ => ⟨S8192x512, .bf16⟩
  | .hbm, ⟨10, _⟩ => ⟨S8192x512, .f32⟩
  | .hbm, ⟨11, _⟩ => ⟨S1x512x1024, .bf16⟩
  | .hbm, ⟨12, _⟩ => ⟨S512x1024, .bf16⟩
  | .hbm, ⟨13, _⟩ => ⟨S512x512, .bf16⟩
  | .hbm, ⟨14, _⟩ => ⟨S512x512, .bf16⟩
  | .hbm, ⟨15, _⟩ => ⟨S8192x512, .bf16⟩
  | .hbm, ⟨16, _⟩ => ⟨S8192x512, .bf16⟩
  | .hbm, ⟨17, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S8192x512, .bf16⟩
  | .local _ .vmem, ⟨11, _⟩ => ⟨S8192x512, .bf16⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1, .f32⟩
  | .local _ .vmem, ⟨19, _⟩ => ⟨S512x1, .f32⟩
  | .local _ .vmem, ⟨20, _⟩ => ⟨S512x512, .f32⟩
  | .local _ .vmem, ⟨21, _⟩ => ⟨S1024x512, .f32⟩
  | .local _ .vmem, ⟨22, _⟩ => ⟨S1024x512, .f32⟩
  | .local _ .vmem, ⟨23, _⟩ => ⟨S512x512, .bf16⟩
  | .local _ .vmem, ⟨24, _⟩ => ⟨S512x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S512x512, .bf16⟩
  | .local _ .vmem, ⟨30, _⟩ => ⟨S512x512, .bf16⟩
  | .local _ .vmem, ⟨31, _⟩ => ⟨S8192x512, .bf16⟩
  | .local _ .vmem, ⟨32, _⟩ => ⟨S8192x512, .bf16⟩
  | .local _ .vmem, ⟨33, _⟩ => ⟨S512x1024, .f32⟩
  | .local _ .vmem, ⟨34, _⟩ => ⟨S512x1024, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x1, .f32⟩
  | .local _ .vmem, ⟨40, _⟩ => ⟨S512x1, .f32⟩
  | .local _ .vmem, ⟨41, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc3_scratch1 : Ref sig .tc := ⟨.vmem, 40, rfl⟩
abbrev cc3_scratch2 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_21 : BitVec 32 := 0#32
  let v47 : BitVec 1 := Scalar.cmpi .ne v46 c0_i32_21
  v47

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 8], ![false, false]⟩

def k3_mult1 (i : grid3.Coords) : BitVec 32 :=
  let arg1 : BitVec 32 := BitVec.ofNat 32 (i 1).val
  let c1024_i32 : BitVec 32 := 1024#32
  let v5 : BitVec 32 := Scalar.muli arg1 c1024_i32
  v5
def k3_off1 (i : grid3.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k3_cond2 (i : grid3.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_21 : BitVec 32 := 0#32
  let v47 : BitVec 1 := Scalar.cmpi .ne v46 c0_i32_21
  v47

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S8192x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S8192x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bitsLt_bf16_f32 : FTy.bits .bf16 < FTy.bits .f32
  slices_S2x512x1024_S1x512x1024_0_0_0 : S2x512x1024.Slices ![0, 0, 0] S1x512x1024
  shapeCasts_S1x512x1024_S512x1024 : S1x512x1024.ShapeCasts S512x1024
  slices_S512x1024_S512x512_0_0 : S512x1024.Slices ![0, 0] S512x512
  slices_S512x1024_S512x512_0_512 : S512x1024.Slices ![0, 512] S512x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S1024x512_S1024x512 : S1024x512.ShapeCasts S1024x512
  reduces_S512x1024_S512 : S512x1024.Reduces [1] S512
  shapeCasts_S512_S512x1 : S512.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  broadcasts_S512x1_S512x512 : S512x1.Broadcasts S512x512
  slices_S2x512x1024_S1x512x1024_1_0_0 : S2x512x1024.Slices ![1, 0, 0] S1x512x1024
  dot_S1024x512_S512x512_S1024x512_1_0_0_1_n_n_wf : DotDims.WF S1024x512 S512x512 S1024x512 [1] [0] [0] [1] [] []
  dot_S512x512_S1024x512_S512x1024_1_1_0_0_n_n_wf : DotDims.WF S512x512 S1024x512 S512x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x512.size a ≤ S8192x512.size a
  hwx1_2 : ∀ i : grid1.Coords, EltTy.bits .bf16 = 32 ∨ (Rect.block (s := S8192x512) S8192x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x8192.size a
  hwx1_3 : ∀ i : grid1.Coords, EltTy.bits .f32 = 32 ∨ (Rect.block (s := S8192x8192) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .f32 = 32 ∨ (Rect.block (s := S8192x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S8192x512.size a
  hwx1_5 : ∀ i : grid1.Coords, EltTy.bits .f32 = 32 ∨ (Rect.block (s := S8192x512) S512x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .bf16 = 32 ∨ (Rect.block (s := S8192x512) S1024x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S8192x512.size a
  hwx2_4 : ∀ i : grid2.Coords, EltTy.bits .bf16 = 32 ∨ (Rect.block (s := S8192x512) S1024x512.size (cc2_transform_4 i) (hinb2_4 i)).WholeWords (EltTy.packing .bf16)
  hrank3 : 0 < grid3.rank
  k3_mult1_dvd : ∀ i : grid3.Coords, 128 ∣ (k3_mult1 i).toNat
  k3_off1_inb : ∀ i : grid3.Coords, ∀ a, (k3_off1 i) a + S1024x512.size a ≤ S8192x512.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S8192x512.size a
  hwx3_0 : ∀ i : grid3.Coords, EltTy.bits .bf16 = 32 ∨ (Rect.block (s := S8192x512) S512x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x512.size a ≤ S8192x512.size a
  hwx3_1 : ∀ i : grid3.Coords, EltTy.bits .bf16 = 32 ∨ (Rect.block (s := S8192x512) S8192x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8192x512.size a ≤ S8192x512.size a
  hwx3_2 : ∀ i : grid3.Coords, EltTy.bits .bf16 = 32 ∨ (Rect.block (s := S8192x512) S8192x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x8192.size a
  hwx3_3 : ∀ i : grid3.Coords, EltTy.bits .f32 = 32 ∨ (Rect.block (s := S8192x8192) S512x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S8192x512.size a
  hwx3_4 : ∀ i : grid3.Coords, EltTy.bits .f32 = 32 ∨ (Rect.block (s := S8192x512) S512x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x512.size a ≤ S8192x512.size a
  hwx3_5 : ∀ i : grid3.Coords, EltTy.bits .f32 = 32 ∨ (Rect.block (s := S8192x512) S512x512.size (cc3_transform_5 i) (hinb3_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S8192x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v6) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11_0) S1024x512.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11_1) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v11_0) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11_1) S8192x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11_0) S8192x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S512x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6) S512x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v12) S512x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S2x512x1024 : Shape := ⟨3, ![2, 512, 1024]⟩
abbrev S1x512x1024 : Shape := ⟨3, ![1, 512, 1024]⟩
abbrev S512x1024 : Shape := ⟨2, ![512, 1024]⟩
abbrev S8192x1024 : Shape := ⟨2, ![8192, 1024]⟩
abbrev S512x8192 : Shape := ⟨2, ![512, 8192]⟩
abbrev S_ : Shape := ⟨0, ![]⟩
abbrev S8192 : Shape := ⟨1, ![8192]⟩
abbrev S8192x1 : Shape := ⟨2, ![8192, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S2x512x1024, .f32⟩
  | .hbm, ⟨3, _⟩ => ⟨S1x512x1024, .f32⟩
  | .hbm, ⟨4, _⟩ => ⟨S512x1024, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S512x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S_, .f32⟩
  | .hbm, ⟨29, _⟩ => ⟨S8192x512, .f32⟩
  | .hbm, ⟨30, _⟩ => ⟨S8192x512, .i1⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S1x512x1024, .f32⟩
  | .hbm, ⟨36, _⟩ => ⟨S512x1024, .f32⟩
  | .hbm, ⟨37, _⟩ => ⟨S8192x1024, .f32⟩
  | .hbm, ⟨38, _⟩ => ⟨S8192x512, .f32⟩
  | .hbm, ⟨39, _⟩ => ⟨S8192x512, .f32⟩
  | .hbm, ⟨40, _⟩ => ⟨S512x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S_, .f32⟩
  | .hbm, ⟨61, _⟩ => ⟨S8192x512, .f32⟩
  | .hbm, ⟨62, _⟩ => ⟨S8192x512, .i1⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  slices_S2x512x1024_S1x512x1024_0_0_0 : S2x512x1024.Slices ![0, 0, 0] S1x512x1024
  shapeCasts_S1x512x1024_S512x1024 : S1x512x1024.ShapeCasts S512x1024
  slices_S8192x1024_S8192x512_0_0 : S8192x1024.Slices ![0, 0] S8192x512
  slices_S8192x1024_S8192x512_0_512 : S8192x1024.Slices ![0, 512] S8192x512
  transposes_S8192x512_S512x8192_1_0 : S8192x512.Transposes [1, 0] S512x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x512 : S_.BroadcastsInDim S8192x512 (![] : Fin 0 → Fin S8192x512.rank)
  slices_S2x512x1024_S1x512x1024_1_0_0 : S2x512x1024.Slices ![1, 0, 0] S1x512x1024
  dot_S8192x512_S512x1024_S8192x1024_1_0_0_1_n_n_wf : DotDims.WF S8192x512 S512x1024 S8192x1024 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.RefRun.lean ====
/- The reference program's @main as a list of its 64 host operations (the two calls of the outlined
   leaky-ReLU, and its outlined select, listed inline at their call sites over the calls' buffer records),
   and its run read back: every weakly fair execution terminates with the result buffer at one layer's
   composed pure term applied twice to the arguments' launch contents, the arguments unchanged. -/
import proofs.«100610_j61478161875059_2_alg».proof.Defs
import proofs.«100610_j61478161875059_2_alg».proof.Proof.Gen.ReferenceIdeal
import proofs.«100610_j61478161875059_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## One layer as a pure term -/

/-- The projection `x · W_l` : 8192 × 1024. -/
def proj (x : (⟨S8192x512, .f32⟩ : BufTy).Contents (Elt F)) (Wl : (⟨S512x1024, .f32⟩ : BufTy).Contents (Elt F)) :
    (⟨S8192x1024, .f32⟩ : BufTy).Contents (Elt F) :=
  Host.dotGeneral dot_S8192x512_S512x1024_S8192x1024_1_0_0_1_n_n none x Wl

/-- The first half of the projection's columns (`Wh`). -/
def wh (x : (⟨S8192x512, .f32⟩ : BufTy).Contents (Elt F)) (Wl : (⟨S512x1024, .f32⟩ : BufTy).Contents (Elt F)) :
    (⟨S8192x512, .f32⟩ : BufTy).Contents (Elt F) :=
  extractStridedSlice S8192x512 ![0, 0] (proj x Wl) slices_S8192x1024_S8192x512_0_0

/-- The second half of the projection's columns, transposed (`Wsᵀ`). -/
def wsT (x : (⟨S8192x512, .f32⟩ : BufTy).Contents (Elt F)) (Wl : (⟨S512x1024, .f32⟩ : BufTy).Contents (Elt F)) :
    (⟨S512x8192, .f32⟩ : BufTy).Contents (Elt F) :=
  transpose S512x8192 [1, 0] (extractStridedSlice S8192x512 ![0, 512] (proj x Wl) slices_S8192x1024_S8192x512_0_512)
    transposes_S8192x512_S512x8192_1_0

/-- The scores `Wh · Wsᵀ` : 8192 × 8192. -/
def scores (x : (⟨S8192x512, .f32⟩ : BufTy).Contents (Elt F)) (Wl : (⟨S512x1024, .f32⟩ : BufTy).Contents (Elt F)) :
    (⟨S8192x8192, .f32⟩ : BufTy).Contents (Elt F) :=
  Host.dotGeneral dot_S8192x512_S512x8192_S8192x8192_1_0_0_1_n_n none (wh x Wl) (wsT x Wl)

/-- Each row's maximum (folded from −∞, then joined with −∞ once more). -/
def rowMax (s : (⟨S8192x8192, .f32⟩ : BufTy).Contents (Elt F)) : (⟨S8192, .f32⟩ : BufTy).Contents (Elt F) :=
  maximumf (broadcastInDim S8192 ![] bcast_S_S8192 (constant (F := F) S_ .f32 0xFF800000#32))
    (Host.reduce FloatOps.maximumf s (constant (F := F) S_ .f32 0xFF800000#32) reducesTo_S8192x8192_S8192_d1 h_S_)

/-- The exponential of the scores shifted by their row's maximum. -/
def expo (s : (⟨S8192x8192, .f32⟩ : BufTy).Contents (Elt F)) : (⟨S8192x8192, .f32⟩ : BufTy).Contents (Elt F) :=
  Host.exp (subf s (broadcastInDim S8192x8192 ![0, 1] bcast_S8192x1_S8192x8192_0_1
    (broadcastInDim S8192x1 ![0] bcast_S8192_S8192x1_0 (rowMax s))))

/-- Each row's sum of those exponentials (folded from 0). -/
def denom (s : (⟨S8192x8192, .f32⟩ : BufTy).Contents (Elt F)) : (⟨S8192, .f32⟩ : BufTy).Contents (Elt F) :=
  Host.reduceAdd (expo s) (constant (F := F) S_ .f32 0x00000000#32) reducesTo_S8192x8192_S8192_d1 h_S_

/-- The row-wise softmax of the scores. -/
def softmax (s : (⟨S8192x8192, .f32⟩ : BufTy).Contents (Elt F)) : (⟨S8192x8192, .f32⟩ : BufTy).Contents (Elt F) :=
  Host.divf (expo s) (broadcastInDim S8192x8192 ![0, 1] bcast_S8192x1_S8192x8192_0_1
    (broadcastInDim S8192x1 ![0] bcast_S8192_S8192x1_0 (denom s)))

/-- The leaky rectifier of slope 0.00999999977: `y` where `y ≥ 0`, the slope times `y` elsewhere. -/
def leaky (y : (⟨S8192x512, .f32⟩ : BufTy).Contents (Elt F)) : (⟨S8192x512, .f32⟩ : BufTy).Contents (Elt F) :=
  select (cmpf .oge y (broadcastInDim S8192x512 ![] bcast_S_S8192x512 (constant (F := F) S_ .f32 0x00000000#32))) y
    (mulf (broadcastInDim S8192x512 ![] bcast_S_S8192x512 (id (constant (F := F) S_ .f32 0x3C23D70A#32))) y)

/-- One layer: the masked softmax attention of the projection's halves, applied to the first half, plus
    the residual, through the leaky rectifier. -/
def refLayer (x : (⟨S8192x512, .f32⟩ : BufTy).Contents (Elt F)) (adj : (⟨S8192x8192, .f32⟩ : BufTy).Contents (Elt F))
    (Wl : (⟨S512x1024, .f32⟩ : BufTy).Contents (Elt F)) : (⟨S8192x512, .f32⟩ : BufTy).Contents (Elt F) :=
  leaky (addf (Host.dotGeneral dot_S8192x8192_S8192x512_S8192x512_1_0_0_1_n_n none
    (mulf (softmax (scores x Wl)) adj) (wh x Wl)) x)

/-- Layer 0's weights: the slice `[0:1, 0:512, 0:1024]` of the stack, reshaped to 512 × 1024. -/
def wslice0 (W : (⟨S2x512x1024, .f32⟩ : BufTy).Contents (Elt F)) : (⟨S512x1024, .f32⟩ : BufTy).Contents (Elt F) :=
  fun i => shapeCast S512x1024 (extractStridedSlice S1x512x1024 ![0, 0, 0] W slices_S2x512x1024_S1x512x1024_0_0_0)
    shapeCasts_S1x512x1024_S512x1024 i

/-- Layer 1's weights: the slice `[1:2, 0:512, 0:1024]` of the stack, reshaped to 512 × 1024. -/
def wslice1 (W : (⟨S2x512x1024, .f32⟩ : BufTy).Contents (Elt F)) : (⟨S512x1024, .f32⟩ : BufTy).Contents (Elt F) :=
  fun i => shapeCast S512x1024 (extractStridedSlice S1x512x1024 ![1, 0, 0] W slices_S2x512x1024_S1x512x1024_1_0_0)
    shapeCasts_S1x512x1024_S512x1024 i

/-- The program's result: the layer applied twice, to each layer's weights in turn. -/
def refOut (x : (⟨S8192x512, .f32⟩ : BufTy).Contents (Elt F)) (adj : (⟨S8192x8192, .f32⟩ : BufTy).Contents (Elt F))
    (W : (⟨S2x512x1024, .f32⟩ : BufTy).Contents (Elt F)) : (⟨S8192x512, .f32⟩ : BufTy).Contents (Elt F) :=
  refLayer (refLayer x adj (wslice0 W)) adj (wslice1 W)

/-! ## The operations and the run -/

/-- @main's 64 operations, in order, the calls unfolded: each layer is its twenty-five operations of @main, then the
    leaky rectifier's six into the call's buffers and its select's one into the result buffer. -/
abbrev ops : List (HloOp τ sig (Elt F)) :=
  [ StableHlo.unary main_arg2 main_v0 ((extractStridedSlice S1x512x1024 ![0, 0, 0] · slices_S2x512x1024_S1x512x1024_0_0_0) : (⟨S2x512x1024, .f32⟩ : BufTy).Contents (Elt F) → (⟨S1x512x1024, .f32⟩ : BufTy).Contents (Elt F)),
    StableHlo.reshape main_v0 main_v1 rfl shapeCasts_S1x512x1024_S512x1024,
    StableHlo.binary main_arg0 main_v1 main_v2 ((fun l r => Host.dotGeneral dot_S8192x512_S512x1024_S8192x1024_1_0_0_1_n_n none l r) : (⟨S8192x512, .f32⟩ : BufTy).Contents (Elt F) → (⟨S512x1024, .f32⟩ : BufTy).Contents (Elt F) → (⟨S8192x1024, .f32⟩ : BufTy).Contents (Elt F)),
    StableHlo.unary main_v2 main_v3 ((extractStridedSlice S8192x512 ![0, 0] · slices_S8192x1024_S8192x512_0_0) : (⟨S8192x1024, .f32⟩ : BufTy).Contents (Elt F) → (⟨S8192x512, .f32⟩ : BufTy).Contents (Elt F)),
    StableHlo.unary main_v2 main_v4 ((extractStridedSlice S8192x512 ![0, 512] · slices_S8192x1024_S8192x512_0_512) : (⟨S8192x1024, .f32⟩ : BufTy).Contents (Elt F) → (⟨S8192x512, .f32⟩ : BufTy).Contents (Elt F)),
    StableHlo.unary main_v4 main_v5 ((transpose S512x8192 [1, 0] · transposes_S8192x512_S512x8192_1_0) : (⟨S8192x512, .f32⟩ : BufTy).Contents (Elt F) → (⟨S512x8192, .f32⟩ : BufTy).Contents (Elt F)),
    StableHlo.binary main_v3 main_v5 main_v6 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    StableHlo.nullary main_cst (constant S_ .f32 0xFF800000#32),
    StableHlo.binary main_v6 main_cst main_v7 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_0 (constant S_ .f32 0xFF800000#32),
    StableHlo.unary main_cst_0 main_v8 (broadcastInDim S8192 ![] bcast_S_S8192 : (⟨S_, .f32⟩ : BufTy).Contents (Elt F) → (⟨S8192, .f32⟩ : BufTy).Contents (Elt F)),
    StableHlo.binary main_v8 main_v7 main_v9 (maximumf : (⟨S8192, .f32⟩ : BufTy).Contents (Elt F) → (⟨S8192, .f32⟩ : BufTy).Contents (Elt F) → (⟨S8192, .f32⟩ : BufTy).Contents (Elt F)),
    StableHlo.unary main_v9 main_v10 (broadcastInDim S8192x1 ![0] bcast_S8192_S8192x1_0 : (⟨S8192, .f32⟩ : BufTy).Contents (Elt F) → (⟨S8192x1, .f32⟩ : BufTy).Contents (Elt F)),
    StableHlo.unary main_v10 main_v11 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v6 main_v11 main_v12 (subf : (⟨S8192x8192, .f32⟩ : BufTy).Contents (Elt F) → (⟨S8192x8192, .f32⟩ : BufTy).Contents (Elt F) → (⟨S8192x8192, .f32⟩ : BufTy).Contents (Elt F)),
    StableHlo.unary main_v12 main_v13 (Host.exp : (⟨S8192x8192, .f32⟩ : BufTy).Contents (Elt F) → (⟨S8192x8192, .f32⟩ : BufTy).Contents (Elt F)),
    StableHlo.nullary main_cst_1 (constant S_ .f32 0x00000000#32),
    StableHlo.binary main_v13 main_cst_1 main_v14 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v14 main_v15 (broadcastInDim S8192x1 ![0] bcast_S8192_S8192x1_0 : (⟨S8192, .f32⟩ : BufTy).Contents (Elt F) → (⟨S8192x1, .f32⟩ : BufTy).Contents (Elt F)),
    StableHlo.unary main_v15 main_v16 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v13 main_v16 main_v17 (Host.divf : (⟨S8192x8192, .f32⟩ : BufTy).Contents (Elt F) → (⟨S8192x8192, .f32⟩ : BufTy).Contents (Elt F) → (⟨S8192x8192, .f32⟩ : BufTy).Contents (Elt F)),
    StableHlo.binary main_v17 main_arg1 main_v18 (mulf : (⟨S8192x8192, .f32⟩ : BufTy).Contents (Elt F) → (⟨S8192x8192, .f32⟩ : BufTy).Contents (Elt F) → (⟨S8192x8192, .f32⟩ : BufTy).Contents (Elt F)),
    StableHlo.binary main_v18 main_v3 main_v19 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    StableHlo.binary main_v19 main_arg0 main_v20 (addf : (⟨S8192x512, .f32⟩ : BufTy).Contents (Elt F) → (⟨S8192x512, .f32⟩ : BufTy).Contents (Elt F) → (⟨S8192x512, .f32⟩ : BufTy).Contents (Elt F)),
    StableHlo.nullary main_cst_2 (constant S_ .f32 0x3C23D70A#32),
    StableHlo.TRef.nullary main_call0.cst (constant S_ .f32 0x00000000#32),
    StableHlo.TRef.unary main_call0.cst main_call0.v0 (broadcastInDim S8192x512 ![] bcast_S_S8192x512),
    StableHlo.TRef.binary (.of main_v20 : TRef sig ⟨S8192x512, .f32⟩) main_call0.v0 main_call0.v1 (cmpf .oge),
    StableHlo.TRef.unary (.of main_cst_2 : TRef sig ⟨S_, .f32⟩) main_call0.v2 id,
    StableHlo.TRef.unary main_call0.v2 main_call0.v3 (broadcastInDim S8192x512 ![] bcast_S_S8192x512),
    StableHlo.TRef.binary main_call0.v3 (.of main_v20 : TRef sig ⟨S8192x512, .f32⟩) main_call0.v4 mulf,
    StableHlo.TRef.ternary main_call0.v1 (.of main_v20 : TRef sig ⟨S8192x512, .f32⟩) main_call0.v4 main_call0.call0.v0 select,
    StableHlo.unary main_arg2 main_v22 ((extractStridedSlice S1x512x1024 ![1, 0, 0] · slices_S2x512x1024_S1x512x1024_1_0_0) : (⟨S2x512x1024, .f32⟩ : BufTy).Contents (Elt F) → (⟨S1x512x1024, .f32⟩ : BufTy).Contents (Elt F)),
    StableHlo.reshape main_v22 main_v23 rfl shapeCasts_S1x512x1024_S512x1024,
    StableHlo.binary main_v21 main_v23 main_v24 ((fun l r => Host.dotGeneral dot_S8192x512_S512x1024_S8192x1024_1_0_0_1_n_n none l r) : (⟨S8192x512, .f32⟩ : BufTy).Contents (Elt F) → (⟨S512x1024, .f32⟩ : BufTy).Contents (Elt F) → (⟨S8192x1024, .f32⟩ : BufTy).Contents (Elt F)),
    StableHlo.unary main_v24 main_v25 ((extractStridedSlice S8192x512 ![0, 0] · slices_S8192x1024_S8192x512_0_0) : (⟨S8192x1024, .f32⟩ : BufTy).Contents (Elt F) → (⟨S8192x512, .f32⟩ : BufTy).Contents (Elt F)),
    StableHlo.unary main_v24 main_v26 ((extractStridedSlice S8192x512 ![0, 512] · slices_S8192x1024_S8192x512_0_512) : (⟨S8192x1024, .f32⟩ : BufTy).Contents (Elt F) → (⟨S8192x512, .f32⟩ : BufTy).Contents (Elt F)),
    StableHlo.unary main_v26 main_v27 ((transpose S512x8192 [1, 0] · transposes_S8192x512_S512x8192_1_0) : (⟨S8192x512, .f32⟩ : BufTy).Contents (Elt F) → (⟨S512x8192, .f32⟩ : BufTy).Contents (Elt F)),
    StableHlo.binary main_v25 main_v27 main_v28 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    StableHlo.nullary main_cst_3 (constant S_ .f32 0xFF800000#32),
    StableHlo.binary main_v28 main_cst_3 main_v29 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_4 (constant S_ .f32 0xFF800000#32),
    StableHlo.unary main_cst_4 main_v30 (broadcastInDim S8192 ![] bcast_S_S8192 : (⟨S_, .f32⟩ : BufTy).Contents (Elt F) → (⟨S8192, .f32⟩ : BufTy).Contents (Elt F)),
    StableHlo.binary main_v30 main_v29 main_v31 (maximumf : (⟨S8192, .f32⟩ : BufTy).Contents (Elt F) → (⟨S8192, .f32⟩ : BufTy).Contents (Elt F) → (⟨S8192, .f32⟩ : BufTy).Contents (Elt F)),
    StableHlo.unary main_v31 main_v32 (broadcastInDim S8192x1 ![0] bcast_S8192_S8192x1_0 : (⟨S8192, .f32⟩ : BufTy).Contents (Elt F) → (⟨S8192x1, .f32⟩ : BufTy).Contents (Elt F)),
    StableHlo.unary main_v32 main_v33 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v28 main_v33 main_v34 (subf : (⟨S8192x8192, .f32⟩ : BufTy).Contents (Elt F) → (⟨S8192x8192, .f32⟩ : BufTy).Contents (Elt F) → (⟨S8192x8192, .f32⟩ : BufTy).Contents (Elt F)),
    StableHlo.unary main_v34 main_v35 (Host.exp : (⟨S8192x8192, .f32⟩ : BufTy).Contents (Elt F) → (⟨S8192x8192, .f32⟩ : BufTy).Contents (Elt F)),
    StableHlo.nullary main_cst_5 (constant S_ .f32 0x00000000#32),
    StableHlo.binary main_v35 main_cst_5 main_v36 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v36 main_v37 (broadcastInDim S8192x1 ![0] bcast_S8192_S8192x1_0 : (⟨S8192, .f32⟩ : BufTy).Contents (Elt F) → (⟨S8192x1, .f32⟩ : BufTy).Contents (Elt F)),
    StableHlo.unary main_v37 main_v38 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v35 main_v38 main_v39 (Host.divf : (⟨S8192x8192, .f32⟩ : BufTy).Contents (Elt F) → (⟨S8192x8192, .f32⟩ : BufTy).Contents (Elt F) → (⟨S8192x8192, .f32⟩ : BufTy).Contents (Elt F)),
    StableHlo.binary main_v39 main_arg1 main_v40 (mulf : (⟨S8192x8192, .f32⟩ : BufTy).Contents (Elt F) → (⟨S8192x8192, .f32⟩ : BufTy).Contents (Elt F) → (⟨S8192x8192, .f32⟩ : BufTy).Contents (Elt F)),
    StableHlo.binary main_v40 main_v25 main_v41 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    StableHlo.binary main_v41 main_v21 main_v42 (addf : (⟨S8192x512, .f32⟩ : BufTy).Contents (Elt F) → (⟨S8192x512, .f32⟩ : BufTy).Contents (Elt F) → (⟨S8192x512, .f32⟩ : BufTy).Contents (Elt F)),
    StableHlo.nullary main_cst_6 (constant S_ .f32 0x3C23D70A#32),
    StableHlo.TRef.nullary main_call1.cst (constant S_ .f32 0x00000000#32),
    StableHlo.TRef.unary main_call1.cst main_call1.v0 (broadcastInDim S8192x512 ![] bcast_S_S8192x512),
    StableHlo.TRef.binary (.of main_v42 : TRef sig ⟨S8192x512, .f32⟩) main_call1.v0 main_call1.v1 (cmpf .oge),
    StableHlo.TRef.unary (.of main_cst_6 : TRef sig ⟨S_, .f32⟩) main_call1.v2 id,
    StableHlo.TRef.unary main_call1.v2 main_call1.v3 (broadcastInDim S8192x512 ![] bcast_S_S8192x512),
    StableHlo.TRef.binary main_call1.v3 (.of main_v42 : TRef sig ⟨S8192x512, .f32⟩) main_call1.v4 mulf,
    StableHlo.TRef.ternary main_call1.v1 (.of main_v42 : TRef sig ⟨S8192x512, .f32⟩) main_call1.v4 main_call1.call0.v0 select ]

-- sixty-four binds re-associated: the rewrite under the chain recurses once per statement
set_option maxRecDepth 2048 in
/-- @main is that straight line: the functions' definitions unfolded at their calls, both sides are one chain of
    steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- The fold of the operations at the result buffer is the layer applied twice. -/
theorem out_eq (V : Valuation τ sig (Elt F)) :
    after ops V (main_v43 : DevRef τ sig)
      = refOut (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at the layer applied twice to the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v43)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v43).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

/-- The reference runs and leaves its arguments unchanged. -/
theorem frame_ri : Cert.frame_ReferenceIdeal := fun m ρ _ =>
  (θ_run (defs (F := Ideal)) _ _).mono (fun _ h c => (h c).2) (run m ρ)

end Cert.ReferenceIdeal.RefRun

end
-- ==== Proof.ProjBodyK.lean ====
/-
  The projection kernel's body as one step of separation logic.

  One grid point of the projection hands the body a block of 1024 rows of x (f32) and the two halves of the layer's
  weight, each 512×512, and two output buffers of 1024×512. The body loads the three inputs whole, multiplies the rows
  by each half (a contraction over the 512 columns of x, into a zero accumulator) and stores each product whole into its
  output buffer; the two loads it makes of the output buffers before storing are never used. So after the body the
  inputs are as they were and each output buffer holds ONE piece, the whole buffer, whose value is the product: the
  canon of a one-piece list.
-/
import proofs.«100610_j61478161875059_2_alg».proof.Proof.Gen.Kernel.Launch
import proofs.«100610_j61478161875059_2_alg».proof.Proof.Gen.Kernel.Skeleton
import proofs.«100610_j61478161875059_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024×512 buffer, as a rectangle. -/
abbrev rX : Rect S1024x512 := Rect.unit (s := S1024x512) ![0, 0] S1024x512.size inb_S1024x512_S1024x512_0_0
/-- The whole 512×512 buffer, as a rectangle. -/
abbrev rW : Rect S512x512 := Rect.unit (s := S512x512) ![0, 0] S512x512.size inb_S512x512_S512x512_0_0

/-- What the first output buffer holds after the body of the layer-0 projection: the rows of `x` times the first
    half `w` of the weight, stored as one whole piece. -/
def outH0 (x : Vec F S1024x512 .f32) (w : Vec F S512x512 .bf16) : Vec F S1024x512 .bf16 :=
  View.canon [⟨rX, k0_pay2 (View.ld x rX) (View.ld w rW)⟩]
/-- What the second output buffer holds: the rows of `x` times the second half of the weight. -/
def outS0 (x : Vec F S1024x512 .f32) (w : Vec F S512x512 .bf16) : Vec F S1024x512 .bf16 :=
  View.canon [⟨rX, k0_pay3 (View.ld x rX) (View.ld w rW)⟩]
/-- The same two for the layer-1 projection (the same body, printed a second time). -/
def outH2 (x : Vec F S1024x512 .f32) (w : Vec F S512x512 .bf16) : Vec F S1024x512 .bf16 :=
  View.canon [⟨rX, k2_pay2 (View.ld x rX) (View.ld w rW)⟩]
def outS2 (x : Vec F S1024x512 .f32) (w : Vec F S512x512 .bf16) : Vec F S1024x512 .bf16 :=
  View.canon [⟨rX, k2_pay3 (View.ld x rX) (View.ld w rW)⟩]

/-- One whole-buffer piece covers the buffer. -/
theorem cover (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

set_option maxHeartbeats 1000000 in
/-- The layer-0 projection's body on whole buffers: the inputs at `x`, `w1`, `w2` and the outputs at anything, it
    runs to the continuation with the inputs as they were and the outputs at the two products. -/
theorem sound_proj0 (c : Dev nD) (E : Set ℕ) (i : grid0.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x512 .bf16) (harg4 : arg4.IsWhole)
    (arg5 : Memref sig .tc .vmem S1024x512 .bf16) (harg5 : arg5.IsWhole)
    (x : Vec F S1024x512 .f32) (w1 w2 : Vec F S512x512 .bf16) (K : PUnit → sProp 𝕄) :
    iprop(owns (c : Thread nD τ) arg1 fullShare x ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w1 ∗ owns (c : Thread nD τ) arg3 fullShare w2
            ∗ owns (c : Thread nD τ) arg4 fullShare (outH0 x w1) ∗ owns (c : Thread nD τ) arg5 fullShare (outS0 x w2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, %hf4, H4⟩, ⟨%d5, %f5, %hf5, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  iexists _; isplitr
  swap; · iexact H5
  ipureintro
  exact View.read_writes_eq_canon _ _ _ (cover _)

set_option maxHeartbeats 1000000 in
/-- The layer-1 projection's body on whole buffers: the inputs at `x`, `w1`, `w2` and the outputs at anything, it
    runs to the continuation with the inputs as they were and the outputs at the two products. -/
theorem sound_proj2 (c : Dev nD) (E : Set ℕ) (i : grid2.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x512 .bf16) (harg4 : arg4.IsWhole)
    (arg5 : Memref sig .tc .vmem S1024x512 .bf16) (harg5 : arg5.IsWhole)
    (x : Vec F S1024x512 .f32) (w1 w2 : Vec F S512x512 .bf16) (K : PUnit → sProp 𝕄) :
    iprop(owns (c : Thread nD τ) arg1 fullShare x ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w1 ∗ owns (c : Thread nD τ) arg3 fullShare w2
            ∗ owns (c : Thread nD τ) arg4 fullShare (outH2 x w1) ∗ owns (c : Thread nD τ) arg5 fullShare (outS2 x w2)) -∗ K ⟨⟩))
      ⊢ wp frame (wpE (defs₀ (F := F)) Variants.none c none) E (cc2__proj_kernel i arg1 harg1 arg2 harg2 arg3 harg3 arg4 harg4 arg5 harg5) K := by
  simp only [cc2__proj_kernel_eq_skeleton]; unfold cc2__proj_kernel_skel
  unfold owns
  iintro ⟨⟨%f1, %hf1, H1⟩, ⟨%f2, %hf2, H2⟩, ⟨%f3, %hf3, H3⟩, ⟨%d4, %f4, %hf4, H4⟩, ⟨%d5, %f5, %hf5, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  iexists _; isplitr
  swap; · iexact H5
  ipureintro
  exact View.read_writes_eq_canon _ _ _ (cover _)

end Cert.Kernel.Proj

end
-- ==== Proof.ProjDataK.lean ====
/-
  The projection calls' proof data.

  A projection call walks 8 blocks of 1024 rows of its input; at each it holds the block and the two halves of the
  layer's weight (fetched once, at the first point, and left in place) and writes the two products' blocks back. Over
  the contents `V` the call is entered with, the proof data say what every window's buffer holds after the body at each
  point, and the body's one-step triple gives the pipeline's body obligation.
-/
import proofs.«100610_j61478161875059_2_alg».proof.Proof.ProjBodyK

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The layer-0 projection (pipeline 0), entered with the core's buffers at `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (an unfetched window's block index has not moved), for any proof data over the arrays `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (an unfetched window's block index has not moved), for any proof data over the arrays `V` whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (an unfetched window's block index has not moved), for any proof data over the arrays `V` whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection on core `c`: the arrays as the call finds them; after the body at point `t` the
    three inputs' buffers at their blocks, the first output's at the rows times the first weight half and the second
    output's at the rows times the second half; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outH0 (iblk0 V c 0 t) (iblk0 V c 1 t)
    | ⟨4, _⟩ => outS0 (iblk0 V c 0 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outH0 (iblk0 V c 0 t) (iblk0 V c 1 t) := by dsimp only [dat0]
theorem after0_4 (c : Dev nD) (t : Fin cfg0.N) : (dat0 V c).after 4 t = outS0 (iblk0 V c 0 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_proj0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # The layer-1 projection (pipeline 2), entered with the core's buffers at `V` -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there (an unfetched window's block index has not moved), for any proof data over the arrays `V` whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the pipeline fetched it
    there (an unfetched window's block index has not moved), for any proof data over the arrays `V` whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the pipeline fetched it
    there (an unfetched window's block index has not moved), for any proof data over the arrays `V` whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of the projection on core `c`: the arrays as the call finds them; after the body at point `t` the
    three inputs' buffers at their blocks, the first output's at the rows times the first weight half and the second
    output's at the rows times the second half; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outH2 (iblk2 V c 0 t) (iblk2 V c 1 t)
    | ⟨4, _⟩ => outS2 (iblk2 V c 0 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outH2 (iblk2 V c 0 t) (iblk2 V c 1 t) := by dsimp only [dat2]
theorem after2_4 (c : Dev nD) (t : Fin cfg2.N) : (dat2 V c).after 4 t = outS2 (iblk2 V c 0 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_proj2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Proj

end
-- ==== Proof.AttnSharesK.lean ====
/-
  The shares at which the attention call's six windows hold their arrays.

  The call reads the projected features twice: window 0 takes a block of 512 rows of them as the queries of a
  point, window 2 takes the whole array as the values, and both windows name the SAME array. An array held at the full
  share splits into its left and right halves, each enough to read it; so window 0 holds the shared array at the left
  half and window 2 at the right half, and the halves recombine to the full share when the call returns. Every other
  window (the keys, the adjacency mask, the residual input, the output) names an array of its own and holds it whole.
-/
import proofs.«100610_j61478161875059_2_alg».proof.Proof.Gen.Kernel.Launch
import Idealize.ShloMosaic.Lib.Pipeline.FrameBody

noncomputable section

namespace Cert.Kernel.Attn

open Idealize.ShloMosaic Idealize.SL Idealize.SL.RA

/-- Window 0 (the queries) at the left half, window 2 (the values) at the right half of the array they share; the
    others at the full share. -/
def qAttn : Fin 6 → PosShare TreeShare
  | ⟨0, _⟩ => fullShare.left
  | ⟨2, _⟩ => fullShare.right
  | _ => fullShare

theorem qAttn_0 : qAttn 0 = fullShare.left := rfl
theorem qAttn_1 : qAttn 1 = fullShare := rfl
theorem qAttn_2 : qAttn 2 = fullShare.right := rfl
theorem qAttn_3 : qAttn 3 = fullShare := rfl
theorem qAttn_4 : qAttn 4 = fullShare := rfl
theorem qAttn_5 : qAttn 5 = fullShare := rfl

end Cert.Kernel.Attn

end
-- ==== Proof.SharedArraysK.lean ====
/-
  The attention calls' entry and exit, their windows 0 and 2 naming one array.

  Between two items of the program a core holds every unscoped buffer whole, at the full share. An attention call's
  pipeline takes each window's array at the window's share: the projected features, read through window 0 (a block of
  queries) and through window 2 (all the values), at the left and the right half of the full share, every other array
  whole. So at entry the shared array's points-to splits in two along the share, and at exit — both windows being
  inputs, which the pipeline never writes — the halves hold the same contents again and recombine.
-/
import proofs.«100610_j61478161875059_2_alg».proof.Proof.AttnSharesK
import Idealize.ShloMosaic.Lib.Pipeline.RegionsLoop
import Idealize.ShloMosaic.Lib.Pipeline.FrameSuffix
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer-0 attention call (pipeline 1): windows 0 and 2 on `main_v5_0` -/

/-- The distinct buffers behind the call's six windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5_0) ↦{fullShare} V main_v5_0) ∗ (((c : Thread nD τ).loc main_v5_1) ↦{fullShare} V main_v5_1)
          ∗ (((c : Thread nD τ).loc main_arg1) ↦{fullShare} V main_arg1) ∗ (((c : Thread nD τ).loc main_arg0) ↦{fullShare} V main_arg0)
          ∗ (((c : Thread nD τ).loc main_v6) ↦{fullShare} V main_v6)) := by
  unfold Pipeline.arrBufs
  rw [BI.bigSep_eq_bigSepL_of_eq [main_v5_0, main_v5_1, main_arg1, main_arg0, main_v6] (by decide) (by decide)]; rfl

/-- The share each window holds its array at: the output's the full share, an input's the proof data's. -/
theorem share1 {c : Dev nD} (dat : Dat τ (Elt F) Unit ℕ (UR sig nD τ) ℕ cfg1 c) (hq : dat.q = qAttn) (w : Fin cfg1.W) :
    dat.share w = if w = 5 then fullShare else qAttn w := by
  unfold Dat.share; rw [hq]
  revert w; decide

/-- The pipeline's arrays, window by window: the shared array's two halves with windows 0 and 2, the others whole. -/
theorem arrays1_eq {c : Dev nD} (dat : Dat τ (Elt F) Unit ℕ (UR sig nD τ) ℕ cfg1 c) (hq : dat.q = qAttn)
    (G : (w : Fin cfg1.W) → Buf (Elt F) ((cfg1.win w).arr.view.loc (c : Thread nD τ))) :
    (dat.arrays G : sProp 𝕄)
      = iprop((((c : Thread nD τ).loc main_v5_0) ↦{fullShare.left} G 0) ∗ (((c : Thread nD τ).loc main_v5_1) ↦{fullShare} G 1)
          ∗ (((c : Thread nD τ).loc main_v5_0) ↦{fullShare.right} G 2) ∗ (((c : Thread nD τ).loc main_arg1) ↦{fullShare} G 3)
          ∗ (((c : Thread nD τ).loc main_arg0) ↦{fullShare} G 4) ∗ (((c : Thread nD τ).loc main_v6) ↦{fullShare} G 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rw [share1 dat hq 0, share1 dat hq 1, share1 dat hq 2, share1 dat hq 3, share1 dat hq 4, share1 dat hq 5]
  rfl

/-- ENTRY. The core's unscoped buffers whole at `V` are the pipeline's arrays at the proof data's entry contents — these
    read off `V` — beside the unscoped buffers that are no window's array: the shared array's full share splits into
    its left half, for window 0, and its right half, for window 2. -/
theorem arrays_of_unscopedBufs1 {c : Dev nD} (dat : Dat τ (Elt F) Unit ℕ (UR sig nD τ) ℕ cfg1 c) (hq : dat.q = qAttn)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  have hsplit : (unscopedBufs c V : sProp 𝕄) = iprop(Pipeline.arrBufs spec1 c V ∗ Pipeline.unscopedRest spec1 c V) :=
    Pipeline.unscopedBufs_split₀ cfgs (1 : Fin 4) winFacts₀1.arr_unscoped c V
  rw [hsplit, arrBufs1_eq, arrays1_eq dat hq]
  beta_reduce
  rw [show dat.arrAt 0 0 = V main_v5_0 from hA 0, show dat.arrAt 1 0 = V main_v5_1 from hA 1, show dat.arrAt 2 0 = V main_v5_0 from hA 2,
    show dat.arrAt 3 0 = V main_arg1 from hA 3, show dat.arrAt 4 0 = V main_arg0 from hA 4, show dat.arrAt 5 0 = V main_v6 from hA 5]
  iintro ⟨⟨H0, H1, H3, H4, H5⟩, Hrest⟩
  ihave H := (pointsTo_share (PosShare.mem_left_op_right fullShare)).1 $$ H0
  icases H with ⟨HL, HR⟩
  isplitr [Hrest]
  · isplitl [HL]; · iexact HL
    isplitl [H1]; · iexact H1
    isplitl [HR]; · iexact HR
    isplitl [H3]; · iexact H3
    isplitl [H4]; · iexact H4
    iexact H5
  iexact Hrest

/-- EXIT. The pipeline's arrays at what its write-backs leave — every input as entered, the two halves of the shared
    array recombined — beside the bypassing buffers at `V` are the core's unscoped buffers whole at any `V'` that has the
    output's array at what the pipeline leaves there and agrees with `V` elsewhere. -/
theorem unscopedBufs_of_arrays1 {c : Dev nD} (dat : Dat τ (Elt F) Unit ℕ (UR sig nD τ) ℕ cfg1 c) (hq : dat.q = qAttn)
    (V V' : (b : Ref sig .tc) → Buf (Elt F) ((c : Thread nD τ).loc b)) (hA : ∀ w, dat.A w = V (Pipeline.arrRef spec1 w))
    (hF : dat.arrAt 5 cfg1.N = V' main_v6) (hrest : ∀ b : Ref sig .tc, b ≠ main_v6 → V' b = V b) :
    iprop(dat.arrays (dat.arrAt · cfg1.N) ∗ Pipeline.unscopedRest spec1 c V) ⊢ (unscopedBufs c V' : sProp 𝕄) := by
  have hR : (Pipeline.unscopedRest (Ix := Unit) (Name := ℕ) (U := UR sig nD τ) (Lvl := ℕ) spec1 c V' : sProp 𝕄)
      = Pipeline.unscopedRest spec1 c V := by
    unfold Pipeline.unscopedRest
    exact bigSep_congr fun b hb => by
      rw [hrest b fun h => (Finset.mem_sdiff.mp hb).2 (h ▸ Finset.mem_image.mpr ⟨5, Finset.mem_univ _, rfl⟩)]
  have hsplit : (unscopedBufs c V' : sProp 𝕄) = iprop(Pipeline.arrBufs spec1 c V' ∗ Pipeline.unscopedRest spec1 c V') :=
    Pipeline.unscopedBufs_split₀ cfgs (1 : Fin 4) winFacts₀1.arr_unscoped c V'
  rw [hsplit, arrBufs1_eq, arrays1_eq dat hq, hR]
  beta_reduce
  rw [show dat.arrAt 0 cfg1.N = V' main_v5_0 from ((dat.arrAt_in 0 rfl _).trans (hA 0)).trans (hrest main_v5_0 (by decide)).symm,
    show dat.arrAt 1 cfg1.N = V' main_v5_1 from ((dat.arrAt_in 1 rfl _).trans (hA 1)).trans (hrest main_v5_1 (by decide)).symm,
    show dat.arrAt 2 cfg1.N = V' main_v5_0 from ((dat.arrAt_in 2 rfl _).trans (hA 2)).trans (hrest main_v5_0 (by decide)).symm,
    show dat.arrAt 3 cfg1.N = V' main_arg1 from ((dat.arrAt_in 3 rfl _).trans (hA 3)).trans (hrest main_arg1 (by decide)).symm,
    show dat.arrAt 4 cfg1.N = V' main_arg0 from ((dat.arrAt_in 4 rfl _).trans (hA 4)).trans (hrest main_arg0 (by decide)).symm,
    hF]
  iintro ⟨⟨HL, H1, HR, H3, H4, H5⟩, Hrest⟩
  ihave H0 := (pointsTo_share (PosShare.mem_left_op_right fullShare)).2 $$ [HL HR]
  · isplitl [HL]; · iexact HL
    iexact HR
  isplitr [Hrest]
  · isplitl [H0]; · iexact H0
    isplitl [H1]; · iexact H1
    isplitl [H3]; · iexact H3
    isplitl [H4]; · iexact H4
    iexact H5
  iexact Hrest

/-! # The layer-1 attention call (pipeline 3): windows 0 and 2 on `main_v11_0` -/

/-- The distinct buffers behind the call's six windows, one by one. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v11_0) ↦{fullShare} V main_v11_0) ∗ (((c : Thread nD τ).loc main_v11_1) ↦{fullShare} V main_v11_1)
          ∗ (((c : Thread nD τ).loc main_arg1) ↦{fullShare} V main_arg1) ∗ (((c : Thread nD τ).loc main_v6) ↦{fullShare} V main_v6)
          ∗ (((c : Thread nD τ).loc main_v12) ↦{fullShare} V main_v12)) := by
  unfold Pipeline.arrBufs
  rw [BI.bigSep_eq_bigSepL_of_eq [main_v11_0, main_v11_1, main_arg1, main_v6, main_v12] (by decide) (by decide)]; rfl

/-- The share each window holds its array at: the output's the full share, an input's the proof data's. -/
theorem share3 {c : Dev nD} (dat : Dat τ (Elt F) Unit ℕ (UR sig nD τ) ℕ cfg3 c) (hq : dat.q = qAttn) (w : Fin cfg3.W) :
    dat.share w = if w = 5 then fullShare else qAttn w := by
  unfold Dat.share; rw [hq]
  revert w; decide

/-- The pipeline's arrays, window by window: the shared array's two halves with windows 0 and 2, the others whole. -/
theorem arrays3_eq {c : Dev nD} (dat : Dat τ (Elt F) Unit ℕ (UR sig nD τ) ℕ cfg3 c) (hq : dat.q = qAttn)
    (G : (w : Fin cfg3.W) → Buf (Elt F) ((cfg3.win w).arr.view.loc (c : Thread nD τ))) :
    (dat.arrays G : sProp 𝕄)
      = iprop((((c : Thread nD τ).loc main_v11_0) ↦{fullShare.left} G 0) ∗ (((c : Thread nD τ).loc main_v11_1) ↦{fullShare} G 1)
          ∗ (((c : Thread nD τ).loc main_v11_0) ↦{fullShare.right} G 2) ∗ (((c : Thread nD τ).loc main_arg1) ↦{fullShare} G 3)
          ∗ (((c : Thread nD τ).loc main_v6) ↦{fullShare} G 4) ∗ (((c : Thread nD τ).loc main_v12) ↦{fullShare} G 5)) := by
  unfold Dat.arrays
  rw [bigSep_W3]
  simp only [(arr_whole3 0).set_eq_univ, (arr_whole3 1).set_eq_univ, (arr_whole3 2).set_eq_univ, (arr_whole3 3).set_eq_univ,
    (arr_whole3 4).set_eq_univ, (arr_whole3 5).set_eq_univ]
  rw [share3 dat hq 0, share3 dat hq 1, share3 dat hq 2, share3 dat hq 3, share3 dat hq 4, share3 dat hq 5]
  rfl

/-- ENTRY. The core's unscoped buffers whole at `V` are the pipeline's arrays at the proof data's entry contents — these
    read off `V` — beside the unscoped buffers that are no window's array: the shared array's full share splits into
    its left half, for window 0, and its right half, for window 2. -/
theorem arrays_of_unscopedBufs3 {c : Dev nD} (dat : Dat τ (Elt F) Unit ℕ (UR sig nD τ) ℕ cfg3 c) (hq : dat.q = qAttn)
    (V : (b : Ref sig .tc) → Buf (Elt F) ((c : Thread nD τ).loc b)) (hA : ∀ w, dat.A w = V (Pipeline.arrRef spec3 w)) :
    (unscopedBufs c V : sProp 𝕄) ⊢ iprop(dat.arrays (dat.arrAt · 0) ∗ Pipeline.unscopedRest spec3 c V) := by
  have hsplit : (unscopedBufs c V : sProp 𝕄) = iprop(Pipeline.arrBufs spec3 c V ∗ Pipeline.unscopedRest spec3 c V) :=
    Pipeline.unscopedBufs_split₀ cfgs (3 : Fin 4) winFacts₀3.arr_unscoped c V
  rw [hsplit, arrBufs3_eq, arrays3_eq dat hq]
  beta_reduce
  rw [show dat.arrAt 0 0 = V main_v11_0 from hA 0, show dat.arrAt 1 0 = V main_v11_1 from hA 1, show dat.arrAt 2 0 = V main_v11_0 from hA 2,
    show dat.arrAt 3 0 = V main_arg1 from hA 3, show dat.arrAt 4 0 = V main_v6 from hA 4, show dat.arrAt 5 0 = V main_v12 from hA 5]
  iintro ⟨⟨H0, H1, H3, H4, H5⟩, Hrest⟩
  ihave H := (pointsTo_share (PosShare.mem_left_op_right fullShare)).1 $$ H0
  icases H with ⟨HL, HR⟩
  isplitr [Hrest]
  · isplitl [HL]; · iexact HL
    isplitl [H1]; · iexact H1
    isplitl [HR]; · iexact HR
    isplitl [H3]; · iexact H3
    isplitl [H4]; · iexact H4
    iexact H5
  iexact Hrest

/-- EXIT. The pipeline's arrays at what its write-backs leave — every input as entered, the two halves of the shared
    array recombined — beside the bypassing buffers at `V` are the core's unscoped buffers whole at any `V'` that has the
    output's array at what the pipeline leaves there and agrees with `V` elsewhere. -/
theorem unscopedBufs_of_arrays3 {c : Dev nD} (dat : Dat τ (Elt F) Unit ℕ (UR sig nD τ) ℕ cfg3 c) (hq : dat.q = qAttn)
    (V V' : (b : Ref sig .tc) → Buf (Elt F) ((c : Thread nD τ).loc b)) (hA : ∀ w, dat.A w = V (Pipeline.arrRef spec3 w))
    (hF : dat.arrAt 5 cfg3.N = V' main_v12) (hrest : ∀ b : Ref sig .tc, b ≠ main_v12 → V' b = V b) :
    iprop(dat.arrays (dat.arrAt · cfg3.N) ∗ Pipeline.unscopedRest spec3 c V) ⊢ (unscopedBufs c V' : sProp 𝕄) := by
  have hR : (Pipeline.unscopedRest (Ix := Unit) (Name := ℕ) (U := UR sig nD τ) (Lvl := ℕ) spec3 c V' : sProp 𝕄)
      = Pipeline.unscopedRest spec3 c V := by
    unfold Pipeline.unscopedRest
    exact bigSep_congr fun b hb => by
      rw [hrest b fun h => (Finset.mem_sdiff.mp hb).2 (h ▸ Finset.mem_image.mpr ⟨5, Finset.mem_univ _, rfl⟩)]
  have hsplit : (unscopedBufs c V' : sProp 𝕄) = iprop(Pipeline.arrBufs spec3 c V' ∗ Pipeline.unscopedRest spec3 c V') :=
    Pipeline.unscopedBufs_split₀ cfgs (3 : Fin 4) winFacts₀3.arr_unscoped c V'
  rw [hsplit, arrBufs3_eq, arrays3_eq dat hq, hR]
  beta_reduce
  rw [show dat.arrAt 0 cfg3.N = V' main_v11_0 from ((dat.arrAt_in 0 rfl _).trans (hA 0)).trans (hrest main_v11_0 (by decide)).symm,
    show dat.arrAt 1 cfg3.N = V' main_v11_1 from ((dat.arrAt_in 1 rfl _).trans (hA 1)).trans (hrest main_v11_1 (by decide)).symm,
    show dat.arrAt 2 cfg3.N = V' main_v11_0 from ((dat.arrAt_in 2 rfl _).trans (hA 2)).trans (hrest main_v11_0 (by decide)).symm,
    show dat.arrAt 3 cfg3.N = V' main_arg1 from ((dat.arrAt_in 3 rfl _).trans (hA 3)).trans (hrest main_arg1 (by decide)).symm,
    show dat.arrAt 4 cfg3.N = V' main_v6 from ((dat.arrAt_in 4 rfl _).trans (hA 4)).trans (hrest main_v6 (by decide)).symm,
    hF]
  iintro ⟨⟨HL, H1, HR, H3, H4, H5⟩, Hrest⟩
  ihave H0 := (pointsTo_share (PosShare.mem_left_op_right fullShare)).2 $$ [HL HR]
  · isplitl [HL]; · iexact HL
    iexact HR
  isplitr [Hrest]
  · isplitl [H0]; · iexact H0
    isplitl [H1]; · iexact H1
    isplitl [H3]; · iexact H3
    isplitl [H4]; · iexact H4
    iexact H5
  iexact Hrest

end Cert.Kernel.Attn

end
-- ==== Proof.RunK.lean ====
/-
  The run of @main through its four kernel calls.

  Between two items of @main a core holds every unscoped buffer whole at a known valuation: the launch memory, then
  what the first host stretch computes from it, then each call's arrays at what its pipeline's write-backs leave and
  every other buffer untouched, and so on to the return. Each call is entered by splitting its windows' arrays out of
  that state and left by putting them back at the next valuation; the attention calls, whose windows 0 and 2 read one
  array, split and rejoin that array along its share. The last valuation, read against a final memory, gives the
  result buffer as the last call's pipeline leaves it and the three arguments as launched.
-/
import proofs.«100610_j61478161875059_2_alg».proof.Proof.ProjDataK
import proofs.«100610_j61478161875059_2_alg».proof.Proof.SharedArraysK
import proofs.«100610_j61478161875059_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Proj Cert.Kernel.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers as a call's proof data take them: one buffer per TensorCore reference. -/
abbrev Vals (F : FTy → Type) : Type := (c : Dev nD) → (b : Ref sig .tc) → Buf (Elt F) ((c : Thread nD τ).loc b)

/-- What the run needs of the layer-0 attention call: its proof data over any entry contents, reading its arrays
    off them, holding the shared array's halves, owing nothing, over the class invariant, with the body's obligation. -/
structure AttnData1 (F : FTy → Type) [FloatOps F] where
  dat : Vals F → (c : Dev nD) → Dat τ (Elt F) Unit ℕ (UR sig nD τ) ℕ cfg1 c
  A_eq : ∀ V c w, (dat V c).A w = V c (Pipeline.arrRef spec1 w)
  q_eq : ∀ V c, (dat V c).q = qAttn
  owed : ∀ V c t, (dat V c).owed t = 0
  hin : ∀ V c, Pipeline.ΦA spec1 c ⊢ (dat V c).Φ 0
  hout : ∀ V c, (dat V c).Φ (Fin.last cfg1.N) ⊢ Pipeline.ΦA spec1 c
  body_obligation : ∀ V c, BodyObligation (dat V c) (defs₀ (F := F)) Variants.none () Set.univ
  recorded : ∀ V c, (dat V c).recorded 0 = Set.univ

/-- The same of the layer-1 attention call. -/
structure AttnData3 (F : FTy → Type) [FloatOps F] where
  dat : Vals F → (c : Dev nD) → Dat τ (Elt F) Unit ℕ (UR sig nD τ) ℕ cfg3 c
  A_eq : ∀ V c w, (dat V c).A w = V c (Pipeline.arrRef spec3 w)
  q_eq : ∀ V c, (dat V c).q = qAttn
  owed : ∀ V c t, (dat V c).owed t = 0
  hin : ∀ V c, Pipeline.ΦA spec3 c ⊢ (dat V c).Φ 0
  hout : ∀ V c, (dat V c).Φ (Fin.last cfg3.N) ⊢ Pipeline.ΦA spec3 c
  body_obligation : ∀ V c, BodyObligation (dat V c) (defs₀ (F := F)) Variants.none () Set.univ
  recorded : ∀ V c, (dat V c).recorded 0 = Set.univ

variable (D1 : AttnData1 F) (D3 : AttnData3 F)
variable (m : (ℓ : Loc nD τ sig) → Buf (Elt F) ℓ)

/-! ## The buffers' contents between items -/

/-- Core `c`'s buffers at launch. -/
abbrev W0 (c : Dev nD) : Valuation τ sig (Elt F) := fun b => m (c, b)
abbrev V0 : Vals F := fun c b => W0 m c b
/-- After the first host stretch. -/
abbrev W1 (c : Dev nD) : Valuation τ sig (Elt F) := StableHlo.after hostOps0 (W0 m c)
abbrev V1 : Vals F := fun c b => W1 m c b
/-- After the layer-0 projection: its arrays at what the pipeline leaves, every other buffer as entered. -/
def W2 (c : Dev nD) : Valuation τ sig (Elt F) :=
  Pipeline.withArrays spec0 c (W1 m c) fun w => (dat0 (V1 m) c).arrAt w cfg0.N
abbrev V2 : Vals F := fun c b => W2 m c b
/-- After the layer-0 attention call: its output's array at what the pipeline leaves, every other buffer as entered. -/
def W3 (c : Dev nD) : Valuation τ sig (Elt F) :=
  Function.update (W2 m c) main_v6 ((D1.dat (V2 m) c).arrAt 5 cfg1.N : Buf (Elt F) ((c : Thread nD τ).loc main_v6))
abbrev V3 : Vals F := fun c b => W3 D1 m c b
/-- After the second host stretch. -/
abbrev W4 (c : Dev nD) : Valuation τ sig (Elt F) := StableHlo.after hostOps2 (W3 D1 m c)
abbrev V4 : Vals F := fun c b => W4 D1 m c b
/-- After the layer-1 projection. -/
def W5 (c : Dev nD) : Valuation τ sig (Elt F) :=
  Pipeline.withArrays spec2 c (W4 D1 m c) fun w => (dat2 (V4 D1 m) c).arrAt w cfg2.N
abbrev V5 : Vals F := fun c b => W5 D1 m c b
/-- After the layer-1 attention call: the return. -/
def W6 (c : Dev nD) : Valuation τ sig (Elt F) :=
  Function.update (W5 D1 m c) main_v12 ((D3.dat (V5 D1 m) c).arrAt 5 cfg3.N : Buf (Elt F) ((c : Thread nD τ).loc main_v12))
abbrev V6 : Vals F := fun c b => W6 D1 D3 m c b

/-! ### What each item changes and what it leaves -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_main_v6 (c : Dev nD) : W3 D1 m c (Proc.devRef .tc main_v6) = (D1.dat (V2 m) c).arrAt 5 cfg1.N := by
  unfold W3; exact Function.update_self ..
theorem W3_of_ne (c : Dev nD) (b : Ref sig .tc) (hb : b ≠ main_v6) : W3 D1 m c (Proc.devRef .tc b) = W2 m c (Proc.devRef .tc b) := by
  unfold W3; exact Function.update_of_ne (StableHlo.devRef_ne_of_ne hb) ..
theorem W4_of (c : Dev nD) (r : Ref sig .tc) (h : r ∉ hostOps2_W) : W4 D1 m c (Proc.devRef .tc r) = W3 D1 m c (Proc.devRef .tc r) :=
  StableHlo.after_of_writes_sub hostOps2 _ hostOps2_writes h
theorem W5_arr (c : Dev nD) (w : Fin cfg2.W) :
    W5 D1 m c (Proc.devRef .tc (Pipeline.arrRef spec2 w)) = (dat2 (V4 D1 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 D1 m c (Proc.devRef .tc b) = W4 D1 m c (Proc.devRef .tc b) := by
  unfold W5; exact Pipeline.withArrays_of_ne spec2 c _ _ b hb
theorem W6_main_v12 (c : Dev nD) : W6 D1 D3 m c (Proc.devRef .tc main_v12) = (D3.dat (V5 D1 m) c).arrAt 5 cfg3.N := by
  unfold W6; exact Function.update_self ..
theorem W6_of_ne (c : Dev nD) (b : Ref sig .tc) (hb : b ≠ main_v12) : W6 D1 D3 m c (Proc.devRef .tc b) = W5 D1 m c (Proc.devRef .tc b) := by
  unfold W6; exact Function.update_of_ne (StableHlo.devRef_ne_of_ne hb) ..

/-- At a projection's exit each of its arrays holds what the pipeline leaves and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin cfg2.W) : (dat2 (V4 D1 m) c).arrAt w cfg2.N = V5 D1 m c (Pipeline.arrRef spec2 w) :=
  (W5_arr D1 m c w).symm
theorem hrest2 (c : Dev nD) : ∀ b, b ∉ Finset.univ.image (Pipeline.arrRef spec2) → V5 D1 m c b = V4 D1 m c b :=
  fun b hb => W5_of_ne D1 m c b fun w e => hb (Finset.mem_image.mpr ⟨w, Finset.mem_univ _, e⟩)

/-! ### What each call finds in its arrays -/

/-- The layer-0 projection reads the argument `main_arg0` as launched and the two weight halves the first host stretch
    cuts out. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)
theorem V1_main_arg2 (c : Dev nD) : V1 m c main_arg2 = m ((c : Thread nD τ).loc main_arg2) := W1_of m c main_arg2 (by decide)
/-- The layer-0 attention call reads the projection's two outputs, and the arguments as launched. -/
theorem V2_main_v5_0 (c : Dev nD) : V2 m c main_v5_0 = (dat0 (V1 m) c).arrAt 3 cfg0.N := W2_arr m c 3
theorem V2_main_v5_1 (c : Dev nD) : V2 m c main_v5_1 = (dat0 (V1 m) c).arrAt 4 cfg0.N := W2_arr m c 4
theorem V2_main_arg0 (c : Dev nD) : V2 m c main_arg0 = m ((c : Thread nD τ).loc main_arg0) :=
  (W2_arr m c 0).trans (((dat0 (V1 m) c).arrAt_in 0 rfl _).trans ((A_eq0 (V1 m) c 0).trans (V1_main_arg0 m c)))
theorem V2_main_arg1 (c : Dev nD) : V2 m c main_arg1 = m ((c : Thread nD τ).loc main_arg1) :=
  (W2_of_ne m c main_arg1 (by decide)).trans (V1_main_arg1 m c)
theorem V2_main_arg2 (c : Dev nD) : V2 m c main_arg2 = m ((c : Thread nD τ).loc main_arg2) :=
  (W2_of_ne m c main_arg2 (by decide)).trans (V1_main_arg2 m c)
theorem V2_main_v0 (c : Dev nD) : V2 m c main_v0 = V1 m c main_v0 := W2_of_ne m c main_v0 (by decide)
/-- After the layer-0 attention call: its output, and everything else as before it. -/
theorem V3_main_v6 (c : Dev nD) : V3 D1 m c main_v6 = (D1.dat (V2 m) c).arrAt 5 cfg1.N := W3_main_v6 D1 m c
theorem V3_main_arg0 (c : Dev nD) : V3 D1 m c main_arg0 = m ((c : Thread nD τ).loc main_arg0) :=
  (W3_of_ne D1 m c main_arg0 (by decide)).trans (V2_main_arg0 m c)
theorem V3_main_arg1 (c : Dev nD) : V3 D1 m c main_arg1 = m ((c : Thread nD τ).loc main_arg1) :=
  (W3_of_ne D1 m c main_arg1 (by decide)).trans (V2_main_arg1 m c)
theorem V3_main_arg2 (c : Dev nD) : V3 D1 m c main_arg2 = m ((c : Thread nD τ).loc main_arg2) :=
  (W3_of_ne D1 m c main_arg2 (by decide)).trans (V2_main_arg2 m c)
theorem V3_main_v0 (c : Dev nD) : V3 D1 m c main_v0 = V1 m c main_v0 :=
  (W3_of_ne D1 m c main_v0 (by decide)).trans (V2_main_v0 m c)
/-- The layer-1 projection reads the first attention call's output and the two weight halves the second host stretch
    cuts out. -/
theorem V4_main_v6 (c : Dev nD) : V4 D1 m c main_v6 = (D1.dat (V2 m) c).arrAt 5 cfg1.N :=
  (W4_of D1 m c main_v6 (by decide)).trans (V3_main_v6 D1 m c)
theorem V4_main_arg0 (c : Dev nD) : V4 D1 m c main_arg0 = m ((c : Thread nD τ).loc main_arg0) :=
  (W4_of D1 m c main_arg0 (by decide)).trans (V3_main_arg0 D1 m c)
theorem V4_main_arg1 (c : Dev nD) : V4 D1 m c main_arg1 = m ((c : Thread nD τ).loc main_arg1) :=
  (W4_of D1 m c main_arg1 (by decide)).trans (V3_main_arg1 D1 m c)
theorem V4_main_arg2 (c : Dev nD) : V4 D1 m c main_arg2 = m ((c : Thread nD τ).loc main_arg2) :=
  (W4_of D1 m c main_arg2 (by decide)).trans (V3_main_arg2 D1 m c)
/-- The layer-1 attention call reads the layer-1 projection's two outputs, the adjacency as launched and the first
    attention call's output. -/
theorem V5_main_v11_0 (c : Dev nD) : V5 D1 m c main_v11_0 = (dat2 (V4 D1 m) c).arrAt 3 cfg2.N := W5_arr D1 m c 3
theorem V5_main_v11_1 (c : Dev nD) : V5 D1 m c main_v11_1 = (dat2 (V4 D1 m) c).arrAt 4 cfg2.N := W5_arr D1 m c 4
theorem V5_main_v6 (c : Dev nD) : V5 D1 m c main_v6 = (D1.dat (V2 m) c).arrAt 5 cfg1.N :=
  (W5_arr D1 m c 0).trans (((dat2 (V4 D1 m) c).arrAt_in 0 rfl _).trans ((A_eq2 (V4 D1 m) c 0).trans (V4_main_v6 D1 m c)))
theorem V5_main_arg0 (c : Dev nD) : V5 D1 m c main_arg0 = m ((c : Thread nD τ).loc main_arg0) :=
  (W5_of_ne D1 m c main_arg0 (by decide)).trans (V4_main_arg0 D1 m c)
theorem V5_main_arg1 (c : Dev nD) : V5 D1 m c main_arg1 = m ((c : Thread nD τ).loc main_arg1) :=
  (W5_of_ne D1 m c main_arg1 (by decide)).trans (V4_main_arg1 D1 m c)
theorem V5_main_arg2 (c : Dev nD) : V5 D1 m c main_arg2 = m ((c : Thread nD τ).loc main_arg2) :=
  (W5_of_ne D1 m c main_arg2 (by decide)).trans (V4_main_arg2 D1 m c)
/-- At the return: the result, and the arguments as launched. -/
theorem W6_main_arg0 (c : Dev nD) : W6 D1 D3 m c (Proc.devRef .tc main_arg0) = m ((c : Thread nD τ).loc main_arg0) :=
  (W6_of_ne D1 D3 m c main_arg0 (by decide)).trans (V5_main_arg0 D1 m c)
theorem W6_main_arg1 (c : Dev nD) : W6 D1 D3 m c (Proc.devRef .tc main_arg1) = m ((c : Thread nD τ).loc main_arg1) :=
  (W6_of_ne D1 D3 m c main_arg1 (by decide)).trans (V5_main_arg1 D1 m c)
theorem W6_main_arg2 (c : Dev nD) : W6 D1 D3 m c (Proc.devRef .tc main_arg2) = m ((c : Thread nD τ).loc main_arg2) :=
  (W6_of_ne D1 D3 m c main_arg2 (by decide)).trans (V5_main_arg2 D1 m c)

/-! ## The proof data family and the thread state -/

/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => D1.dat (V2 m) c
  | ⟨2, _⟩ => fun c => dat2 (V4 D1 m) c
  | ⟨3, _⟩ => fun c => D3.dat (V5 D1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W6 D1 D3 m c) ∗ ∃ r, prngReg c r)

/-! ## The calls as segments -/

-- a library lemma stated over `pin pcs a p` unifies with the pinned configuration only when unification may unfold
-- plain definitions in a metavariable's type
set_option backward.isDefEq.respectTransparency.types false in
/-- The layer-0 projection over the thread state: its five arrays (distinct buffers) split out of the unscoped
    buffers at entry and put back at the exit contents; the generator register into the class invariant and out. -/
def reg0 : Pipeline.RegionSeg (pcfgs (F := F)) adm (pdats D1 D3 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats D1 D3 m) launch0.win launch0.arr_whole c
      ((pdats D1 D3 m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D1 D3 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D1 D3 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D1 D3 m) ((pdats D1 D3 m 0 c).share_full fun _ => rfl)
      (V1 m c) (V2 m c) ((pdats D1 D3 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- The layer-0 attention call over the thread state: at entry the array its windows 0 and 2 share splits into
    its two half shares, the other four arrays whole; at exit the halves recombine and the output's array holds what
    the pipeline leaves; the generator register into the invariant and out. -/
def reg1 : Pipeline.RegionSeg (pcfgs (F := F)) adm (pdats D1 D3 m) () defs₀ 𝒱₀ L lv 1 where
  win := winFacts₀1
  block_pos := block_pos1
  stage_whole := stage_whole1
  K := PEmpty
  osem k := k.elim
  ho := Pipeline.OwnSemFacts.none _
  hbody c := (D1.body_obligation (V2 m) c).loose
  hwaits := Pipeline.hwaits_of_owed_zero _ _ _ _ L lv 1 fun c t => D1.owed (V2 m) c t
  pre c := iprop(StableHlo.held (c : Thread nD τ) (Pipeline.ucRefs τ sig) (W2 m c) ∗ R c)
  post c := iprop(StableHlo.held (c : Thread nD τ) (Pipeline.ucRefs τ sig) (W3 D1 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs1 (pdats D1 D3 m 1 c) (D1.q_eq (V2 m) c) (V2 m c) (D1.A_eq (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D1 D3 m 1 c).owed 0 = 0 from D1.owed (V2 m) c 0]
      have hrec : (pdats D1 D3 m 1 c).recorded 0 = Set.univ := D1.recorded (V2 m) c
      icases HO with ⟨%W, HO⟩; iexists W; isplitr
      · ipureintro; exact fun x _ => Set.mem_union_left _ (show x ∈ (pdats D1 D3 m 1 c).recorded 0 from hrec ▸ Set.mem_univ x)
      iexact HO
    isplitl [Hp]; · iexact Hp
    iexact Hrest
  hin c := by
    refine BIBase.Entails.trans ?_ (D1.hin (V2 m) c); unfold Pipeline.ΦA
    iintro ⟨Hp, -, Hr⟩
    isplitl [Hr]; · iexact Hr
    iexact Hp
  hout c := by
    rw [Pipeline.ownSems0_none]
    refine BIBase.Entails.trans (D1.hout (V2 m) c) ?_; unfold Pipeline.ΦA
    iintro ⟨Hr, Hp⟩
    isplitl [Hp]; · iexact Hp
    isplitr; · iempintro
    iexact Hr
  hexit c := by
    have hjoin := unscopedBufs_of_arrays1 (pdats D1 D3 m 1 c) (D1.q_eq (V2 m) c) (V2 m c) (V3 D1 m c) (D1.A_eq (V2 m) c)
      (W3_main_v6 D1 m c).symm (fun b hb => W3_of_ne D1 m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats D1 D3 m 1 c).owed (Fin.last _) = 0 from D1.owed (V2 m) c _]
    icases HO with ⟨%W, -, HO⟩; iexists W; iexact HO

-- a library lemma stated over `pin pcs a p` unifies with the pinned configuration only when unification may unfold
-- plain definitions in a metavariable's type
set_option backward.isDefEq.respectTransparency.types false in
/-- The layer-1 projection over the thread state: its five arrays (distinct buffers) split out of the unscoped
    buffers at entry and put back at the exit contents; the generator register into the class invariant and out. -/
def reg2 : Pipeline.RegionSeg (pcfgs (F := F)) adm (pdats D1 D3 m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 D1 m) c).loose
  hwaits := Pipeline.hwaits_of_owed_zero _ _ _ _ L lv 2 fun _ _ => rfl
  pre c := iprop(StableHlo.held (c : Thread nD τ) (Pipeline.ucRefs τ sig) (W4 D1 m c) ∗ R c)
  post c := iprop(StableHlo.held (c : Thread nD τ) (Pipeline.ucRefs τ sig) (W5 D1 m c) ∗ R c)
  X c := iprop(∃ r, prngReg c r)
  Y c := iprop(∃ r, prngReg c r)
  Z c := Pipeline.unscopedRest (Ix := Unit) (Name := ℕ) (U := UR sig nD τ) (Lvl := ℕ) spec2 c (V4 D1 m c)
  hentry c := by
    rw [Pipeline.ownSems0_none]
    have hsplit := Pipeline.arrays_of_unscopedBufs (p := 2) (pcfgs (F := F)) adm (pdats D1 D3 m) launch2.win launch2.arr_whole c
      ((pdats D1 D3 m 2 c).share_full fun _ => rfl) (V4 D1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D1 D3 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats D1 D3 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D1 D3 m) ((pdats D1 D3 m 2 c).share_full fun _ => rfl)
      (V4 D1 m c) (V5 D1 m c) ((pdats D1 D3 m 2 c).arrAt · cfg2.N) (hF2 D1 m c) (hrest2 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- The layer-1 attention call over the thread state: at entry the array its windows 0 and 2 share splits into
    its two half shares, the other four arrays whole; at exit the halves recombine and the output's array holds what
    the pipeline leaves; the generator register into the invariant and out. -/
def reg3 : Pipeline.RegionSeg (pcfgs (F := F)) adm (pdats D1 D3 m) () defs₀ 𝒱₀ L lv 3 where
  win := winFacts₀3
  block_pos := block_pos3
  stage_whole := stage_whole3
  K := PEmpty
  osem k := k.elim
  ho := Pipeline.OwnSemFacts.none _
  hbody c := (D3.body_obligation (V5 D1 m) c).loose
  hwaits := Pipeline.hwaits_of_owed_zero _ _ _ _ L lv 3 fun c t => D3.owed (V5 D1 m) c t
  pre c := iprop(StableHlo.held (c : Thread nD τ) (Pipeline.ucRefs τ sig) (W5 D1 m c) ∗ R c)
  post c := iprop(Tₙ D1 D3 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 D1 m c)
  hentry c := by
    rw [Pipeline.ownSems0_none]
    have hsplit := arrays_of_unscopedBufs3 (pdats D1 D3 m 3 c) (D3.q_eq (V5 D1 m) c) (V5 D1 m c) (D3.A_eq (V5 D1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D1 D3 m 3 c).owed 0 = 0 from D3.owed (V5 D1 m) c 0]
      have hrec : (pdats D1 D3 m 3 c).recorded 0 = Set.univ := D3.recorded (V5 D1 m) c
      icases HO with ⟨%W, HO⟩; iexists W; isplitr
      · ipureintro; exact fun x _ => Set.mem_union_left _ (show x ∈ (pdats D1 D3 m 3 c).recorded 0 from hrec ▸ Set.mem_univ x)
      iexact HO
    isplitl [Hp]; · iexact Hp
    iexact Hrest
  hin c := by
    refine BIBase.Entails.trans ?_ (D3.hin (V5 D1 m) c); unfold Pipeline.ΦA
    iintro ⟨Hp, -, Hr⟩
    isplitl [Hr]; · iexact Hr
    iexact Hp
  hout c := by
    rw [Pipeline.ownSems0_none]
    refine BIBase.Entails.trans (D3.hout (V5 D1 m) c) ?_; unfold Pipeline.ΦA
    iintro ⟨Hr, Hp⟩
    isplitl [Hp]; · iexact Hp
    isplitr; · iempintro
    iexact Hr
  hexit c := by
    have hjoin := unscopedBufs_of_arrays3 (pdats D1 D3 m 3 c) (D3.q_eq (V5 D1 m) c) (V5 D1 m c) (V6 D1 D3 m c) (D3.A_eq (V5 D1 m) c)
      (W6_main_v12 D1 D3 m c).symm (fun b hb => W6_of_ne D1 D3 m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats D1 D3 m 3 c).owed (Fin.last _) = 0 from D3.owed (V5 D1 m) c _]
    icases HO with ⟨%W, -, HO⟩; iexists W; iexact HO

/-! ## @main as segments, and the launch -/

/-- @main's six items in order. -/
abbrev segs : List (Pipeline.Seg (pcfgs (F := F)) adm (pdats D1 D3 m) () defs₀ 𝒱₀ L lv) :=
  [ .host (hseg hostOps0 hostOps0_sub hostOps0_fresh (W0 m)),
    .region (reg0 D1 D3 m),
    .region (reg1 D1 D3 m),
    .host (hseg hostOps2 hostOps2_sub hostOps2_fresh (W3 D1 m)),
    .region (reg2 D1 D3 m),
    .region (reg3 D1 D3 m) ]
/-- @main is the run of the segments. -/
theorem main_run (c : Dev nD) : main (F := F) c = Pipeline.Seg.run (segs D1 D3 m) := (main_chain c).trans (by chain_rfl)

-- the launch theorem's implicit arguments are found by unifying its conclusion with this one, which takes unfolding plain
-- definitions in a metavariable's type
set_option backward.isDefEq.respectTransparency.types false in
/-- THE RUN. From any memory with zero counters, every weakly fair execution of @main on the TensorCores terminates,
    and every final memory has the result buffer at the last valuation's contents — what the layer-1 attention call's
    pipeline leaves in it — and each argument as launched. -/
theorem run_main (ρ : Dev nD → PrngReg) : θ_run defs (onTc (τ := τ) (main (F := F))) ⟨m, fun _ => 0, ρ⟩ (fun r => ∀ c : Dev nD,
      r.2.mem ((c.tc : Thread nD τ).loc main_v12) = W6 D1 D3 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats D1 D3 m) () cellOf_inj emb₁ defs₀ 𝒱₀ L lv m ρ main (segs D1 D3 m)
    (fun c Q => by rw [main_run D1 D3 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D1 D3 m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 D1 D3 m c b)
    (hfin := fun c s' => by
      iintro ⟨⟨Hh, -⟩, HSI⟩
      unfold StableHlo.held
      imodintro
      iapply (pointsTo_read_all (Pipeline.ucRefs τ sig) (fun b => (((c : Thread nD τ)).1, b)) (W6 D1 D3 m c) s')
      isplitl [Hh] <;> iassumption)
    (hQ := fun s h c =>
      ⟨h c _ (mem_uc main_v12 (by decide)),
       (h c _ (mem_uc main_arg0 (by decide))).trans (W6_main_arg0 D1 D3 m c),
       (h c _ (mem_uc main_arg1 (by decide))).trans (W6_main_arg1 D1 D3 m c),
       (h c _ (mem_uc main_arg2 (by decide))).trans (W6_main_arg2 D1 D3 m c)⟩)

/-! ### The weights the projections read: the host stretches' slices, in closed form -/

/-- The weight stack rounded to bf16. -/
theorem V1_main_v0_eq (c : Dev nD) :
    V1 m c main_v0 = truncf .bf16 (m ((c : Thread nD τ).loc main_arg2)) bitsLt_bf16_f32 := by
  show StableHlo.after hostOps0 (W0 m c) (Proc.devRef .tc main_v0) = _
  after_results
/-- Layer 0 of it, as a 512×1024 matrix. -/
theorem V1_main_v2_eq (c : Dev nD) :
    V1 m c main_v2 = shapeCast S512x1024 (extractStridedSlice S1x512x1024 ![0, 0, 0] (V1 m c main_v0) slices_S2x512x1024_S1x512x1024_0_0_0)
      shapeCasts_S1x512x1024_S512x1024 := by
  show StableHlo.after hostOps0 (W0 m c) (Proc.devRef .tc main_v2)
    = shapeCast S512x1024 (extractStridedSlice S1x512x1024 ![0, 0, 0] (StableHlo.after hostOps0 (W0 m c) (Proc.devRef .tc main_v0)) slices_S2x512x1024_S1x512x1024_0_0_0)
      shapeCasts_S1x512x1024_S512x1024
  after_results
  rfl
/-- Its left half (columns 0..511) and its right half (columns 512..1023): the layer-0 projection's two weights. -/
theorem V1_main_v3_eq (c : Dev nD) :
    V1 m c main_v3 = extractStridedSlice S512x512 ![0, 0] (V1 m c main_v2) slices_S512x1024_S512x512_0_0 := by
  show StableHlo.after hostOps0 (W0 m c) (Proc.devRef .tc main_v3)
    = extractStridedSlice S512x512 ![0, 0] (StableHlo.after hostOps0 (W0 m c) (Proc.devRef .tc main_v2)) slices_S512x1024_S512x512_0_0
  after_results
theorem V1_main_v4_eq (c : Dev nD) :
    V1 m c main_v4 = extractStridedSlice S512x512 ![0, 512] (V1 m c main_v2) slices_S512x1024_S512x512_0_512 := by
  show StableHlo.after hostOps0 (W0 m c) (Proc.devRef .tc main_v4)
    = extractStridedSlice S512x512 ![0, 512] (StableHlo.after hostOps0 (W0 m c) (Proc.devRef .tc main_v2)) slices_S512x1024_S512x512_0_512
  after_results
/-- Layer 1 of the rounded stack, as a 512×1024 matrix. -/
theorem V4_main_v8_eq (c : Dev nD) :
    V4 D1 m c main_v8 = shapeCast S512x1024 (extractStridedSlice S1x512x1024 ![1, 0, 0] (V1 m c main_v0) slices_S2x512x1024_S1x512x1024_1_0_0)
      shapeCasts_S1x512x1024_S512x1024 := by
  show StableHlo.after hostOps2 (W3 D1 m c) (Proc.devRef .tc main_v8) = _
  after_results
  rw [show W3 D1 m c (Proc.devRef .tc main_v0) = V1 m c main_v0 from V3_main_v0 D1 m c]
  rfl
/-- Its two halves: the layer-1 projection's two weights. -/
theorem V4_main_v9_eq (c : Dev nD) :
    V4 D1 m c main_v9 = extractStridedSlice S512x512 ![0, 0] (V4 D1 m c main_v8) slices_S512x1024_S512x512_0_0 := by
  show StableHlo.after hostOps2 (W3 D1 m c) (Proc.devRef .tc main_v9)
    = extractStridedSlice S512x512 ![0, 0] (StableHlo.after hostOps2 (W3 D1 m c) (Proc.devRef .tc main_v8)) slices_S512x1024_S512x512_0_0
  after_results
theorem V4_main_v10_eq (c : Dev nD) :
    V4 D1 m c main_v10 = extractStridedSlice S512x512 ![0, 512] (V4 D1 m c main_v8) slices_S512x1024_S512x512_0_512 := by
  show StableHlo.after hostOps2 (W3 D1 m c) (Proc.devRef .tc main_v10)
    = extractStridedSlice S512x512 ![0, 512] (StableHlo.after hostOps2 (W3 D1 m c) (Proc.devRef .tc main_v8)) slices_S512x1024_S512x512_0_512
  after_results

/-- info: 'Cert.Kernel.Run.run_main' depends on axioms: [propext, Classical.choice, Quot.sound] -/
#guard_msgs in #print axioms run_main

end Cert.Kernel.Run

end
-- ==== Proof.AttnBodyK.lean ====
/-
  The attention kernel's body as steps of separation logic, one per control case.

  A grid point (qi, kv) of the attention call handles the 512 query rows of block qi against the 1024 key/value rows of
  tile kv. The body keeps three buffers of its own between the points of a row block: the running maximum m (one value
  per query row), the running sum l of exponentials, and the running weighted sum acc of value rows. At every point it
  forms the 512×1024 scores (queries against the tile's keys), the new maximum max m (row maxima of the scores), the
  factor exp (m - new maximum), the exponentials of the scores shifted by the new maximum, and stores
      l   := factor · l + row sums of the exponentials,
      acc := factor · acc + (exponentials · mask) times the tile's values,
      m   := the new maximum.
  At the first tile of a row block (kv = 0) it first resets m to -∞ and l, acc to 0; at the last (kv = 7) it also stores
  the block's result acc / l + x through the leaky rectifier into the output buffer. No point is both first and last, so
  there are three cases. Every access is to a whole buffer except the keys and the values, which are read as a tile of
  1024 rows out of the resident 8192; a store made last into a whole buffer leaves exactly the stored value, so each
  case's effect on the three buffers is stated by one step function each, over the body's named pure values.
-/
import proofs.«100610_j61478161875059_2_alg».proof.Proof.Gen.Kernel.Launch
import proofs.«100610_j61478161875059_2_alg».proof.Proof.Gen.Kernel.Skeleton
import proofs.«100610_j61478161875059_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the first of its row of tiles (the second grid coordinate is 0). -/
abbrev cond1_0 (i : grid1.Coords) : Prop := (Scalar.cmpi .ne (Scalar.extui (Scalar.cmpi .eq (BitVec.ofNat 32 (i 1).val) 0#32)) 0#32) = 1#1
/-- The second conditional: the point is the last of its row of tiles (the second grid coordinate is 7). -/
abbrev cond1_1 (i : grid1.Coords) : Prop := k1_cond2 i = 1#1

/-- The whole-buffer rectangles have zero offsets. -/
theorem hz2 : (![0, 0] : Fin 2 → Nat) = fun _ => 0 := by funext a; fin_cases a <;> rfl

/-- The tile of 1024 rows the point takes out of a resident 8192-row array: rows 1024·kv … 1024·kv + 1023. -/
def tile1 (i : grid1.Coords) (x : Vec F S8192x512 .bf16) : Vec F S1024x512 .bf16 :=
  View.ld x (Rect.unit (s := S8192x512) (k1_off1 i) S1024x512.size (k1_off1_inb i))

/-- ONE TILE'S STEP, the running maximum: the old one against the tile's row maxima of the scores. -/
def stepM1 (i : grid1.Coords) (xq : Vec F S512x512 .bf16) (xk : Vec F S8192x512 .bf16) (sm : Vec F S512x1 .f32) : Vec F S512x1 .f32 :=
  k1_pay2 (k1_pay9 xq (tile1 i xk) sm)
/-- ONE TILE'S STEP, the running sum of exponentials, rescaled to the new maximum. -/
def stepL1 (i : grid1.Coords) (xq : Vec F S512x512 .bf16) (xk : Vec F S8192x512 .bf16) (sm sl : Vec F S512x1 .f32) : Vec F S512x1 .f32 :=
  k1_pay12 xq (tile1 i xk) sm sl
/-- ONE TILE'S STEP, the running masked weighted sum of the value rows, rescaled to the new maximum. -/
def stepA1 (i : grid1.Coords) (xq : Vec F S512x512 .bf16) (xk xv : Vec F S8192x512 .bf16) (xm : Vec F S512x1024 .f32)
    (sm : Vec F S512x1 .f32) (sa : Vec F S512x512 .f32) : Vec F S512x512 .f32 :=
  k1_pay1 (k1_pay7 (tile1 i xv)) (k1_pay13 xq (tile1 i xk) sm xm) sa (k1_pay14 xq (tile1 i xk) sm)
/-- THE LAST TILE'S RESULT: the weighted sum over the sum, plus the residual input, through the leaky rectifier. -/
def final1 (sa : Vec F S512x512 .f32) (sl : Vec F S512x1 .f32) (xx : Vec F S512x512 .f32) : Vec F S512x512 .f32 :=
  k1_pay3 sa sl xx

/-- What a buffer reads after a whole-buffer store made last: the stored value. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

set_option maxHeartbeats 4000000 in
/-- THE FIRST TILE of a row (the second coordinate is 0, not 7). The three scratch buffers may hold anything: the body
    first stores -∞ into the maximum and 0 into the two sums, then makes the step from those. The output buffer is not
    touched. -/
theorem runFirst1 (c : Dev nD) (i : grid1.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : cond1_0 i) (hc1 : ¬cond1_1 i)
    (xq : Vec F S512x512 .bf16) (xk xv : Vec F S8192x512 .bf16) (xm : Vec F S512x1024 .f32) (xx : Vec F S512x512 .f32)
    (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM1 i xq xk (k1_pay4 (F := F)))
                ∗ owns (c : Thread nD τ) arg9 fullShare (stepL1 i xq xk (k1_pay4 (F := F)) (k1_pay5 (F := F)))
                ∗ owns (c : Thread nD τ) arg10 fullShare (stepA1 i xq xk xv xm (k1_pay4 (F := F)) (k1_pay6 (F := F)))) -∗ K ⟨⟩))
          ⊢ wp frame (wpE (defs₀ (F := F)) Variants.none c none) E (cc1__gat_attn_kernel i arg2 harg2 arg3 harg3 arg4 harg4 arg5 harg5 arg6 harg6 arg7 harg7 arg8 harg8 arg9 harg9 arg10 harg10) K := by
    simp only [cc1__gat_attn_kernel_eq_skeleton]; unfold cc1__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%sm, %f8, %hf8, H8⟩, ⟨%sl, %f9, %hf9, H9⟩, ⟨%sa, %f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- A MIDDLE TILE (the second coordinate is neither 0 nor 7): the step from what the tile before left. The output buffer
    is not touched. -/
theorem runMid1 (c : Dev nD) (i : grid1.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond1_0 i) (hc1 : ¬cond1_1 i)
    (xq : Vec F S512x512 .bf16) (xk xv : Vec F S8192x512 .bf16) (xm : Vec F S512x1024 .f32) (xx : Vec F S512x512 .f32)
    (sm sl : Vec F S512x1 .f32) (sa : Vec F S512x512 .f32) (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM1 i xq xk sm) ∗ owns (c : Thread nD τ) arg9 fullShare (stepL1 i xq xk sm sl)
                ∗ owns (c : Thread nD τ) arg10 fullShare (stepA1 i xq xk xv xm sm sa)) -∗ K ⟨⟩))
          ⊢ wp frame (wpE (defs₀ (F := F)) Variants.none c none) E (cc1__gat_attn_kernel i arg2 harg2 arg3 harg3 arg4 harg4 arg5 harg5 arg6 harg6 arg7 harg7 arg8 harg8 arg9 harg9 arg10 harg10) K := by
    simp only [cc1__gat_attn_kernel_eq_skeleton]; unfold cc1__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- THE LAST TILE of a row (the second coordinate is 7, not 0): the step, and then the output buffer, whatever it held,
    receives the row block's result computed from the new sums and the residual input. -/
theorem runLast1 (c : Dev nD) (i : grid1.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond1_0 i) (hc1 : cond1_1 i)
    (xq : Vec F S512x512 .bf16) (xk xv : Vec F S8192x512 .bf16) (xm : Vec F S512x1024 .f32) (xx : Vec F S512x512 .f32)
    (sm sl : Vec F S512x1 .f32) (sa : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ (∃ d, owns (c : Thread nD τ) arg7 fullShare d)
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx
                ∗ owns (c : Thread nD τ) arg7 fullShare (final1 (stepA1 i xq xk xv xm sm sa) (stepL1 i xq xk sm sl) xx)
                ∗ owns (c : Thread nD τ) arg8 fullShare (stepM1 i xq xk sm) ∗ owns (c : Thread nD τ) arg9 fullShare (stepL1 i xq xk sm sl)
                ∗ owns (c : Thread nD τ) arg10 fullShare (stepA1 i xq xk xv xm sm sa)) -∗ K ⟨⟩))
          ⊢ wp frame (wpE (defs₀ (F := F)) Variants.none c none) E (cc1__gat_attn_kernel i arg2 harg2 arg3 harg3 arg4 harg4 arg5 harg5 arg6 harg6 arg7 harg7 arg8 harg8 arg9 harg9 arg10 harg10) K := by
    simp only [cc1__gat_attn_kernel_eq_skeleton]; unfold cc1__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%xo, %f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

/-! ## The same for the second layer's call (the same body, printed a second time) -/

/-- The first conditional of the body: the point is the first of its row of tiles (the second grid coordinate is 0). -/
abbrev cond3_0 (i : grid3.Coords) : Prop := (Scalar.cmpi .ne (Scalar.extui (Scalar.cmpi .eq (BitVec.ofNat 32 (i 1).val) 0#32)) 0#32) = 1#1
/-- The second conditional: the point is the last of its row of tiles (the second grid coordinate is 7). -/
abbrev cond3_1 (i : grid3.Coords) : Prop := k3_cond2 i = 1#1

/-- The tile of 1024 rows the point takes out of a resident 8192-row array: rows 1024·kv … 1024·kv + 1023. -/
def tile3 (i : grid3.Coords) (x : Vec F S8192x512 .bf16) : Vec F S1024x512 .bf16 :=
  View.ld x (Rect.unit (s := S8192x512) (k3_off1 i) S1024x512.size (k3_off1_inb i))

/-- ONE TILE'S STEP, the running maximum: the old one against the tile's row maxima of the scores. -/
def stepM3 (i : grid3.Coords) (xq : Vec F S512x512 .bf16) (xk : Vec F S8192x512 .bf16) (sm : Vec F S512x1 .f32) : Vec F S512x1 .f32 :=
  k3_pay2 (k3_pay9 xq (tile3 i xk) sm)
/-- ONE TILE'S STEP, the running sum of exponentials, rescaled to the new maximum. -/
def stepL3 (i : grid3.Coords) (xq : Vec F S512x512 .bf16) (xk : Vec F S8192x512 .bf16) (sm sl : Vec F S512x1 .f32) : Vec F S512x1 .f32 :=
  k3_pay12 xq (tile3 i xk) sm sl
/-- ONE TILE'S STEP, the running masked weighted sum of the value rows, rescaled to the new maximum. -/
def stepA3 (i : grid3.Coords) (xq : Vec F S512x512 .bf16) (xk xv : Vec F S8192x512 .bf16) (xm : Vec F S512x1024 .f32)
    (sm : Vec F S512x1 .f32) (sa : Vec F S512x512 .f32) : Vec F S512x512 .f32 :=
  k3_pay1 (k3_pay7 (tile3 i xv)) (k3_pay13 xq (tile3 i xk) sm xm) sa (k3_pay14 xq (tile3 i xk) sm)
/-- THE LAST TILE'S RESULT: the weighted sum over the sum, plus the residual input, through the leaky rectifier. -/
def final3 (sa : Vec F S512x512 .f32) (sl : Vec F S512x1 .f32) (xx : Vec F S512x512 .f32) : Vec F S512x512 .f32 :=
  k3_pay3 sa sl xx

set_option maxHeartbeats 4000000 in
/-- THE FIRST TILE of a row (the second coordinate is 0, not 7). The three scratch buffers may hold anything: the body
    first stores -∞ into the maximum and 0 into the two sums, then makes the step from those. The output buffer is not
    touched. -/
theorem runFirst3 (c : Dev nD) (i : grid3.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : cond3_0 i) (hc1 : ¬cond3_1 i)
    (xq : Vec F S512x512 .bf16) (xk xv : Vec F S8192x512 .bf16) (xm : Vec F S512x1024 .f32) (xx : Vec F S512x512 .f32)
    (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM3 i xq xk (k3_pay4 (F := F)))
                ∗ owns (c : Thread nD τ) arg9 fullShare (stepL3 i xq xk (k3_pay4 (F := F)) (k3_pay5 (F := F)))
                ∗ owns (c : Thread nD τ) arg10 fullShare (stepA3 i xq xk xv xm (k3_pay4 (F := F)) (k3_pay6 (F := F)))) -∗ K ⟨⟩))
          ⊢ wp frame (wpE (defs₀ (F := F)) Variants.none c none) E (cc3__gat_attn_kernel i arg2 harg2 arg3 harg3 arg4 harg4 arg5 harg5 arg6 harg6 arg7 harg7 arg8 harg8 arg9 harg9 arg10 harg10) K := by
    simp only [cc3__gat_attn_kernel_eq_skeleton]; unfold cc3__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%sm, %f8, %hf8, H8⟩, ⟨%sl, %f9, %hf9, H9⟩, ⟨%sa, %f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- A MIDDLE TILE (the second coordinate is neither 0 nor 7): the step from what the tile before left. The output buffer
    is not touched. -/
theorem runMid3 (c : Dev nD) (i : grid3.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond3_0 i) (hc1 : ¬cond3_1 i)
    (xq : Vec F S512x512 .bf16) (xk xv : Vec F S8192x512 .bf16) (xm : Vec F S512x1024 .f32) (xx : Vec F S512x512 .f32)
    (sm sl : Vec F S512x1 .f32) (sa : Vec F S512x512 .f32) (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM3 i xq xk sm) ∗ owns (c : Thread nD τ) arg9 fullShare (stepL3 i xq xk sm sl)
                ∗ owns (c : Thread nD τ) arg10 fullShare (stepA3 i xq xk xv xm sm sa)) -∗ K ⟨⟩))
          ⊢ wp frame (wpE (defs₀ (F := F)) Variants.none c none) E (cc3__gat_attn_kernel i arg2 harg2 arg3 harg3 arg4 harg4 arg5 harg5 arg6 harg6 arg7 harg7 arg8 harg8 arg9 harg9 arg10 harg10) K := by
    simp only [cc3__gat_attn_kernel_eq_skeleton]; unfold cc3__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- THE LAST TILE of a row (the second coordinate is 7, not 0): the step, and then the output buffer, whatever it held,
    receives the row block's result computed from the new sums and the residual input. -/
theorem runLast3 (c : Dev nD) (i : grid3.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond3_0 i) (hc1 : cond3_1 i)
    (xq : Vec F S512x512 .bf16) (xk xv : Vec F S8192x512 .bf16) (xm : Vec F S512x1024 .f32) (xx : Vec F S512x512 .f32)
    (sm sl : Vec F S512x1 .f32) (sa : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ (∃ d, owns (c : Thread nD τ) arg7 fullShare d)
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx
                ∗ owns (c : Thread nD τ) arg7 fullShare (final3 (stepA3 i xq xk xv xm sm sa) (stepL3 i xq xk sm sl) xx)
                ∗ owns (c : Thread nD τ) arg8 fullShare (stepM3 i xq xk sm) ∗ owns (c : Thread nD τ) arg9 fullShare (stepL3 i xq xk sm sl)
                ∗ owns (c : Thread nD τ) arg10 fullShare (stepA3 i xq xk xv xm sm sa)) -∗ K ⟨⟩))
          ⊢ wp frame (wpE (defs₀ (F := F)) Variants.none c none) E (cc3__gat_attn_kernel i arg2 harg2 arg3 harg3 arg4 harg4 arg5 harg5 arg6 harg6 arg7 harg7 arg8 harg8 arg9 harg9 arg10 harg10) K := by
    simp only [cc3__gat_attn_kernel_eq_skeleton]; unfold cc3__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%xo, %f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

end Cert.Kernel.Attn

end
-- ==== Proof.AttnDataK.lean ====
/-
  The attention call's proof data: what the body leaves point by point, and the body obligation.

  The 128 points of the call run row block by row block: point n handles query block n / 8 against key/value tile
  n mod 8. The three buffers the body keeps (the running maximum, the running sum, the running weighted sum) are reset
  at the points 0 modulo 8 and stepped at every point, so what they hold after point n is a recursion on n — the first
  tile's step at n ≡ 0, else one more step from what point n - 1 left. The output window is idle (and not written back)
  except at the points 7 modulo 8, where it receives the row block's result computed from the kept buffers. The
  invariant between points says exactly that: the kept buffers at the recursion's value.
-/
import proofs.«100610_j61478161875059_2_alg».proof.Proof.Gen.Kernel.Launch
import proofs.«100610_j61478161875059_2_alg».proof.Proof.Gen.Kernel.Skeleton
import proofs.«100610_j61478161875059_2_alg».proof.Proof.Gen.Kernel.Points
import proofs.«100610_j61478161875059_2_alg».proof.Proof.AttnBodyK
import proofs.«100610_j61478161875059_2_alg».proof.Proof.AttnSharesK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1 -/

section Call1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first conditional holds exactly at the points whose number is 0 modulo 8, the second at those 7 modulo 8:
    decided over the 128 points. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The five input windows are never idle; the output window is idle, and not written back, at every point but the
    last of a row of tiles. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- Each window's current staging buffer at point `t`, as the pipeline passes it to the body, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
/-- The three buffers the body keeps between points: the running maximum, the running sum, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
/-- Every other scoped buffer of the program, unopened. -/
abbrev Rst1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three kept buffers listed, each at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ Rst1 c) ∗ (∃ r, prngReg c r)) := by
  unfold Pipeline.ΦA; rw [scopedRest1_split]; simp only [scM1_0, scM1_1, scM1_2, owns_whole]
  rfl

/-- The three kept buffers after the FIRST tile of a row of tiles: the step from -∞, 0, 0. -/
def first1 (c : Dev nD) (t : Fin cfg1.N) : Vec F S512x1 .f32 × Vec F S512x1 .f32 × Vec F S512x512 .f32 :=
  (stepM1 (grid1.coords t) (iblk1 V c 0 t) (iblk1 V c 1 t) (k1_pay4 (F := F)), stepL1 (grid1.coords t) (iblk1 V c 0 t) (iblk1 V c 1 t) (k1_pay4 (F := F)) (k1_pay5 (F := F)),
    stepA1 (grid1.coords t) (iblk1 V c 0 t) (iblk1 V c 1 t) (iblk1 V c 2 t) (iblk1 V c 3 t) (k1_pay4 (F := F)) (k1_pay6 (F := F)))
/-- The three kept buffers after a LATER tile, from what the tile before left. -/
def next1 (c : Dev nD) (t : Fin cfg1.N) (s : Vec F S512x1 .f32 × Vec F S512x1 .f32 × Vec F S512x512 .f32) :
    Vec F S512x1 .f32 × Vec F S512x1 .f32 × Vec F S512x512 .f32 :=
  (stepM1 (grid1.coords t) (iblk1 V c 0 t) (iblk1 V c 1 t) s.1, stepL1 (grid1.coords t) (iblk1 V c 0 t) (iblk1 V c 1 t) s.1 s.2.1, stepA1 (grid1.coords t) (iblk1 V c 0 t) (iblk1 V c 1 t) (iblk1 V c 2 t) (iblk1 V c 3 t) s.1 s.2.2)

/-- THE ACCUMULATION: what the three kept buffers hold after point `n` — the first-tile step at the points 0 modulo 8,
    otherwise the step from what point `n - 1` left. -/
def sc1 (c : Dev nD) : (n : ℕ) → n < cfg1.N → Vec F S512x1 .f32 × Vec F S512x1 .f32 × Vec F S512x512 .f32
  | 0, hn => first1 V c ⟨0, hn⟩
  | n + 1, hn => if (n + 1) % 8 = 0 then first1 V c ⟨n + 1, hn⟩ else next1 V c ⟨n + 1, hn⟩ (sc1 c n (Nat.lt_of_succ_lt hn))

theorem sc1_first (c : Dev nD) (t : Fin cfg1.N) (h : t.val % 8 = 0) : sc1 V c t.val t.isLt = first1 V c t := by
  obtain ⟨n, hn⟩ := t
  cases n with
  | zero => rfl
  | succ n => show (if (n + 1) % 8 = 0 then _ else _) = _; rw [if_pos h]

theorem sc1_next (c : Dev nD) (t : Fin cfg1.N) (h : ¬t.val % 8 = 0) :
    sc1 V c t.val t.isLt = next1 V c t (sc1 V c (t.val - 1) (Nat.lt_of_le_of_lt (Nat.sub_le _ _) t.isLt)) := by
  obtain ⟨n, hn⟩ := t
  cases n with
  | zero => exact absurd rfl h
  | succ n => show (if (n + 1) % 8 = 0 then _ else _) = _; rw [if_neg h]; rfl

/-- What the output buffer receives at the last tile of a row of tiles: the row block's result. -/
def out1 (c : Dev nD) (t : Fin cfg1.N) : Vec F S512x512 .f32 :=
  final1 (sc1 V c t.val t.isLt).2.2 (sc1 V c t.val t.isLt).2.1 (iblk1 V c 4 t)

/-- THE INVARIANT before position `n`: before the first point the class's (the kept buffers at anything); afterwards
    the kept buffers at what the point before left. -/
def PhiS1 (c : Dev nD) : (n : ℕ) → n ≤ cfg1.N → sProp 𝕄
  | 0, _ => Pipeline.ΦA spec1 c
  | n + 1, hn => iprop(iprop(iprop(owns (c : Thread nD τ) scM1_0 fullShare (sc1 V c n hn).1 ∗ owns (c : Thread nD τ) scM1_1 fullShare (sc1 V c n hn).2.1 ∗ owns (c : Thread nD τ) scM1_2 fullShare (sc1 V c n hn).2.2) ∗ Rst1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (sc1 V c n hn).1 ∗ owns (c : Thread nD τ) scM1_1 fullShare (sc1 V c n hn).2.1 ∗ owns (c : Thread nD τ) scM1_2 fullShare (sc1 V c n hn).2.2) ∗ Rst1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (sc1 V c (n - 1) (by omega)).1 ∗ owns (c : Thread nD τ) scM1_1 fullShare (sc1 V c (n - 1) (by omega)).2.1 ∗ owns (c : Thread nD τ) scM1_2 fullShare (sc1 V c (n - 1) (by omega)).2.2) ∗ Rst1 c) ∗ (∃ r, prngReg c r)) := by
  cases n with
  | zero => exact absurd rfl hz
  | succ n => rfl

/-- THE PROOF DATA of the call on core `c`: the arrays as the call finds them; after the body at point `t` each input's
    buffer at its block and the output's at the row block's result; the invariant above; nothing owed; the queries' and
    the values' windows at the two halves of the array they share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := PhiS1 V c t.val (Nat.le_of_lt_succ t.isLt)
  q := qAttn
  owed _ := 0

theorem A_eq1 (c : Dev nD) (w : Fin cfg1.W) : (dat1 V c).A w = V c (Pipeline.arrRef spec1 w) := by dsimp only [dat1]
theorem q_eq1 (c : Dev nD) : (dat1 V c).q = qAttn := rfl
theorem recorded1 (c : Dev nD) : (dat1 V c).recorded 0 = Set.univ := rfl
theorem owed1 (c : Dev nD) (t : Fin (cfg1.N + 1)) : (dat1 V c).owed t = 0 := rfl
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the closed forms say which of the three cases the point is in; the invariant hands the body
    the kept buffers at what the point before left (at anything before the first point, and the first tile of a row
    overwrites them anyway) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [sc1_first V c t h0]
    unfold first1; dsimp only
    have hPhi : (dat1 V c).Φ t.castSucc ⊢ (Pipeline.ΦA spec1 c : sProp 𝕄) := by
      rw [PhiS1_castSucc V c t]
      by_cases hz : t.val = 0
      · rw [PhiS1_zero V c _ _ hz]
      · rw [PhiS1_pos V c _ _ hz, PhiA1_eq]
        iintro ⟨⟨⟨HS0, HS1, HS2⟩, HR⟩, Hg⟩
        isplitl [HS0 HS1 HS2 HR]
        · isplitl [HS0 HS1 HS2]
          · isplitl [HS0]; · iexists _; iexact HS0
            isplitl [HS1]; · iexists _; iexact HS1
            iexists _; iexact HS2
          iexact HR
        iexact Hg
    have hPhi' := hPhi
    rw [PhiA1_eq] at hPhi'
    iintro ⟨HP, Ho, ⟨%d0, H0⟩, ⟨%d1, H1⟩, ⟨%d2, H2⟩, ⟨%d3, H3⟩, ⟨%d4, H4⟩, ⟨%d5, H5⟩⟩
    ihave HP' := hPhi' $$ HP
    icases HP' with ⟨⟨⟨HS0, HS1, HS2⟩, HR⟩, Hg⟩
    iapply (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc0 : ¬cond1_0 (grid1.coords t) := fun h => h0 ((hcond1_0 t).mp h)
    rw [PhiS1_castSucc V c t, PhiS1_pos V c _ _ hz]
    rw [sc1_next V c t h0]
    unfold next1; dsimp only
    by_cases h1 : t.val % 8 = 7
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      unfold out1
      rw [sc1_next V c t h0]
      unfold next1; dsimp only
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runMid1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
/-- and the invariant after the last point gives it back, the kept buffers forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by rw [show cfg1.N = 128 from N_1]; decide), PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Call1

/-! # Call 3 -/

section Call3

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether the point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The first conditional holds exactly at the points whose number is 0 modulo 8, the second at those 7 modulo 8:
    decided over the 128 points. -/
theorem hcond3_0 : ∀ t : Fin cfg3.N, cond3_0 (grid3.coords t) ↔ t.val % 8 = 0 :=
  (by decide +kernel : ∀ t : Fin grid3.N, cond3_0 (grid3.coords t) ↔ t.val % 8 = 0)
theorem hcond3_1 : ∀ t : Fin cfg3.N, cond3_1 (grid3.coords t) ↔ t.val % 8 = 7 :=
  (by decide +kernel : ∀ t : Fin grid3.N, cond3_1 (grid3.coords t) ↔ t.val % 8 = 7)

/-- The five input windows are never idle; the output window is idle, and not written back, at every point but the
    last of a row of tiles. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-- Each window's current staging buffer at point `t`, as the pipeline passes it to the body, and its wholeness. -/
abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
/-- The three buffers the body keeps between points: the running maximum, the running sum, the running weighted sum. -/
abbrev scM3_0 : Memref sig .tc .vmem S512x1 .f32 := Memref.whole cc3_scratch0
abbrev scM3_1 : Memref sig .tc .vmem S512x1 .f32 := Memref.whole cc3_scratch1
abbrev scM3_2 : Memref sig .tc .vmem S512x512 .f32 := Memref.whole cc3_scratch2
/-- Every other scoped buffer of the program, unopened. -/
abbrev Rst3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The class invariant with the three kept buffers listed, each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ Rst3 c) ∗ (∃ r, prngReg c r)) := by
  unfold Pipeline.ΦA; rw [scopedRest3_split]; simp only [scM3_0, scM3_1, scM3_2, owns_whole]
  rfl

/-- The three kept buffers after the FIRST tile of a row of tiles: the step from -∞, 0, 0. -/
def first3 (c : Dev nD) (t : Fin cfg3.N) : Vec F S512x1 .f32 × Vec F S512x1 .f32 × Vec F S512x512 .f32 :=
  (stepM3 (grid3.coords t) (iblk3 V c 0 t) (iblk3 V c 1 t) (k3_pay4 (F := F)), stepL3 (grid3.coords t) (iblk3 V c 0 t) (iblk3 V c 1 t) (k3_pay4 (F := F)) (k3_pay5 (F := F)),
    stepA3 (grid3.coords t) (iblk3 V c 0 t) (iblk3 V c 1 t) (iblk3 V c 2 t) (iblk3 V c 3 t) (k3_pay4 (F := F)) (k3_pay6 (F := F)))
/-- The three kept buffers after a LATER tile, from what the tile before left. -/
def next3 (c : Dev nD) (t : Fin cfg3.N) (s : Vec F S512x1 .f32 × Vec F S512x1 .f32 × Vec F S512x512 .f32) :
    Vec F S512x1 .f32 × Vec F S512x1 .f32 × Vec F S512x512 .f32 :=
  (stepM3 (grid3.coords t) (iblk3 V c 0 t) (iblk3 V c 1 t) s.1, stepL3 (grid3.coords t) (iblk3 V c 0 t) (iblk3 V c 1 t) s.1 s.2.1, stepA3 (grid3.coords t) (iblk3 V c 0 t) (iblk3 V c 1 t) (iblk3 V c 2 t) (iblk3 V c 3 t) s.1 s.2.2)

/-- THE ACCUMULATION: what the three kept buffers hold after point `n` — the first-tile step at the points 0 modulo 8,
    otherwise the step from what point `n - 1` left. -/
def sc3 (c : Dev nD) : (n : ℕ) → n < cfg3.N → Vec F S512x1 .f32 × Vec F S512x1 .f32 × Vec F S512x512 .f32
  | 0, hn => first3 V c ⟨0, hn⟩
  | n + 1, hn => if (n + 1) % 8 = 0 then first3 V c ⟨n + 1, hn⟩ else next3 V c ⟨n + 1, hn⟩ (sc3 c n (Nat.lt_of_succ_lt hn))

theorem sc3_first (c : Dev nD) (t : Fin cfg3.N) (h : t.val % 8 = 0) : sc3 V c t.val t.isLt = first3 V c t := by
  obtain ⟨n, hn⟩ := t
  cases n with
  | zero => rfl
  | succ n => show (if (n + 1) % 8 = 0 then _ else _) = _; rw [if_pos h]

theorem sc3_next (c : Dev nD) (t : Fin cfg3.N) (h : ¬t.val % 8 = 0) :
    sc3 V c t.val t.isLt = next3 V c t (sc3 V c (t.val - 1) (Nat.lt_of_le_of_lt (Nat.sub_le _ _) t.isLt)) := by
  obtain ⟨n, hn⟩ := t
  cases n with
  | zero => exact absurd rfl h
  | succ n => show (if (n + 1) % 8 = 0 then _ else _) = _; rw [if_neg h]; rfl

/-- What the output buffer receives at the last tile of a row of tiles: the row block's result. -/
def out3 (c : Dev nD) (t : Fin cfg3.N) : Vec F S512x512 .f32 :=
  final3 (sc3 V c t.val t.isLt).2.2 (sc3 V c t.val t.isLt).2.1 (iblk3 V c 4 t)

/-- THE INVARIANT before position `n`: before the first point the class's (the kept buffers at anything); afterwards
    the kept buffers at what the point before left. -/
def PhiS3 (c : Dev nD) : (n : ℕ) → n ≤ cfg3.N → sProp 𝕄
  | 0, _ => Pipeline.ΦA spec3 c
  | n + 1, hn => iprop(iprop(iprop(owns (c : Thread nD τ) scM3_0 fullShare (sc3 V c n hn).1 ∗ owns (c : Thread nD τ) scM3_1 fullShare (sc3 V c n hn).2.1 ∗ owns (c : Thread nD τ) scM3_2 fullShare (sc3 V c n hn).2.2) ∗ Rst3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare (sc3 V c n hn).1 ∗ owns (c : Thread nD τ) scM3_1 fullShare (sc3 V c n hn).2.1 ∗ owns (c : Thread nD τ) scM3_2 fullShare (sc3 V c n hn).2.2) ∗ Rst3 c) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare (sc3 V c (n - 1) (by omega)).1 ∗ owns (c : Thread nD τ) scM3_1 fullShare (sc3 V c (n - 1) (by omega)).2.1 ∗ owns (c : Thread nD τ) scM3_2 fullShare (sc3 V c (n - 1) (by omega)).2.2) ∗ Rst3 c) ∗ (∃ r, prngReg c r)) := by
  cases n with
  | zero => exact absurd rfl hz
  | succ n => rfl

/-- THE PROOF DATA of the call on core `c`: the arrays as the call finds them; after the body at point `t` each input's
    buffer at its block and the output's at the row block's result; the invariant above; nothing owed; the queries' and
    the values' windows at the two halves of the array they share, the others at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := PhiS3 V c t.val (Nat.le_of_lt_succ t.isLt)
  q := qAttn
  owed _ := 0

theorem A_eq3 (c : Dev nD) (w : Fin cfg3.W) : (dat3 V c).A w = V c (Pipeline.arrRef spec3 w) := by dsimp only [dat3]
theorem q_eq3 (c : Dev nD) : (dat3 V c).q = qAttn := rfl
theorem recorded3 (c : Dev nD) : (dat3 V c).recorded 0 = Set.univ := rfl
theorem owed3 (c : Dev nD) (t : Fin (cfg3.N + 1)) : (dat3 V c).owed t = 0 := rfl
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the closed forms say which of the three cases the point is in; the invariant hands the body
    the kept buffers at what the point before left (at anything before the first point, and the first tile of a row
    overwrites them anyway) and takes them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  have hN : t.val < 128 := lt_of_lt_of_eq t.isLt (show cfg3.N = 128 from N_3)
  by_cases h0 : t.val % 8 = 0
  · have h1 : ¬t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 5 t (idleAt3_5 t hc1) (noFlush3_5 t hc1)]
    rw [sc3_first V c t h0]
    unfold first3; dsimp only
    have hPhi : (dat3 V c).Φ t.castSucc ⊢ (Pipeline.ΦA spec3 c : sProp 𝕄) := by
      rw [PhiS3_castSucc V c t]
      by_cases hz : t.val = 0
      · rw [PhiS3_zero V c _ _ hz]
      · rw [PhiS3_pos V c _ _ hz, PhiA3_eq]
        iintro ⟨⟨⟨HS0, HS1, HS2⟩, HR⟩, Hg⟩
        isplitl [HS0 HS1 HS2 HR]
        · isplitl [HS0 HS1 HS2]
          · isplitl [HS0]; · iexists _; iexact HS0
            isplitl [HS1]; · iexists _; iexact HS1
            iexists _; iexact HS2
          iexact HR
        iexact Hg
    have hPhi' := hPhi
    rw [PhiA3_eq] at hPhi'
    iintro ⟨HP, Ho, ⟨%d0, H0⟩, ⟨%d1, H1⟩, ⟨%d2, H2⟩, ⟨%d3, H3⟩, ⟨%d4, H4⟩, ⟨%d5, H5⟩⟩
    ihave HP' := hPhi' $$ HP
    icases HP' with ⟨⟨⟨HS0, HS1, HS2⟩, HR⟩, Hg⟩
    iapply (runFirst3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) hc0 hc1 (iblk3 V c 0 t) (iblk3 V c 1 t) (iblk3 V c 2 t) (iblk3 V c 3 t) (iblk3 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc0 : ¬cond3_0 (grid3.coords t) := fun h => h0 ((hcond3_0 t).mp h)
    rw [PhiS3_castSucc V c t, PhiS3_pos V c _ _ hz]
    rw [sc3_next V c t h0]
    unfold next3; dsimp only
    by_cases h1 : t.val % 8 = 7
    · have hc1 : cond3_1 (grid3.coords t) := (hcond3_1 t).mpr h1
      rw [show (dat3 V c).leavesExact 5 t = owns (c : Thread nD τ) (ms3_5 t) fullShare ((dat3 V c).after 5 t) from by
        unfold Dat.leavesExact; rw [liveAt3_5 t hc1], after3_5]
      unfold out3
      rw [sc3_next V c t h0]
      unfold next3; dsimp only
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runLast3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) hc0 hc1 (iblk3 V c 0 t) (iblk3 V c 1 t) (iblk3 V c 2 t) (iblk3 V c 3 t) (iblk3 V c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond3_1 (grid3.coords t) := fun h => h1 ((hcond3_1 t).mp h)
      rw [Dat.leavesExact_idle (dat3 V c) 5 t (idleAt3_5 t hc1) (noFlush3_5 t hc1)]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runMid3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) hc0 hc1 (iblk3 V c 0 t) (iblk3 V c 1 t) (iblk3 V c 2 t) (iblk3 V c 3 t) (iblk3 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The class invariant is the invariant before the first point; -/
theorem hin3 (c : Dev nD) : Pipeline.ΦA spec3 c ⊢ (dat3 V c).Φ 0 := by
  rw [show (dat3 V c).Φ 0 = PhiS3 V c 0 (Nat.zero_le _) from rfl, PhiS3_zero V c 0 _ rfl]
/-- and the invariant after the last point gives it back, the kept buffers forgotten. -/
theorem hout3 (c : Dev nD) : (dat3 V c).Φ (Fin.last cfg3.N) ⊢ Pipeline.ΦA spec3 c := by
  rw [show (dat3 V c).Φ (Fin.last cfg3.N) = PhiS3 V c cfg3.N (Nat.le_refl _) from rfl,
    PhiS3_pos V c _ _ (by rw [show cfg3.N = 128 from N_3]; decide), PhiA3_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Call3

end Cert.Kernel.Attn

end
-- ==== Proof.AttnPackK.lean ====
/-
  The two attention calls' proof data, packed as the run of the program takes them.
-/
import proofs.«100610_j61478161875059_2_alg».proof.Proof.RunK
import proofs.«100610_j61478161875059_2_alg».proof.Proof.AttnDataK

noncomputable section

namespace Cert.Kernel.Pack

open Idealize.ShloMosaic

/-- The first layer's attention call: its proof data, its arrays, shares and dues, the invariant's two ends, the body
    obligation, and that every pair is recorded. -/
def D1 {F : FTy → Type} [FloatOps F] : Cert.Kernel.Run.AttnData1 F :=
  ⟨Cert.Kernel.Attn.dat1, Cert.Kernel.Attn.A_eq1, Cert.Kernel.Attn.q_eq1, Cert.Kernel.Attn.owed1, Cert.Kernel.Attn.hin1,
    Cert.Kernel.Attn.hout1, Cert.Kernel.Attn.body_obligation1, Cert.Kernel.Attn.recorded1⟩
/-- The second layer's. -/
def D3 {F : FTy → Type} [FloatOps F] : Cert.Kernel.Run.AttnData3 F :=
  ⟨Cert.Kernel.Attn.dat3, Cert.Kernel.Attn.A_eq3, Cert.Kernel.Attn.q_eq3, Cert.Kernel.Attn.owed3, Cert.Kernel.Attn.hin3,
    Cert.Kernel.Attn.hout3, Cert.Kernel.Attn.body_obligation3, Cert.Kernel.Attn.recorded3⟩

theorem D1_dat {F : FTy → Type} [FloatOps F] : (D1 (F := F)).dat = Cert.Kernel.Attn.dat1 := rfl
theorem D3_dat {F : FTy → Type} [FloatOps F] : (D3 (F := F)).dat = Cert.Kernel.Attn.dat3 := rfl

end Cert.Kernel.Pack

end
-- ==== Proof.ProjBodyI.lean ====
/-
  The projection kernel's body as one step of separation logic.

  One grid point of the projection hands the body a block of 1024 rows of x (f32) and the two halves of the layer's
  weight, each 512×512, and two output buffers of 1024×512. The body loads the three inputs whole, multiplies the rows
  by each half (a contraction over the 512 columns of x, into a zero accumulator) and stores each product whole into its
  output buffer; the two loads it makes of the output buffers before storing are never used. So after the body the
  inputs are as they were and each output buffer holds ONE piece, the whole buffer, whose value is the product: the
  canon of a one-piece list.
-/
import proofs.«100610_j61478161875059_2_alg».proof.Proof.Gen.KernelIdeal.Launch
import proofs.«100610_j61478161875059_2_alg».proof.Proof.Gen.KernelIdeal.Skeleton
import proofs.«100610_j61478161875059_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024×512 buffer, as a rectangle. -/
abbrev rX : Rect S1024x512 := Rect.unit (s := S1024x512) ![0, 0] S1024x512.size inb_S1024x512_S1024x512_0_0
/-- The whole 512×512 buffer, as a rectangle. -/
abbrev rW : Rect S512x512 := Rect.unit (s := S512x512) ![0, 0] S512x512.size inb_S512x512_S512x512_0_0

/-- What the first output buffer holds after the body of the layer-0 projection: the rows of `x` times the first
    half `w` of the weight, stored as one whole piece. -/
def outH0 (x : Vec F S1024x512 .f32) (w : Vec F S512x512 .bf16) : Vec F S1024x512 .bf16 :=
  View.canon [⟨rX, k0_pay2 (View.ld x rX) (View.ld w rW)⟩]
/-- What the second output buffer holds: the rows of `x` times the second half of the weight. -/
def outS0 (x : Vec F S1024x512 .f32) (w : Vec F S512x512 .bf16) : Vec F S1024x512 .bf16 :=
  View.canon [⟨rX, k0_pay3 (View.ld x rX) (View.ld w rW)⟩]
/-- The same two for the layer-1 projection (the same body, printed a second time). -/
def outH2 (x : Vec F S1024x512 .f32) (w : Vec F S512x512 .bf16) : Vec F S1024x512 .bf16 :=
  View.canon [⟨rX, k2_pay2 (View.ld x rX) (View.ld w rW)⟩]
def outS2 (x : Vec F S1024x512 .f32) (w : Vec F S512x512 .bf16) : Vec F S1024x512 .bf16 :=
  View.canon [⟨rX, k2_pay3 (View.ld x rX) (View.ld w rW)⟩]

/-- One whole-buffer piece covers the buffer. -/
theorem cover (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

set_option maxHeartbeats 1000000 in
/-- The layer-0 projection's body on whole buffers: the inputs at `x`, `w1`, `w2` and the outputs at anything, it
    runs to the continuation with the inputs as they were and the outputs at the two products. -/
theorem sound_proj0 (c : Dev nD) (E : Set ℕ) (i : grid0.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x512 .bf16) (harg4 : arg4.IsWhole)
    (arg5 : Memref sig .tc .vmem S1024x512 .bf16) (harg5 : arg5.IsWhole)
    (x : Vec F S1024x512 .f32) (w1 w2 : Vec F S512x512 .bf16) (K : PUnit → sProp 𝕄) :
    iprop(owns (c : Thread nD τ) arg1 fullShare x ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w1 ∗ owns (c : Thread nD τ) arg3 fullShare w2
            ∗ owns (c : Thread nD τ) arg4 fullShare (outH0 x w1) ∗ owns (c : Thread nD τ) arg5 fullShare (outS0 x w2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, %hf4, H4⟩, ⟨%d5, %f5, %hf5, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  iexists _; isplitr
  swap; · iexact H5
  ipureintro
  exact View.read_writes_eq_canon _ _ _ (cover _)

set_option maxHeartbeats 1000000 in
/-- The layer-1 projection's body on whole buffers: the inputs at `x`, `w1`, `w2` and the outputs at anything, it
    runs to the continuation with the inputs as they were and the outputs at the two products. -/
theorem sound_proj2 (c : Dev nD) (E : Set ℕ) (i : grid2.Coords)
    (arg1 : Memref sig .tc .vmem S1024x512 .f32) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S1024x512 .bf16) (harg4 : arg4.IsWhole)
    (arg5 : Memref sig .tc .vmem S1024x512 .bf16) (harg5 : arg5.IsWhole)
    (x : Vec F S1024x512 .f32) (w1 w2 : Vec F S512x512 .bf16) (K : PUnit → sProp 𝕄) :
    iprop(owns (c : Thread nD τ) arg1 fullShare x ∗ owns (c : Thread nD τ) arg2 fullShare w1 ∗ owns (c : Thread nD τ) arg3 fullShare w2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w1 ∗ owns (c : Thread nD τ) arg3 fullShare w2
            ∗ owns (c : Thread nD τ) arg4 fullShare (outH2 x w1) ∗ owns (c : Thread nD τ) arg5 fullShare (outS2 x w2)) -∗ K ⟨⟩))
      ⊢ wp frame (wpE (defs₀ (F := F)) Variants.none c none) E (cc2__proj_kernel i arg1 harg1 arg2 harg2 arg3 harg3 arg4 harg4 arg5 harg5) K := by
  simp only [cc2__proj_kernel_eq_skeleton]; unfold cc2__proj_kernel_skel
  unfold owns
  iintro ⟨⟨%f1, %hf1, H1⟩, ⟨%f2, %hf2, H2⟩, ⟨%f3, %hf3, H3⟩, ⟨%d4, %f4, %hf4, H4⟩, ⟨%d5, %f5, %hf5, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover _)
  iexists _; isplitr
  swap; · iexact H5
  ipureintro
  exact View.read_writes_eq_canon _ _ _ (cover _)

end Cert.KernelIdeal.Proj

end
-- ==== Proof.ProjDataI.lean ====
/-
  The projection calls' proof data.

  A projection call walks 8 blocks of 1024 rows of its input; at each it holds the block and the two halves of the
  layer's weight (fetched once, at the first point, and left in place) and writes the two products' blocks back. Over
  the contents `V` the call is entered with, the proof data say what every window's buffer holds after the body at each
  point, and the body's one-step triple gives the pipeline's body obligation.
-/
import proofs.«100610_j61478161875059_2_alg».proof.Proof.ProjBodyI

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The layer-0 projection (pipeline 0), entered with the core's buffers at `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it
    there (an unfetched window's block index has not moved), for any proof data over the arrays `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (an unfetched window's block index has not moved), for any proof data over the arrays `V` whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (an unfetched window's block index has not moved), for any proof data over the arrays `V` whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection on core `c`: the arrays as the call finds them; after the body at point `t` the
    three inputs' buffers at their blocks, the first output's at the rows times the first weight half and the second
    output's at the rows times the second half; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outH0 (iblk0 V c 0 t) (iblk0 V c 1 t)
    | ⟨4, _⟩ => outS0 (iblk0 V c 0 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outH0 (iblk0 V c 0 t) (iblk0 V c 1 t) := by dsimp only [dat0]
theorem after0_4 (c : Dev nD) (t : Fin cfg0.N) : (dat0 V c).after 4 t = outS0 (iblk0 V c 0 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_proj0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # The layer-1 projection (pipeline 2), entered with the core's buffers at `V` -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the pipeline fetched it
    there (an unfetched window's block index has not moved), for any proof data over the arrays `V` whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether or not the pipeline fetched it
    there (an unfetched window's block index has not moved), for any proof data over the arrays `V` whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether or not the pipeline fetched it
    there (an unfetched window's block index has not moved), for any proof data over the arrays `V` whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of the projection on core `c`: the arrays as the call finds them; after the body at point `t` the
    three inputs' buffers at their blocks, the first output's at the rows times the first weight half and the second
    output's at the rows times the second half; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outH2 (iblk2 V c 0 t) (iblk2 V c 1 t)
    | ⟨4, _⟩ => outS2 (iblk2 V c 0 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outH2 (iblk2 V c 0 t) (iblk2 V c 1 t) := by dsimp only [dat2]
theorem after2_4 (c : Dev nD) (t : Fin cfg2.N) : (dat2 V c).after 4 t = outS2 (iblk2 V c 0 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_proj2 c Set.univ (grid2.coords t) _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Proj

end
-- ==== Proof.AttnSharesI.lean ====
/-
  The shares at which the attention call's six windows hold their arrays.

  The call reads the projected features twice: window 0 takes a block of 512 rows of them as the queries of a
  point, window 2 takes the whole array as the values, and both windows name the SAME array. An array held at the full
  share splits into its left and right halves, each enough to read it; so window 0 holds the shared array at the left
  half and window 2 at the right half, and the halves recombine to the full share when the call returns. Every other
  window (the keys, the adjacency mask, the residual input, the output) names an array of its own and holds it whole.
-/
import proofs.«100610_j61478161875059_2_alg».proof.Proof.Gen.KernelIdeal.Launch
import Idealize.ShloMosaic.Lib.Pipeline.FrameBody

noncomputable section

namespace Cert.KernelIdeal.Attn

open Idealize.ShloMosaic Idealize.SL Idealize.SL.RA

/-- Window 0 (the queries) at the left half, window 2 (the values) at the right half of the array they share; the
    others at the full share. -/
def qAttn : Fin 6 → PosShare TreeShare
  | ⟨0, _⟩ => fullShare.left
  | ⟨2, _⟩ => fullShare.right
  | _ => fullShare

theorem qAttn_0 : qAttn 0 = fullShare.left := rfl
theorem qAttn_1 : qAttn 1 = fullShare := rfl
theorem qAttn_2 : qAttn 2 = fullShare.right := rfl
theorem qAttn_3 : qAttn 3 = fullShare := rfl
theorem qAttn_4 : qAttn 4 = fullShare := rfl
theorem qAttn_5 : qAttn 5 = fullShare := rfl

end Cert.KernelIdeal.Attn

end
-- ==== Proof.SharedArraysI.lean ====
/-
  The attention calls' entry and exit, their windows 0 and 2 naming one array.

  Between two items of the program a core holds every unscoped buffer whole, at the full share. An attention call's
  pipeline takes each window's array at the window's share: the projected features, read through window 0 (a block of
  queries) and through window 2 (all the values), at the left and the right half of the full share, every other array
  whole. So at entry the shared array's points-to splits in two along the share, and at exit — both windows being
  inputs, which the pipeline never writes — the halves hold the same contents again and recombine.
-/
import proofs.«100610_j61478161875059_2_alg».proof.Proof.AttnSharesI
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The layer-0 attention call (pipeline 1): windows 0 and 2 on `main_v5_0` -/

/-- The distinct buffers behind the call's six windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5_0) ↦{fullShare} V main_v5_0) ∗ (((c : Thread nD τ).loc main_v5_1) ↦{fullShare} V main_v5_1)
          ∗ (((c : Thread nD τ).loc main_arg1) ↦{fullShare} V main_arg1) ∗ (((c : Thread nD τ).loc main_arg0) ↦{fullShare} V main_arg0)
          ∗ (((c : Thread nD τ).loc main_v6) ↦{fullShare} V main_v6)) := by
  unfold Pipeline.arrBufs
  rw [BI.bigSep_eq_bigSepL_of_eq [main_v5_0, main_v5_1, main_arg1, main_arg0, main_v6] (by decide) (by decide)]; rfl

/-- The share each window holds its array at: the output's the full share, an input's the proof data's. -/
theorem share1 {c : Dev nD} (dat : Dat τ (Elt F) Unit ℕ (UR sig nD τ) ℕ cfg1 c) (hq : dat.q = qAttn) (w : Fin cfg1.W) :
    dat.share w = if w = 5 then fullShare else qAttn w := by
  unfold Dat.share; rw [hq]
  revert w; decide

/-- The pipeline's arrays, window by window: the shared array's two halves with windows 0 and 2, the others whole. -/
theorem arrays1_eq {c : Dev nD} (dat : Dat τ (Elt F) Unit ℕ (UR sig nD τ) ℕ cfg1 c) (hq : dat.q = qAttn)
    (G : (w : Fin cfg1.W) → Buf (Elt F) ((cfg1.win w).arr.view.loc (c : Thread nD τ))) :
    (dat.arrays G : sProp 𝕄)
      = iprop((((c : Thread nD τ).loc main_v5_0) ↦{fullShare.left} G 0) ∗ (((c : Thread nD τ).loc main_v5_1) ↦{fullShare} G 1)
          ∗ (((c : Thread nD τ).loc main_v5_0) ↦{fullShare.right} G 2) ∗ (((c : Thread nD τ).loc main_arg1) ↦{fullShare} G 3)
          ∗ (((c : Thread nD τ).loc main_arg0) ↦{fullShare} G 4) ∗ (((c : Thread nD τ).loc main_v6) ↦{fullShare} G 5)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, (arr_whole1 5).set_eq_univ]
  rw [share1 dat hq 0, share1 dat hq 1, share1 dat hq 2, share1 dat hq 3, share1 dat hq 4, share1 dat hq 5]
  rfl

/-- ENTRY. The core's unscoped buffers whole at `V` are the pipeline's arrays at the proof data's entry contents — these
    read off `V` — beside the unscoped buffers that are no window's array: the shared array's full share splits into
    its left half, for window 0, and its right half, for window 2. -/
theorem arrays_of_unscopedBufs1 {c : Dev nD} (dat : Dat τ (Elt F) Unit ℕ (UR sig nD τ) ℕ cfg1 c) (hq : dat.q = qAttn)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  have hsplit : (unscopedBufs c V : sProp 𝕄) = iprop(Pipeline.arrBufs spec1 c V ∗ Pipeline.unscopedRest spec1 c V) :=
    Pipeline.unscopedBufs_split₀ cfgs (1 : Fin 4) winFacts₀1.arr_unscoped c V
  rw [hsplit, arrBufs1_eq, arrays1_eq dat hq]
  beta_reduce
  rw [show dat.arrAt 0 0 = V main_v5_0 from hA 0, show dat.arrAt 1 0 = V main_v5_1 from hA 1, show dat.arrAt 2 0 = V main_v5_0 from hA 2,
    show dat.arrAt 3 0 = V main_arg1 from hA 3, show dat.arrAt 4 0 = V main_arg0 from hA 4, show dat.arrAt 5 0 = V main_v6 from hA 5]
  iintro ⟨⟨H0, H1, H3, H4, H5⟩, Hrest⟩
  ihave H := (pointsTo_share (PosShare.mem_left_op_right fullShare)).1 $$ H0
  icases H with ⟨HL, HR⟩
  isplitr [Hrest]
  · isplitl [HL]; · iexact HL
    isplitl [H1]; · iexact H1
    isplitl [HR]; · iexact HR
    isplitl [H3]; · iexact H3
    isplitl [H4]; · iexact H4
    iexact H5
  iexact Hrest

/-- EXIT. The pipeline's arrays at what its write-backs leave — every input as entered, the two halves of the shared
    array recombined — beside the bypassing buffers at `V` are the core's unscoped buffers whole at any `V'` that has the
    output's array at what the pipeline leaves there and agrees with `V` elsewhere. -/
theorem unscopedBufs_of_arrays1 {c : Dev nD} (dat : Dat τ (Elt F) Unit ℕ (UR sig nD τ) ℕ cfg1 c) (hq : dat.q = qAttn)
    (V V' : (b : Ref sig .tc) → Buf (Elt F) ((c : Thread nD τ).loc b)) (hA : ∀ w, dat.A w = V (Pipeline.arrRef spec1 w))
    (hF : dat.arrAt 5 cfg1.N = V' main_v6) (hrest : ∀ b : Ref sig .tc, b ≠ main_v6 → V' b = V b) :
    iprop(dat.arrays (dat.arrAt · cfg1.N) ∗ Pipeline.unscopedRest spec1 c V) ⊢ (unscopedBufs c V' : sProp 𝕄) := by
  have hR : (Pipeline.unscopedRest (Ix := Unit) (Name := ℕ) (U := UR sig nD τ) (Lvl := ℕ) spec1 c V' : sProp 𝕄)
      = Pipeline.unscopedRest spec1 c V := by
    unfold Pipeline.unscopedRest
    exact bigSep_congr fun b hb => by
      rw [hrest b fun h => (Finset.mem_sdiff.mp hb).2 (h ▸ Finset.mem_image.mpr ⟨5, Finset.mem_univ _, rfl⟩)]
  have hsplit : (unscopedBufs c V' : sProp 𝕄) = iprop(Pipeline.arrBufs spec1 c V' ∗ Pipeline.unscopedRest spec1 c V') :=
    Pipeline.unscopedBufs_split₀ cfgs (1 : Fin 4) winFacts₀1.arr_unscoped c V'
  rw [hsplit, arrBufs1_eq, arrays1_eq dat hq, hR]
  beta_reduce
  rw [show dat.arrAt 0 cfg1.N = V' main_v5_0 from ((dat.arrAt_in 0 rfl _).trans (hA 0)).trans (hrest main_v5_0 (by decide)).symm,
    show dat.arrAt 1 cfg1.N = V' main_v5_1 from ((dat.arrAt_in 1 rfl _).trans (hA 1)).trans (hrest main_v5_1 (by decide)).symm,
    show dat.arrAt 2 cfg1.N = V' main_v5_0 from ((dat.arrAt_in 2 rfl _).trans (hA 2)).trans (hrest main_v5_0 (by decide)).symm,
    show dat.arrAt 3 cfg1.N = V' main_arg1 from ((dat.arrAt_in 3 rfl _).trans (hA 3)).trans (hrest main_arg1 (by decide)).symm,
    show dat.arrAt 4 cfg1.N = V' main_arg0 from ((dat.arrAt_in 4 rfl _).trans (hA 4)).trans (hrest main_arg0 (by decide)).symm,
    hF]
  iintro ⟨⟨HL, H1, HR, H3, H4, H5⟩, Hrest⟩
  ihave H0 := (pointsTo_share (PosShare.mem_left_op_right fullShare)).2 $$ [HL HR]
  · isplitl [HL]; · iexact HL
    iexact HR
  isplitr [Hrest]
  · isplitl [H0]; · iexact H0
    isplitl [H1]; · iexact H1
    isplitl [H3]; · iexact H3
    isplitl [H4]; · iexact H4
    iexact H5
  iexact Hrest

/-! # The layer-1 attention call (pipeline 3): windows 0 and 2 on `main_v11_0` -/

/-- The distinct buffers behind the call's six windows, one by one. -/
theorem arrBufs3_eq (c : Dev nD) (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v11_0) ↦{fullShare} V main_v11_0) ∗ (((c : Thread nD τ).loc main_v11_1) ↦{fullShare} V main_v11_1)
          ∗ (((c : Thread nD τ).loc main_arg1) ↦{fullShare} V main_arg1) ∗ (((c : Thread nD τ).loc main_v6) ↦{fullShare} V main_v6)
          ∗ (((c : Thread nD τ).loc main_v12) ↦{fullShare} V main_v12)) := by
  unfold Pipeline.arrBufs
  rw [BI.bigSep_eq_bigSepL_of_eq [main_v11_0, main_v11_1, main_arg1, main_v6, main_v12] (by decide) (by decide)]; rfl

/-- The share each window holds its array at: the output's the full share, an input's the proof data's. -/
theorem share3 {c : Dev nD} (dat : Dat τ (Elt F) Unit ℕ (UR sig nD τ) ℕ cfg3 c) (hq : dat.q = qAttn) (w : Fin cfg3.W) :
    dat.share w = if w = 5 then fullShare else qAttn w := by
  unfold Dat.share; rw [hq]
  revert w; decide

/-- The pipeline's arrays, window by window: the shared array's two halves with windows 0 and 2, the others whole. -/
theorem arrays3_eq {c : Dev nD} (dat : Dat τ (Elt F) Unit ℕ (UR sig nD τ) ℕ cfg3 c) (hq : dat.q = qAttn)
    (G : (w : Fin cfg3.W) → Buf (Elt F) ((cfg3.win w).arr.view.loc (c : Thread nD τ))) :
    (dat.arrays G : sProp 𝕄)
      = iprop((((c : Thread nD τ).loc main_v11_0) ↦{fullShare.left} G 0) ∗ (((c : Thread nD τ).loc main_v11_1) ↦{fullShare} G 1)
          ∗ (((c : Thread nD τ).loc main_v11_0) ↦{fullShare.right} G 2) ∗ (((c : Thread nD τ).loc main_arg1) ↦{fullShare} G 3)
          ∗ (((c : Thread nD τ).loc main_v6) ↦{fullShare} G 4) ∗ (((c : Thread nD τ).loc main_v12) ↦{fullShare} G 5)) := by
  unfold Dat.arrays
  rw [bigSep_W3]
  simp only [(arr_whole3 0).set_eq_univ, (arr_whole3 1).set_eq_univ, (arr_whole3 2).set_eq_univ, (arr_whole3 3).set_eq_univ,
    (arr_whole3 4).set_eq_univ, (arr_whole3 5).set_eq_univ]
  rw [share3 dat hq 0, share3 dat hq 1, share3 dat hq 2, share3 dat hq 3, share3 dat hq 4, share3 dat hq 5]
  rfl

/-- ENTRY. The core's unscoped buffers whole at `V` are the pipeline's arrays at the proof data's entry contents — these
    read off `V` — beside the unscoped buffers that are no window's array: the shared array's full share splits into
    its left half, for window 0, and its right half, for window 2. -/
theorem arrays_of_unscopedBufs3 {c : Dev nD} (dat : Dat τ (Elt F) Unit ℕ (UR sig nD τ) ℕ cfg3 c) (hq : dat.q = qAttn)
    (V : (b : Ref sig .tc) → Buf (Elt F) ((c : Thread nD τ).loc b)) (hA : ∀ w, dat.A w = V (Pipeline.arrRef spec3 w)) :
    (unscopedBufs c V : sProp 𝕄) ⊢ iprop(dat.arrays (dat.arrAt · 0) ∗ Pipeline.unscopedRest spec3 c V) := by
  have hsplit : (unscopedBufs c V : sProp 𝕄) = iprop(Pipeline.arrBufs spec3 c V ∗ Pipeline.unscopedRest spec3 c V) :=
    Pipeline.unscopedBufs_split₀ cfgs (3 : Fin 4) winFacts₀3.arr_unscoped c V
  rw [hsplit, arrBufs3_eq, arrays3_eq dat hq]
  beta_reduce
  rw [show dat.arrAt 0 0 = V main_v11_0 from hA 0, show dat.arrAt 1 0 = V main_v11_1 from hA 1, show dat.arrAt 2 0 = V main_v11_0 from hA 2,
    show dat.arrAt 3 0 = V main_arg1 from hA 3, show dat.arrAt 4 0 = V main_v6 from hA 4, show dat.arrAt 5 0 = V main_v12 from hA 5]
  iintro ⟨⟨H0, H1, H3, H4, H5⟩, Hrest⟩
  ihave H := (pointsTo_share (PosShare.mem_left_op_right fullShare)).1 $$ H0
  icases H with ⟨HL, HR⟩
  isplitr [Hrest]
  · isplitl [HL]; · iexact HL
    isplitl [H1]; · iexact H1
    isplitl [HR]; · iexact HR
    isplitl [H3]; · iexact H3
    isplitl [H4]; · iexact H4
    iexact H5
  iexact Hrest

/-- EXIT. The pipeline's arrays at what its write-backs leave — every input as entered, the two halves of the shared
    array recombined — beside the bypassing buffers at `V` are the core's unscoped buffers whole at any `V'` that has the
    output's array at what the pipeline leaves there and agrees with `V` elsewhere. -/
theorem unscopedBufs_of_arrays3 {c : Dev nD} (dat : Dat τ (Elt F) Unit ℕ (UR sig nD τ) ℕ cfg3 c) (hq : dat.q = qAttn)
    (V V' : (b : Ref sig .tc) → Buf (Elt F) ((c : Thread nD τ).loc b)) (hA : ∀ w, dat.A w = V (Pipeline.arrRef spec3 w))
    (hF : dat.arrAt 5 cfg3.N = V' main_v12) (hrest : ∀ b : Ref sig .tc, b ≠ main_v12 → V' b = V b) :
    iprop(dat.arrays (dat.arrAt · cfg3.N) ∗ Pipeline.unscopedRest spec3 c V) ⊢ (unscopedBufs c V' : sProp 𝕄) := by
  have hR : (Pipeline.unscopedRest (Ix := Unit) (Name := ℕ) (U := UR sig nD τ) (Lvl := ℕ) spec3 c V' : sProp 𝕄)
      = Pipeline.unscopedRest spec3 c V := by
    unfold Pipeline.unscopedRest
    exact bigSep_congr fun b hb => by
      rw [hrest b fun h => (Finset.mem_sdiff.mp hb).2 (h ▸ Finset.mem_image.mpr ⟨5, Finset.mem_univ _, rfl⟩)]
  have hsplit : (unscopedBufs c V' : sProp 𝕄) = iprop(Pipeline.arrBufs spec3 c V' ∗ Pipeline.unscopedRest spec3 c V') :=
    Pipeline.unscopedBufs_split₀ cfgs (3 : Fin 4) winFacts₀3.arr_unscoped c V'
  rw [hsplit, arrBufs3_eq, arrays3_eq dat hq, hR]
  beta_reduce
  rw [show dat.arrAt 0 cfg3.N = V' main_v11_0 from ((dat.arrAt_in 0 rfl _).trans (hA 0)).trans (hrest main_v11_0 (by decide)).symm,
    show dat.arrAt 1 cfg3.N = V' main_v11_1 from ((dat.arrAt_in 1 rfl _).trans (hA 1)).trans (hrest main_v11_1 (by decide)).symm,
    show dat.arrAt 2 cfg3.N = V' main_v11_0 from ((dat.arrAt_in 2 rfl _).trans (hA 2)).trans (hrest main_v11_0 (by decide)).symm,
    show dat.arrAt 3 cfg3.N = V' main_arg1 from ((dat.arrAt_in 3 rfl _).trans (hA 3)).trans (hrest main_arg1 (by decide)).symm,
    show dat.arrAt 4 cfg3.N = V' main_v6 from ((dat.arrAt_in 4 rfl _).trans (hA 4)).trans (hrest main_v6 (by decide)).symm,
    hF]
  iintro ⟨⟨HL, H1, HR, H3, H4, H5⟩, Hrest⟩
  ihave H0 := (pointsTo_share (PosShare.mem_left_op_right fullShare)).2 $$ [HL HR]
  · isplitl [HL]; · iexact HL
    iexact HR
  isplitr [Hrest]
  · isplitl [H0]; · iexact H0
    isplitl [H1]; · iexact H1
    isplitl [H3]; · iexact H3
    isplitl [H4]; · iexact H4
    iexact H5
  iexact Hrest

end Cert.KernelIdeal.Attn

end
-- ==== Proof.RunI.lean ====
/-
  The run of @main through its four kernel calls.

  Between two items of @main a core holds every unscoped buffer whole at a known valuation: the launch memory, then
  what the first host stretch computes from it, then each call's arrays at what its pipeline's write-backs leave and
  every other buffer untouched, and so on to the return. Each call is entered by splitting its windows' arrays out of
  that state and left by putting them back at the next valuation; the attention calls, whose windows 0 and 2 read one
  array, split and rejoin that array along its share. The last valuation, read against a final memory, gives the
  result buffer as the last call's pipeline leaves it and the three arguments as launched.
-/
import proofs.«100610_j61478161875059_2_alg».proof.Proof.ProjDataI
import proofs.«100610_j61478161875059_2_alg».proof.Proof.SharedArraysI
import proofs.«100610_j61478161875059_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Proj Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers as a call's proof data take them: one buffer per TensorCore reference. -/
abbrev Vals (F : FTy → Type) : Type := (c : Dev nD) → (b : Ref sig .tc) → Buf (Elt F) ((c : Thread nD τ).loc b)

/-- What the run needs of the layer-0 attention call: its proof data over any entry contents, reading its arrays
    off them, holding the shared array's halves, owing nothing, over the class invariant, with the body's obligation. -/
structure AttnData1 (F : FTy → Type) [FloatOps F] where
  dat : Vals F → (c : Dev nD) → Dat τ (Elt F) Unit ℕ (UR sig nD τ) ℕ cfg1 c
  A_eq : ∀ V c w, (dat V c).A w = V c (Pipeline.arrRef spec1 w)
  q_eq : ∀ V c, (dat V c).q = qAttn
  owed : ∀ V c t, (dat V c).owed t = 0
  hin : ∀ V c, Pipeline.ΦA spec1 c ⊢ (dat V c).Φ 0
  hout : ∀ V c, (dat V c).Φ (Fin.last cfg1.N) ⊢ Pipeline.ΦA spec1 c
  body_obligation : ∀ V c, BodyObligation (dat V c) (defs₀ (F := F)) Variants.none () Set.univ
  recorded : ∀ V c, (dat V c).recorded 0 = Set.univ

/-- The same of the layer-1 attention call. -/
structure AttnData3 (F : FTy → Type) [FloatOps F] where
  dat : Vals F → (c : Dev nD) → Dat τ (Elt F) Unit ℕ (UR sig nD τ) ℕ cfg3 c
  A_eq : ∀ V c w, (dat V c).A w = V c (Pipeline.arrRef spec3 w)
  q_eq : ∀ V c, (dat V c).q = qAttn
  owed : ∀ V c t, (dat V c).owed t = 0
  hin : ∀ V c, Pipeline.ΦA spec3 c ⊢ (dat V c).Φ 0
  hout : ∀ V c, (dat V c).Φ (Fin.last cfg3.N) ⊢ Pipeline.ΦA spec3 c
  body_obligation : ∀ V c, BodyObligation (dat V c) (defs₀ (F := F)) Variants.none () Set.univ
  recorded : ∀ V c, (dat V c).recorded 0 = Set.univ

variable (D1 : AttnData1 F) (D3 : AttnData3 F)
variable (m : (ℓ : Loc nD τ sig) → Buf (Elt F) ℓ)

/-! ## The buffers' contents between items -/

/-- Core `c`'s buffers at launch. -/
abbrev W0 (c : Dev nD) : Valuation τ sig (Elt F) := fun b => m (c, b)
abbrev V0 : Vals F := fun c b => W0 m c b
/-- After the first host stretch. -/
abbrev W1 (c : Dev nD) : Valuation τ sig (Elt F) := StableHlo.after hostOps0 (W0 m c)
abbrev V1 : Vals F := fun c b => W1 m c b
/-- After the layer-0 projection: its arrays at what the pipeline leaves, every other buffer as entered. -/
def W2 (c : Dev nD) : Valuation τ sig (Elt F) :=
  Pipeline.withArrays spec0 c (W1 m c) fun w => (dat0 (V1 m) c).arrAt w cfg0.N
abbrev V2 : Vals F := fun c b => W2 m c b
/-- After the layer-0 attention call: its output's array at what the pipeline leaves, every other buffer as entered. -/
def W3 (c : Dev nD) : Valuation τ sig (Elt F) :=
  Function.update (W2 m c) main_v6 ((D1.dat (V2 m) c).arrAt 5 cfg1.N : Buf (Elt F) ((c : Thread nD τ).loc main_v6))
abbrev V3 : Vals F := fun c b => W3 D1 m c b
/-- After the second host stretch. -/
abbrev W4 (c : Dev nD) : Valuation τ sig (Elt F) := StableHlo.after hostOps2 (W3 D1 m c)
abbrev V4 : Vals F := fun c b => W4 D1 m c b
/-- After the layer-1 projection. -/
def W5 (c : Dev nD) : Valuation τ sig (Elt F) :=
  Pipeline.withArrays spec2 c (W4 D1 m c) fun w => (dat2 (V4 D1 m) c).arrAt w cfg2.N
abbrev V5 : Vals F := fun c b => W5 D1 m c b
/-- After the layer-1 attention call: the return. -/
def W6 (c : Dev nD) : Valuation τ sig (Elt F) :=
  Function.update (W5 D1 m c) main_v12 ((D3.dat (V5 D1 m) c).arrAt 5 cfg3.N : Buf (Elt F) ((c : Thread nD τ).loc main_v12))
abbrev V6 : Vals F := fun c b => W6 D1 D3 m c b

/-! ### What each item changes and what it leaves -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_main_v6 (c : Dev nD) : W3 D1 m c (Proc.devRef .tc main_v6) = (D1.dat (V2 m) c).arrAt 5 cfg1.N := by
  unfold W3; exact Function.update_self ..
theorem W3_of_ne (c : Dev nD) (b : Ref sig .tc) (hb : b ≠ main_v6) : W3 D1 m c (Proc.devRef .tc b) = W2 m c (Proc.devRef .tc b) := by
  unfold W3; exact Function.update_of_ne (StableHlo.devRef_ne_of_ne hb) ..
theorem W4_of (c : Dev nD) (r : Ref sig .tc) (h : r ∉ hostOps2_W) : W4 D1 m c (Proc.devRef .tc r) = W3 D1 m c (Proc.devRef .tc r) :=
  StableHlo.after_of_writes_sub hostOps2 _ hostOps2_writes h
theorem W5_arr (c : Dev nD) (w : Fin cfg2.W) :
    W5 D1 m c (Proc.devRef .tc (Pipeline.arrRef spec2 w)) = (dat2 (V4 D1 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 D1 m c (Proc.devRef .tc b) = W4 D1 m c (Proc.devRef .tc b) := by
  unfold W5; exact Pipeline.withArrays_of_ne spec2 c _ _ b hb
theorem W6_main_v12 (c : Dev nD) : W6 D1 D3 m c (Proc.devRef .tc main_v12) = (D3.dat (V5 D1 m) c).arrAt 5 cfg3.N := by
  unfold W6; exact Function.update_self ..
theorem W6_of_ne (c : Dev nD) (b : Ref sig .tc) (hb : b ≠ main_v12) : W6 D1 D3 m c (Proc.devRef .tc b) = W5 D1 m c (Proc.devRef .tc b) := by
  unfold W6; exact Function.update_of_ne (StableHlo.devRef_ne_of_ne hb) ..

/-- At a projection's exit each of its arrays holds what the pipeline leaves and every other buffer what it held at
    entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF2 (c : Dev nD) (w : Fin cfg2.W) : (dat2 (V4 D1 m) c).arrAt w cfg2.N = V5 D1 m c (Pipeline.arrRef spec2 w) :=
  (W5_arr D1 m c w).symm
theorem hrest2 (c : Dev nD) : ∀ b, b ∉ Finset.univ.image (Pipeline.arrRef spec2) → V5 D1 m c b = V4 D1 m c b :=
  fun b hb => W5_of_ne D1 m c b fun w e => hb (Finset.mem_image.mpr ⟨w, Finset.mem_univ _, e⟩)

/-! ### What each call finds in its arrays -/

/-- The layer-0 projection reads the argument `main_arg0` as launched and the two weight halves the first host stretch
    cuts out. -/
theorem V1_main_arg0 (c : Dev nD) : V1 m c main_arg0 = m ((c : Thread nD τ).loc main_arg0) := W1_of m c main_arg0 (by decide)
theorem V1_main_arg1 (c : Dev nD) : V1 m c main_arg1 = m ((c : Thread nD τ).loc main_arg1) := W1_of m c main_arg1 (by decide)
theorem V1_main_arg2 (c : Dev nD) : V1 m c main_arg2 = m ((c : Thread nD τ).loc main_arg2) := W1_of m c main_arg2 (by decide)
/-- The layer-0 attention call reads the projection's two outputs, and the arguments as launched. -/
theorem V2_main_v5_0 (c : Dev nD) : V2 m c main_v5_0 = (dat0 (V1 m) c).arrAt 3 cfg0.N := W2_arr m c 3
theorem V2_main_v5_1 (c : Dev nD) : V2 m c main_v5_1 = (dat0 (V1 m) c).arrAt 4 cfg0.N := W2_arr m c 4
theorem V2_main_arg0 (c : Dev nD) : V2 m c main_arg0 = m ((c : Thread nD τ).loc main_arg0) :=
  (W2_arr m c 0).trans (((dat0 (V1 m) c).arrAt_in 0 rfl _).trans ((A_eq0 (V1 m) c 0).trans (V1_main_arg0 m c)))
theorem V2_main_arg1 (c : Dev nD) : V2 m c main_arg1 = m ((c : Thread nD τ).loc main_arg1) :=
  (W2_of_ne m c main_arg1 (by decide)).trans (V1_main_arg1 m c)
theorem V2_main_arg2 (c : Dev nD) : V2 m c main_arg2 = m ((c : Thread nD τ).loc main_arg2) :=
  (W2_of_ne m c main_arg2 (by decide)).trans (V1_main_arg2 m c)
theorem V2_main_v0 (c : Dev nD) : V2 m c main_v0 = V1 m c main_v0 := W2_of_ne m c main_v0 (by decide)
/-- After the layer-0 attention call: its output, and everything else as before it. -/
theorem V3_main_v6 (c : Dev nD) : V3 D1 m c main_v6 = (D1.dat (V2 m) c).arrAt 5 cfg1.N := W3_main_v6 D1 m c
theorem V3_main_arg0 (c : Dev nD) : V3 D1 m c main_arg0 = m ((c : Thread nD τ).loc main_arg0) :=
  (W3_of_ne D1 m c main_arg0 (by decide)).trans (V2_main_arg0 m c)
theorem V3_main_arg1 (c : Dev nD) : V3 D1 m c main_arg1 = m ((c : Thread nD τ).loc main_arg1) :=
  (W3_of_ne D1 m c main_arg1 (by decide)).trans (V2_main_arg1 m c)
theorem V3_main_arg2 (c : Dev nD) : V3 D1 m c main_arg2 = m ((c : Thread nD τ).loc main_arg2) :=
  (W3_of_ne D1 m c main_arg2 (by decide)).trans (V2_main_arg2 m c)
theorem V3_main_v0 (c : Dev nD) : V3 D1 m c main_v0 = V1 m c main_v0 :=
  (W3_of_ne D1 m c main_v0 (by decide)).trans (V2_main_v0 m c)
/-- The layer-1 projection reads the first attention call's output and the two weight halves the second host stretch
    cuts out. -/
theorem V4_main_v6 (c : Dev nD) : V4 D1 m c main_v6 = (D1.dat (V2 m) c).arrAt 5 cfg1.N :=
  (W4_of D1 m c main_v6 (by decide)).trans (V3_main_v6 D1 m c)
theorem V4_main_arg0 (c : Dev nD) : V4 D1 m c main_arg0 = m ((c : Thread nD τ).loc main_arg0) :=
  (W4_of D1 m c main_arg0 (by decide)).trans (V3_main_arg0 D1 m c)
theorem V4_main_arg1 (c : Dev nD) : V4 D1 m c main_arg1 = m ((c : Thread nD τ).loc main_arg1) :=
  (W4_of D1 m c main_arg1 (by decide)).trans (V3_main_arg1 D1 m c)
theorem V4_main_arg2 (c : Dev nD) : V4 D1 m c main_arg2 = m ((c : Thread nD τ).loc main_arg2) :=
  (W4_of D1 m c main_arg2 (by decide)).trans (V3_main_arg2 D1 m c)
/-- The layer-1 attention call reads the layer-1 projection's two outputs, the adjacency as launched and the first
    attention call's output. -/
theorem V5_main_v11_0 (c : Dev nD) : V5 D1 m c main_v11_0 = (dat2 (V4 D1 m) c).arrAt 3 cfg2.N := W5_arr D1 m c 3
theorem V5_main_v11_1 (c : Dev nD) : V5 D1 m c main_v11_1 = (dat2 (V4 D1 m) c).arrAt 4 cfg2.N := W5_arr D1 m c 4
theorem V5_main_v6 (c : Dev nD) : V5 D1 m c main_v6 = (D1.dat (V2 m) c).arrAt 5 cfg1.N :=
  (W5_arr D1 m c 0).trans (((dat2 (V4 D1 m) c).arrAt_in 0 rfl _).trans ((A_eq2 (V4 D1 m) c 0).trans (V4_main_v6 D1 m c)))
theorem V5_main_arg0 (c : Dev nD) : V5 D1 m c main_arg0 = m ((c : Thread nD τ).loc main_arg0) :=
  (W5_of_ne D1 m c main_arg0 (by decide)).trans (V4_main_arg0 D1 m c)
theorem V5_main_arg1 (c : Dev nD) : V5 D1 m c main_arg1 = m ((c : Thread nD τ).loc main_arg1) :=
  (W5_of_ne D1 m c main_arg1 (by decide)).trans (V4_main_arg1 D1 m c)
theorem V5_main_arg2 (c : Dev nD) : V5 D1 m c main_arg2 = m ((c : Thread nD τ).loc main_arg2) :=
  (W5_of_ne D1 m c main_arg2 (by decide)).trans (V4_main_arg2 D1 m c)
/-- At the return: the result, and the arguments as launched. -/
theorem W6_main_arg0 (c : Dev nD) : W6 D1 D3 m c (Proc.devRef .tc main_arg0) = m ((c : Thread nD τ).loc main_arg0) :=
  (W6_of_ne D1 D3 m c main_arg0 (by decide)).trans (V5_main_arg0 D1 m c)
theorem W6_main_arg1 (c : Dev nD) : W6 D1 D3 m c (Proc.devRef .tc main_arg1) = m ((c : Thread nD τ).loc main_arg1) :=
  (W6_of_ne D1 D3 m c main_arg1 (by decide)).trans (V5_main_arg1 D1 m c)
theorem W6_main_arg2 (c : Dev nD) : W6 D1 D3 m c (Proc.devRef .tc main_arg2) = m ((c : Thread nD τ).loc main_arg2) :=
  (W6_of_ne D1 D3 m c main_arg2 (by decide)).trans (V5_main_arg2 D1 m c)

/-! ## The proof data family and the thread state -/

/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => D1.dat (V2 m) c
  | ⟨2, _⟩ => fun c => dat2 (V4 D1 m) c
  | ⟨3, _⟩ => fun c => D3.dat (V5 D1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W6 D1 D3 m c) ∗ ∃ r, prngReg c r)

/-! ## The calls as segments -/

-- a library lemma stated over `pin pcs a p` unifies with the pinned configuration only when unification may unfold
-- plain definitions in a metavariable's type
set_option backward.isDefEq.respectTransparency.types false in
/-- The layer-0 projection over the thread state: its five arrays (distinct buffers) split out of the unscoped
    buffers at entry and put back at the exit contents; the generator register into the class invariant and out. -/
def reg0 : Pipeline.RegionSeg (pcfgs (F := F)) adm (pdats D1 D3 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats D1 D3 m) launch0.win launch0.arr_whole c
      ((pdats D1 D3 m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D1 D3 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats D1 D3 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D1 D3 m) ((pdats D1 D3 m 0 c).share_full fun _ => rfl)
      (V1 m c) (V2 m c) ((pdats D1 D3 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- The layer-0 attention call over the thread state: at entry the array its windows 0 and 2 share splits into
    its two half shares, the other four arrays whole; at exit the halves recombine and the output's array holds what
    the pipeline leaves; the generator register into the invariant and out. -/
def reg1 : Pipeline.RegionSeg (pcfgs (F := F)) adm (pdats D1 D3 m) () defs₀ 𝒱₀ L lv 1 where
  win := winFacts₀1
  block_pos := block_pos1
  stage_whole := stage_whole1
  K := PEmpty
  osem k := k.elim
  ho := Pipeline.OwnSemFacts.none _
  hbody c := (D1.body_obligation (V2 m) c).loose
  hwaits := Pipeline.hwaits_of_owed_zero _ _ _ _ L lv 1 fun c t => D1.owed (V2 m) c t
  pre c := iprop(StableHlo.held (c : Thread nD τ) (Pipeline.ucRefs τ sig) (W2 m c) ∗ R c)
  post c := iprop(StableHlo.held (c : Thread nD τ) (Pipeline.ucRefs τ sig) (W3 D1 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs1 (pdats D1 D3 m 1 c) (D1.q_eq (V2 m) c) (V2 m c) (D1.A_eq (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D1 D3 m 1 c).owed 0 = 0 from D1.owed (V2 m) c 0]
      have hrec : (pdats D1 D3 m 1 c).recorded 0 = Set.univ := D1.recorded (V2 m) c
      icases HO with ⟨%W, HO⟩; iexists W; isplitr
      · ipureintro; exact fun x _ => Set.mem_union_left _ (show x ∈ (pdats D1 D3 m 1 c).recorded 0 from hrec ▸ Set.mem_univ x)
      iexact HO
    isplitl [Hp]; · iexact Hp
    iexact Hrest
  hin c := by
    refine BIBase.Entails.trans ?_ (D1.hin (V2 m) c); unfold Pipeline.ΦA
    iintro ⟨Hp, -, Hr⟩
    isplitl [Hr]; · iexact Hr
    iexact Hp
  hout c := by
    rw [Pipeline.ownSems0_none]
    refine BIBase.Entails.trans (D1.hout (V2 m) c) ?_; unfold Pipeline.ΦA
    iintro ⟨Hr, Hp⟩
    isplitl [Hp]; · iexact Hp
    isplitr; · iempintro
    iexact Hr
  hexit c := by
    have hjoin := unscopedBufs_of_arrays1 (pdats D1 D3 m 1 c) (D1.q_eq (V2 m) c) (V2 m c) (V3 D1 m c) (D1.A_eq (V2 m) c)
      (W3_main_v6 D1 m c).symm (fun b hb => W3_of_ne D1 m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats D1 D3 m 1 c).owed (Fin.last _) = 0 from D1.owed (V2 m) c _]
    icases HO with ⟨%W, -, HO⟩; iexists W; iexact HO

-- a library lemma stated over `pin pcs a p` unifies with the pinned configuration only when unification may unfold
-- plain definitions in a metavariable's type
set_option backward.isDefEq.respectTransparency.types false in
/-- The layer-1 projection over the thread state: its five arrays (distinct buffers) split out of the unscoped
    buffers at entry and put back at the exit contents; the generator register into the class invariant and out. -/
def reg2 : Pipeline.RegionSeg (pcfgs (F := F)) adm (pdats D1 D3 m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 D1 m) c).loose
  hwaits := Pipeline.hwaits_of_owed_zero _ _ _ _ L lv 2 fun _ _ => rfl
  pre c := iprop(StableHlo.held (c : Thread nD τ) (Pipeline.ucRefs τ sig) (W4 D1 m c) ∗ R c)
  post c := iprop(StableHlo.held (c : Thread nD τ) (Pipeline.ucRefs τ sig) (W5 D1 m c) ∗ R c)
  X c := iprop(∃ r, prngReg c r)
  Y c := iprop(∃ r, prngReg c r)
  Z c := Pipeline.unscopedRest (Ix := Unit) (Name := ℕ) (U := UR sig nD τ) (Lvl := ℕ) spec2 c (V4 D1 m c)
  hentry c := by
    rw [Pipeline.ownSems0_none]
    have hsplit := Pipeline.arrays_of_unscopedBufs (p := 2) (pcfgs (F := F)) adm (pdats D1 D3 m) launch2.win launch2.arr_whole c
      ((pdats D1 D3 m 2 c).share_full fun _ => rfl) (V4 D1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats D1 D3 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats D1 D3 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D1 D3 m) ((pdats D1 D3 m 2 c).share_full fun _ => rfl)
      (V4 D1 m c) (V5 D1 m c) ((pdats D1 D3 m 2 c).arrAt · cfg2.N) (hF2 D1 m c) (hrest2 D1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- The layer-1 attention call over the thread state: at entry the array its windows 0 and 2 share splits into
    its two half shares, the other four arrays whole; at exit the halves recombine and the output's array holds what
    the pipeline leaves; the generator register into the invariant and out. -/
def reg3 : Pipeline.RegionSeg (pcfgs (F := F)) adm (pdats D1 D3 m) () defs₀ 𝒱₀ L lv 3 where
  win := winFacts₀3
  block_pos := block_pos3
  stage_whole := stage_whole3
  K := PEmpty
  osem k := k.elim
  ho := Pipeline.OwnSemFacts.none _
  hbody c := (D3.body_obligation (V5 D1 m) c).loose
  hwaits := Pipeline.hwaits_of_owed_zero _ _ _ _ L lv 3 fun c t => D3.owed (V5 D1 m) c t
  pre c := iprop(StableHlo.held (c : Thread nD τ) (Pipeline.ucRefs τ sig) (W5 D1 m c) ∗ R c)
  post c := iprop(Tₙ D1 D3 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 D1 m c)
  hentry c := by
    rw [Pipeline.ownSems0_none]
    have hsplit := arrays_of_unscopedBufs3 (pdats D1 D3 m 3 c) (D3.q_eq (V5 D1 m) c) (V5 D1 m c) (D3.A_eq (V5 D1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats D1 D3 m 3 c).owed 0 = 0 from D3.owed (V5 D1 m) c 0]
      have hrec : (pdats D1 D3 m 3 c).recorded 0 = Set.univ := D3.recorded (V5 D1 m) c
      icases HO with ⟨%W, HO⟩; iexists W; isplitr
      · ipureintro; exact fun x _ => Set.mem_union_left _ (show x ∈ (pdats D1 D3 m 3 c).recorded 0 from hrec ▸ Set.mem_univ x)
      iexact HO
    isplitl [Hp]; · iexact Hp
    iexact Hrest
  hin c := by
    refine BIBase.Entails.trans ?_ (D3.hin (V5 D1 m) c); unfold Pipeline.ΦA
    iintro ⟨Hp, -, Hr⟩
    isplitl [Hr]; · iexact Hr
    iexact Hp
  hout c := by
    rw [Pipeline.ownSems0_none]
    refine BIBase.Entails.trans (D3.hout (V5 D1 m) c) ?_; unfold Pipeline.ΦA
    iintro ⟨Hr, Hp⟩
    isplitl [Hp]; · iexact Hp
    isplitr; · iempintro
    iexact Hr
  hexit c := by
    have hjoin := unscopedBufs_of_arrays3 (pdats D1 D3 m 3 c) (D3.q_eq (V5 D1 m) c) (V5 D1 m c) (V6 D1 D3 m c) (D3.A_eq (V5 D1 m) c)
      (W6_main_v12 D1 D3 m c).symm (fun b hb => W6_of_ne D1 D3 m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats D1 D3 m 3 c).owed (Fin.last _) = 0 from D3.owed (V5 D1 m) c _]
    icases HO with ⟨%W, -, HO⟩; iexists W; iexact HO

/-! ## @main as segments, and the launch -/

/-- @main's six items in order. -/
abbrev segs : List (Pipeline.Seg (pcfgs (F := F)) adm (pdats D1 D3 m) () defs₀ 𝒱₀ L lv) :=
  [ .host (hseg hostOps0 hostOps0_sub hostOps0_fresh (W0 m)),
    .region (reg0 D1 D3 m),
    .region (reg1 D1 D3 m),
    .host (hseg hostOps2 hostOps2_sub hostOps2_fresh (W3 D1 m)),
    .region (reg2 D1 D3 m),
    .region (reg3 D1 D3 m) ]
/-- @main is the run of the segments. -/
theorem main_run (c : Dev nD) : main (F := F) c = Pipeline.Seg.run (segs D1 D3 m) := (main_chain c).trans (by chain_rfl)

-- the launch theorem's implicit arguments are found by unifying its conclusion with this one, which takes unfolding plain
-- definitions in a metavariable's type
set_option backward.isDefEq.respectTransparency.types false in
/-- THE RUN. From any memory with zero counters, every weakly fair execution of @main on the TensorCores terminates,
    and every final memory has the result buffer at the last valuation's contents — what the layer-1 attention call's
    pipeline leaves in it — and each argument as launched. -/
theorem run_main (ρ : Dev nD → PrngReg) : θ_run defs (onTc (τ := τ) (main (F := F))) ⟨m, fun _ => 0, ρ⟩ (fun r => ∀ c : Dev nD,
      r.2.mem ((c.tc : Thread nD τ).loc main_v12) = W6 D1 D3 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats D1 D3 m) () cellOf_inj emb₁ defs₀ 𝒱₀ L lv m ρ main (segs D1 D3 m)
    (fun c Q => by rw [main_run D1 D3 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D1 D3 m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 D1 D3 m c b)
    (hfin := fun c s' => by
      iintro ⟨⟨Hh, -⟩, HSI⟩
      unfold StableHlo.held
      imodintro
      iapply (pointsTo_read_all (Pipeline.ucRefs τ sig) (fun b => (((c : Thread nD τ)).1, b)) (W6 D1 D3 m c) s')
      isplitl [Hh] <;> iassumption)
    (hQ := fun s h c =>
      ⟨h c _ (mem_uc main_v12 (by decide)),
       (h c _ (mem_uc main_arg0 (by decide))).trans (W6_main_arg0 D1 D3 m c),
       (h c _ (mem_uc main_arg1 (by decide))).trans (W6_main_arg1 D1 D3 m c),
       (h c _ (mem_uc main_arg2 (by decide))).trans (W6_main_arg2 D1 D3 m c)⟩)

/-! ### The weights the projections read: the host stretches' slices, in closed form -/

/-- The weight stack rounded to bf16. -/
theorem V1_main_v0_eq (c : Dev nD) :
    V1 m c main_v0 = truncf .bf16 (m ((c : Thread nD τ).loc main_arg2)) bitsLt_bf16_f32 := by
  show StableHlo.after hostOps0 (W0 m c) (Proc.devRef .tc main_v0) = _
  after_results
/-- Layer 0 of it, as a 512×1024 matrix. -/
theorem V1_main_v2_eq (c : Dev nD) :
    V1 m c main_v2 = shapeCast S512x1024 (extractStridedSlice S1x512x1024 ![0, 0, 0] (V1 m c main_v0) slices_S2x512x1024_S1x512x1024_0_0_0)
      shapeCasts_S1x512x1024_S512x1024 := by
  show StableHlo.after hostOps0 (W0 m c) (Proc.devRef .tc main_v2)
    = shapeCast S512x1024 (extractStridedSlice S1x512x1024 ![0, 0, 0] (StableHlo.after hostOps0 (W0 m c) (Proc.devRef .tc main_v0)) slices_S2x512x1024_S1x512x1024_0_0_0)
      shapeCasts_S1x512x1024_S512x1024
  after_results
  rfl
/-- Its left half (columns 0..511) and its right half (columns 512..1023): the layer-0 projection's two weights. -/
theorem V1_main_v3_eq (c : Dev nD) :
    V1 m c main_v3 = extractStridedSlice S512x512 ![0, 0] (V1 m c main_v2) slices_S512x1024_S512x512_0_0 := by
  show StableHlo.after hostOps0 (W0 m c) (Proc.devRef .tc main_v3)
    = extractStridedSlice S512x512 ![0, 0] (StableHlo.after hostOps0 (W0 m c) (Proc.devRef .tc main_v2)) slices_S512x1024_S512x512_0_0
  after_results
theorem V1_main_v4_eq (c : Dev nD) :
    V1 m c main_v4 = extractStridedSlice S512x512 ![0, 512] (V1 m c main_v2) slices_S512x1024_S512x512_0_512 := by
  show StableHlo.after hostOps0 (W0 m c) (Proc.devRef .tc main_v4)
    = extractStridedSlice S512x512 ![0, 512] (StableHlo.after hostOps0 (W0 m c) (Proc.devRef .tc main_v2)) slices_S512x1024_S512x512_0_512
  after_results
/-- Layer 1 of the rounded stack, as a 512×1024 matrix. -/
theorem V4_main_v8_eq (c : Dev nD) :
    V4 D1 m c main_v8 = shapeCast S512x1024 (extractStridedSlice S1x512x1024 ![1, 0, 0] (V1 m c main_v0) slices_S2x512x1024_S1x512x1024_1_0_0)
      shapeCasts_S1x512x1024_S512x1024 := by
  show StableHlo.after hostOps2 (W3 D1 m c) (Proc.devRef .tc main_v8) = _
  after_results
  rw [show W3 D1 m c (Proc.devRef .tc main_v0) = V1 m c main_v0 from V3_main_v0 D1 m c]
  rfl
/-- Its two halves: the layer-1 projection's two weights. -/
theorem V4_main_v9_eq (c : Dev nD) :
    V4 D1 m c main_v9 = extractStridedSlice S512x512 ![0, 0] (V4 D1 m c main_v8) slices_S512x1024_S512x512_0_0 := by
  show StableHlo.after hostOps2 (W3 D1 m c) (Proc.devRef .tc main_v9)
    = extractStridedSlice S512x512 ![0, 0] (StableHlo.after hostOps2 (W3 D1 m c) (Proc.devRef .tc main_v8)) slices_S512x1024_S512x512_0_0
  after_results
theorem V4_main_v10_eq (c : Dev nD) :
    V4 D1 m c main_v10 = extractStridedSlice S512x512 ![0, 512] (V4 D1 m c main_v8) slices_S512x1024_S512x512_0_512 := by
  show StableHlo.after hostOps2 (W3 D1 m c) (Proc.devRef .tc main_v10)
    = extractStridedSlice S512x512 ![0, 512] (StableHlo.after hostOps2 (W3 D1 m c) (Proc.devRef .tc main_v8)) slices_S512x1024_S512x512_0_512
  after_results

/-- info: 'Cert.KernelIdeal.Run.run_main' depends on axioms: [propext, Classical.choice, Quot.sound] -/
#guard_msgs in #print axioms run_main

end Cert.KernelIdeal.Run

end
-- ==== Proof.AttnBodyI.lean ====
/-
  The attention kernel's body as steps of separation logic, one per control case.

  A grid point (qi, kv) of the attention call handles the 512 query rows of block qi against the 1024 key/value rows of
  tile kv. The body keeps three buffers of its own between the points of a row block: the running maximum m (one value
  per query row), the running sum l of exponentials, and the running weighted sum acc of value rows. At every point it
  forms the 512×1024 scores (queries against the tile's keys), the new maximum max m (row maxima of the scores), the
  factor exp (m - new maximum), the exponentials of the scores shifted by the new maximum, and stores
      l   := factor · l + row sums of the exponentials,
      acc := factor · acc + (exponentials · mask) times the tile's values,
      m   := the new maximum.
  At the first tile of a row block (kv = 0) it first resets m to -∞ and l, acc to 0; at the last (kv = 7) it also stores
  the block's result acc / l + x through the leaky rectifier into the output buffer. No point is both first and last, so
  there are three cases. Every access is to a whole buffer except the keys and the values, which are read as a tile of
  1024 rows out of the resident 8192; a store made last into a whole buffer leaves exactly the stored value, so each
  case's effect on the three buffers is stated by one step function each, over the body's named pure values.
-/
import proofs.«100610_j61478161875059_2_alg».proof.Proof.Gen.KernelIdeal.Launch
import proofs.«100610_j61478161875059_2_alg».proof.Proof.Gen.KernelIdeal.Skeleton
import proofs.«100610_j61478161875059_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the first of its row of tiles (the second grid coordinate is 0). -/
abbrev cond1_0 (i : grid1.Coords) : Prop := (Scalar.cmpi .ne (Scalar.extui (Scalar.cmpi .eq (BitVec.ofNat 32 (i 1).val) 0#32)) 0#32) = 1#1
/-- The second conditional: the point is the last of its row of tiles (the second grid coordinate is 7). -/
abbrev cond1_1 (i : grid1.Coords) : Prop := k1_cond2 i = 1#1

/-- The whole-buffer rectangles have zero offsets. -/
theorem hz2 : (![0, 0] : Fin 2 → Nat) = fun _ => 0 := by funext a; fin_cases a <;> rfl

/-- The tile of 1024 rows the point takes out of a resident 8192-row array: rows 1024·kv … 1024·kv + 1023. -/
def tile1 (i : grid1.Coords) (x : Vec F S8192x512 .bf16) : Vec F S1024x512 .bf16 :=
  View.ld x (Rect.unit (s := S8192x512) (k1_off1 i) S1024x512.size (k1_off1_inb i))

/-- ONE TILE'S STEP, the running maximum: the old one against the tile's row maxima of the scores. -/
def stepM1 (i : grid1.Coords) (xq : Vec F S512x512 .bf16) (xk : Vec F S8192x512 .bf16) (sm : Vec F S512x1 .f32) : Vec F S512x1 .f32 :=
  k1_pay2 (k1_pay9 xq (tile1 i xk) sm)
/-- ONE TILE'S STEP, the running sum of exponentials, rescaled to the new maximum. -/
def stepL1 (i : grid1.Coords) (xq : Vec F S512x512 .bf16) (xk : Vec F S8192x512 .bf16) (sm sl : Vec F S512x1 .f32) : Vec F S512x1 .f32 :=
  k1_pay12 xq (tile1 i xk) sm sl
/-- ONE TILE'S STEP, the running masked weighted sum of the value rows, rescaled to the new maximum. -/
def stepA1 (i : grid1.Coords) (xq : Vec F S512x512 .bf16) (xk xv : Vec F S8192x512 .bf16) (xm : Vec F S512x1024 .f32)
    (sm : Vec F S512x1 .f32) (sa : Vec F S512x512 .f32) : Vec F S512x512 .f32 :=
  k1_pay1 (k1_pay7 (tile1 i xv)) (k1_pay13 xq (tile1 i xk) sm xm) sa (k1_pay14 xq (tile1 i xk) sm)
/-- THE LAST TILE'S RESULT: the weighted sum over the sum, plus the residual input, through the leaky rectifier. -/
def final1 (sa : Vec F S512x512 .f32) (sl : Vec F S512x1 .f32) (xx : Vec F S512x512 .f32) : Vec F S512x512 .f32 :=
  k1_pay3 sa sl xx

/-- What a buffer reads after a whole-buffer store made last: the stored value. -/
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

set_option maxHeartbeats 4000000 in
/-- THE FIRST TILE of a row (the second coordinate is 0, not 7). The three scratch buffers may hold anything: the body
    first stores -∞ into the maximum and 0 into the two sums, then makes the step from those. The output buffer is not
    touched. -/
theorem runFirst1 (c : Dev nD) (i : grid1.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : cond1_0 i) (hc1 : ¬cond1_1 i)
    (xq : Vec F S512x512 .bf16) (xk xv : Vec F S8192x512 .bf16) (xm : Vec F S512x1024 .f32) (xx : Vec F S512x512 .f32)
    (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM1 i xq xk (k1_pay4 (F := F)))
                ∗ owns (c : Thread nD τ) arg9 fullShare (stepL1 i xq xk (k1_pay4 (F := F)) (k1_pay5 (F := F)))
                ∗ owns (c : Thread nD τ) arg10 fullShare (stepA1 i xq xk xv xm (k1_pay4 (F := F)) (k1_pay6 (F := F)))) -∗ K ⟨⟩))
          ⊢ wp frame (wpE (defs₀ (F := F)) Variants.none c none) E (cc1__gat_attn_kernel i arg2 harg2 arg3 harg3 arg4 harg4 arg5 harg5 arg6 harg6 arg7 harg7 arg8 harg8 arg9 harg9 arg10 harg10) K := by
    simp only [cc1__gat_attn_kernel_eq_skeleton]; unfold cc1__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%sm, %f8, %hf8, H8⟩, ⟨%sl, %f9, %hf9, H9⟩, ⟨%sa, %f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- A MIDDLE TILE (the second coordinate is neither 0 nor 7): the step from what the tile before left. The output buffer
    is not touched. -/
theorem runMid1 (c : Dev nD) (i : grid1.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond1_0 i) (hc1 : ¬cond1_1 i)
    (xq : Vec F S512x512 .bf16) (xk xv : Vec F S8192x512 .bf16) (xm : Vec F S512x1024 .f32) (xx : Vec F S512x512 .f32)
    (sm sl : Vec F S512x1 .f32) (sa : Vec F S512x512 .f32) (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM1 i xq xk sm) ∗ owns (c : Thread nD τ) arg9 fullShare (stepL1 i xq xk sm sl)
                ∗ owns (c : Thread nD τ) arg10 fullShare (stepA1 i xq xk xv xm sm sa)) -∗ K ⟨⟩))
          ⊢ wp frame (wpE (defs₀ (F := F)) Variants.none c none) E (cc1__gat_attn_kernel i arg2 harg2 arg3 harg3 arg4 harg4 arg5 harg5 arg6 harg6 arg7 harg7 arg8 harg8 arg9 harg9 arg10 harg10) K := by
    simp only [cc1__gat_attn_kernel_eq_skeleton]; unfold cc1__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- THE LAST TILE of a row (the second coordinate is 7, not 0): the step, and then the output buffer, whatever it held,
    receives the row block's result computed from the new sums and the residual input. -/
theorem runLast1 (c : Dev nD) (i : grid1.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond1_0 i) (hc1 : cond1_1 i)
    (xq : Vec F S512x512 .bf16) (xk xv : Vec F S8192x512 .bf16) (xm : Vec F S512x1024 .f32) (xx : Vec F S512x512 .f32)
    (sm sl : Vec F S512x1 .f32) (sa : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ (∃ d, owns (c : Thread nD τ) arg7 fullShare d)
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx
                ∗ owns (c : Thread nD τ) arg7 fullShare (final1 (stepA1 i xq xk xv xm sm sa) (stepL1 i xq xk sm sl) xx)
                ∗ owns (c : Thread nD τ) arg8 fullShare (stepM1 i xq xk sm) ∗ owns (c : Thread nD τ) arg9 fullShare (stepL1 i xq xk sm sl)
                ∗ owns (c : Thread nD τ) arg10 fullShare (stepA1 i xq xk xv xm sm sa)) -∗ K ⟨⟩))
          ⊢ wp frame (wpE (defs₀ (F := F)) Variants.none c none) E (cc1__gat_attn_kernel i arg2 harg2 arg3 harg3 arg4 harg4 arg5 harg5 arg6 harg6 arg7 harg7 arg8 harg8 arg9 harg9 arg10 harg10) K := by
    simp only [cc1__gat_attn_kernel_eq_skeleton]; unfold cc1__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%xo, %f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

/-! ## The same for the second layer's call (the same body, printed a second time) -/

/-- The first conditional of the body: the point is the first of its row of tiles (the second grid coordinate is 0). -/
abbrev cond3_0 (i : grid3.Coords) : Prop := (Scalar.cmpi .ne (Scalar.extui (Scalar.cmpi .eq (BitVec.ofNat 32 (i 1).val) 0#32)) 0#32) = 1#1
/-- The second conditional: the point is the last of its row of tiles (the second grid coordinate is 7). -/
abbrev cond3_1 (i : grid3.Coords) : Prop := k3_cond2 i = 1#1

/-- The tile of 1024 rows the point takes out of a resident 8192-row array: rows 1024·kv … 1024·kv + 1023. -/
def tile3 (i : grid3.Coords) (x : Vec F S8192x512 .bf16) : Vec F S1024x512 .bf16 :=
  View.ld x (Rect.unit (s := S8192x512) (k3_off1 i) S1024x512.size (k3_off1_inb i))

/-- ONE TILE'S STEP, the running maximum: the old one against the tile's row maxima of the scores. -/
def stepM3 (i : grid3.Coords) (xq : Vec F S512x512 .bf16) (xk : Vec F S8192x512 .bf16) (sm : Vec F S512x1 .f32) : Vec F S512x1 .f32 :=
  k3_pay2 (k3_pay9 xq (tile3 i xk) sm)
/-- ONE TILE'S STEP, the running sum of exponentials, rescaled to the new maximum. -/
def stepL3 (i : grid3.Coords) (xq : Vec F S512x512 .bf16) (xk : Vec F S8192x512 .bf16) (sm sl : Vec F S512x1 .f32) : Vec F S512x1 .f32 :=
  k3_pay12 xq (tile3 i xk) sm sl
/-- ONE TILE'S STEP, the running masked weighted sum of the value rows, rescaled to the new maximum. -/
def stepA3 (i : grid3.Coords) (xq : Vec F S512x512 .bf16) (xk xv : Vec F S8192x512 .bf16) (xm : Vec F S512x1024 .f32)
    (sm : Vec F S512x1 .f32) (sa : Vec F S512x512 .f32) : Vec F S512x512 .f32 :=
  k3_pay1 (k3_pay7 (tile3 i xv)) (k3_pay13 xq (tile3 i xk) sm xm) sa (k3_pay14 xq (tile3 i xk) sm)
/-- THE LAST TILE'S RESULT: the weighted sum over the sum, plus the residual input, through the leaky rectifier. -/
def final3 (sa : Vec F S512x512 .f32) (sl : Vec F S512x1 .f32) (xx : Vec F S512x512 .f32) : Vec F S512x512 .f32 :=
  k3_pay3 sa sl xx

set_option maxHeartbeats 4000000 in
/-- THE FIRST TILE of a row (the second coordinate is 0, not 7). The three scratch buffers may hold anything: the body
    first stores -∞ into the maximum and 0 into the two sums, then makes the step from those. The output buffer is not
    touched. -/
theorem runFirst3 (c : Dev nD) (i : grid3.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : cond3_0 i) (hc1 : ¬cond3_1 i)
    (xq : Vec F S512x512 .bf16) (xk xv : Vec F S8192x512 .bf16) (xm : Vec F S512x1024 .f32) (xx : Vec F S512x512 .f32)
    (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM3 i xq xk (k3_pay4 (F := F)))
                ∗ owns (c : Thread nD τ) arg9 fullShare (stepL3 i xq xk (k3_pay4 (F := F)) (k3_pay5 (F := F)))
                ∗ owns (c : Thread nD τ) arg10 fullShare (stepA3 i xq xk xv xm (k3_pay4 (F := F)) (k3_pay6 (F := F)))) -∗ K ⟨⟩))
          ⊢ wp frame (wpE (defs₀ (F := F)) Variants.none c none) E (cc3__gat_attn_kernel i arg2 harg2 arg3 harg3 arg4 harg4 arg5 harg5 arg6 harg6 arg7 harg7 arg8 harg8 arg9 harg9 arg10 harg10) K := by
    simp only [cc3__gat_attn_kernel_eq_skeleton]; unfold cc3__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%sm, %f8, %hf8, H8⟩, ⟨%sl, %f9, %hf9, H9⟩, ⟨%sa, %f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- A MIDDLE TILE (the second coordinate is neither 0 nor 7): the step from what the tile before left. The output buffer
    is not touched. -/
theorem runMid3 (c : Dev nD) (i : grid3.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond3_0 i) (hc1 : ¬cond3_1 i)
    (xq : Vec F S512x512 .bf16) (xk xv : Vec F S8192x512 .bf16) (xm : Vec F S512x1024 .f32) (xx : Vec F S512x512 .f32)
    (sm sl : Vec F S512x1 .f32) (sa : Vec F S512x512 .f32) (xo : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ owns (c : Thread nD τ) arg7 fullShare xo
                ∗ owns (c : Thread nD τ) arg8 fullShare (stepM3 i xq xk sm) ∗ owns (c : Thread nD τ) arg9 fullShare (stepL3 i xq xk sm sl)
                ∗ owns (c : Thread nD τ) arg10 fullShare (stepA3 i xq xk xv xm sm sa)) -∗ K ⟨⟩))
          ⊢ wp frame (wpE (defs₀ (F := F)) Variants.none c none) E (cc3__gat_attn_kernel i arg2 harg2 arg3 harg3 arg4 harg4 arg5 harg5 arg6 harg6 arg7 harg7 arg8 harg8 arg9 harg9 arg10 harg10) K := by
    simp only [cc3__gat_attn_kernel_eq_skeleton]; unfold cc3__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

set_option maxHeartbeats 4000000 in
/-- THE LAST TILE of a row (the second coordinate is 7, not 0): the step, and then the output buffer, whatever it held,
    receives the row block's result computed from the new sums and the residual input. -/
theorem runLast3 (c : Dev nD) (i : grid3.Coords)
    (arg2 : Memref sig .tc .vmem S512x512 .bf16) (harg2 : arg2.IsWhole) (arg3 : Memref sig .tc .vmem S8192x512 .bf16) (harg3 : arg3.IsWhole)
    (arg4 : Memref sig .tc .vmem S8192x512 .bf16) (harg4 : arg4.IsWhole) (arg5 : Memref sig .tc .vmem S512x1024 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x512 .f32) (harg10 : arg10.IsWhole) (hc0 : ¬cond3_0 i) (hc1 : cond3_1 i)
    (xq : Vec F S512x512 .bf16) (xk xv : Vec F S8192x512 .bf16) (xm : Vec F S512x1024 .f32) (xx : Vec F S512x512 .f32)
    (sm sl : Vec F S512x1 .f32) (sa : Vec F S512x512 .f32) (E : Set ℕ) (K : PUnit → sProp 𝕄) :
        iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx ∗ (∃ d, owns (c : Thread nD τ) arg7 fullShare d)
            ∗ owns (c : Thread nD τ) arg8 fullShare sm ∗ owns (c : Thread nD τ) arg9 fullShare sl ∗ owns (c : Thread nD τ) arg10 fullShare sa
            ∗ (iprop(owns (c : Thread nD τ) arg2 fullShare xq ∗ owns (c : Thread nD τ) arg3 fullShare xk ∗ owns (c : Thread nD τ) arg4 fullShare xv
            ∗ owns (c : Thread nD τ) arg5 fullShare xm ∗ owns (c : Thread nD τ) arg6 fullShare xx
                ∗ owns (c : Thread nD τ) arg7 fullShare (final3 (stepA3 i xq xk xv xm sm sa) (stepL3 i xq xk sm sl) xx)
                ∗ owns (c : Thread nD τ) arg8 fullShare (stepM3 i xq xk sm) ∗ owns (c : Thread nD τ) arg9 fullShare (stepL3 i xq xk sm sl)
                ∗ owns (c : Thread nD τ) arg10 fullShare (stepA3 i xq xk xv xm sm sa)) -∗ K ⟨⟩))
          ⊢ wp frame (wpE (defs₀ (F := F)) Variants.none c none) E (cc3__gat_attn_kernel i arg2 harg2 arg3 harg3 arg4 harg4 arg5 harg5 arg6 harg6 arg7 harg7 arg8 harg8 arg9 harg9 arg10 harg10) K := by
    simp only [cc3__gat_attn_kernel_eq_skeleton]; unfold cc3__gat_attn_kernel_skel
    unfold owns
    iintro ⟨⟨%f2, %hf2, H2⟩, ⟨%f3, %hf3, H3⟩, ⟨%f4, %hf4, H4⟩, ⟨%f5, %hf5, H5⟩, ⟨%f6, %hf6, H6⟩, ⟨%xo, %f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H8]
    · iexists _; isplitr; swap; · iexact H8
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    isplitl [H9]
    · iexists _; isplitr; swap; · iexact H9
      ipureintro
      (try sl_unfold_words)
      rw [read_writes_whole_last _ _ hz2]
      (try sl_unfold_words)
      simp only [View.readAt_eq_ld, harg2.read_unread, harg3.read_unread, harg4.read_unread, harg5.read_unread, harg6.read_unread,
        harg7.read_unread, harg8.read_unread, harg9.read_unread, harg10.read_unread,
        View.ld_unit_zero (S := S512x512) hz2, View.ld_unit_zero (S := S512x1) hz2, View.ld_unit_zero (S := S512x1024) hz2,
        View.readCov_unit_zero (S := S512x512) _ hz2, View.readCov_unit_zero (S := S512x1) _ hz2]
      rfl
    iexists _; isplitr; swap; · iexact H10
    ipureintro
    (try sl_unfold_words)
    rw [read_writes_whole_last _ _ hz2]
    (try sl_unfold_words)
    simp only [View.readAt_eq_ld, harg2.read_unread, harg3.read_unread, harg4.read_unread, harg5.read_unread, harg6.read_unread,
      harg7.read_unread, harg8.read_unread, harg9.read_unread, harg10.read_unread,
      View.ld_unit_zero (S := S512x512) hz2, View.ld_unit_zero (S := S512x1) hz2, View.ld_unit_zero (S := S512x1024) hz2,
      View.readCov_unit_zero (S := S512x512) _ hz2, View.readCov_unit_zero (S := S512x1) _ hz2]
    rfl

end Cert.KernelIdeal.Attn

end
-- ==== Proof.AttnDataI.lean ====
/-
  The attention call's proof data: what the body leaves point by point, and the body obligation.

  The 128 points of the call run row block by row block: point n handles query block n / 8 against key/value tile
  n mod 8. The three buffers the body keeps (the running maximum, the running sum, the running weighted sum) are reset
  at the points 0 modulo 8 and stepped at every point, so what they hold after point n is a recursion on n — the first
  tile's step at n ≡ 0, else one more step from what point n - 1 left. The output window is idle (and not written back)
  except at the points 7 modulo 8, where it receives the row block's result computed from the kept buffers. The
  invariant between points says exactly that: the kept buffers at the recursion's value.
-/
import proofs.«100610_j61478161875059_2_alg».proof.Proof.Gen.KernelIdeal.Launch
import proofs.«100610_j61478161875059_2_alg».proof.Proof.Gen.KernelIdeal.Skeleton
import proofs.«100610_j61478161875059_2_alg».proof.Proof.Gen.KernelIdeal.Points
import proofs.«100610_j61478161875059_2_alg».proof.Proof.AttnBodyI
import proofs.«100610_j61478161875059_2_alg».proof.Proof.AttnSharesI
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1 -/

section Call1

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first conditional holds exactly at the points whose number is 0 modulo 8, the second at those 7 modulo 8:
    decided over the 128 points. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The five input windows are never idle; the output window is idle, and not written back, at every point but the
    last of a row of tiles. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- Each window's current staging buffer at point `t`, as the pipeline passes it to the body, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
/-- The three buffers the body keeps between points: the running maximum, the running sum, the running weighted sum. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x512 .f32 := Memref.whole cc1_scratch2
/-- Every other scoped buffer of the program, unopened. -/
abbrev Rst1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three kept buffers listed, each at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ Rst1 c) ∗ (∃ r, prngReg c r)) := by
  unfold Pipeline.ΦA; rw [scopedRest1_split]; simp only [scM1_0, scM1_1, scM1_2, owns_whole]
  rfl

/-- The three kept buffers after the FIRST tile of a row of tiles: the step from -∞, 0, 0. -/
def first1 (c : Dev nD) (t : Fin cfg1.N) : Vec F S512x1 .f32 × Vec F S512x1 .f32 × Vec F S512x512 .f32 :=
  (stepM1 (grid1.coords t) (iblk1 V c 0 t) (iblk1 V c 1 t) (k1_pay4 (F := F)), stepL1 (grid1.coords t) (iblk1 V c 0 t) (iblk1 V c 1 t) (k1_pay4 (F := F)) (k1_pay5 (F := F)),
    stepA1 (grid1.coords t) (iblk1 V c 0 t) (iblk1 V c 1 t) (iblk1 V c 2 t) (iblk1 V c 3 t) (k1_pay4 (F := F)) (k1_pay6 (F := F)))
/-- The three kept buffers after a LATER tile, from what the tile before left. -/
def next1 (c : Dev nD) (t : Fin cfg1.N) (s : Vec F S512x1 .f32 × Vec F S512x1 .f32 × Vec F S512x512 .f32) :
    Vec F S512x1 .f32 × Vec F S512x1 .f32 × Vec F S512x512 .f32 :=
  (stepM1 (grid1.coords t) (iblk1 V c 0 t) (iblk1 V c 1 t) s.1, stepL1 (grid1.coords t) (iblk1 V c 0 t) (iblk1 V c 1 t) s.1 s.2.1, stepA1 (grid1.coords t) (iblk1 V c 0 t) (iblk1 V c 1 t) (iblk1 V c 2 t) (iblk1 V c 3 t) s.1 s.2.2)

/-- THE ACCUMULATION: what the three kept buffers hold after point `n` — the first-tile step at the points 0 modulo 8,
    otherwise the step from what point `n - 1` left. -/
def sc1 (c : Dev nD) : (n : ℕ) → n < cfg1.N → Vec F S512x1 .f32 × Vec F S512x1 .f32 × Vec F S512x512 .f32
  | 0, hn => first1 V c ⟨0, hn⟩
  | n + 1, hn => if (n + 1) % 8 = 0 then first1 V c ⟨n + 1, hn⟩ else next1 V c ⟨n + 1, hn⟩ (sc1 c n (Nat.lt_of_succ_lt hn))

theorem sc1_first (c : Dev nD) (t : Fin cfg1.N) (h : t.val % 8 = 0) : sc1 V c t.val t.isLt = first1 V c t := by
  obtain ⟨n, hn⟩ := t
  cases n with
  | zero => rfl
  | succ n => show (if (n + 1) % 8 = 0 then _ else _) = _; rw [if_pos h]

theorem sc1_next (c : Dev nD) (t : Fin cfg1.N) (h : ¬t.val % 8 = 0) :
    sc1 V c t.val t.isLt = next1 V c t (sc1 V c (t.val - 1) (Nat.lt_of_le_of_lt (Nat.sub_le _ _) t.isLt)) := by
  obtain ⟨n, hn⟩ := t
  cases n with
  | zero => exact absurd rfl h
  | succ n => show (if (n + 1) % 8 = 0 then _ else _) = _; rw [if_neg h]; rfl

/-- What the output buffer receives at the last tile of a row of tiles: the row block's result. -/
def out1 (c : Dev nD) (t : Fin cfg1.N) : Vec F S512x512 .f32 :=
  final1 (sc1 V c t.val t.isLt).2.2 (sc1 V c t.val t.isLt).2.1 (iblk1 V c 4 t)

/-- THE INVARIANT before position `n`: before the first point the class's (the kept buffers at anything); afterwards
    the kept buffers at what the point before left. -/
def PhiS1 (c : Dev nD) : (n : ℕ) → n ≤ cfg1.N → sProp 𝕄
  | 0, _ => Pipeline.ΦA spec1 c
  | n + 1, hn => iprop(iprop(iprop(owns (c : Thread nD τ) scM1_0 fullShare (sc1 V c n hn).1 ∗ owns (c : Thread nD τ) scM1_1 fullShare (sc1 V c n hn).2.1 ∗ owns (c : Thread nD τ) scM1_2 fullShare (sc1 V c n hn).2.2) ∗ Rst1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (sc1 V c n hn).1 ∗ owns (c : Thread nD τ) scM1_1 fullShare (sc1 V c n hn).2.1 ∗ owns (c : Thread nD τ) scM1_2 fullShare (sc1 V c n hn).2.2) ∗ Rst1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (sc1 V c (n - 1) (by omega)).1 ∗ owns (c : Thread nD τ) scM1_1 fullShare (sc1 V c (n - 1) (by omega)).2.1 ∗ owns (c : Thread nD τ) scM1_2 fullShare (sc1 V c (n - 1) (by omega)).2.2) ∗ Rst1 c) ∗ (∃ r, prngReg c r)) := by
  cases n with
  | zero => exact absurd rfl hz
  | succ n => rfl

/-- THE PROOF DATA of the call on core `c`: the arrays as the call finds them; after the body at point `t` each input's
    buffer at its block and the output's at the row block's result; the invariant above; nothing owed; the queries' and
    the values' windows at the two halves of the array they share, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ t := PhiS1 V c t.val (Nat.le_of_lt_succ t.isLt)
  q := qAttn
  owed _ := 0

theorem A_eq1 (c : Dev nD) (w : Fin cfg1.W) : (dat1 V c).A w = V c (Pipeline.arrRef spec1 w) := by dsimp only [dat1]
theorem q_eq1 (c : Dev nD) : (dat1 V c).q = qAttn := rfl
theorem recorded1 (c : Dev nD) : (dat1 V c).recorded 0 = Set.univ := rfl
theorem owed1 (c : Dev nD) (t : Fin (cfg1.N + 1)) : (dat1 V c).owed t = 0 := rfl
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the closed forms say which of the three cases the point is in; the invariant hands the body
    the kept buffers at what the point before left (at anything before the first point, and the first tile of a row
    overwrites them anyway) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [sc1_first V c t h0]
    unfold first1; dsimp only
    have hPhi : (dat1 V c).Φ t.castSucc ⊢ (Pipeline.ΦA spec1 c : sProp 𝕄) := by
      rw [PhiS1_castSucc V c t]
      by_cases hz : t.val = 0
      · rw [PhiS1_zero V c _ _ hz]
      · rw [PhiS1_pos V c _ _ hz, PhiA1_eq]
        iintro ⟨⟨⟨HS0, HS1, HS2⟩, HR⟩, Hg⟩
        isplitl [HS0 HS1 HS2 HR]
        · isplitl [HS0 HS1 HS2]
          · isplitl [HS0]; · iexists _; iexact HS0
            isplitl [HS1]; · iexists _; iexact HS1
            iexists _; iexact HS2
          iexact HR
        iexact Hg
    have hPhi' := hPhi
    rw [PhiA1_eq] at hPhi'
    iintro ⟨HP, Ho, ⟨%d0, H0⟩, ⟨%d1, H1⟩, ⟨%d2, H2⟩, ⟨%d3, H3⟩, ⟨%d4, H4⟩, ⟨%d5, H5⟩⟩
    ihave HP' := hPhi' $$ HP
    icases HP' with ⟨⟨⟨HS0, HS1, HS2⟩, HR⟩, Hg⟩
    iapply (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc0 : ¬cond1_0 (grid1.coords t) := fun h => h0 ((hcond1_0 t).mp h)
    rw [PhiS1_castSucc V c t, PhiS1_pos V c _ _ hz]
    rw [sc1_next V c t h0]
    unfold next1; dsimp only
    by_cases h1 : t.val % 8 = 7
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      unfold out1
      rw [sc1_next V c t h0]
      unfold next1; dsimp only
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runMid1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) hc0 hc1 (iblk1 V c 0 t) (iblk1 V c 1 t) (iblk1 V c 2 t) (iblk1 V c 3 t) (iblk1 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the invariant before the first point; -/
theorem hin1 (c : Dev nD) : Pipeline.ΦA spec1 c ⊢ (dat1 V c).Φ 0 := by
  rw [show (dat1 V c).Φ 0 = PhiS1 V c 0 (Nat.zero_le _) from rfl, PhiS1_zero V c 0 _ rfl]
/-- and the invariant after the last point gives it back, the kept buffers forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by rw [show cfg1.N = 128 from N_1]; decide), PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Call1

/-! # Call 3 -/

section Call3

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, whether the point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The first conditional holds exactly at the points whose number is 0 modulo 8, the second at those 7 modulo 8:
    decided over the 128 points. -/
theorem hcond3_0 : ∀ t : Fin cfg3.N, cond3_0 (grid3.coords t) ↔ t.val % 8 = 0 :=
  (by decide +kernel : ∀ t : Fin grid3.N, cond3_0 (grid3.coords t) ↔ t.val % 8 = 0)
theorem hcond3_1 : ∀ t : Fin cfg3.N, cond3_1 (grid3.coords t) ↔ t.val % 8 = 7 :=
  (by decide +kernel : ∀ t : Fin grid3.N, cond3_1 (grid3.coords t) ↔ t.val % 8 = 7)

/-- The five input windows are never idle; the output window is idle, and not written back, at every point but the
    last of a row of tiles. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-- Each window's current staging buffer at point `t`, as the pipeline passes it to the body, and its wholeness. -/
abbrev ms3_0 (t : Fin cfg3.N) := win3_0.stage (cfg3.slots t 0)
abbrev hs3_0 (t : Fin cfg3.N) : (ms3_0 t).IsWhole := hstage3_0 ((cfg3.slots t 0).cast nbuf3_0)
abbrev ms3_1 (t : Fin cfg3.N) := win3_1.stage (cfg3.slots t 1)
abbrev hs3_1 (t : Fin cfg3.N) : (ms3_1 t).IsWhole := hstage3_1 ((cfg3.slots t 1).cast nbuf3_1)
abbrev ms3_2 (t : Fin cfg3.N) := win3_2.stage (cfg3.slots t 2)
abbrev hs3_2 (t : Fin cfg3.N) : (ms3_2 t).IsWhole := hstage3_2 ((cfg3.slots t 2).cast nbuf3_2)
abbrev ms3_3 (t : Fin cfg3.N) := win3_3.stage (cfg3.slots t 3)
abbrev hs3_3 (t : Fin cfg3.N) : (ms3_3 t).IsWhole := hstage3_3 ((cfg3.slots t 3).cast nbuf3_3)
abbrev ms3_4 (t : Fin cfg3.N) := win3_4.stage (cfg3.slots t 4)
abbrev hs3_4 (t : Fin cfg3.N) : (ms3_4 t).IsWhole := hstage3_4 ((cfg3.slots t 4).cast nbuf3_4)
abbrev ms3_5 (t : Fin cfg3.N) := win3_5.stage (cfg3.slots t 5)
abbrev hs3_5 (t : Fin cfg3.N) : (ms3_5 t).IsWhole := hstage3_5 ((cfg3.slots t 5).cast nbuf3_5)
/-- The three buffers the body keeps between points: the running maximum, the running sum, the running weighted sum. -/
abbrev scM3_0 : Memref sig .tc .vmem S512x1 .f32 := Memref.whole cc3_scratch0
abbrev scM3_1 : Memref sig .tc .vmem S512x1 .f32 := Memref.whole cc3_scratch1
abbrev scM3_2 : Memref sig .tc .vmem S512x512 .f32 := Memref.whole cc3_scratch2
/-- Every other scoped buffer of the program, unopened. -/
abbrev Rst3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The class invariant with the three kept buffers listed, each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ Rst3 c) ∗ (∃ r, prngReg c r)) := by
  unfold Pipeline.ΦA; rw [scopedRest3_split]; simp only [scM3_0, scM3_1, scM3_2, owns_whole]
  rfl

/-- The three kept buffers after the FIRST tile of a row of tiles: the step from -∞, 0, 0. -/
def first3 (c : Dev nD) (t : Fin cfg3.N) : Vec F S512x1 .f32 × Vec F S512x1 .f32 × Vec F S512x512 .f32 :=
  (stepM3 (grid3.coords t) (iblk3 V c 0 t) (iblk3 V c 1 t) (k3_pay4 (F := F)), stepL3 (grid3.coords t) (iblk3 V c 0 t) (iblk3 V c 1 t) (k3_pay4 (F := F)) (k3_pay5 (F := F)),
    stepA3 (grid3.coords t) (iblk3 V c 0 t) (iblk3 V c 1 t) (iblk3 V c 2 t) (iblk3 V c 3 t) (k3_pay4 (F := F)) (k3_pay6 (F := F)))
/-- The three kept buffers after a LATER tile, from what the tile before left. -/
def next3 (c : Dev nD) (t : Fin cfg3.N) (s : Vec F S512x1 .f32 × Vec F S512x1 .f32 × Vec F S512x512 .f32) :
    Vec F S512x1 .f32 × Vec F S512x1 .f32 × Vec F S512x512 .f32 :=
  (stepM3 (grid3.coords t) (iblk3 V c 0 t) (iblk3 V c 1 t) s.1, stepL3 (grid3.coords t) (iblk3 V c 0 t) (iblk3 V c 1 t) s.1 s.2.1, stepA3 (grid3.coords t) (iblk3 V c 0 t) (iblk3 V c 1 t) (iblk3 V c 2 t) (iblk3 V c 3 t) s.1 s.2.2)

/-- THE ACCUMULATION: what the three kept buffers hold after point `n` — the first-tile step at the points 0 modulo 8,
    otherwise the step from what point `n - 1` left. -/
def sc3 (c : Dev nD) : (n : ℕ) → n < cfg3.N → Vec F S512x1 .f32 × Vec F S512x1 .f32 × Vec F S512x512 .f32
  | 0, hn => first3 V c ⟨0, hn⟩
  | n + 1, hn => if (n + 1) % 8 = 0 then first3 V c ⟨n + 1, hn⟩ else next3 V c ⟨n + 1, hn⟩ (sc3 c n (Nat.lt_of_succ_lt hn))

theorem sc3_first (c : Dev nD) (t : Fin cfg3.N) (h : t.val % 8 = 0) : sc3 V c t.val t.isLt = first3 V c t := by
  obtain ⟨n, hn⟩ := t
  cases n with
  | zero => rfl
  | succ n => show (if (n + 1) % 8 = 0 then _ else _) = _; rw [if_pos h]

theorem sc3_next (c : Dev nD) (t : Fin cfg3.N) (h : ¬t.val % 8 = 0) :
    sc3 V c t.val t.isLt = next3 V c t (sc3 V c (t.val - 1) (Nat.lt_of_le_of_lt (Nat.sub_le _ _) t.isLt)) := by
  obtain ⟨n, hn⟩ := t
  cases n with
  | zero => exact absurd rfl h
  | succ n => show (if (n + 1) % 8 = 0 then _ else _) = _; rw [if_neg h]; rfl

/-- What the output buffer receives at the last tile of a row of tiles: the row block's result. -/
def out3 (c : Dev nD) (t : Fin cfg3.N) : Vec F S512x512 .f32 :=
  final3 (sc3 V c t.val t.isLt).2.2 (sc3 V c t.val t.isLt).2.1 (iblk3 V c 4 t)

/-- THE INVARIANT before position `n`: before the first point the class's (the kept buffers at anything); afterwards
    the kept buffers at what the point before left. -/
def PhiS3 (c : Dev nD) : (n : ℕ) → n ≤ cfg3.N → sProp 𝕄
  | 0, _ => Pipeline.ΦA spec3 c
  | n + 1, hn => iprop(iprop(iprop(owns (c : Thread nD τ) scM3_0 fullShare (sc3 V c n hn).1 ∗ owns (c : Thread nD τ) scM3_1 fullShare (sc3 V c n hn).2.1 ∗ owns (c : Thread nD τ) scM3_2 fullShare (sc3 V c n hn).2.2) ∗ Rst3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare (sc3 V c n hn).1 ∗ owns (c : Thread nD τ) scM3_1 fullShare (sc3 V c n hn).2.1 ∗ owns (c : Thread nD τ) scM3_2 fullShare (sc3 V c n hn).2.2) ∗ Rst3 c) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare (sc3 V c (n - 1) (by omega)).1 ∗ owns (c : Thread nD τ) scM3_1 fullShare (sc3 V c (n - 1) (by omega)).2.1 ∗ owns (c : Thread nD τ) scM3_2 fullShare (sc3 V c (n - 1) (by omega)).2.2) ∗ Rst3 c) ∗ (∃ r, prngReg c r)) := by
  cases n with
  | zero => exact absurd rfl hz
  | succ n => rfl

/-- THE PROOF DATA of the call on core `c`: the arrays as the call finds them; after the body at point `t` each input's
    buffer at its block and the output's at the row block's result; the invariant above; nothing owed; the queries' and
    the values' windows at the two halves of the array they share, the others at the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := PhiS3 V c t.val (Nat.le_of_lt_succ t.isLt)
  q := qAttn
  owed _ := 0

theorem A_eq3 (c : Dev nD) (w : Fin cfg3.W) : (dat3 V c).A w = V c (Pipeline.arrRef spec3 w) := by dsimp only [dat3]
theorem q_eq3 (c : Dev nD) : (dat3 V c).q = qAttn := rfl
theorem recorded3 (c : Dev nD) : (dat3 V c).recorded 0 = Set.univ := rfl
theorem owed3 (c : Dev nD) (t : Fin (cfg3.N + 1)) : (dat3 V c).owed t = 0 := rfl
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the closed forms say which of the three cases the point is in; the invariant hands the body
    the kept buffers at what the point before left (at anything before the first point, and the first tile of a row
    overwrites them anyway) and takes them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  have hN : t.val < 128 := lt_of_lt_of_eq t.isLt (show cfg3.N = 128 from N_3)
  by_cases h0 : t.val % 8 = 0
  · have h1 : ¬t.val % 8 = 7 := by omega
    have hc0 : cond3_0 (grid3.coords t) := (hcond3_0 t).mpr h0
    have hc1 : ¬cond3_1 (grid3.coords t) := fun h => h1 ((hcond3_1 t).mp h)
    rw [Dat.leavesExact_idle (dat3 V c) 5 t (idleAt3_5 t hc1) (noFlush3_5 t hc1)]
    rw [sc3_first V c t h0]
    unfold first3; dsimp only
    have hPhi : (dat3 V c).Φ t.castSucc ⊢ (Pipeline.ΦA spec3 c : sProp 𝕄) := by
      rw [PhiS3_castSucc V c t]
      by_cases hz : t.val = 0
      · rw [PhiS3_zero V c _ _ hz]
      · rw [PhiS3_pos V c _ _ hz, PhiA3_eq]
        iintro ⟨⟨⟨HS0, HS1, HS2⟩, HR⟩, Hg⟩
        isplitl [HS0 HS1 HS2 HR]
        · isplitl [HS0 HS1 HS2]
          · isplitl [HS0]; · iexists _; iexact HS0
            isplitl [HS1]; · iexists _; iexact HS1
            iexists _; iexact HS2
          iexact HR
        iexact Hg
    have hPhi' := hPhi
    rw [PhiA3_eq] at hPhi'
    iintro ⟨HP, Ho, ⟨%d0, H0⟩, ⟨%d1, H1⟩, ⟨%d2, H2⟩, ⟨%d3, H3⟩, ⟨%d4, H4⟩, ⟨%d5, H5⟩⟩
    ihave HP' := hPhi' $$ HP
    icases HP' with ⟨⟨⟨HS0, HS1, HS2⟩, HR⟩, Hg⟩
    iapply (runFirst3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) hc0 hc1 (iblk3 V c 0 t) (iblk3 V c 1 t) (iblk3 V c 2 t) (iblk3 V c 3 t) (iblk3 V c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · isplitl [HS0 HS1 HS2 HR]
      · isplitl [HS0 HS1 HS2]
        · isplitl [HS0]; · iexact HS0
          isplitl [HS1]; · iexact HS1
          iexact HS2
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun h => h0 (by rw [h])
    have hc0 : ¬cond3_0 (grid3.coords t) := fun h => h0 ((hcond3_0 t).mp h)
    rw [PhiS3_castSucc V c t, PhiS3_pos V c _ _ hz]
    rw [sc3_next V c t h0]
    unfold next3; dsimp only
    by_cases h1 : t.val % 8 = 7
    · have hc1 : cond3_1 (grid3.coords t) := (hcond3_1 t).mpr h1
      rw [show (dat3 V c).leavesExact 5 t = owns (c : Thread nD τ) (ms3_5 t) fullShare ((dat3 V c).after 5 t) from by
        unfold Dat.leavesExact; rw [liveAt3_5 t hc1], after3_5]
      unfold out3
      rw [sc3_next V c t h0]
      unfold next3; dsimp only
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runLast3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) hc0 hc1 (iblk3 V c 0 t) (iblk3 V c 1 t) (iblk3 V c 2 t) (iblk3 V c 3 t) (iblk3 V c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond3_1 (grid3.coords t) := fun h => h1 ((hcond3_1 t).mp h)
      rw [Dat.leavesExact_idle (dat3 V c) 5 t (idleAt3_5 t hc1) (noFlush3_5 t hc1)]
      iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩⟩
      iapply (runMid3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) hc0 hc1 (iblk3 V c 0 t) (iblk3 V c 1 t) (iblk3 V c 2 t) (iblk3 V c 3 t) (iblk3 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitl [HS0 HS1 HS2 HR]
        · isplitl [HS0 HS1 HS2]
          · isplitl [HS0]; · iexact HS0
            isplitl [HS1]; · iexact HS1
            iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The class invariant is the invariant before the first point; -/
theorem hin3 (c : Dev nD) : Pipeline.ΦA spec3 c ⊢ (dat3 V c).Φ 0 := by
  rw [show (dat3 V c).Φ 0 = PhiS3 V c 0 (Nat.zero_le _) from rfl, PhiS3_zero V c 0 _ rfl]
/-- and the invariant after the last point gives it back, the kept buffers forgotten. -/
theorem hout3 (c : Dev nD) : (dat3 V c).Φ (Fin.last cfg3.N) ⊢ Pipeline.ΦA spec3 c := by
  rw [show (dat3 V c).Φ (Fin.last cfg3.N) = PhiS3 V c cfg3.N (Nat.le_refl _) from rfl,
    PhiS3_pos V c _ _ (by rw [show cfg3.N = 128 from N_3]; decide), PhiA3_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

end Call3

end Cert.KernelIdeal.Attn

end
-- ==== Proof.AttnPackI.lean ====
/-
  The two attention calls' proof data, packed as the run of the program takes them.
-/
import proofs.«100610_j61478161875059_2_alg».proof.Proof.RunI
import proofs.«100610_j61478161875059_2_alg».proof.Proof.AttnDataI

noncomputable section

namespace Cert.KernelIdeal.Pack

open Idealize.ShloMosaic

/-- The first layer's attention call: its proof data, its arrays, shares and dues, the invariant's two ends, the body
    obligation, and that every pair is recorded. -/
def D1 {F : FTy → Type} [FloatOps F] : Cert.KernelIdeal.Run.AttnData1 F :=
  ⟨Cert.KernelIdeal.Attn.dat1, Cert.KernelIdeal.Attn.A_eq1, Cert.KernelIdeal.Attn.q_eq1, Cert.KernelIdeal.Attn.owed1, Cert.KernelIdeal.Attn.hin1,
    Cert.KernelIdeal.Attn.hout1, Cert.KernelIdeal.Attn.body_obligation1, Cert.KernelIdeal.Attn.recorded1⟩
/-- The second layer's. -/
def D3 {F : FTy → Type} [FloatOps F] : Cert.KernelIdeal.Run.AttnData3 F :=
  ⟨Cert.KernelIdeal.Attn.dat3, Cert.KernelIdeal.Attn.A_eq3, Cert.KernelIdeal.Attn.q_eq3, Cert.KernelIdeal.Attn.owed3, Cert.KernelIdeal.Attn.hin3,
    Cert.KernelIdeal.Attn.hout3, Cert.KernelIdeal.Attn.body_obligation3, Cert.KernelIdeal.Attn.recorded3⟩

theorem D1_dat {F : FTy → Type} [FloatOps F] : (D1 (F := F)).dat = Cert.KernelIdeal.Attn.dat1 := rfl
theorem D3_dat {F : FTy → Type} [FloatOps F] : (D3 (F := F)).dat = Cert.KernelIdeal.Attn.dat3 := rfl

end Cert.KernelIdeal.Pack

end
-- ==== Proof.Spec.lean ====
/-
  The specification: one layer of the graph-attention update over the reals, and two layers of it.

  A layer takes the node features x (8192 nodes, 512 features each), the adjacency mask adj (8192 × 8192) and the layer's
  weight W (512 × 1024). It projects every node, x · W, and splits the 1024 columns in two: the first 512 are the
  values h (also the queries), the second 512 the keys g. The score of the pair (p, q) is the inner product of h at p
  and g at q; the weights of row p are the softmax of its scores — written here WITHOUT a shift,
  exp (s p q) / Σ_q' exp (s p q'), which is what every shifted form equals —, each weight is multiplied by the mask,
  the masked weights average the rows of h, the node's own features are added, and the result goes through the leaky
  rectifier y ↦ y if 0 ≤ y, slope · y otherwise. Everything is finite, so a finite input gives a finite output and the
  second layer may take the first one's result.

  The slope is the real number the 32-bit pattern 0x3C23D70A denotes (the float nearest one hundredth); both programs
  carry that same pattern, so its value is never computed: it is only shown to be finite.
-/
import Idealize.ShloMosaic.PureOps.Ideal
import Idealize.ShloMosaic.PureOps.Ideal.Laws
import Idealize.ShloMosaic.Lib.ValueIdx

noncomputable section

namespace Cert.GatSpec

open Idealize.ShloMosaic Idealize.ShloMosaic.ValueIdx
open scoped BigOperators

/-- Node features, and a layer's result: 8192 × 512. -/
abbrev SX : Shape := ⟨2, ![8192, 512]⟩
/-- The adjacency mask: 8192 × 8192. -/
abbrev SA : Shape := ⟨2, ![8192, 8192]⟩
/-- One layer's weight: 512 × 1024. -/
abbrev SW : Shape := ⟨2, ![512, 1024]⟩
/-- Both layers' weights: 2 × 512 × 1024. -/
abbrev SW2 : Shape := ⟨3, ![2, 512, 1024]⟩

/-- A real array read as an array of (finite) extended reals. -/
def up {S : Shape} (f : S.Idx → ℝ) : S.Idx → EReal := fun i => (f i : EReal)

theorem up_apply {S : Shape} (f : S.Idx → ℝ) (i : S.Idx) : up f i = (f i : EReal) := rfl

/-- The pattern 0x3C23D70A is a normal number's: not an infinity, not a NaN. -/
theorem slopeBits_ne_top : Ideal.ofBits .f32 0x3C23D70A#32 ≠ ⊤ := by
  simpa [Ideal.ofBits, Ideal.ieee] using EReal.coe_ne_top ((10737418 : ℝ) * ((2 : ℝ) ^ 30)⁻¹)
theorem slopeBits_ne_bot : Ideal.ofBits .f32 0x3C23D70A#32 ≠ ⊥ := by
  simpa [Ideal.ofBits, Ideal.ieee] using EReal.coe_ne_bot ((10737418 : ℝ) * ((2 : ℝ) ^ 30)⁻¹)

/-- The rectifier's slope on the negative side: the real the pattern 0x3C23D70A denotes. -/
def slope : ℝ := (Ideal.ofBits .f32 0x3C23D70A#32).toReal

theorem slope_eq : Ideal.ofBits .f32 0x3C23D70A#32 = (slope : EReal) :=
  (EReal.coe_toReal slopeBits_ne_top slopeBits_ne_bot).symm

/-- The pattern 0xFF800000 is -∞. -/
theorem negInf_eq : Ideal.ofBits .f32 0xFF800000#32 = ⊥ := by
  simp [Ideal.ofBits, Ideal.ieee]

/-- The leaky rectifier. -/
def leaky (y : ℝ) : ℝ := if 0 ≤ y then y else slope * y

/-- The values (and queries): the first 512 columns of x · W, at node `p` and feature `d`. -/
def h (x : SX.Idx → ℝ) (W : SW.Idx → ℝ) (p : Fin 8192) (d : Fin 512) : ℝ :=
  ∑ k : Fin 512, x (ix2 p k) * W (ix2 k (⟨d.val, by omega⟩ : Fin 1024))

/-- The keys: the last 512 columns of x · W. -/
def g (x : SX.Idx → ℝ) (W : SW.Idx → ℝ) (q : Fin 8192) (d : Fin 512) : ℝ :=
  ∑ k : Fin 512, x (ix2 q k) * W (ix2 k (⟨512 + d.val, by omega⟩ : Fin 1024))

/-- The score of the pair (p, q): the inner product of p's query and q's key. -/
def score (x : SX.Idx → ℝ) (W : SW.Idx → ℝ) (p q : Fin 8192) : ℝ :=
  ∑ d : Fin 512, h x W p d * g x W q d

/-- One layer at node `p`, feature `d`. -/
def layerAt (x : SX.Idx → ℝ) (adj : SA.Idx → ℝ) (W : SW.Idx → ℝ) (p : Fin 8192) (d : Fin 512) : ℝ :=
  leaky ((∑ q : Fin 8192, Real.exp (score x W p q) / (∑ q' : Fin 8192, Real.exp (score x W p q')) * adj (ix2 p q) * h x W q d)
    + x (ix2 p d))

/-- One layer, as an array. -/
def layer (x : SX.Idx → ℝ) (adj : SA.Idx → ℝ) (W : SW.Idx → ℝ) : SX.Idx → ℝ :=
  fun i => layerAt x adj W (i 0) (i 1)

/-- Layer `l`'s weight out of the stack of two. -/
def wsel (W : SW2.Idx → ℝ) (l : Fin 2) : SW.Idx → ℝ := fun i => W (ix3 l (i 0) (i 1))

/-- The whole computation: two layers, the second on the first one's result, each with its own weight, the same mask. -/
def gat (x : SX.Idx → ℝ) (adj : SA.Idx → ℝ) (W : SW2.Idx → ℝ) : SX.Idx → ℝ :=
  layer (layer x adj (wsel W 0)) adj (wsel W 1)

end Cert.GatSpec

end
-- ==== Proof.LibOnlineSoftmax.lean ====
/-
  The online form of a masked softmax average, on the extended reals.

  A row of real scores s_i over a finite set of entries, a real mask a_i and real values v_i.

  * The TWO-PASS form takes a shift M (in practice the row maximum, but any real does), the weights
    w_i = exp (s_i - M) / Σ_j exp (s_j - M), and returns Σ_i (w_i · a_i) · v_i: the mask multiplies the
    weights AFTER they are normalised.
  * The ONLINE form walks the row tile by tile and carries a shift m, the unmasked sum
    l = Σ exp (s_i - m) and the masked weighted sum acc = Σ (exp (s_i - m) · a_i) · v_i over the entries
    seen so far. On a new tile with a bound μ it moves the shift to m' = max m μ, multiplies l and acc by
    exp (m - m'), and adds the tile's terms at the new shift; it starts from m = -∞, l = 0, acc = 0 and
    returns acc / l at the end.

  The two agree, and the reason is short. Multiplying a sum of exp (s_i - M) by exp (M - M') moves its shift
  from M to M' (exp (a) · exp (b) = exp (a + b)), so after every tile l and acc are the sums over the
  entries seen so far AT THE CURRENT SHIFT, whatever the shifts were; and the quotient acc / l does not depend
  on the shift at all (the common factor exp (M₂ - M) cancels, being positive). So the shifts never have to be
  identified with a maximum: they only have to be finite, which a maximum of finite scores is.

  The first half states this over ℝ (sums over a Finset, so that "the entries seen so far" and "the new tile"
  are two disjoint finsets). The second half says that the extended-real operations a program is read with at
  the ideal instance — exp with exp (-∞) = 0, max, +, ·, and the quotient with its conventions at 0 — are the
  real operations on finite values, in exactly the shapes the online step and the two-pass row have, and that
  the first step from (-∞, 0, 0) lands on the first tile's sums.
-/
import Idealize.ShloMosaic.PureOps.Ideal

noncomputable section

namespace Cert.LibOnlineSoftmax

open Idealize.ShloMosaic
open scoped BigOperators

/-! ## Over the reals -/

section Reals

variable {κ : Type*} (s a v : κ → ℝ)

/-- The unmasked sum of the entries `S` at shift `M`: Σ_{i ∈ S} exp (s_i - M). -/
def lsum (S : Finset κ) (M : ℝ) : ℝ := ∑ i ∈ S, Real.exp (s i - M)

/-- The masked, weighted sum of the entries `S` at shift `M`: Σ_{i ∈ S} (exp (s_i - M) · a_i) · v_i. -/
def asum (S : Finset κ) (M : ℝ) : ℝ := ∑ i ∈ S, Real.exp (s i - M) * a i * v i

/-- Multiplying by exp (M - M') moves the shift of the unmasked sum from `M` to `M'`. -/
theorem lsum_rescale (S : Finset κ) (M M' : ℝ) : Real.exp (M - M') * lsum s S M = lsum s S M' := by
  unfold lsum
  rw [Finset.mul_sum]
  refine Finset.sum_congr rfl fun i _ => ?_
  rw [← Real.exp_add]
  congr 1
  ring

/-- Multiplying by exp (M - M') moves the shift of the masked weighted sum from `M` to `M'`. -/
theorem asum_rescale (S : Finset κ) (M M' : ℝ) : Real.exp (M - M') * asum s a v S M = asum s a v S M' := by
  unfold asum
  rw [Finset.mul_sum]
  refine Finset.sum_congr rfl fun i _ => ?_
  rw [← mul_assoc, ← mul_assoc, ← Real.exp_add]
  congr 3
  ring

/-- The unmasked sum is positive as soon as there is an entry: every term is an exponential. -/
theorem lsum_pos {S : Finset κ} (hS : S.Nonempty) (M : ℝ) : 0 < lsum s S M :=
  Finset.sum_pos (fun _ _ => Real.exp_pos _) hS

/-- ONE ONLINE STEP, the unmasked sum: the sum over the entries seen so far, moved from its shift `M` to the new
    shift `M'`, plus the new tile's sum at `M'`, is the sum over both at `M'`. Neither shift has to be a
    maximum. -/
theorem step_lsum [DecidableEq κ] {S T : Finset κ} (h : Disjoint S T) (M M' : ℝ) :
    Real.exp (M - M') * lsum s S M + lsum s T M' = lsum s (S ∪ T) M' := by
  rw [lsum_rescale]
  exact (Finset.sum_union h).symm

/-- ONE ONLINE STEP, the masked weighted sum. -/
theorem step_asum [DecidableEq κ] {S T : Finset κ} (h : Disjoint S T) (M M' : ℝ) :
    Real.exp (M - M') * asum s a v S M + asum s a v T M' = asum s a v (S ∪ T) M' := by
  rw [asum_rescale]
  exact (Finset.sum_union h).symm

/-- THE LAW. The online quotient at ANY shift `M` is the two-pass sum at ANY shift `M₂`: the masked weighted
    sum over the unmasked sum is the sum of the normalised weights exp (s_i - M₂) / Σ_j exp (s_j - M₂), each
    times its mask and its value. -/
theorem online_eq_twopass {S : Finset κ} (hS : S.Nonempty) (M M₂ : ℝ) :
    asum s a v S M / lsum s S M = ∑ i ∈ S, Real.exp (s i - M₂) / lsum s S M₂ * a i * v i := by
  have hL2 : lsum s S M₂ ≠ 0 := (lsum_pos s hS M₂).ne'
  rw [← asum_rescale s a v S M₂ M, ← lsum_rescale s S M₂ M,
    mul_div_mul_left _ _ (Real.exp_pos (M₂ - M)).ne']
  unfold asum
  rw [Finset.sum_div]
  refine Finset.sum_congr rfl fun i _ => ?_
  field_simp

end Reals

/-! ## The extended-real operations on finite values -/

section Extended

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- exp of a difference of finite values is the real exponential of the real difference. -/
theorem exp_sub_coe (x M : ℝ) : Ideal.exp ((x : EReal) - (M : EReal)) = ((Real.exp (x - M) : ℝ) : EReal) := by
  rw [← EReal.coe_sub]
  rfl

/-- The maximum of two finite values is the real maximum. -/
theorem max_coe (x y : ℝ) : max (x : EReal) (y : EReal) = ((max x y : ℝ) : EReal) :=
  (EReal.coe_strictMono.monotone.map_max).symm

/-- The maximum of -∞ and a finite value is that value: the first tile's bound becomes the shift. -/
theorem max_bot_coe (y : ℝ) : max (⊥ : EReal) (y : EReal) = (y : EReal) := max_eq_right bot_le

/-- The quotient of a finite value by a nonzero finite value is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

variable {J : Type*} [Fintype J]

/-- THE ONLINE STEP on finite state, the unmasked sum: with the carried shift `m` and sum `l` finite, the tile's
    bound `μ` finite, and the tile's scores finite, the new sum
    exp (m - max m μ) · l + Σ_j exp (s_j - max m μ) is the real expression of the same shape. -/
theorem step_l_coe (m μ l : ℝ) (sT : J → ℝ) :
    Ideal.exp ((m : EReal) - max (m : EReal) (μ : EReal)) * (l : EReal)
        + ∑ j, Ideal.exp ((sT j : EReal) - max (m : EReal) (μ : EReal))
      = ((Real.exp (m - max m μ) * l + ∑ j, Real.exp (sT j - max m μ) : ℝ) : EReal) := by
  rw [max_coe, exp_sub_coe, EReal.coe_add, EReal.coe_mul, coe_sum]
  simp only [exp_sub_coe]

/-- THE ONLINE STEP on finite state, the masked weighted sum:
    exp (m - max m μ) · acc + Σ_j (exp (s_j - max m μ) · a_j) · v_j. -/
theorem step_acc_coe (m μ acc : ℝ) (sT aT vT : J → ℝ) :
    Ideal.exp ((m : EReal) - max (m : EReal) (μ : EReal)) * (acc : EReal)
        + ∑ j, Ideal.exp ((sT j : EReal) - max (m : EReal) (μ : EReal)) * (aT j : EReal) * (vT j : EReal)
      = ((Real.exp (m - max m μ) * acc + ∑ j, Real.exp (sT j - max m μ) * aT j * vT j : ℝ) : EReal) := by
  rw [max_coe, exp_sub_coe, EReal.coe_add, EReal.coe_mul, coe_sum]
  simp only [exp_sub_coe, EReal.coe_mul]

/-- THE FIRST STEP, the unmasked sum: from the shift -∞ and the sum 0 the rescale factor is exp (-∞) = 0, and
    what is left is the first tile's sum at its own bound. -/
theorem first_l_coe (μ : ℝ) (sT : J → ℝ) :
    Ideal.exp ((⊥ : EReal) - max (⊥ : EReal) (μ : EReal)) * (0 : EReal)
        + ∑ j, Ideal.exp ((sT j : EReal) - max (⊥ : EReal) (μ : EReal))
      = ((∑ j, Real.exp (sT j - μ) : ℝ) : EReal) := by
  rw [max_bot_coe, mul_zero, zero_add, coe_sum]
  simp only [exp_sub_coe]

/-- THE FIRST STEP, the masked weighted sum. -/
theorem first_acc_coe (μ : ℝ) (sT aT vT : J → ℝ) :
    Ideal.exp ((⊥ : EReal) - max (⊥ : EReal) (μ : EReal)) * (0 : EReal)
        + ∑ j, Ideal.exp ((sT j : EReal) - max (⊥ : EReal) (μ : EReal)) * (aT j : EReal) * (vT j : EReal)
      = ((∑ j, Real.exp (sT j - μ) * aT j * vT j : ℝ) : EReal) := by
  rw [max_bot_coe, mul_zero, zero_add, coe_sum]
  simp only [exp_sub_coe, EReal.coe_mul]

/-- THE TWO-PASS ROW on finite values: each weight exp (s_i - M) divided by the row's sum (taken from a zero
    initial value, as a reduction is), times the mask, times the value, summed — the real expression of the same
    shape. The row must have an entry, so that the sum it divides by is not zero. -/
theorem twopass_coe [Nonempty J] (s a v : J → ℝ) (M : ℝ) :
    ∑ i, Ideal.div (Ideal.exp ((s i : EReal) - (M : EReal))) ((0 : EReal) + ∑ j, Ideal.exp ((s j : EReal) - (M : EReal)))
          * (a i : EReal) * (v i : EReal)
      = ((∑ i, Real.exp (s i - M) / lsum s Finset.univ M * a i * v i : ℝ) : EReal) := by
  have hL : lsum s Finset.univ M ≠ 0 := (lsum_pos s Finset.univ_nonempty M).ne'
  have hden : (0 : EReal) + ∑ j, Ideal.exp ((s j : EReal) - (M : EReal)) = ((lsum s Finset.univ M : ℝ) : EReal) := by
    rw [zero_add, lsum, coe_sum]
    simp only [exp_sub_coe]
  rw [hden, coe_sum]
  refine Finset.sum_congr rfl fun i _ => ?_
  rw [exp_sub_coe, div_coe_coe _ hL, EReal.coe_mul, EReal.coe_mul]

/-- THE END of an online pass on finite state: the quotient acc / l of the sums over ALL entries at the last
    shift `M` is the two-pass row at the shift `M₂` the other side chose. -/
theorem online_div_eq_twopass [Nonempty J] (s a v : J → ℝ) (M M₂ : ℝ) :
    Ideal.div ((asum s a v Finset.univ M : ℝ) : EReal) ((lsum s Finset.univ M : ℝ) : EReal)
      = ∑ i, Ideal.div (Ideal.exp ((s i : EReal) - (M₂ : EReal))) ((0 : EReal) + ∑ j, Ideal.exp ((s j : EReal) - (M₂ : EReal)))
          * (a i : EReal) * (v i : EReal) := by
  rw [twopass_coe, div_coe_coe _ (lsum_pos s Finset.univ_nonempty M).ne',
    online_eq_twopass s a v Finset.univ_nonempty M M₂]

end Extended

/-! ## A whole online pass -/

section Pass

variable {J : Type*} [Fintype J] [DecidableEq J]

/-- What an online pass carries between tiles: the shift, the unmasked sum, the masked weighted sum. -/
structure State where
  m : EReal
  l : EReal
  acc : EReal

/-- Before the first tile: the shift -∞, both sums 0. -/
def State.init : State := ⟨⊥, 0, 0⟩

/-- One tile: the shift moves to the maximum of the old shift and the tile's bound `μ`; both sums are multiplied
    by exp (old shift - new shift) and receive the tile's terms at the new shift. -/
def State.step (sT aT vT : J → EReal) (μ : EReal) (st : State) : State :=
  ⟨max st.m μ,
    Ideal.exp (st.m - max st.m μ) * st.l + ∑ j, Ideal.exp (sT j - max st.m μ),
    Ideal.exp (st.m - max st.m μ) * st.acc + ∑ j, Ideal.exp (sT j - max st.m μ) * aT j * vT j⟩

variable (s a v : ℕ → J → ℝ) (μ : ℕ → ℝ)

/-- The pass over the tiles 0, 1, …, k-1 of a row whose tile `t` has the finite scores `s t`, mask `a t`, values
    `v t` and bound `μ t`. -/
def run : ℕ → State
  | 0 => State.init
  | k + 1 => State.step (fun j => (s k j : EReal)) (fun j => (a k j : EReal)) (fun j => (v k j : EReal)) (μ k : EReal)
      (run k)

/-- One more tile, by definition. -/
theorem run_succ_eq (k : ℕ) :
    run s a v μ (k + 1)
      = State.step (fun j => (s k j : EReal)) (fun j => (a k j : EReal)) (fun j => (v k j : EReal)) (μ k : EReal) (run s a v μ k) := rfl

/-- The pass over the first `k` tiles consults only the bounds of those tiles. -/
theorem run_congr {μ μ' : ℕ → ℝ} (k : ℕ) (h : ∀ j < k, μ j = μ' j) : run s a v μ k = run s a v μ' k := by
  induction k with
  | zero => rfl
  | succ k ih =>
    rw [run_succ_eq, run_succ_eq, ih (fun j hj => h j (Nat.lt_succ_of_lt hj)), h k (Nat.lt_succ_self k)]

/-- The entries of the tiles below `k`: pairs (tile, position in the tile). -/
def seen (k : ℕ) : Finset (ℕ × J) := Finset.range k ×ˢ Finset.univ

theorem seen_succ (k : ℕ) : seen (J := J) (k + 1) = seen k ∪ ({k} : Finset ℕ) ×ˢ (Finset.univ : Finset J) := by
  unfold seen
  rw [Finset.range_add_one, Finset.insert_eq, Finset.union_product, Finset.union_comm]

theorem seen_disjoint (k : ℕ) : Disjoint (seen (J := J) k) (({k} : Finset ℕ) ×ˢ (Finset.univ : Finset J)) := by
  unfold seen
  rw [Finset.disjoint_left]
  rintro ⟨t, j⟩ h1 h2
  rw [Finset.mem_product] at h1 h2
  have := Finset.mem_range.mp h1.1
  have := Finset.mem_singleton.mp h2.1
  omega

/-- One tile's unmasked sum is the sum over that tile's pairs. -/
theorem tile_lsum (k : ℕ) (M : ℝ) :
    ∑ j, Real.exp (s k j - M) = lsum (fun p : ℕ × J => s p.1 p.2) (({k} : Finset ℕ) ×ˢ (Finset.univ : Finset J)) M := by
  unfold lsum
  rw [Finset.sum_product, Finset.sum_singleton]

/-- One tile's masked weighted sum is the sum over that tile's pairs. -/
theorem tile_asum (k : ℕ) (M : ℝ) :
    ∑ j, Real.exp (s k j - M) * a k j * v k j
      = asum (fun p : ℕ × J => s p.1 p.2) (fun p => a p.1 p.2) (fun p => v p.1 p.2)
          (({k} : Finset ℕ) ×ˢ (Finset.univ : Finset J)) M := by
  unfold asum
  rw [Finset.sum_product, Finset.sum_singleton]

/-- THE INVARIANT of the pass. After at least one tile the shift is finite, and the two sums are the unmasked
    and the masked weighted sums over all the entries seen so far, at that shift. -/
theorem run_succ (k : ℕ) : ∃ M : ℝ, run s a v μ (k + 1)
    = ⟨(M : EReal), ((lsum (fun p : ℕ × J => s p.1 p.2) (seen (k + 1)) M : ℝ) : EReal),
        ((asum (fun p : ℕ × J => s p.1 p.2) (fun p => a p.1 p.2) (fun p => v p.1 p.2) (seen (k + 1)) M : ℝ) : EReal)⟩ := by
  induction k with
  | zero =>
    refine ⟨μ 0, ?_⟩
    have hs : seen (J := J) (0 + 1) = ({0} : Finset ℕ) ×ˢ (Finset.univ : Finset J) := by
      unfold seen; rw [Finset.range_one]
    rw [hs, ← tile_lsum, ← tile_asum]
    show State.step _ _ _ _ State.init = _
    simp only [State.step, State.init]
    rw [first_l_coe, first_acc_coe, max_bot_coe]
  | succ k ih =>
    obtain ⟨M, hM⟩ := ih
    refine ⟨max M (μ (k + 1)), ?_⟩
    rw [seen_succ (k + 1), ← step_lsum _ (seen_disjoint (k + 1)) M, ← step_asum _ _ _ (seen_disjoint (k + 1)) M,
      ← tile_lsum, ← tile_asum]
    show State.step _ _ _ _ (run s a v μ (k + 1)) = _
    rw [hM]
    simp only [State.step]
    rw [step_l_coe, step_acc_coe, max_coe]

/-- THE WHOLE PASS. Over one or more tiles of a row whose tiles are not empty, the quotient the online pass
    ends with is the two-pass value of the row: the sum over all entries of the normalised weight
    exp (s - M₂) / Σ exp (s - M₂) times the mask times the value, at whatever shift `M₂` the two-pass side uses. -/
theorem run_div_eq_twopass [Nonempty J] (k : ℕ) (M₂ : ℝ) :
    Ideal.div (run s a v μ (k + 1)).acc (run s a v μ (k + 1)).l
      = ((∑ p ∈ seen (J := J) (k + 1),
            Real.exp (s p.1 p.2 - M₂) / lsum (fun p : ℕ × J => s p.1 p.2) (seen (k + 1)) M₂ * a p.1 p.2 * v p.1 p.2 : ℝ) : EReal) := by
  obtain ⟨M, hM⟩ := run_succ s a v μ k
  have hne : (seen (J := J) (k + 1)).Nonempty :=
    ⟨(0, Classical.arbitrary J), Finset.mem_product.mpr ⟨Finset.mem_range.mpr (Nat.succ_pos k), Finset.mem_univ _⟩⟩
  rw [hM]
  show Ideal.div ((_ : ℝ) : EReal) ((_ : ℝ) : EReal) = _
  rw [div_coe_coe _ (lsum_pos _ hne M).ne', online_eq_twopass _ _ _ hne M M₂]

end Pass

end Cert.LibOnlineSoftmax

end
-- ==== Proof.RefValue.lean ====
/- The reference's layer read at an index, at the ideal values, on finite inputs: each named intermediate of the
   layer (the projection, its halves, the scores, the row maximum, the shifted exponentials, their row sums, the
   softmax, the leaky rectifier) at one index in terms of its operands at indices; then, on arrays of finite
   extended reals, the layer is the specification's layer over the reals, and the program's result is the
   specification's two layers. -/
import proofs.«100610_j61478161875059_2_alg».proof.Proof.RefRun
import proofs.«100610_j61478161875059_2_alg».proof.Proof.Spec
import proofs.«100610_j61478161875059_2_alg».proof.Proof.LibOnlineSoftmax
import Idealize.ShloMosaic.Lib.ValueIdx
import Idealize.ShloMosaic.Lib.ValueLayout
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.ValueIdx Idealize.ShloMosaic.StackMember
open scoped BigOperators

/-! ## Reductions along the rows of a matrix, over variable extents -/

section Rows
variable {m n : Nat}

/-- The reduced index r with the column k put back is (r, k). -/
theorem lift_row (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A maximum-reduce along the rows, at row r: the fold of max from the initial value over the row. -/
theorem hostReduce_max_row (s : FVec Ideal ⟨2, ![m, n]⟩ .f32) (init : FVec Ideal ⟨0, ![]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf s init h' hu (ix1 r)
      = (Finset.univ : Finset (Fin n)).fold max (init (Shape.Idx.first hu)) (fun c => s (ix2 r c)) := by
  rw [Host.reduce_eq_fold_single FloatOps.maximumf s _ h' h hu]
  have hf : (s ∘ h.lift (ix1 r)) = fun c : Fin n => s (ix2 r c) := funext fun c => congrArg s (lift_row h r c)
  exact congrArg (fun f => Finset.fold max (init (Shape.Idx.first hu)) f (Finset.univ : Finset (Fin n))) hf

/-- An add-reduce along the rows, at row r: the initial value plus the row's sum. -/
theorem hostReduceAdd_row (x : FVec Ideal ⟨2, ![m, n]⟩ .f32) (init : FVec Ideal ⟨0, ![]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduceAdd x init h' hu (ix1 r) = init (Shape.Idx.first hu) + ∑ c : Fin n, x (ix2 r c) := by
  show Ideal.hostReduceAdd h' x (init (Shape.Idx.first hu)) (ix1 r) = _
  rw [Ideal.hostReduceAdd_single h' h]
  congr 1
  exact Finset.sum_congr rfl fun c _ => congrArg x (lift_row h r c)

/-- A vector of row values broadcast along the rows of a matrix reads, at (r, c), the value of row r. -/
theorem bcast_row (hm : m ≠ 1) (v : (⟨1, ![m]⟩ : Shape).Idx → EReal)
    (b1 : (⟨1, ![m]⟩ : Shape).BroadcastsInDim (⟨2, ![m, 1]⟩ : Shape) ![0])
    (b2 : (⟨2, ![m, 1]⟩ : Shape).BroadcastsInDim (⟨2, ![m, n]⟩ : Shape) ![0, 1]) (r : Fin m) (c : Fin n) :
    broadcastInDim (⟨2, ![m, n]⟩ : Shape) ![0, 1] b2 (broadcastInDim (⟨2, ![m, 1]⟩ : Shape) ![0] b1 v) (ix2 r c) = v (ix1 r) := by
  rw [broadcastInDim_apply _ _ _ (ix2 r c) (ix2 r (0 : Fin 1)) (fun a => by
    match a with
    | ⟨0, _⟩ => exact (if_neg hm).symm
    | ⟨1, _⟩ => rfl)]
  exact broadcastInDim_apply _ _ _ _ (ix1 r) (fun a => by
    match a with
    | ⟨0, _⟩ => exact (if_neg hm).symm)

end Rows

/-- The fold of max from −∞ over a nonempty finite family of finite values is finite. -/
theorem fold_max_finite {ι : Type*} (f : ι → ℝ) (S : Finset ι) (hS : S.Nonempty) :
    ∃ M : ℝ, S.fold max (⊥ : EReal) (fun c => (f c : EReal)) = (M : EReal) := by
  classical
  induction hS using Finset.Nonempty.cons_induction with
  | singleton a =>
    refine ⟨f a, ?_⟩
    rw [Finset.fold_singleton]
    exact max_eq_left bot_le
  | cons a S ha hS ih =>
    obtain ⟨M, hM⟩ := ih
    refine ⟨max (f a) M, ?_⟩
    rw [Finset.fold_cons, hM]
    exact Cert.LibOnlineSoftmax.max_coe _ _

/-! ## The layer's intermediates at an index (extended reals) -/

theorem reduces_row : S8192x8192.Reduces [1] S8192 := by decide

/-- The projection at (r, c): the row of `x` against the column of the weights. -/
theorem proj_apply (x : FVec Ideal S8192x512 .f32) (Wl : FVec Ideal S512x1024 .f32) (r : Fin 8192) (c : Fin 1024) :
    proj (F := Ideal) x Wl (ix2 r c) = ∑ k : Fin 512, x (ix2 r k) * Wl (ix2 k c) :=
  dotGeneral_plain_apply (m := 8192) (n := 1024) (k := 512) none x Wl r c

/-- The first half of the projection at (r, c) is the projection at (r, c). -/
theorem wh_apply (x : FVec Ideal S8192x512 .f32) (Wl : FVec Ideal S512x1024 .f32) (r : Fin 8192) (c : Fin 512) :
    wh (F := Ideal) x Wl (ix2 r c) = proj (F := Ideal) x Wl (ix2 r (⟨c.val, by omega⟩ : Fin 1024)) :=
  slice2_axis1_apply 0 (proj (F := Ideal) x Wl) slices_S8192x1024_S8192x512_0_0 r c ⟨c.val, by omega⟩ (Nat.zero_add _).symm

/-- The transposed second half at (k, c) is the projection at (c, 512 + k). -/
theorem wsT_apply (x : FVec Ideal S8192x512 .f32) (Wl : FVec Ideal S512x1024 .f32) (k : Fin 512) (c : Fin 8192) :
    wsT (F := Ideal) x Wl (ix2 k c) = proj (F := Ideal) x Wl (ix2 c (⟨512 + k.val, by omega⟩ : Fin 1024)) := by
  unfold wsT
  rw [transpose_ix2_apply]
  exact slice2_axis1_apply 512 (proj (F := Ideal) x Wl) slices_S8192x1024_S8192x512_0_512 c k ⟨512 + k.val, by omega⟩ rfl

/-- The scores at (r, c): row r of the first half against row c of the second half. -/
theorem scores_apply (x : FVec Ideal S8192x512 .f32) (Wl : FVec Ideal S512x1024 .f32) (r c : Fin 8192) :
    scores (F := Ideal) x Wl (ix2 r c)
      = ∑ k : Fin 512, wh (F := Ideal) x Wl (ix2 r k) * wsT (F := Ideal) x Wl (ix2 k c) :=
  dotGeneral_plain_apply (m := 8192) (n := 8192) (k := 512) none (wh (F := Ideal) x Wl) (wsT (F := Ideal) x Wl) r c

/-- The row maximum at r: the fold of max from −∞ over the row. -/
theorem rowMax_apply (s : FVec Ideal S8192x8192 .f32) (r : Fin 8192) :
    rowMax (F := Ideal) s (ix1 r) = (Finset.univ : Finset (Fin 8192)).fold max (⊥ : EReal) (fun c => s (ix2 r c)) := by
  unfold rowMax
  rw [maximumf_apply]
  have hred := hostReduce_max_row s (constant (F := Ideal) S_ .f32 0xFF800000#32) reducesTo_S8192x8192_S8192_d1
    reduces_row h_S_ r
  have hi : (constant (F := Ideal) S_ .f32 0xFF800000#32) (Shape.Idx.first h_S_) = (⊥ : EReal) := Cert.GatSpec.negInf_eq
  rw [hi] at hred
  have hb : (broadcastInDim S8192 ![] bcast_S_S8192 (constant (F := Ideal) S_ .f32 0xFF800000#32)) (ix1 r) = (⊥ : EReal) :=
    Cert.GatSpec.negInf_eq
  exact (congrArg₂ max hb hred).trans (max_eq_right bot_le)

/-- The shifted exponential at (r, c). -/
theorem expo_apply (s : FVec Ideal S8192x8192 .f32) (r c : Fin 8192) :
    expo (F := Ideal) s (ix2 r c) = Ideal.exp (s (ix2 r c) - rowMax (F := Ideal) s (ix1 r)) := by
  unfold expo
  have hb := bcast_row (m := 8192) (n := 8192) (by decide) (rowMax (F := Ideal) s) bcast_S8192_S8192x1_0
    bcast_S8192x1_S8192x8192_0_1 r c
  exact congrArg (fun t => Ideal.exp (s (ix2 r c) - t)) hb

/-- The row sum of the shifted exponentials at r (from the initial value 0). -/
theorem denom_apply (s : FVec Ideal S8192x8192 .f32) (r : Fin 8192) :
    denom (F := Ideal) s (ix1 r) = (0 : EReal) + ∑ c : Fin 8192, expo (F := Ideal) s (ix2 r c) := by
  unfold denom
  have hred := hostReduceAdd_row (expo (F := Ideal) s) (constant (F := Ideal) S_ .f32 0x00000000#32)
    reducesTo_S8192x8192_S8192_d1 reduces_row h_S_ r
  have hi : (constant (F := Ideal) S_ .f32 0x00000000#32) (Shape.Idx.first h_S_) = (0 : EReal) := Ideal.ofBits_zero_f32
  rw [hi] at hred
  exact hred

/-- The softmax at (r, c). -/
theorem softmax_apply (s : FVec Ideal S8192x8192 .f32) (r c : Fin 8192) :
    softmax (F := Ideal) s (ix2 r c) = Ideal.div (expo (F := Ideal) s (ix2 r c)) (denom (F := Ideal) s (ix1 r)) := by
  unfold softmax
  have hb := bcast_row (m := 8192) (n := 8192) (by decide) (denom (F := Ideal) s) bcast_S8192_S8192x1_0
    bcast_S8192x1_S8192x8192_0_1 r c
  exact congrArg (fun t => Ideal.div (expo (F := Ideal) s (ix2 r c)) t) hb

/-- The aggregation's product at (p, d): row p of the weights against column d of the values. -/
theorem agg_apply (P : FVec Ideal S8192x8192 .f32) (V : FVec Ideal S8192x512 .f32) (p : Fin 8192) (d : Fin 512) :
    Host.dotGeneral (F := Ideal) dot_S8192x8192_S8192x512_S8192x512_1_0_0_1_n_n none P V (ix2 p d)
      = ∑ k : Fin 8192, P (ix2 p k) * V (ix2 k d) :=
  dotGeneral_plain_apply (m := 8192) (n := 512) (k := 8192) none P V p d

/-! ## On finite inputs: the specification's terms -/

open Cert.GatSpec (up up_apply)
open Cert.LibOnlineSoftmax (coe_sum exp_sub_coe max_coe div_coe_coe twopass_coe lsum)

/-- The projection of finite arrays is the real product, coerced. -/
theorem proj_up (x : Cert.GatSpec.SX.Idx → ℝ) (W : Cert.GatSpec.SW.Idx → ℝ) (r : Fin 8192) (c : Fin 1024) :
    proj (F := Ideal) (up x) (up W) (ix2 r c) = ((∑ k : Fin 512, x (ix2 r k) * W (ix2 k c) : ℝ) : EReal) := by
  rw [proj_apply, coe_sum]
  exact Finset.sum_congr rfl fun k _ => (EReal.coe_mul _ _).symm

/-- Its first half is the specification's values. -/
theorem wh_up (x : Cert.GatSpec.SX.Idx → ℝ) (W : Cert.GatSpec.SW.Idx → ℝ) (r : Fin 8192) (c : Fin 512) :
    wh (F := Ideal) (up x) (up W) (ix2 r c) = ((Cert.GatSpec.h x W r c : ℝ) : EReal) := by
  rw [wh_apply, proj_up]
  rfl

/-- Its second half, transposed, is the specification's keys. -/
theorem wsT_up (x : Cert.GatSpec.SX.Idx → ℝ) (W : Cert.GatSpec.SW.Idx → ℝ) (k : Fin 512) (c : Fin 8192) :
    wsT (F := Ideal) (up x) (up W) (ix2 k c) = ((Cert.GatSpec.g x W c k : ℝ) : EReal) := by
  rw [wsT_apply, proj_up]
  rfl

/-- The scores are the specification's scores. -/
theorem scores_up (x : Cert.GatSpec.SX.Idx → ℝ) (W : Cert.GatSpec.SW.Idx → ℝ) (r c : Fin 8192) :
    scores (F := Ideal) (up x) (up W) (ix2 r c) = ((Cert.GatSpec.score x W r c : ℝ) : EReal) := by
  rw [scores_apply, Cert.GatSpec.score, coe_sum]
  exact Finset.sum_congr rfl fun k _ => by rw [wh_up, wsT_up, EReal.coe_mul]

/-- The row maximum of finite scores is finite. -/
theorem rowMax_finite (s : FVec Ideal S8192x8192 .f32) (sr : Fin 8192 → Fin 8192 → ℝ)
    (hs : ∀ r c, s (ix2 r c) = (sr r c : EReal)) (r : Fin 8192) :
    ∃ M : ℝ, rowMax (F := Ideal) s (ix1 r) = (M : EReal) := by
  haveI : Nonempty (Fin 8192) := ⟨⟨0, by decide⟩⟩
  obtain ⟨M, hM⟩ := fold_max_finite (sr r) Finset.univ Finset.univ_nonempty
  refine ⟨M, ?_⟩
  rw [rowMax_apply, ← hM]
  exact congrArg (fun f => Finset.fold max (⊥ : EReal) f (Finset.univ : Finset (Fin 8192))) (funext fun c => hs r c)

/-- Softmax weights do not depend on the shift. -/
theorem shift_free {J : Type*} [Fintype J] (s : J → ℝ) (M : ℝ) (i : J) :
    Real.exp (s i - M) / lsum s Finset.univ M = Real.exp (s i) / ∑ j, Real.exp (s j) := by
  unfold lsum
  simp only [Real.exp_sub]
  rw [← Finset.sum_div, div_div_div_cancel_right₀ (Real.exp_pos M).ne']

/-- One row of masked softmax weights against a column of values, on finite scores: the specification's sum. -/
theorem attn_row (s : FVec Ideal S8192x8192 .f32) (sr : Fin 8192 → Fin 8192 → ℝ)
    (hs : ∀ r c, s (ix2 r c) = (sr r c : EReal)) (a v : Fin 8192 → ℝ) (r : Fin 8192) :
    ∑ k : Fin 8192, softmax (F := Ideal) s (ix2 r k) * (a k : EReal) * (v k : EReal)
      = ((∑ k : Fin 8192, Real.exp (sr r k) / (∑ q' : Fin 8192, Real.exp (sr r q')) * a k * v k : ℝ) : EReal) := by
  haveI : Nonempty (Fin 8192) := ⟨⟨0, by decide⟩⟩
  obtain ⟨M, hM⟩ := rowMax_finite s sr hs r
  have he : ∀ c, expo (F := Ideal) s (ix2 r c) = Ideal.exp ((sr r c : EReal) - (M : EReal)) := fun c => by
    rw [expo_apply, hs, hM]
  have hd : denom (F := Ideal) s (ix1 r) = (0 : EReal) + ∑ j : Fin 8192, Ideal.exp ((sr r j : EReal) - (M : EReal)) := by
    rw [denom_apply]
    exact congrArg (fun t : EReal => (0 : EReal) + t) (Finset.sum_congr rfl fun c _ => he c)
  have hsm : ∀ k, softmax (F := Ideal) s (ix2 r k)
      = Ideal.div (Ideal.exp ((sr r k : EReal) - (M : EReal))) ((0 : EReal) + ∑ j : Fin 8192, Ideal.exp ((sr r j : EReal) - (M : EReal))) :=
    fun k => by rw [softmax_apply, he, hd]
  have hsum : ∑ k : Fin 8192, softmax (F := Ideal) s (ix2 r k) * (a k : EReal) * (v k : EReal)
      = ∑ k : Fin 8192, Ideal.div (Ideal.exp ((sr r k : EReal) - (M : EReal)))
          ((0 : EReal) + ∑ j : Fin 8192, Ideal.exp ((sr r j : EReal) - (M : EReal))) * (a k : EReal) * (v k : EReal) :=
    Finset.sum_congr rfl fun k _ => by rw [hsm]
  rw [hsum, twopass_coe (sr r) a v M]
  refine congrArg (fun t : ℝ => (t : EReal)) (Finset.sum_congr rfl fun k _ => ?_)
  rw [shift_free]

/-- The leaky rectifier at an index where the operand is finite: the specification's, coerced. -/
theorem leaky_up (y : FVec Ideal S8192x512 .f32) (i : S8192x512.Idx) (t : ℝ) (ht : y i = (t : EReal)) :
    RefRun.leaky (F := Ideal) y i = ((Cert.GatSpec.leaky t : ℝ) : EReal) := by
  unfold RefRun.leaky
  rw [select_apply, cmpf_apply, mulf_apply]
  have h0 : (broadcastInDim S8192x512 ![] bcast_S_S8192x512 (constant (F := Ideal) S_ .f32 0x00000000#32)) i = (0 : EReal) :=
    Ideal.ofBits_zero_f32
  have hsl : (broadcastInDim S8192x512 ![] bcast_S_S8192x512 (id (constant (F := Ideal) S_ .f32 0x3C23D70A#32))) i
      = (Cert.GatSpec.slope : EReal) := Cert.GatSpec.slope_eq
  rw [h0, hsl, ht]
  unfold Cert.GatSpec.leaky
  by_cases h : 0 ≤ t
  · have hc : FloatOps.cmpf (F := Ideal) (φ := .f32) .oge (t : EReal) (0 : EReal) = 1#1 := by
      show Ideal.cmp .oge (t : EReal) 0 = 1#1
      simp [Ideal.cmp, h]
    rw [hc, select_one, if_pos h]
  · have hc : FloatOps.cmpf (F := Ideal) (φ := .f32) .oge (t : EReal) (0 : EReal) = 0#1 := by
      show Ideal.cmp .oge (t : EReal) 0 = 0#1
      simp [Ideal.cmp, h]
    rw [hc, select_zero, if_neg h, EReal.coe_mul]

/-! ## The layer, the weights' slices and the whole program on finite inputs -/

/-- The rectifier's operand at (p, d), on finite inputs: the specification's masked average plus the residual. -/
theorem pre_up (x : Cert.GatSpec.SX.Idx → ℝ) (adj : Cert.GatSpec.SA.Idx → ℝ) (W : Cert.GatSpec.SW.Idx → ℝ)
    (p : Fin 8192) (d : Fin 512) :
    addf (F := Ideal) (φ := .f32) (Host.dotGeneral (F := Ideal) (φ₁ := .f32) (φ₂ := .f32) dot_S8192x8192_S8192x512_S8192x512_1_0_0_1_n_n none
        (mulf (F := Ideal) (φ := .f32) (softmax (F := Ideal) (scores (F := Ideal) (up x) (up W))) (up adj))
        (wh (F := Ideal) (up x) (up W))) (up x) (ix2 p d)
      = (((∑ q : Fin 8192, Real.exp (Cert.GatSpec.score x W p q) / (∑ q' : Fin 8192, Real.exp (Cert.GatSpec.score x W p q'))
              * adj (ix2 p q) * Cert.GatSpec.h x W q d) + x (ix2 p d) : ℝ) : EReal) := by
  rw [addf_apply, agg_apply, EReal.coe_add]
  refine congrArg (fun t : EReal => t + (x (ix2 p d) : EReal)) ?_
  rw [← attn_row (scores (F := Ideal) (up x) (up W)) (Cert.GatSpec.score x W) (scores_up x W)
        (fun k => adj (ix2 p k)) (fun k => Cert.GatSpec.h x W k d) p]
  refine Finset.sum_congr rfl fun k _ => ?_
  rw [mulf_apply, wh_up]
  rfl

/-- ONE LAYER on finite inputs is the specification's layer. -/
theorem refLayer_up (x : Cert.GatSpec.SX.Idx → ℝ) (adj : Cert.GatSpec.SA.Idx → ℝ) (W : Cert.GatSpec.SW.Idx → ℝ) :
    Cert.ReferenceIdeal.RefRun.refLayer (F := Ideal) (Cert.GatSpec.up x) (Cert.GatSpec.up adj) (Cert.GatSpec.up W)
      = Cert.GatSpec.up (Cert.GatSpec.layer x adj W) := by
  funext i
  obtain ⟨p, d, rfl⟩ : ∃ (p : Fin 8192) (d : Fin 512), i = ix2 p d := ⟨i 0, i 1, eq_ix2 i⟩
  unfold refLayer
  exact leaky_up _ (ix2 p d) _ (pre_up x adj W p d)

/-- Layer 0's weights out of a finite stack. -/
theorem wslice0_up (W : Cert.GatSpec.SW2.Idx → ℝ) :
    Cert.ReferenceIdeal.RefRun.wslice0 (F := Ideal) (Cert.GatSpec.up W) = Cert.GatSpec.up (Cert.GatSpec.wsel W 0) := by
  funext i
  obtain ⟨a, b, rfl⟩ : ∃ (a : Fin 512) (b : Fin 1024), i = ix2 a b := ⟨i 0, i 1, eq_ix2 i⟩
  unfold wslice0
  rw [shapeCast_1ab_ab_apply]
  exact extractStridedSlice_apply _ _ _ _ (ix3 (0 : Fin 2) a b) (fun ax => by
    match ax with
    | ⟨0, _⟩ => rfl
    | ⟨1, _⟩ => exact (Nat.zero_add _).symm
    | ⟨2, _⟩ => exact (Nat.zero_add _).symm)

/-- Layer 1's weights out of a finite stack. -/
theorem wslice1_up (W : Cert.GatSpec.SW2.Idx → ℝ) :
    Cert.ReferenceIdeal.RefRun.wslice1 (F := Ideal) (Cert.GatSpec.up W) = Cert.GatSpec.up (Cert.GatSpec.wsel W 1) := by
  funext i
  obtain ⟨a, b, rfl⟩ : ∃ (a : Fin 512) (b : Fin 1024), i = ix2 a b := ⟨i 0, i 1, eq_ix2 i⟩
  unfold wslice1
  rw [shapeCast_1ab_ab_apply]
  exact extractStridedSlice_apply _ _ _ _ (ix3 (1 : Fin 2) a b) (fun ax => by
    match ax with
    | ⟨0, _⟩ => rfl
    | ⟨1, _⟩ => exact (Nat.zero_add _).symm
    | ⟨2, _⟩ => exact (Nat.zero_add _).symm)

/-- THE PROGRAM'S RESULT on finite inputs is the specification's two layers. -/
theorem refOut_up (x : Cert.GatSpec.SX.Idx → ℝ) (adj : Cert.GatSpec.SA.Idx → ℝ) (W : Cert.GatSpec.SW2.Idx → ℝ) :
    Cert.ReferenceIdeal.RefRun.refOut (F := Ideal) (Cert.GatSpec.up x) (Cert.GatSpec.up adj) (Cert.GatSpec.up W)
      = Cert.GatSpec.up (Cert.GatSpec.gat x adj W) := by
  unfold refOut Cert.GatSpec.gat
  rw [wslice0_up, wslice1_up, refLayer_up, refLayer_up]

end Cert.ReferenceIdeal.RefValue

end
-- ==== Proof.PreFiniteI.lean ====
/- From the precondition to real arrays: the three arguments of the idealized kernel, each tested finite
   element by element (absolute value below +∞, all of them), are arrays of finite extended reals — the
   coercions of real arrays. -/
import proofs.«100610_j61478161875059_2_alg».proof.Defs
import proofs.«100610_j61478161875059_2_alg».proof.Proof.Gen.Pre_finite_inputs
import proofs.«100610_j61478161875059_2_alg».proof.Proof.Spec
import Idealize.ShloMosaic.Lib.ReduceAll
import Idealize.ShloMosaic.Lib.Affine
import Idealize.ShloMosaic.Lib.ValueIdx
import Idealize.ShloMosaic.PureOps.Ideal.Laws

noncomputable section

namespace Cert.KernelIdeal.PreFinite

open Idealize.ShloMosaic Idealize.ShloMosaic.ValueIdx Idealize.SL.Sem

/-- The scalar shape has one index. -/
instance subsingleton_scalarIdx : Subsingleton Cert.Pre_finite_inputs.S_.Idx := ⟨fun a b => funext fun d => d.elim0⟩

/-- The pattern 0x7F800000 is +∞. -/
theorem posInf_eq : Ideal.ofBits .f32 0x7F800000#32 = (⊤ : EReal) := by
  simp [Ideal.ofBits, Ideal.ieee]

/-- An extended real whose absolute value compares below +∞ is finite. -/
theorem finite_of_abs_lt (x : EReal)
    (h : FloatOps.cmpf (F := Ideal) (φ := .f32) .olt (FloatOps.hostAbsf (F := Ideal) (φ := .f32) x) (Ideal.ofBits .f32 0x7F800000#32) = 1#1) :
    x = ((x.toReal : ℝ) : EReal) := by
  rw [posInf_eq] at h
  have hlt : max x (-x) < (⊤ : EReal) := by
    by_contra hn
    have h' : Ideal.cmp .olt (max x (-x)) ⊤ = 1#1 := h
    simp [Ideal.cmp, hn] at h'
  have h1 : x ≠ ⊤ := fun e => by rw [e] at hlt; simp at hlt
  have h2 : x ≠ ⊥ := fun e => by rw [e] at hlt; simp at hlt
  exact (EReal.coe_toReal h1 h2).symm

/-- An array every element of which passes that test is the coercion of a real array. -/
theorem up_of_all {s : Shape} (X : FVec Ideal s .f32) (B : FVec Ideal s .f32) (hB : ∀ i, B i = Ideal.ofBits .f32 0x7F800000#32)
    (hall : ∀ i, cmpf (F := Ideal) .olt (Host.absf X) B i = 1#1) :
    X = Cert.GatSpec.up (fun i => (X i).toReal) := by
  funext i
  have h := hall i
  rw [cmpf_apply, hB] at h
  exact finite_of_abs_lt (X i) h

/-- THE PRECONDITION gives real arrays: on every device the three arguments are the coercions of real arrays. -/
theorem pre_up (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : Cert.GatSpec.SX.Idx → ℝ) (adj : Cert.GatSpec.SA.Idx → ℝ) (W : Cert.GatSpec.SW2.Idx → ℝ),
      m ((c.tc : Thread Cert.KernelIdeal.nD Cert.KernelIdeal.τ).loc Cert.KernelIdeal.main_arg0) = Cert.GatSpec.up x
      ∧ m ((c.tc : Thread Cert.KernelIdeal.nD Cert.KernelIdeal.τ).loc Cert.KernelIdeal.main_arg1) = Cert.GatSpec.up adj
      ∧ m ((c.tc : Thread Cert.KernelIdeal.nD Cert.KernelIdeal.τ).loc Cert.KernelIdeal.main_arg2) = Cert.GatSpec.up W := by
  have h0 := congrFun (h c) ix0
  dsimp only [Cert.Pre_finite_inputs.fn] at h0
  obtain ⟨h01, h2⟩ := IntOp.andi_eq_one.1 h0
  obtain ⟨h0', h1⟩ := IntOp.andi_eq_one.1 h01
  have a0 := Host.reduce_andi_all _ _ _ _ _ h0'
  have a1 := Host.reduce_andi_all _ _ _ _ _ h1
  have a2 := Host.reduce_andi_all _ _ _ _ _ h2
  exact ⟨_, _, _, up_of_all _ _ (fun _ => rfl) a0, up_of_all _ _ (fun _ => rfl) a1, up_of_all _ _ (fun _ => rfl) a2⟩

end Cert.KernelIdeal.PreFinite

end
-- ==== Proof.LibColumn.lean ====
/-
  Two layout operations read at an index given by coordinates, for the "keep the reduced axis" idiom: a vector of
  row results `[a]` is cast to a column `[a, 1]` and the column is broadcast along the rows to `[a, b]`, so that
  every entry `(p, c)` of the result is the row result `p`. General in the extents; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(i, u)`, the vector's entry `i`: both have row-major
    position `i`, the unit coordinate `u` being `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis is read at
    `0`, the other axis at the result's own coordinate. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector of row results kept as a column and spread along the rows is, at `(p, c)`, the row
    result `p`. -/
theorem keepdims_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Cert.LibColumn
-- ==== Proof.LibPlainDot.lean ====
/-
  A matrix product with the plain dimension numbers — the left operand's second axis contracted against the right
  operand's first, no batch axis — read at one entry of its result on the extended reals: entry (row, column) is
  the sum, over the contracted coordinate k, of left (row, k) · right (k, column).

  The dimension numbers index the contraction by a shape of their own (one axis, of the contracted extent); the sum
  over that shape's indices is re-indexed through its one coordinate. Both the vector unit's product into a zero
  accumulator and the host's dot product are this same sum, so a product computed on a block of rows agrees, entry
  by entry, with the product of the whole arrays.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The dimension numbers of a plain product of an M×K by a K×N matrix: contract the left operand's axis 1
    against the right operand's axis 0; the left rows and the right columns are kept; no batch axis. -/
structure IsPlain (d : DotDims ⟨2, ![M, K]⟩ ⟨2, ![K, N]⟩ ⟨2, ![M, N]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

variable {d : DotDims ⟨2, ![M, K]⟩ ⟨2, ![K, N]⟩ ⟨2, ![M, N]⟩}

/-- The left operand is read in the result's row. -/
theorem lhsIdx_row (h : IsPlain d) (j : (⟨2, ![M, N]⟩ : Shape).Idx) (k : d.contr.Idx) :
    (d.lhsIdx j k (0 : Fin 2)).val = (j (0 : Fin 2)).val := by
  unfold DotDims.lhsIdx
  rw [dif_neg (by rw [h.lb]; exact List.not_mem_nil), dif_pos (by rw [h.ln]; exact List.mem_singleton.mpr rfl)]
  simp only [Fin.val_cast]
  have key : ∀ (p : Nat) (hp : p < 2), p = 0 → (j ⟨p, hp⟩).val = (j (0 : Fin 2)).val :=
    fun p hp e => by subst e; rfl
  exact key _ _ (by simp [h.lb, h.ln])

/-- The right operand is read in the result's column. -/
theorem rhsIdx_col (h : IsPlain d) (j : (⟨2, ![M, N]⟩ : Shape).Idx) (k : d.contr.Idx) :
    (d.rhsIdx j k (1 : Fin 2)).val = (j (1 : Fin 2)).val := by
  unfold DotDims.rhsIdx
  rw [dif_neg (by rw [h.rb]; exact List.not_mem_nil), dif_pos (by rw [h.rn]; exact List.mem_singleton.mpr rfl)]
  simp only [Fin.val_cast]
  have key : ∀ (p : Nat) (hp : p < 2), p = 1 → (j ⟨p, hp⟩).val = (j (1 : Fin 2)).val :=
    fun p hp e => by subst e; rfl
  exact key _ _ (by simp [h.lb, h.ln, h.rn])

/-- The contraction has one axis … -/
theorem rank_contr (h : IsPlain d) : d.contr.rank = 1 := by rw [d.rank_contr, h.lc]; rfl

/-- … of the contracted extent. -/
theorem size_contr (h : IsPlain d) : d.contr.size ⟨0, by rw [rank_contr h]; exact Nat.one_pos⟩ = K :=
  (d.size_contr 0 (by rw [h.lc]; exact Nat.one_pos)).trans (by rw [List.getElem_of_eq h.lc]; rfl)

/-- THE SUM, re-indexed: over the contraction's indices it is the sum over the contracted coordinate of
    left (row, k) · right (k, column). -/
theorem sum_eq (h : IsPlain d) {φ₁ φ₂ : FTy} (l : FVec Ideal ⟨2, ![M, K]⟩ φ₁) (r : FVec Ideal ⟨2, ![K, N]⟩ φ₂)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K (rank_contr h) (size_contr h)).symm]
  refine Finset.sum_congr rfl fun k _ => ?_
  have e1 : d.lhsIdx j ((contrEquiv1 d K (rank_contr h) (size_contr h)).symm k) = ix2 (j 0) k := by
    funext a; apply Fin.ext
    match a with
    | ⟨0, _⟩ => exact lhsIdx_row h j _
    | ⟨1, _⟩ => exact (d.lhsIdx_val_of_single h.lc j _).trans (contrEquiv1_symm_val d K (rank_contr h) (size_contr h) k)
  have e2 : d.rhsIdx j ((contrEquiv1 d K (rank_contr h) (size_contr h)).symm k) = ix2 k (j 1) := by
    funext a; apply Fin.ext
    match a with
    | ⟨0, _⟩ => exact (d.rhsIdx_val_of_single h.rc j _).trans (contrEquiv1_symm_val d K (rank_contr h) (size_contr h) k)
    | ⟨1, _⟩ => exact rhsIdx_col h j _
  exact congrArg₂ (· * ·) (congrArg l e1) (congrArg r e2)

/-- The vector unit's product accumulated into zero, at an entry. -/
theorem matmul_zero_apply (h : IsPlain d) {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (sum_eq h l r j)

/-- The host's dot product, at an entry: the same sum, whatever the schedule. -/
theorem dotGeneral_apply (h : IsPlain d) {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Idealize.ShloMosaic.PlainDot

end
-- ==== Proof.AttnStepI.lean ====
/- One tile's step of the attention kernel read at an index, at the ideal values, on finite queries, keys,
   values and mask: the new running maximum, the rescaled running sum of exponentials and the rescaled running
   masked weighted sum are the three components of the online softmax step over the tile's real scores; the
   initial values; and the last tile's quotient, residual and leaky rectifier. -/
import proofs.«100610_j61478161875059_2_alg».proof.Proof.AttnBodyI
import proofs.«100610_j61478161875059_2_alg».proof.Proof.Spec
import proofs.«100610_j61478161875059_2_alg».proof.Proof.LibOnlineSoftmax
import proofs.«100610_j61478161875059_2_alg».proof.Proof.LibColumn
import proofs.«100610_j61478161875059_2_alg».proof.Proof.LibPlainDot
import proofs.«100610_j61478161875059_2_alg».proof.Proof.RefValue
import Idealize.ShloMosaic.Lib.ValueIdx
import Idealize.ShloMosaic.Lib.ValueLayout
import Idealize.ShloMosaic.PureOps.Ideal.Laws

noncomputable section

namespace Cert.KernelIdeal.AttnStep

open Cert.KernelIdeal Cert.KernelIdeal.Gen Cert.KernelIdeal.Attn
open Idealize.ShloMosaic Idealize.ShloMosaic.ValueIdx
open Cert.GatSpec (up up_apply)
open scoped BigOperators

/-! ## General: a product against a transposed right operand, and row reductions, over variable extents -/

section General
variable {M K N : Nat}

/-- The dimension numbers of a product of an M×K by an N×K matrix contracting the second axis of both: the left rows
    and the right rows are kept; no batch axis. -/
structure IsTransR (d : DotDims ⟨2, ![M, K]⟩ ⟨2, ![N, K]⟩ ⟨2, ![M, N]⟩) : Prop where
  lc : d.lhsContracting = [(1 : Fin 2)]
  rc : d.rhsContracting = [(1 : Fin 2)]
  ln : d.lhsNonContracting = [(0 : Fin 2)]
  rn : d.rhsNonContracting = [(0 : Fin 2)]
  lb : d.lhsBatch = []
  rb : d.rhsBatch = []

variable {d : DotDims ⟨2, ![M, K]⟩ ⟨2, ![N, K]⟩ ⟨2, ![M, N]⟩}

/-- The left operand is read in the result's row. -/
theorem lhsIdx_row (h : IsTransR d) (j : (⟨2, ![M, N]⟩ : Shape).Idx) (k : d.contr.Idx) :
    (d.lhsIdx j k (0 : Fin 2)).val = (j (0 : Fin 2)).val := by
  unfold DotDims.lhsIdx
  rw [dif_neg (by rw [h.lb]; exact List.not_mem_nil), dif_pos (by rw [h.ln]; exact List.mem_singleton.mpr rfl)]
  simp only [Fin.val_cast]
  have key : ∀ (p : Nat) (hp : p < 2), p = 0 → (j ⟨p, hp⟩).val = (j (0 : Fin 2)).val :=
    fun p hp e => by subst e; rfl
  exact key _ _ (by simp [h.lb, h.ln])

/-- The right operand's row is the result's column. -/
theorem rhsIdx_row (h : IsTransR d) (j : (⟨2, ![M, N]⟩ : Shape).Idx) (k : d.contr.Idx) :
    (d.rhsIdx j k (0 : Fin 2)).val = (j (1 : Fin 2)).val := by
  unfold DotDims.rhsIdx
  rw [dif_neg (by rw [h.rb]; exact List.not_mem_nil), dif_pos (by rw [h.rn]; exact List.mem_singleton.mpr rfl)]
  simp only [Fin.val_cast]
  have key : ∀ (p : Nat) (hp : p < 2), p = 1 → (j ⟨p, hp⟩).val = (j (1 : Fin 2)).val :=
    fun p hp e => by subst e; rfl
  exact key _ _ (by simp [h.lb, h.ln, h.rn])

theorem rank_contr (h : IsTransR d) : d.contr.rank = 1 := by rw [d.rank_contr, h.lc]; rfl

theorem size_contr (h : IsTransR d) : d.contr.size ⟨0, by rw [rank_contr h]; exact Nat.one_pos⟩ = K :=
  (d.size_contr 0 (by rw [h.lc]; exact Nat.one_pos)).trans (by rw [List.getElem_of_eq h.lc]; rfl)

/-- The sum over the contraction's indices is the sum over the contracted coordinate of
    left (row, k) · right (column, k). -/
theorem sum_eq (h : IsTransR d) {φ₁ φ₂ : FTy} (l : FVec Ideal ⟨2, ![M, K]⟩ φ₁) (r : FVec Ideal ⟨2, ![N, K]⟩ φ₂)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (contrEquiv1 d K (rank_contr h) (size_contr h)).symm]
  refine Finset.sum_congr rfl fun k _ => ?_
  have e1 : d.lhsIdx j ((contrEquiv1 d K (rank_contr h) (size_contr h)).symm k) = ix2 (j 0) k := by
    funext a; apply Fin.ext
    match a with
    | ⟨0, _⟩ => exact lhsIdx_row h j _
    | ⟨1, _⟩ => exact (d.lhsIdx_val_of_single h.lc j _).trans (contrEquiv1_symm_val d K (rank_contr h) (size_contr h) k)
  have e2 : d.rhsIdx j ((contrEquiv1 d K (rank_contr h) (size_contr h)).symm k) = ix2 (j 1) k := by
    funext a; apply Fin.ext
    match a with
    | ⟨0, _⟩ => exact rhsIdx_row h j _
    | ⟨1, _⟩ => exact (d.rhsIdx_val_of_single h.rc j _).trans (contrEquiv1_symm_val d K (rank_contr h) (size_contr h) k)
  exact congrArg₂ (· * ·) (congrArg l e1) (congrArg r e2)

/-- The vector unit's product against a transposed right operand, accumulated into zero, at an entry. -/
theorem matmulT_zero_apply (h : IsTransR d) {φ₁ φ₂ : FTy} (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) :=
  (Ideal.matmul_constant_zero_apply d prec l r j).trans (sum_eq h l r j)

end General

section Rows
variable {a b : Nat}

/-- A maximum-reduction along the rows, at row r: the fold of max from the accumulator's value over the row. -/
theorem mr_max_row (src : FVec Ideal ⟨2, ![a, b]⟩ .f32) (acc : BitVec (FTy.bits .f32))
    (h : (⟨2, ![a, b]⟩ : Shape).Reduces [1] (⟨1, ![a]⟩ : Shape)) (hφ : FKind.Formats .f32)
    (hacc : acc = FKind.maximumf.neutral .f32 hφ) (r : Fin a) :
    multiReduction .maximumf [1] (⟨1, ![a]⟩ : Shape) src acc h hφ hacc (ix1 r)
      = (Finset.univ : Finset (Fin b)).fold max (Ideal.ofBits .f32 acc) (fun c => src (ix2 r c)) := by
  rw [Ideal.multiReduction_maximumf_single]
  have hf : (src ∘ h.lift (ix1 r)) = fun c : Fin b => src (ix2 r c) :=
    funext fun c => congrArg src (Cert.ReferenceIdeal.RefValue.lift_row h r c)
  exact congrArg (fun f => Finset.fold max (Ideal.ofBits .f32 acc) f (Finset.univ : Finset (Fin b))) hf

/-- An add-reduction along the rows, at row r: the row's sum. -/
theorem mr_add_row (src : FVec Ideal ⟨2, ![a, b]⟩ .f32) (acc : BitVec (FTy.bits .f32))
    (h : (⟨2, ![a, b]⟩ : Shape).Reduces [1] (⟨1, ![a]⟩ : Shape)) (hφ : FKind.Formats .f32)
    (hacc : acc = FKind.add.neutral .f32 hφ) (r : Fin a) :
    multiReduction .add [1] (⟨1, ![a]⟩ : Shape) src acc h hφ hacc (ix1 r) = ∑ c : Fin b, src (ix2 r c) := by
  rw [Ideal.multiReduction_add_single]
  exact Finset.sum_congr rfl fun c _ => congrArg src (Cert.ReferenceIdeal.RefValue.lift_row h r c)

end Rows

/-- A shape cast to the same shape reads the operand. -/
theorem shapeCast_self {α : Type} {s : Shape} (x : s.Idx → α) (h : s.ShapeCasts s) (j : s.Idx) : shapeCast s x h j = x j :=
  shapeCast_apply x h j j rfl

/-- The leaky rectifier on one finite value, as the vector unit writes it: compare with the zero word, select the
    value or the slope word times it. -/
theorem leaky_scalar (t : ℝ) :
    Scalar.select (FloatOps.cmpf (F := Ideal) (φ := .f32) .oge (t : EReal) (Ideal.ofBits .f32 0x00000000#32)) (t : EReal)
        (Ideal.ofBits .f32 0x3C23D70A#32 * (t : EReal))
      = ((Cert.GatSpec.leaky t : ℝ) : EReal) := by
  rw [Ideal.ofBits_zero_f32, Cert.GatSpec.slope_eq]
  unfold Cert.GatSpec.leaky
  by_cases h : 0 ≤ t
  · have hc : FloatOps.cmpf (F := Ideal) (φ := .f32) .oge (t : EReal) (0 : EReal) = 1#1 := by
      show Ideal.cmp .oge (t : EReal) 0 = 1#1
      simp [Ideal.cmp, h]
    rw [hc, select_one, if_pos h]
  · have hc : FloatOps.cmpf (F := Ideal) (φ := .f32) .oge (t : EReal) (0 : EReal) = 0#1 := by
      show Ideal.cmp .oge (t : EReal) 0 = 0#1
      simp [Ideal.cmp, h]
    rw [hc, select_zero, if_neg h, EReal.coe_mul]

/-! ## Call 1: the tile, its scores and their row maximum -/

/-- Row `j` of the point's tile among the resident 8192 rows: 1024 · kv + j. -/
def rowIdx1 (i : grid1.Coords) (j : Fin 1024) : Fin 8192 :=
  ⟨1024 * (i 1).val + j.val, by have h : (i 1).val < 8 := (i 1).isLt; omega⟩

/-- The tile read at (j, d) is the resident array at (1024 · kv + j, d). -/
theorem tile1_apply (i : grid1.Coords) (x : Vec Ideal S8192x512 .bf16) (j : Fin 1024) (d : Fin 512) :
    tile1 (F := Ideal) i x (ix2 j d) = x (ix2 (rowIdx1 i j) d) := by
  unfold tile1
  refine congrArg x (funext fun a => Fin.ext ?_)
  show (k1_off1 i) a + 1 * ((ix2 j d) a).val = ((ix2 (rowIdx1 i j) d) a).val
  rw [k1_off1_eq]
  match a with
  | ⟨0, _⟩ => show 1024 * (i 1).val + 1 * j.val = 1024 * (i 1).val + j.val; omega
  | ⟨1, _⟩ => show 0 + 1 * d.val = d.val; omega

/-- The tile's scores over the reals: query row r against the tile's key row j. -/
def scoreT1 (i : grid1.Coords) (qb : S512x512.Idx → ℝ) (kf : S8192x512.Idx → ℝ) (r : Fin 512) (j : Fin 1024) : ℝ :=
  ∑ d : Fin 512, qb (ix2 r d) * kf (ix2 (rowIdx1 i j) d)

theorem tileMax1_exists (i : grid1.Coords) (qb : S512x512.Idx → ℝ) (kf : S8192x512.Idx → ℝ) (r : Fin 512) :
    ∃ M : ℝ, (Finset.univ : Finset (Fin 1024)).fold max (⊥ : EReal) (fun j => (scoreT1 i qb kf r j : EReal)) = (M : EReal) :=
  Cert.ReferenceIdeal.RefValue.fold_max_finite (scoreT1 i qb kf r) Finset.univ ⟨⟨0, by decide⟩, Finset.mem_univ _⟩

/-- The maximum of row r of the tile's scores, a real. -/
def tileMax1 (i : grid1.Coords) (qb : S512x512.Idx → ℝ) (kf : S8192x512.Idx → ℝ) (r : Fin 512) : ℝ :=
  Classical.choose (tileMax1_exists i qb kf r)

theorem tileMax1_spec (i : grid1.Coords) (qb : S512x512.Idx → ℝ) (kf : S8192x512.Idx → ℝ) (r : Fin 512) :
    (Finset.univ : Finset (Fin 1024)).fold max (⊥ : EReal) (fun j => (scoreT1 i qb kf r j : EReal)) = (tileMax1 i qb kf r : EReal) :=
  Classical.choose_spec (tileMax1_exists i qb kf r)

theorem isTransR1 : IsTransR (M := 512) (K := 512) (N := 1024) dot_S512x512_S1024x512_S512x1024_1_1_0_0_n_n :=
  ⟨rfl, rfl, rfl, rfl, rfl, rfl⟩

/-- The scores' payload at (r, j), on finite queries and keys: the real score, coerced. -/
theorem pay8_1_up (i : grid1.Coords) (qb : S512x512.Idx → ℝ) (kf : S8192x512.Idx → ℝ) (r : Fin 512) (j : Fin 1024) :
    k1_pay8 (F := Ideal) (up qb) (tile1 (F := Ideal) i (up kf)) (ix2 r j) = (scoreT1 i qb kf r j : EReal) := by
  unfold k1_pay8
  refine (matmulT_zero_apply isTransR1 none _ _ (ix2 r j)).trans ?_
  rw [scoreT1, Cert.LibOnlineSoftmax.coe_sum]
  refine Finset.sum_congr rfl fun k _ => ?_
  rw [shapeCast_self, shapeCast_self, tile1_apply, EReal.coe_mul]
  rfl

theorem isPlain1 : Idealize.ShloMosaic.PlainDot.IsPlain (M := 512) (K := 1024) (N := 512) dot_S512x1024_S1024x512_S512x512_1_0_0_1_n_n :=
  ⟨rfl, rfl, rfl, rfl, rfl, rfl⟩

/-- The new running maximum at row r: the old one against the tile's row maximum. -/
theorem pay9_1_up (i : grid1.Coords) (qb : S512x512.Idx → ℝ) (kf : S8192x512.Idx → ℝ) (sm : Vec Ideal S512x1 .f32) (r : Fin 512) :
    k1_pay9 (F := Ideal) (up qb) (tile1 (F := Ideal) i (up kf)) sm (ix2 r (0 : Fin 1))
      = max (sm (ix2 r (0 : Fin 1))) (tileMax1 i qb kf r : EReal) := by
  unfold k1_pay9
  rw [maximumf_apply]
  refine congrArg (max (sm (ix2 r (0 : Fin 1)))) ?_
  rw [Cert.LibColumn.shapeCast_a_a1_apply]
  refine (mr_max_row _ _ reduces_S512x1024_S512 _ _ r).trans ?_
  rw [Cert.GatSpec.negInf_eq, ← tileMax1_spec]
  exact congrArg (fun f => Finset.fold max (⊥ : EReal) f (Finset.univ : Finset (Fin 1024))) (funext fun j => pay8_1_up i qb kf r j)

/-- (M) ONE TILE'S STEP, the running maximum, at row r. -/
theorem stepM1_apply (i : grid1.Coords) (qb : S512x512.Idx → ℝ) (kf : S8192x512.Idx → ℝ) (sm : Vec Ideal S512x1 .f32) (r : Fin 512) :
    stepM1 (F := Ideal) i (up qb) (up kf) sm (ix2 r (0 : Fin 1))
      = max (sm (ix2 r (0 : Fin 1))) (tileMax1 i qb kf r : EReal) := by
  unfold stepM1 k1_pay2
  rw [shapeCast_self]
  exact pay9_1_up i qb kf sm r

/-- The rescale factor at row r: exp (old maximum − new maximum). -/
theorem pay10_1_up (i : grid1.Coords) (qb : S512x512.Idx → ℝ) (kf : S8192x512.Idx → ℝ) (sm : Vec Ideal S512x1 .f32) (r : Fin 512) :
    k1_pay10 (F := Ideal) (up qb) (tile1 (F := Ideal) i (up kf)) sm (ix2 r (0 : Fin 1))
      = Ideal.exp (sm (ix2 r (0 : Fin 1)) - max (sm (ix2 r (0 : Fin 1))) (tileMax1 i qb kf r : EReal)) := by
  unfold k1_pay10
  exact congrArg (fun t => Ideal.exp (sm (ix2 r (0 : Fin 1)) - t)) (pay9_1_up i qb kf sm r)

/-- The shifted exponentials of the tile's scores at (r, j). -/
theorem pay11_1_up (i : grid1.Coords) (qb : S512x512.Idx → ℝ) (kf : S8192x512.Idx → ℝ) (sm : Vec Ideal S512x1 .f32) (r : Fin 512) (j : Fin 1024) :
    k1_pay11 (F := Ideal) (up qb) (tile1 (F := Ideal) i (up kf)) sm (ix2 r j)
      = Ideal.exp ((scoreT1 i qb kf r j : EReal) - max (sm (ix2 r (0 : Fin 1))) (tileMax1 i qb kf r : EReal)) := by
  unfold k1_pay11
  have h1 := pay8_1_up i qb kf r j
  have h2 : broadcastTo S512x1024 (k1_pay9 (F := Ideal) (up qb) (tile1 (F := Ideal) i (up kf)) sm) broadcasts_S512x1_S512x1024 (ix2 r j)
      = max (sm (ix2 r (0 : Fin 1))) (tileMax1 i qb kf r : EReal) :=
    (Cert.LibColumn.broadcastTo_a1_ab_apply _ broadcasts_S512x1_S512x1024 r j).trans (pay9_1_up i qb kf sm r)
  exact congrArg₂ (fun s t : EReal => Ideal.exp (s - t)) h1 h2

/-- (L) ONE TILE'S STEP, the running sum of exponentials, at row r. -/
theorem stepL1_apply (i : grid1.Coords) (qb : S512x512.Idx → ℝ) (kf : S8192x512.Idx → ℝ) (sm sl : Vec Ideal S512x1 .f32) (r : Fin 512) :
    stepL1 (F := Ideal) i (up qb) (up kf) sm sl (ix2 r (0 : Fin 1))
      = Ideal.exp (sm (ix2 r (0 : Fin 1)) - max (sm (ix2 r (0 : Fin 1))) (tileMax1 i qb kf r : EReal)) * sl (ix2 r (0 : Fin 1))
        + ∑ j : Fin 1024, Ideal.exp ((scoreT1 i qb kf r j : EReal) - max (sm (ix2 r (0 : Fin 1))) (tileMax1 i qb kf r : EReal)) := by
  unfold stepL1 k1_pay12
  rw [shapeCast_self, addf_apply, mulf_apply, pay10_1_up, Cert.LibColumn.shapeCast_a_a1_apply]
  refine congrArg (fun t : EReal => Ideal.exp (sm (ix2 r (0 : Fin 1)) - max (sm (ix2 r (0 : Fin 1))) (tileMax1 i qb kf r : EReal))
    * sl (ix2 r (0 : Fin 1)) + t) ?_
  refine (mr_add_row _ _ reduces_S512x1024_S512 _ _ r).trans ?_
  exact Finset.sum_congr rfl fun j _ => pay11_1_up i qb kf sm r j

/-- (A) ONE TILE'S STEP, the running masked weighted sum of the value rows, at (r, d). -/
theorem stepA1_apply (i : grid1.Coords) (qb : S512x512.Idx → ℝ) (kf vf : S8192x512.Idx → ℝ) (mb : S512x1024.Idx → ℝ)
    (sm : Vec Ideal S512x1 .f32) (sa : Vec Ideal S512x512 .f32) (r d : Fin 512) :
    stepA1 (F := Ideal) i (up qb) (up kf) (up vf) (up mb) sm sa (ix2 r d)
      = Ideal.exp (sm (ix2 r (0 : Fin 1)) - max (sm (ix2 r (0 : Fin 1))) (tileMax1 i qb kf r : EReal)) * sa (ix2 r d)
        + ∑ j : Fin 1024, Ideal.exp ((scoreT1 i qb kf r j : EReal) - max (sm (ix2 r (0 : Fin 1))) (tileMax1 i qb kf r : EReal))
            * (mb (ix2 r j) : EReal) * (vf (ix2 (rowIdx1 i j) d) : EReal) := by
  unfold stepA1 k1_pay1
  rw [shapeCast_self, addf_apply, mulf_apply]
  have h14 : k1_pay14 (F := Ideal) (up qb) (tile1 (F := Ideal) i (up kf)) sm (ix2 r d)
      = Ideal.exp (sm (ix2 r (0 : Fin 1)) - max (sm (ix2 r (0 : Fin 1))) (tileMax1 i qb kf r : EReal)) := by
    unfold k1_pay14
    exact (Cert.LibColumn.broadcastTo_a1_ab_apply _ broadcasts_S512x1_S512x512 r d).trans (pay10_1_up i qb kf sm r)
  rw [h14]
  refine congrArg (fun t : EReal => Ideal.exp (sm (ix2 r (0 : Fin 1)) - max (sm (ix2 r (0 : Fin 1))) (tileMax1 i qb kf r : EReal))
    * sa (ix2 r d) + t) ?_
  refine (Idealize.ShloMosaic.PlainDot.matmul_zero_apply isPlain1 none _ _ (ix2 r d)).trans ?_
  refine Finset.sum_congr rfl fun j _ => ?_
  have h13 : k1_pay13 (F := Ideal) (up qb) (tile1 (F := Ideal) i (up kf)) sm (up mb) (ix2 r j)
      = Ideal.exp ((scoreT1 i qb kf r j : EReal) - max (sm (ix2 r (0 : Fin 1))) (tileMax1 i qb kf r : EReal)) * (mb (ix2 r j) : EReal) := by
    unfold k1_pay13
    rw [truncf_apply, mulf_apply, pay11_1_up]
    rfl
  have h7 : k1_pay7 (F := Ideal) (tile1 (F := Ideal) i (up vf)) (ix2 j d) = (vf (ix2 (rowIdx1 i j) d) : EReal) := by
    unfold k1_pay7
    rw [shapeCast_self, tile1_apply]
    rfl
  exact congrArg₂ (fun s t : EReal => s * t) h13 h7

/-- The initial running maximum is −∞. -/
theorem pay4_1_apply (r : Fin 512) : k1_pay4 (F := Ideal) (ix2 r (0 : Fin 1)) = (⊥ : EReal) := by
  unfold k1_pay4
  rw [shapeCast_self]
  exact Cert.GatSpec.negInf_eq

/-- The initial running sum is 0. -/
theorem pay5_1_apply (r : Fin 512) : k1_pay5 (F := Ideal) (ix2 r (0 : Fin 1)) = (0 : EReal) := by
  unfold k1_pay5
  rw [shapeCast_self]
  exact Ideal.ofBits_zero_f32

/-- The initial running weighted sum is 0. -/
theorem pay6_1_apply (r d : Fin 512) : k1_pay6 (F := Ideal) (ix2 r d) = (0 : EReal) := by
  unfold k1_pay6
  rw [shapeCast_self]
  exact Ideal.ofBits_zero_f32

/-- (F) THE LAST TILE'S RESULT at (r, d), on finite sums (the sum of exponentials not zero) and a finite residual. -/
theorem final1_apply (sa : Vec Ideal S512x512 .f32) (sl : Vec Ideal S512x1 .f32) (xb : S512x512.Idx → ℝ) (r d : Fin 512)
    (A' L' : ℝ) (hL : L' ≠ 0) (hA : sa (ix2 r d) = (A' : EReal)) (hl : sl (ix2 r (0 : Fin 1)) = (L' : EReal)) :
    final1 (F := Ideal) sa sl (up xb) (ix2 r d) = ((Cert.GatSpec.leaky (A' / L' + xb (ix2 r d)) : ℝ) : EReal) := by
  unfold final1 k1_pay3
  rw [select_apply, cmpf_apply, mulf_apply]
  have hv : addf (F := Ideal) (φ := .f32) (divf (F := Ideal) (φ := .f32) sa (broadcastTo S512x512 sl broadcasts_S512x1_S512x512)) (up xb) (ix2 r d)
      = ((A' / L' + xb (ix2 r d) : ℝ) : EReal) := by
    rw [addf_apply, divf_apply, Cert.LibColumn.broadcastTo_a1_ab_apply, hA, hl, Cert.LibOnlineSoftmax.div_coe_coe _ hL, EReal.coe_add]
    rfl
  rw [hv]
  exact leaky_scalar _

/-! ## Call 3: the tile, its scores and their row maximum -/

/-- Row `j` of the point's tile among the resident 8192 rows: 1024 · kv + j. -/
def rowIdx3 (i : grid3.Coords) (j : Fin 1024) : Fin 8192 :=
  ⟨1024 * (i 1).val + j.val, by have h : (i 1).val < 8 := (i 1).isLt; omega⟩

/-- The tile read at (j, d) is the resident array at (1024 · kv + j, d). -/
theorem tile3_apply (i : grid3.Coords) (x : Vec Ideal S8192x512 .bf16) (j : Fin 1024) (d : Fin 512) :
    tile3 (F := Ideal) i x (ix2 j d) = x (ix2 (rowIdx3 i j) d) := by
  unfold tile3
  refine congrArg x (funext fun a => Fin.ext ?_)
  show (k3_off1 i) a + 1 * ((ix2 j d) a).val = ((ix2 (rowIdx3 i j) d) a).val
  rw [k3_off1_eq]
  match a with
  | ⟨0, _⟩ => show 1024 * (i 1).val + 1 * j.val = 1024 * (i 1).val + j.val; omega
  | ⟨1, _⟩ => show 0 + 1 * d.val = d.val; omega

/-- The tile's scores over the reals: query row r against the tile's key row j. -/
def scoreT3 (i : grid3.Coords) (qb : S512x512.Idx → ℝ) (kf : S8192x512.Idx → ℝ) (r : Fin 512) (j : Fin 1024) : ℝ :=
  ∑ d : Fin 512, qb (ix2 r d) * kf (ix2 (rowIdx3 i j) d)

theorem tileMax3_exists (i : grid3.Coords) (qb : S512x512.Idx → ℝ) (kf : S8192x512.Idx → ℝ) (r : Fin 512) :
    ∃ M : ℝ, (Finset.univ : Finset (Fin 1024)).fold max (⊥ : EReal) (fun j => (scoreT3 i qb kf r j : EReal)) = (M : EReal) :=
  Cert.ReferenceIdeal.RefValue.fold_max_finite (scoreT3 i qb kf r) Finset.univ ⟨⟨0, by decide⟩, Finset.mem_univ _⟩

/-- The maximum of row r of the tile's scores, a real. -/
def tileMax3 (i : grid3.Coords) (qb : S512x512.Idx → ℝ) (kf : S8192x512.Idx → ℝ) (r : Fin 512) : ℝ :=
  Classical.choose (tileMax3_exists i qb kf r)

theorem tileMax3_spec (i : grid3.Coords) (qb : S512x512.Idx → ℝ) (kf : S8192x512.Idx → ℝ) (r : Fin 512) :
    (Finset.univ : Finset (Fin 1024)).fold max (⊥ : EReal) (fun j => (scoreT3 i qb kf r j : EReal)) = (tileMax3 i qb kf r : EReal) :=
  Classical.choose_spec (tileMax3_exists i qb kf r)

theorem isTransR3 : IsTransR (M := 512) (K := 512) (N := 1024) dot_S512x512_S1024x512_S512x1024_1_1_0_0_n_n :=
  ⟨rfl, rfl, rfl, rfl, rfl, rfl⟩

/-- The scores' payload at (r, j), on finite queries and keys: the real score, coerced. -/
theorem pay8_3_up (i : grid3.Coords) (qb : S512x512.Idx → ℝ) (kf : S8192x512.Idx → ℝ) (r : Fin 512) (j : Fin 1024) :
    k3_pay8 (F := Ideal) (up qb) (tile3 (F := Ideal) i (up kf)) (ix2 r j) = (scoreT3 i qb kf r j : EReal) := by
  unfold k3_pay8
  refine (matmulT_zero_apply isTransR3 none _ _ (ix2 r j)).trans ?_
  rw [scoreT3, Cert.LibOnlineSoftmax.coe_sum]
  refine Finset.sum_congr rfl fun k _ => ?_
  rw [shapeCast_self, shapeCast_self, tile3_apply, EReal.coe_mul]
  rfl

theorem isPlain3 : Idealize.ShloMosaic.PlainDot.IsPlain (M := 512) (K := 1024) (N := 512) dot_S512x1024_S1024x512_S512x512_1_0_0_1_n_n :=
  ⟨rfl, rfl, rfl, rfl, rfl, rfl⟩

/-- The new running maximum at row r: the old one against the tile's row maximum. -/
theorem pay9_3_up (i : grid3.Coords) (qb : S512x512.Idx → ℝ) (kf : S8192x512.Idx → ℝ) (sm : Vec Ideal S512x1 .f32) (r : Fin 512) :
    k3_pay9 (F := Ideal) (up qb) (tile3 (F := Ideal) i (up kf)) sm (ix2 r (0 : Fin 1))
      = max (sm (ix2 r (0 : Fin 1))) (tileMax3 i qb kf r : EReal) := by
  unfold k3_pay9
  rw [maximumf_apply]
  refine congrArg (max (sm (ix2 r (0 : Fin 1)))) ?_
  rw [Cert.LibColumn.shapeCast_a_a1_apply]
  refine (mr_max_row _ _ reduces_S512x1024_S512 _ _ r).trans ?_
  rw [Cert.GatSpec.negInf_eq, ← tileMax3_spec]
  exact congrArg (fun f => Finset.fold max (⊥ : EReal) f (Finset.univ : Finset (Fin 1024))) (funext fun j => pay8_3_up i qb kf r j)

/-- (M) ONE TILE'S STEP, the running maximum, at row r. -/
theorem stepM3_apply (i : grid3.Coords) (qb : S512x512.Idx → ℝ) (kf : S8192x512.Idx → ℝ) (sm : Vec Ideal S512x1 .f32) (r : Fin 512) :
    stepM3 (F := Ideal) i (up qb) (up kf) sm (ix2 r (0 : Fin 1))
      = max (sm (ix2 r (0 : Fin 1))) (tileMax3 i qb kf r : EReal) := by
  unfold stepM3 k3_pay2
  rw [shapeCast_self]
  exact pay9_3_up i qb kf sm r

/-- The rescale factor at row r: exp (old maximum − new maximum). -/
theorem pay10_3_up (i : grid3.Coords) (qb : S512x512.Idx → ℝ) (kf : S8192x512.Idx → ℝ) (sm : Vec Ideal S512x1 .f32) (r : Fin 512) :
    k3_pay10 (F := Ideal) (up qb) (tile3 (F := Ideal) i (up kf)) sm (ix2 r (0 : Fin 1))
      = Ideal.exp (sm (ix2 r (0 : Fin 1)) - max (sm (ix2 r (0 : Fin 1))) (tileMax3 i qb kf r : EReal)) := by
  unfold k3_pay10
  exact congrArg (fun t => Ideal.exp (sm (ix2 r (0 : Fin 1)) - t)) (pay9_3_up i qb kf sm r)

/-- The shifted exponentials of the tile's scores at (r, j). -/
theorem pay11_3_up (i : grid3.Coords) (qb : S512x512.Idx → ℝ) (kf : S8192x512.Idx → ℝ) (sm : Vec Ideal S512x1 .f32) (r : Fin 512) (j : Fin 1024) :
    k3_pay11 (F := Ideal) (up qb) (tile3 (F := Ideal) i (up kf)) sm (ix2 r j)
      = Ideal.exp ((scoreT3 i qb kf r j : EReal) - max (sm (ix2 r (0 : Fin 1))) (tileMax3 i qb kf r : EReal)) := by
  unfold k3_pay11
  have h1 := pay8_3_up i qb kf r j
  have h2 : broadcastTo S512x1024 (k3_pay9 (F := Ideal) (up qb) (tile3 (F := Ideal) i (up kf)) sm) broadcasts_S512x1_S512x1024 (ix2 r j)
      = max (sm (ix2 r (0 : Fin 1))) (tileMax3 i qb kf r : EReal) :=
    (Cert.LibColumn.broadcastTo_a1_ab_apply _ broadcasts_S512x1_S512x1024 r j).trans (pay9_3_up i qb kf sm r)
  exact congrArg₂ (fun s t : EReal => Ideal.exp (s - t)) h1 h2

/-- (L) ONE TILE'S STEP, the running sum of exponentials, at row r. -/
theorem stepL3_apply (i : grid3.Coords) (qb : S512x512.Idx → ℝ) (kf : S8192x512.Idx → ℝ) (sm sl : Vec Ideal S512x1 .f32) (r : Fin 512) :
    stepL3 (F := Ideal) i (up qb) (up kf) sm sl (ix2 r (0 : Fin 1))
      = Ideal.exp (sm (ix2 r (0 : Fin 1)) - max (sm (ix2 r (0 : Fin 1))) (tileMax3 i qb kf r : EReal)) * sl (ix2 r (0 : Fin 1))
        + ∑ j : Fin 1024, Ideal.exp ((scoreT3 i qb kf r j : EReal) - max (sm (ix2 r (0 : Fin 1))) (tileMax3 i qb kf r : EReal)) := by
  unfold stepL3 k3_pay12
  rw [shapeCast_self, addf_apply, mulf_apply, pay10_3_up, Cert.LibColumn.shapeCast_a_a1_apply]
  refine congrArg (fun t : EReal => Ideal.exp (sm (ix2 r (0 : Fin 1)) - max (sm (ix2 r (0 : Fin 1))) (tileMax3 i qb kf r : EReal))
    * sl (ix2 r (0 : Fin 1)) + t) ?_
  refine (mr_add_row _ _ reduces_S512x1024_S512 _ _ r).trans ?_
  exact Finset.sum_congr rfl fun j _ => pay11_3_up i qb kf sm r j

/-- (A) ONE TILE'S STEP, the running masked weighted sum of the value rows, at (r, d). -/
theorem stepA3_apply (i : grid3.Coords) (qb : S512x512.Idx → ℝ) (kf vf : S8192x512.Idx → ℝ) (mb : S512x1024.Idx → ℝ)
    (sm : Vec Ideal S512x1 .f32) (sa : Vec Ideal S512x512 .f32) (r d : Fin 512) :
    stepA3 (F := Ideal) i (up qb) (up kf) (up vf) (up mb) sm sa (ix2 r d)
      = Ideal.exp (sm (ix2 r (0 : Fin 1)) - max (sm (ix2 r (0 : Fin 1))) (tileMax3 i qb kf r : EReal)) * sa (ix2 r d)
        + ∑ j : Fin 1024, Ideal.exp ((scoreT3 i qb kf r j : EReal) - max (sm (ix2 r (0 : Fin 1))) (tileMax3 i qb kf r : EReal))
            * (mb (ix2 r j) : EReal) * (vf (ix2 (rowIdx3 i j) d) : EReal) := by
  unfold stepA3 k3_pay1
  rw [shapeCast_self, addf_apply, mulf_apply]
  have h14 : k3_pay14 (F := Ideal) (up qb) (tile3 (F := Ideal) i (up kf)) sm (ix2 r d)
      = Ideal.exp (sm (ix2 r (0 : Fin 1)) - max (sm (ix2 r (0 : Fin 1))) (tileMax3 i qb kf r : EReal)) := by
    unfold k3_pay14
    exact (Cert.LibColumn.broadcastTo_a1_ab_apply _ broadcasts_S512x1_S512x512 r d).trans (pay10_3_up i qb kf sm r)
  rw [h14]
  refine congrArg (fun t : EReal => Ideal.exp (sm (ix2 r (0 : Fin 1)) - max (sm (ix2 r (0 : Fin 1))) (tileMax3 i qb kf r : EReal))
    * sa (ix2 r d) + t) ?_
  refine (Idealize.ShloMosaic.PlainDot.matmul_zero_apply isPlain3 none _ _ (ix2 r d)).trans ?_
  refine Finset.sum_congr rfl fun j _ => ?_
  have h13 : k3_pay13 (F := Ideal) (up qb) (tile3 (F := Ideal) i (up kf)) sm (up mb) (ix2 r j)
      = Ideal.exp ((scoreT3 i qb kf r j : EReal) - max (sm (ix2 r (0 : Fin 1))) (tileMax3 i qb kf r : EReal)) * (mb (ix2 r j) : EReal) := by
    unfold k3_pay13
    rw [truncf_apply, mulf_apply, pay11_3_up]
    rfl
  have h7 : k3_pay7 (F := Ideal) (tile3 (F := Ideal) i (up vf)) (ix2 j d) = (vf (ix2 (rowIdx3 i j) d) : EReal) := by
    unfold k3_pay7
    rw [shapeCast_self, tile3_apply]
    rfl
  exact congrArg₂ (fun s t : EReal => s * t) h13 h7

/-- The initial running maximum is −∞. -/
theorem pay4_3_apply (r : Fin 512) : k3_pay4 (F := Ideal) (ix2 r (0 : Fin 1)) = (⊥ : EReal) := by
  unfold k3_pay4
  rw [shapeCast_self]
  exact Cert.GatSpec.negInf_eq

/-- The initial running sum is 0. -/
theorem pay5_3_apply (r : Fin 512) : k3_pay5 (F := Ideal) (ix2 r (0 : Fin 1)) = (0 : EReal) := by
  unfold k3_pay5
  rw [shapeCast_self]
  exact Ideal.ofBits_zero_f32

/-- The initial running weighted sum is 0. -/
theorem pay6_3_apply (r d : Fin 512) : k3_pay6 (F := Ideal) (ix2 r d) = (0 : EReal) := by
  unfold k3_pay6
  rw [shapeCast_self]
  exact Ideal.ofBits_zero_f32

/-- (F) THE LAST TILE'S RESULT at (r, d), on finite sums (the sum of exponentials not zero) and a finite residual. -/
theorem final3_apply (sa : Vec Ideal S512x512 .f32) (sl : Vec Ideal S512x1 .f32) (xb : S512x512.Idx → ℝ) (r d : Fin 512)
    (A' L' : ℝ) (hL : L' ≠ 0) (hA : sa (ix2 r d) = (A' : EReal)) (hl : sl (ix2 r (0 : Fin 1)) = (L' : EReal)) :
    final3 (F := Ideal) sa sl (up xb) (ix2 r d) = ((Cert.GatSpec.leaky (A' / L' + xb (ix2 r d)) : ℝ) : EReal) := by
  unfold final3 k3_pay3
  rw [select_apply, cmpf_apply, mulf_apply]
  have hv : addf (F := Ideal) (φ := .f32) (divf (F := Ideal) (φ := .f32) sa (broadcastTo S512x512 sl broadcasts_S512x1_S512x512))
        (shapeCast S512x512 (up xb) shapeCasts_S512x512_S512x512) (ix2 r d)
      = ((A' / L' + xb (ix2 r d) : ℝ) : EReal) := by
    rw [addf_apply, divf_apply, Cert.LibColumn.broadcastTo_a1_ab_apply, shapeCast_self, hA, hl, Cert.LibOnlineSoftmax.div_coe_coe _ hL, EReal.coe_add]
    rfl
  rw [hv]
  exact leaky_scalar _

end Cert.KernelIdeal.AttnStep

end
-- ==== Proof.AttnBlocksI.lean ====
/-
  The attention call's blocks, read at an index, and its output array from its blocks.

  Point n of the call works on query rows 512·(n / 8) … 512·(n / 8) + 511 against key/value rows
  1024·(n mod 8) … 1024·(n mod 8) + 1023. The windows' index maps, decided over the 128 points, say which element of
  its array each element of a block is; the body's tile of the resident key and value arrays is read the same way.
  The output window is written back at the last point of each row of tiles only, and those eight-times-sixteen
  write-backs tile the output array: if each of them writes its block of one whole-array function, the array ends
  holding that function.
-/
import proofs.«100610_j61478161875059_2_alg».proof.Proof.AttnDataI
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.ValueIdx Idealize.SL.Sem
open Idealize.ShloMosaic.Pipeline (Dat)

variable {F : FTy → Type} [FloatOps F]

/-! # Call 1 -/

section Call1

variable (V : (c : Dev nD) → (b : Ref sig .tc) → Buf (Elt F) ((c : Thread nD τ).loc b))

/-- The windows' block indices and the point's tile number, in closed form: decided over the 128 points. -/
theorem idx_facts1 : ∀ t : Fin cfg1.N, win1_0.index t (0 : Fin 2) = t.val / 8 ∧ win1_0.index t (1 : Fin 2) = 0
    ∧ win1_1.index t (0 : Fin 2) = 0 ∧ win1_1.index t (1 : Fin 2) = 0 ∧ win1_2.index t (0 : Fin 2) = 0 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = 0
    ∧ win1_5.index t (0 : Fin 2) = t.val / 8 ∧ win1_5.index t (1 : Fin 2) = 0
    ∧ ((grid1.coords t) 1).val = t.val % 8 :=
  (by decide +kernel : ∀ t : Fin grid1.N, _)
/-- Where the body's tile of a resident array starts: row 1024·(n mod 8). -/
theorem off_fact1 : ∀ t : Fin cfg1.N, k1_off1 (grid1.coords t) = ![1024 * (t.val % 8), 0] :=
  (by decide +kernel : ∀ t : Fin grid1.N, _)

theorem lt128_1 (t : Fin cfg1.N) : t.val < 128 := lt_of_lt_of_eq t.isLt (show cfg1.N = 128 from N_1)

/-- Row `r` of point `t`'s query block, as a row of the 8192. -/
def rowOf1 (t : Fin cfg1.N) (r : Fin 512) : Fin 8192 := ⟨512 * (t.val / 8) + r.val, by have := lt128_1 t; omega⟩
/-- Row `j` of point `t`'s key/value tile, as a row (a column of the mask) of the 8192. -/
def colOf1 (t : Fin cfg1.N) (j : Fin 1024) : Fin 8192 := ⟨1024 * (t.val % 8) + j.val, by have := lt128_1 t; omega⟩

/-- The queries' block: rows of the shared array. -/
theorem blk1_0 (c : Dev nD) (t : Fin cfg1.N) (r d : Fin 512) :
    iblk1 V c 0 t (ix2 r d) = V c main_v5_0 (ix2 (rowOf1 t r) d) := by
  obtain ⟨e00, e01, e10, e11, e20, e21, e30, e31, e40, e41, e50, e51, ekv⟩ := idx_facts1 t
  show V c main_v5_0 (((cfg1.win 0).blk t).view.emb (ix2 r d)) = _
  refine congrArg (V c main_v5_0) ?_
  funext a; apply Fin.ext
  match a with
  | ⟨0, _⟩ => show win1_0.index t (0 : Fin 2) * 512 + 1 * r.val = 512 * (t.val / 8) + r.val; omega
  | ⟨1, _⟩ => show win1_0.index t (1 : Fin 2) * 512 + 1 * d.val = d.val; omega
/-- The keys' window: the whole array. -/
theorem blk1_1 (c : Dev nD) (t : Fin cfg1.N) (q : Fin 8192) (d : Fin 512) :
    iblk1 V c 1 t (ix2 q d) = V c main_v5_1 (ix2 q d) := by
  obtain ⟨e00, e01, e10, e11, e20, e21, e30, e31, e40, e41, e50, e51, ekv⟩ := idx_facts1 t
  show V c main_v5_1 (((cfg1.win 1).blk t).view.emb (ix2 q d)) = _
  refine congrArg (V c main_v5_1) ?_
  funext a; apply Fin.ext
  match a with
  | ⟨0, _⟩ => show win1_1.index t (0 : Fin 2) * 8192 + 1 * q.val = q.val; omega
  | ⟨1, _⟩ => show win1_1.index t (1 : Fin 2) * 512 + 1 * d.val = d.val; omega
/-- The values' window: the whole shared array. -/
theorem blk1_2 (c : Dev nD) (t : Fin cfg1.N) (q : Fin 8192) (d : Fin 512) :
    iblk1 V c 2 t (ix2 q d) = V c main_v5_0 (ix2 q d) := by
  obtain ⟨e00, e01, e10, e11, e20, e21, e30, e31, e40, e41, e50, e51, ekv⟩ := idx_facts1 t
  show V c main_v5_0 (((cfg1.win 2).blk t).view.emb (ix2 q d)) = _
  refine congrArg (V c main_v5_0) ?_
  funext a; apply Fin.ext
  match a with
  | ⟨0, _⟩ => show win1_2.index t (0 : Fin 2) * 8192 + 1 * q.val = q.val; omega
  | ⟨1, _⟩ => show win1_2.index t (1 : Fin 2) * 512 + 1 * d.val = d.val; omega
/-- The mask's block: the query rows against the tile's columns. -/
theorem blk1_3 (c : Dev nD) (t : Fin cfg1.N) (r : Fin 512) (j : Fin 1024) :
    iblk1 V c 3 t (ix2 r j) = V c main_arg1 (ix2 (rowOf1 t r) (colOf1 t j)) := by
  obtain ⟨e00, e01, e10, e11, e20, e21, e30, e31, e40, e41, e50, e51, ekv⟩ := idx_facts1 t
  show V c main_arg1 (((cfg1.win 3).blk t).view.emb (ix2 r j)) = _
  refine congrArg (V c main_arg1) ?_
  funext a; apply Fin.ext
  match a with
  | ⟨0, _⟩ => show win1_3.index t (0 : Fin 2) * 512 + 1 * r.val = 512 * (t.val / 8) + r.val; omega
  | ⟨1, _⟩ => show win1_3.index t (1 : Fin 2) * 1024 + 1 * j.val = 1024 * (t.val % 8) + j.val; omega
/-- The residual input's block: the query rows. -/
theorem blk1_4 (c : Dev nD) (t : Fin cfg1.N) (r d : Fin 512) :
    iblk1 V c 4 t (ix2 r d) = V c main_arg0 (ix2 (rowOf1 t r) d) := by
  obtain ⟨e00, e01, e10, e11, e20, e21, e30, e31, e40, e41, e50, e51, ekv⟩ := idx_facts1 t
  show V c main_arg0 (((cfg1.win 4).blk t).view.emb (ix2 r d)) = _
  refine congrArg (V c main_arg0) ?_
  funext a; apply Fin.ext
  match a with
  | ⟨0, _⟩ => show win1_4.index t (0 : Fin 2) * 512 + 1 * r.val = 512 * (t.val / 8) + r.val; omega
  | ⟨1, _⟩ => show win1_4.index t (1 : Fin 2) * 512 + 1 * d.val = d.val; omega

/-- The body's tile of a resident 8192-row array, read at an index: rows 1024·(n mod 8) onward. -/
theorem tile1_apply (t : Fin cfg1.N) (x : Vec F S8192x512 .bf16) (j : Fin 1024) (d : Fin 512) :
    tile1 (grid1.coords t) x (ix2 j d) = x (ix2 (colOf1 t j) d) := by
  have hoff := off_fact1 t
  show x ((Rect.unit (s := S8192x512) (k1_off1 (grid1.coords t)) S1024x512.size (k1_off1_inb (grid1.coords t))).idx (ix2 j d)) = _
  refine congrArg x ?_
  funext a; apply Fin.ext
  match a with
  | ⟨0, _⟩ => show k1_off1 (grid1.coords t) 0 + 1 * j.val = 1024 * (t.val % 8) + j.val; rw [hoff]; show 1024 * (t.val % 8) + 1 * j.val = _; omega
  | ⟨1, _⟩ => show k1_off1 (grid1.coords t) 1 + 1 * d.val = d.val; rw [hoff]; show 0 + 1 * d.val = _; omega

end Call1

section Out1

variable (V : (c : Dev nD) → (b : Ref sig .tc) → Buf (Elt F) ((c : Thread nD τ).loc b))

/-- An index of the output array lies in point `t`'s block iff each coordinate lies in the block's range on its axis. -/
theorem mem_blk1_5 (t : Fin cfg1.N) (i : S8192x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v6).slice (win1_5.rect t)).set ↔ _
  rw [View.set_slice_whole, Rect.mem_set_unit]
  exact Iff.rfl

/-- THE OUTPUT ARRAY FROM ITS BLOCKS. The output window is written back at the points 7 modulo 8 only, the last tile of
    each row of tiles, and those sixteen blocks of 512 rows tile the 8192: if what the body leaves at each of them is
    its block of one whole-array function `G`, the array ends holding `G`. -/
theorem arrAt1_5_eq (c : Dev nD) (G : S8192x512.Idx → Elt F .f32)
    (hG : ∀ t : Fin cfg1.N, t.val % 8 = 7 → ∀ (r d : Fin 512), out1 V c t (ix2 r d) = G (ix2 (rowOf1 t r) d)) :
    (dat1 V c).arrAt 5 cfg1.N = G := by
  refine (dat1 V c).arrAt_eq_of_cover 5 G (fun t hf => ?_) (fun i => ?_)
  · have h7 : t.val % 8 = 7 := (flush1_5 t).mp hf
    obtain ⟨e00, e01, e10, e11, e20, e21, e30, e31, e40, e41, e50, e51, ekv⟩ := idx_facts1 t
    show (cfg1.win 5).cut (grid1.coords t) ((dat1 V c).after 5 t) = _
    rw [after1_5]
    funext j
    obtain ⟨r, d, rfl⟩ : ∃ (r d : Fin 512), j = ix2 r d := ⟨j 0, j 1, eq_ix2 (n0 := 512) (n1 := 512) j⟩
    show out1 V c t (ix2 r d) = G (((cfg1.win 5).blk t).view.emb (ix2 r d))
    rw [hG t h7]
    refine congrArg G ?_
    funext a; apply Fin.ext
    match a with
    | ⟨0, _⟩ => show 512 * (t.val / 8) + r.val = win1_5.index t (0 : Fin 2) * 512 + 1 * r.val; omega
    | ⟨1, _⟩ => show d.val = win1_5.index t (1 : Fin 2) * 512 + 1 * d.val; omega
  · have hi0 : (i 0).val < 8192 := (i 0).isLt
    have hi1 : (i 1).val < 512 := (i 1).isLt
    have hlt : 8 * ((i 0).val / 512) + 7 < cfg1.N := by rw [show cfg1.N = 128 from N_1]; omega
    obtain ⟨e00, e01, e10, e11, e20, e21, e30, e31, e40, e41, e50, e51, ekv⟩ := idx_facts1 ⟨8 * ((i 0).val / 512) + 7, hlt⟩
    refine ⟨⟨8 * ((i 0).val / 512) + 7, hlt⟩, (flush1_5 _).mpr (by show (8 * ((i 0).val / 512) + 7) % 8 = 7; omega), ?_⟩
    rw [mem_blk1_5]
    have q0 : win1_5.index ⟨8 * ((i 0).val / 512) + 7, hlt⟩ (0 : Fin 2) = (8 * ((i 0).val / 512) + 7) / 8 := e50
    intro a
    match a with
    | ⟨0, _⟩ => show win1_5.index ⟨8 * ((i 0).val / 512) + 7, hlt⟩ (0 : Fin 2) * 512 ≤ (i 0).val ∧ (i 0).val < win1_5.index ⟨8 * ((i 0).val / 512) + 7, hlt⟩ (0 : Fin 2) * 512 + 512; omega
    | ⟨1, _⟩ => show win1_5.index ⟨8 * ((i 0).val / 512) + 7, hlt⟩ (1 : Fin 2) * 512 ≤ (i 1).val ∧ (i 1).val < win1_5.index ⟨8 * ((i 0).val / 512) + 7, hlt⟩ (1 : Fin 2) * 512 + 512; omega

end Out1

/-! # Call 3 -/

section Call3

variable (V : (c : Dev nD) → (b : Ref sig .tc) → Buf (Elt F) ((c : Thread nD τ).loc b))

/-- The windows' block indices and the point's tile number, in closed form: decided over the 128 points. -/
theorem idx_facts3 : ∀ t : Fin cfg3.N, win3_0.index t (0 : Fin 2) = t.val / 8 ∧ win3_0.index t (1 : Fin 2) = 0
    ∧ win3_1.index t (0 : Fin 2) = 0 ∧ win3_1.index t (1 : Fin 2) = 0 ∧ win3_2.index t (0 : Fin 2) = 0 ∧ win3_2.index t (1 : Fin 2) = 0
    ∧ win3_3.index t (0 : Fin 2) = t.val / 8 ∧ win3_3.index t (1 : Fin 2) = t.val % 8
    ∧ win3_4.index t (0 : Fin 2) = t.val / 8 ∧ win3_4.index t (1 : Fin 2) = 0
    ∧ win3_5.index t (0 : Fin 2) = t.val / 8 ∧ win3_5.index t (1 : Fin 2) = 0
    ∧ ((grid3.coords t) 1).val = t.val % 8 :=
  (by decide +kernel : ∀ t : Fin grid3.N, _)
/-- Where the body's tile of a resident array starts: row 1024·(n mod 8). -/
theorem off_fact3 : ∀ t : Fin cfg3.N, k3_off1 (grid3.coords t) = ![1024 * (t.val % 8), 0] :=
  (by decide +kernel : ∀ t : Fin grid3.N, _)

theorem lt128_3 (t : Fin cfg3.N) : t.val < 128 := lt_of_lt_of_eq t.isLt (show cfg3.N = 128 from N_3)

/-- Row `r` of point `t`'s query block, as a row of the 8192. -/
def rowOf3 (t : Fin cfg3.N) (r : Fin 512) : Fin 8192 := ⟨512 * (t.val / 8) + r.val, by have := lt128_3 t; omega⟩
/-- Row `j` of point `t`'s key/value tile, as a row (a column of the mask) of the 8192. -/
def colOf3 (t : Fin cfg3.N) (j : Fin 1024) : Fin 8192 := ⟨1024 * (t.val % 8) + j.val, by have := lt128_3 t; omega⟩

/-- The queries' block: rows of the shared array. -/
theorem blk3_0 (c : Dev nD) (t : Fin cfg3.N) (r d : Fin 512) :
    iblk3 V c 0 t (ix2 r d) = V c main_v11_0 (ix2 (rowOf3 t r) d) := by
  obtain ⟨e00, e01, e10, e11, e20, e21, e30, e31, e40, e41, e50, e51, ekv⟩ := idx_facts3 t
  show V c main_v11_0 (((cfg3.win 0).blk t).view.emb (ix2 r d)) = _
  refine congrArg (V c main_v11_0) ?_
  funext a; apply Fin.ext
  match a with
  | ⟨0, _⟩ => show win3_0.index t (0 : Fin 2) * 512 + 1 * r.val = 512 * (t.val / 8) + r.val; omega
  | ⟨1, _⟩ => show win3_0.index t (1 : Fin 2) * 512 + 1 * d.val = d.val; omega
/-- The keys' window: the whole array. -/
theorem blk3_1 (c : Dev nD) (t : Fin cfg3.N) (q : Fin 8192) (d : Fin 512) :
    iblk3 V c 1 t (ix2 q d) = V c main_v11_1 (ix2 q d) := by
  obtain ⟨e00, e01, e10, e11, e20, e21, e30, e31, e40, e41, e50, e51, ekv⟩ := idx_facts3 t
  show V c main_v11_1 (((cfg3.win 1).blk t).view.emb (ix2 q d)) = _
  refine congrArg (V c main_v11_1) ?_
  funext a; apply Fin.ext
  match a with
  | ⟨0, _⟩ => show win3_1.index t (0 : Fin 2) * 8192 + 1 * q.val = q.val; omega
  | ⟨1, _⟩ => show win3_1.index t (1 : Fin 2) * 512 + 1 * d.val = d.val; omega
/-- The values' window: the whole shared array. -/
theorem blk3_2 (c : Dev nD) (t : Fin cfg3.N) (q : Fin 8192) (d : Fin 512) :
    iblk3 V c 2 t (ix2 q d) = V c main_v11_0 (ix2 q d) := by
  obtain ⟨e00, e01, e10, e11, e20, e21, e30, e31, e40, e41, e50, e51, ekv⟩ := idx_facts3 t
  show V c main_v11_0 (((cfg3.win 2).blk t).view.emb (ix2 q d)) = _
  refine congrArg (V c main_v11_0) ?_
  funext a; apply Fin.ext
  match a with
  | ⟨0, _⟩ => show win3_2.index t (0 : Fin 2) * 8192 + 1 * q.val = q.val; omega
  | ⟨1, _⟩ => show win3_2.index t (1 : Fin 2) * 512 + 1 * d.val = d.val; omega
/-- The mask's block: the query rows against the tile's columns. -/
theorem blk3_3 (c : Dev nD) (t : Fin cfg3.N) (r : Fin 512) (j : Fin 1024) :
    iblk3 V c 3 t (ix2 r j) = V c main_arg1 (ix2 (rowOf3 t r) (colOf3 t j)) := by
  obtain ⟨e00, e01, e10, e11, e20, e21, e30, e31, e40, e41, e50, e51, ekv⟩ := idx_facts3 t
  show V c main_arg1 (((cfg3.win 3).blk t).view.emb (ix2 r j)) = _
  refine congrArg (V c main_arg1) ?_
  funext a; apply Fin.ext
  match a with
  | ⟨0, _⟩ => show win3_3.index t (0 : Fin 2) * 512 + 1 * r.val = 512 * (t.val / 8) + r.val; omega
  | ⟨1, _⟩ => show win3_3.index t (1 : Fin 2) * 1024 + 1 * j.val = 1024 * (t.val % 8) + j.val; omega
/-- The residual input's block: the query rows. -/
theorem blk3_4 (c : Dev nD) (t : Fin cfg3.N) (r d : Fin 512) :
    iblk3 V c 4 t (ix2 r d) = V c main_v6 (ix2 (rowOf3 t r) d) := by
  obtain ⟨e00, e01, e10, e11, e20, e21, e30, e31, e40, e41, e50, e51, ekv⟩ := idx_facts3 t
  show V c main_v6 (((cfg3.win 4).blk t).view.emb (ix2 r d)) = _
  refine congrArg (V c main_v6) ?_
  funext a; apply Fin.ext
  match a with
  | ⟨0, _⟩ => show win3_4.index t (0 : Fin 2) * 512 + 1 * r.val = 512 * (t.val / 8) + r.val; omega
  | ⟨1, _⟩ => show win3_4.index t (1 : Fin 2) * 512 + 1 * d.val = d.val; omega

/-- The body's tile of a resident 8192-row array, read at an index: rows 1024·(n mod 8) onward. -/
theorem tile3_apply (t : Fin cfg3.N) (x : Vec F S8192x512 .bf16) (j : Fin 1024) (d : Fin 512) :
    tile3 (grid3.coords t) x (ix2 j d) = x (ix2 (colOf3 t j) d) := by
  have hoff := off_fact3 t
  show x ((Rect.unit (s := S8192x512) (k3_off1 (grid3.coords t)) S1024x512.size (k3_off1_inb (grid3.coords t))).idx (ix2 j d)) = _
  refine congrArg x ?_
  funext a; apply Fin.ext
  match a with
  | ⟨0, _⟩ => show k3_off1 (grid3.coords t) 0 + 1 * j.val = 1024 * (t.val % 8) + j.val; rw [hoff]; show 1024 * (t.val % 8) + 1 * j.val = _; omega
  | ⟨1, _⟩ => show k3_off1 (grid3.coords t) 1 + 1 * d.val = d.val; rw [hoff]; show 0 + 1 * d.val = _; omega

end Call3

section Out3

variable (V : (c : Dev nD) → (b : Ref sig .tc) → Buf (Elt F) ((c : Thread nD τ).loc b))

/-- An index of the output array lies in point `t`'s block iff each coordinate lies in the block's range on its axis. -/
theorem mem_blk3_5 (t : Fin cfg3.N) (i : S8192x512.Idx) :
    i ∈ ((cfg3.win 5).blk t).view.set ↔ ∀ a : Fin 2, win3_5.index t a * S512x512.size a ≤ (i a).val ∧ (i a).val < win3_5.index t a * S512x512.size a + S512x512.size a := by
  show i ∈ ((View.whole main_v12).slice (win3_5.rect t)).set ↔ _
  rw [View.set_slice_whole, Rect.mem_set_unit]
  exact Iff.rfl

/-- THE OUTPUT ARRAY FROM ITS BLOCKS. The output window is written back at the points 7 modulo 8 only, the last tile of
    each row of tiles, and those sixteen blocks of 512 rows tile the 8192: if what the body leaves at each of them is
    its block of one whole-array function `G`, the array ends holding `G`. -/
theorem arrAt3_5_eq (c : Dev nD) (G : S8192x512.Idx → Elt F .f32)
    (hG : ∀ t : Fin cfg3.N, t.val % 8 = 7 → ∀ (r d : Fin 512), out3 V c t (ix2 r d) = G (ix2 (rowOf3 t r) d)) :
    (dat3 V c).arrAt 5 cfg3.N = G := by
  refine (dat3 V c).arrAt_eq_of_cover 5 G (fun t hf => ?_) (fun i => ?_)
  · have h7 : t.val % 8 = 7 := (flush3_5 t).mp hf
    obtain ⟨e00, e01, e10, e11, e20, e21, e30, e31, e40, e41, e50, e51, ekv⟩ := idx_facts3 t
    show (cfg3.win 5).cut (grid3.coords t) ((dat3 V c).after 5 t) = _
    rw [after3_5]
    funext j
    obtain ⟨r, d, rfl⟩ : ∃ (r d : Fin 512), j = ix2 r d := ⟨j 0, j 1, eq_ix2 (n0 := 512) (n1 := 512) j⟩
    show out3 V c t (ix2 r d) = G (((cfg3.win 5).blk t).view.emb (ix2 r d))
    rw [hG t h7]
    refine congrArg G ?_
    funext a; apply Fin.ext
    match a with
    | ⟨0, _⟩ => show 512 * (t.val / 8) + r.val = win3_5.index t (0 : Fin 2) * 512 + 1 * r.val; omega
    | ⟨1, _⟩ => show d.val = win3_5.index t (1 : Fin 2) * 512 + 1 * d.val; omega
  · have hi0 : (i 0).val < 8192 := (i 0).isLt
    have hi1 : (i 1).val < 512 := (i 1).isLt
    have hlt : 8 * ((i 0).val / 512) + 7 < cfg3.N := by rw [show cfg3.N = 128 from N_3]; omega
    obtain ⟨e00, e01, e10, e11, e20, e21, e30, e31, e40, e41, e50, e51, ekv⟩ := idx_facts3 ⟨8 * ((i 0).val / 512) + 7, hlt⟩
    refine ⟨⟨8 * ((i 0).val / 512) + 7, hlt⟩, (flush3_5 _).mpr (by show (8 * ((i 0).val / 512) + 7) % 8 = 7; omega), ?_⟩
    rw [mem_blk3_5]
    have q0 : win3_5.index ⟨8 * ((i 0).val / 512) + 7, hlt⟩ (0 : Fin 2) = (8 * ((i 0).val / 512) + 7) / 8 := e50
    intro a
    match a with
    | ⟨0, _⟩ => show win3_5.index ⟨8 * ((i 0).val / 512) + 7, hlt⟩ (0 : Fin 2) * 512 ≤ (i 0).val ∧ (i 0).val < win3_5.index ⟨8 * ((i 0).val / 512) + 7, hlt⟩ (0 : Fin 2) * 512 + 512; omega
    | ⟨1, _⟩ => show win3_5.index ⟨8 * ((i 0).val / 512) + 7, hlt⟩ (1 : Fin 2) * 512 ≤ (i 1).val ∧ (i 1).val < win3_5.index ⟨8 * ((i 0).val / 512) + 7, hlt⟩ (1 : Fin 2) * 512 + 512; omega

end Out3

end Cert.KernelIdeal.AttnValue

end
-- ==== Proof.AttnRowMath.lean ====
/-
  One row of the attention update, tile by tile, against the specification's row.

  Fix a node p and a feature d. The row of scores of p has 8192 entries; the kernel walks it in 8 tiles of 1024, and
  entry j of tile kv is column 1024·kv + j. With the tile's scores, mask entries and value entries as the three
  sequences an online pass consumes (LibOnlineSoftmax), after the 8 tiles the pass holds finite sums, its quotient is
  the shift-free two-pass value of the row over the pairs (tile, position), and those pairs are exactly the 8192
  columns. So the quotient is the specification's masked softmax average, whatever finite shifts the pass went through.
-/
import proofs.«100610_j61478161875059_2_alg».proof.Proof.Spec
import proofs.«100610_j61478161875059_2_alg».proof.Proof.LibOnlineSoftmax

noncomputable section

namespace Cert.AttnRow

open Idealize.ShloMosaic Idealize.ShloMosaic.ValueIdx
open Cert.GatSpec Cert.LibOnlineSoftmax
open scoped BigOperators

variable (Hh Gg : SX.Idx → ℝ) (A : SA.Idx → ℝ) (X : SX.Idx → ℝ)

/-- Column 1024·kv + j of the row (read modulo 8192, so that the definition is total; only kv < 8 is ever used). -/
def col (kv : ℕ) (j : Fin 1024) : Fin 8192 := ⟨(1024 * kv + j.val) % 8192, Nat.mod_lt _ (by norm_num)⟩

theorem col_val {kv : ℕ} (h : kv < 8) (j : Fin 1024) : (col kv j).val = 1024 * kv + j.val := by
  have := j.isLt
  show (1024 * kv + j.val) % 8192 = _
  exact Nat.mod_eq_of_lt (by omega)

/-- The score of the pair (p, q): the inner product of p's query row and q's key row. -/
def sc (p q : Fin 8192) : ℝ := ∑ dd : Fin 512, Hh (ix2 p dd) * Gg (ix2 q dd)

/-- The three sequences of the online pass for node `p` and feature `d`: tile `kv`'s scores, mask entries, value entries. -/
def sRow (p : Fin 8192) (kv : ℕ) (j : Fin 1024) : ℝ := sc Hh Gg p (col kv j)
def aRow (p : Fin 8192) (kv : ℕ) (j : Fin 1024) : ℝ := A (ix2 p (col kv j))
def vRow (d : Fin 512) (kv : ℕ) (j : Fin 1024) : ℝ := Hh (ix2 (col kv j) d)

/-- The attention update of the specification, from the projected arrays: the masked, shift-free softmax average of the
    value rows, plus the node's own features, through the leaky rectifier. -/
def attnAt (p : Fin 8192) (d : Fin 512) : ℝ :=
  leaky ((∑ q : Fin 8192, Real.exp (sc Hh Gg p q) / (∑ q' : Fin 8192, Real.exp (sc Hh Gg p q')) * A (ix2 p q) * Hh (ix2 q d))
    + X (ix2 p d))

/-- The same as an array. -/
def attn : SX.Idx → ℝ := fun i => attnAt Hh Gg A X (i 0) (i 1)

/-- THE TILES ARE THE ROW: a sum over the pairs (tile below 8, position below 1024) of a function of the column is the
    sum over the 8192 columns. -/
theorem sum_tiles (f : Fin 8192 → ℝ) :
    ∑ pp ∈ seen (J := Fin 1024) 8, f (col pp.1 pp.2) = ∑ q : Fin 8192, f q := by
  unfold seen
  rw [Finset.sum_product, Finset.sum_range (fun kv => ∑ j : Fin 1024, f (col kv j)), ← Finset.sum_product',
    Finset.univ_product_univ]
  refine (Finset.sum_equiv (finProdFinEquiv (m := 8) (n := 1024)) (by simp) fun x _ => ?_)
  congr 1
  apply Fin.ext
  rw [col_val x.1.isLt]
  show 1024 * x.1.val + x.2.val = x.2.val + 1024 * x.1.val
  omega

/-- AFTER THE EIGHT TILES the pass holds finite sums with a nonzero denominator, and their quotient is the specification's
    masked softmax average of node `p` at feature `d` — whatever the bounds `μ` were. -/
theorem run_final (p : Fin 8192) (d : Fin 512) (μ : ℕ → ℝ) :
    ∃ A' L' : ℝ, L' ≠ 0 ∧ (run (sRow Hh Gg p) (aRow A p) (vRow Hh d) μ 8).acc = (A' : EReal)
      ∧ (run (sRow Hh Gg p) (aRow A p) (vRow Hh d) μ 8).l = (L' : EReal)
      ∧ A' / L' = ∑ q : Fin 8192, Real.exp (sc Hh Gg p q) / (∑ q' : Fin 8192, Real.exp (sc Hh Gg p q')) * A (ix2 p q) * Hh (ix2 q d) := by
  obtain ⟨M, hM⟩ := run_succ (sRow Hh Gg p) (aRow A p) (vRow Hh d) μ 7
  have hne : (seen (J := Fin 1024) (7 + 1)).Nonempty :=
    ⟨(0, 0), Finset.mem_product.mpr ⟨Finset.mem_range.mpr (by norm_num), Finset.mem_univ _⟩⟩
  refine ⟨_, _, (lsum_pos _ hne M).ne', by rw [hM], by rw [hM], ?_⟩
  rw [online_eq_twopass _ _ _ hne M 0]
  have hden : lsum (fun pp : ℕ × Fin 1024 => sRow Hh Gg p pp.1 pp.2) (seen (7 + 1)) 0 = ∑ q' : Fin 8192, Real.exp (sc Hh Gg p q') := by
    unfold lsum
    simp only [sub_zero]
    exact sum_tiles (fun q => Real.exp (sc Hh Gg p q))
  rw [hden]
  simp only [sub_zero]
  exact sum_tiles (fun q => Real.exp (sc Hh Gg p q) / (∑ q' : Fin 8192, Real.exp (sc Hh Gg p q')) * A (ix2 p q) * Hh (ix2 q d))

/-- One layer of the specification is the attention update of its two projected arrays. -/
theorem layer_eq (x : SX.Idx → ℝ) (adj : SA.Idx → ℝ) (W : SW.Idx → ℝ) :
    layer x adj W = attn (fun i => h x W (i 0) (i 1)) (fun i => g x W (i 0) (i 1)) adj x := rfl

end Cert.AttnRow

end
-- ==== Proof.AttnValueI.lean ====
/-
  The attention call's result, as the specification's attention update.

  Fix a row block and, in it, a row r and a feature d; let p be the node the row is. Walking the 8 points of the row block
  the three kept buffers hold at (r, ·) exactly the state of the online pass of node p: at the first tile the step from
  (-∞, 0, 0), at every later tile one more step from what the tile before left — by induction on the point, each step
  read off the body's step functions at an index, with the tile's own row maximum as its bound. After the eighth tile
  the pass has seen the whole row, so the quotient the body forms is the specification's masked softmax average; the
  residual input and the rectifier are the same on both sides. The call writes those results back block by block, and
  the blocks fill the output array.
-/
import proofs.«100610_j61478161875059_2_alg».proof.Proof.AttnDataI
import proofs.«100610_j61478161875059_2_alg».proof.Proof.AttnStepI
import proofs.«100610_j61478161875059_2_alg».proof.Proof.AttnBlocksI
import proofs.«100610_j61478161875059_2_alg».proof.Proof.AttnRowMath
import proofs.«100610_j61478161875059_2_alg».proof.Proof.Spec
import proofs.«100610_j61478161875059_2_alg».proof.Proof.LibOnlineSoftmax

set_option maxRecDepth 16384

noncomputable section

namespace Cert.KernelIdeal.AttnValue

open Cert.KernelIdeal Cert.KernelIdeal.Gen Cert.KernelIdeal.Attn Cert.KernelIdeal.AttnStep
open Idealize.ShloMosaic Idealize.ShloMosaic.ValueIdx Idealize.ShloMosaic.TcCoe
open Cert.GatSpec Cert.AttnRow Cert.LibOnlineSoftmax
open scoped BigOperators

/-! # Call 1 -/

section Call1

variable (V : (c : Dev nD) → (b : Ref sig .tc) → Buf (Elt Ideal) ((c : Thread nD τ).loc b)) (c : Dev nD)
variable (Hh Gg : SX.Idx → ℝ) (A : SA.Idx → ℝ) (X : SX.Idx → ℝ)

/-- The point's blocks of the real arrays: the query rows, the mask block, the residual rows. -/
def qb1 (t : Fin cfg1.N) : S512x512.Idx → ℝ := fun y => Hh (ix2 (rowOf1 t (y 0)) (y 1))
def mb1 (t : Fin cfg1.N) : S512x1024.Idx → ℝ := fun y => A (ix2 (rowOf1 t (y 0)) (colOf1 t (y 1)))
def xb1 (t : Fin cfg1.N) : S512x512.Idx → ℝ := fun y => X (ix2 (rowOf1 t (y 0)) (y 1))

variable (h0 : V c main_v5_0 = up Hh) (h1 : V c main_v5_1 = up Gg) (h3 : V c main_arg1 = up A) (h4 : V c main_arg0 = up X)

include h0 in
theorem iblk1_0 (t : Fin cfg1.N) : iblk1 V c 0 t = up (qb1 Hh t) := funext fun y => by
  obtain ⟨r, d, rfl⟩ : ∃ (r : Fin 512) (d : Fin 512), y = ix2 r d := ⟨y 0, y 1, eq_ix2 y⟩
  rw [blk1_0, h0]; rfl
include h1 in
theorem iblk1_1 (t : Fin cfg1.N) : iblk1 V c 1 t = up Gg := funext fun y => by
  obtain ⟨q, d, rfl⟩ : ∃ (q : Fin 8192) (d : Fin 512), y = ix2 q d := ⟨y 0, y 1, eq_ix2 y⟩
  rw [blk1_1, h1]
include h0 in
theorem iblk1_2 (t : Fin cfg1.N) : iblk1 V c 2 t = up Hh := funext fun y => by
  obtain ⟨q, d, rfl⟩ : ∃ (q : Fin 8192) (d : Fin 512), y = ix2 q d := ⟨y 0, y 1, eq_ix2 y⟩
  rw [blk1_2, h0]
include h3 in
theorem iblk1_3 (t : Fin cfg1.N) : iblk1 V c 3 t = up (mb1 A t) := funext fun y => by
  obtain ⟨r, j, rfl⟩ : ∃ (r : Fin 512) (j : Fin 1024), y = ix2 r j := ⟨y 0, y 1, eq_ix2 y⟩
  rw [blk1_3, h3]; rfl
include h4 in
theorem iblk1_4 (t : Fin cfg1.N) : iblk1 V c 4 t = up (xb1 X t) := funext fun y => by
  obtain ⟨r, d, rfl⟩ : ∃ (r : Fin 512) (d : Fin 512), y = ix2 r d := ⟨y 0, y 1, eq_ix2 y⟩
  rw [blk1_4, h4]; rfl

/-- The point's tile is tile `t mod 8` of the row: column `j` of the tile is column 1024·(t mod 8) + j. -/
theorem colOf1_eq (t : Fin cfg1.N) (j : Fin 1024) : colOf1 t j = col (t.val % 8) j :=
  Fin.ext ((col_val (Nat.mod_lt _ (by norm_num)) j).symm)

/-- The tile's scores, mask entries and value entries are the row's sequences at tile `t mod 8`. -/
theorem scoreT1_eq (t : Fin cfg1.N) (r : Fin 512) (j : Fin 1024) :
    scoreT1 (grid1.coords t) (qb1 Hh t) Gg r j = sRow Hh Gg (rowOf1 t r) (t.val % 8) j := by
  unfold scoreT1 sRow sc
  refine Finset.sum_congr rfl fun d _ => ?_
  have hc : rowIdx1 (grid1.coords t) j = col (t.val % 8) j :=
    Fin.ext (by
      rw [col_val (Nat.mod_lt _ (by norm_num)) j]
      show 1024 * ((grid1.coords t) 1).val + j.val = _
      rw [(idx_facts1 t).2.2.2.2.2.2.2.2.2.2.2.2])
  rw [hc]; rfl

/-- ONE STEP of the kernel, at row `r` and feature `d` of the point's block, IS one step of the online pass of node
    `rowOf t r`: from any carried values, with the tile's own bound. -/
theorem step1_state (t : Fin cfg1.N) (r d : Fin 512) (sm sl : S512x1.Idx → EReal) (sa : S512x512.Idx → EReal) :
    (⟨stepM1 (F := Ideal) (grid1.coords t) (up (qb1 Hh t)) (up Gg) sm (ix2 r (0 : Fin 1)),
      stepL1 (F := Ideal) (grid1.coords t) (up (qb1 Hh t)) (up Gg) sm sl (ix2 r (0 : Fin 1)),
      stepA1 (F := Ideal) (grid1.coords t) (up (qb1 Hh t)) (up Gg) (up Hh) (up (mb1 A t)) sm sa (ix2 r d)⟩ : State)
      = State.step (fun j : Fin 1024 => (sRow Hh Gg (rowOf1 t r) (t.val % 8) j : EReal))
          (fun j => (aRow A (rowOf1 t r) (t.val % 8) j : EReal)) (fun j => (vRow Hh d (t.val % 8) j : EReal))
          ((tileMax1 (grid1.coords t) (qb1 Hh t) Gg r : ℝ) : EReal) ⟨sm (ix2 r 0), sl (ix2 r 0), sa (ix2 r d)⟩ := by
  unfold State.step
  rw [stepM1_apply, stepL1_apply, stepA1_apply]
  simp only [scoreT1_eq]
  have hc : ∀ j : Fin 1024, rowIdx1 (grid1.coords t) j = col (t.val % 8) j := fun j =>
    Fin.ext (by
      rw [col_val (Nat.mod_lt _ (by norm_num)) j]
      show 1024 * ((grid1.coords t) 1).val + j.val = _
      rw [(idx_facts1 t).2.2.2.2.2.2.2.2.2.2.2.2])
  simp only [hc, mb1, colOf1_eq]
  rfl

include h0 h1 h3 in
/-- THE INVARIANT. After point `n` the three kept buffers hold, at row `r` (and feature `d`), the state of the online pass
    of node `rowOf n r` after `n mod 8 + 1` tiles, for some bounds. -/
theorem kept1 : ∀ (n : ℕ) (hn : n < cfg1.N) (r d : Fin 512), ∃ μ : ℕ → ℝ,
    (⟨(sc1 V c n hn).1 (ix2 r (0 : Fin 1)), (sc1 V c n hn).2.1 (ix2 r (0 : Fin 1)), (sc1 V c n hn).2.2 (ix2 r d)⟩ : State)
      = run (sRow Hh Gg (rowOf1 ⟨n, hn⟩ r)) (aRow A (rowOf1 ⟨n, hn⟩ r)) (vRow Hh d) μ (n % 8 + 1) := by
  intro n
  induction n with
  | zero =>
    intro hn r d
    refine ⟨fun _ => tileMax1 (grid1.coords ⟨0, hn⟩) (qb1 Hh ⟨0, hn⟩) Gg r, ?_⟩
    rw [show sc1 V c 0 hn = first1 V c ⟨0, hn⟩ from rfl]
    unfold first1; dsimp only
    rw [iblk1_0 V c Hh h0, iblk1_1 V c Gg h1, iblk1_2 V c Hh h0, iblk1_3 V c A h3]
    rw [step1_state Hh Gg A ⟨0, hn⟩ r d, pay4_1_apply, pay5_1_apply, pay6_1_apply]
    rfl
  | succ n ih =>
    intro hn r d
    by_cases h8 : (n + 1) % 8 = 0
    · refine ⟨fun _ => tileMax1 (grid1.coords ⟨n + 1, hn⟩) (qb1 Hh ⟨n + 1, hn⟩) Gg r, ?_⟩
      rw [sc1_first V c ⟨n + 1, hn⟩ h8]
      unfold first1; dsimp only
      rw [iblk1_0 V c Hh h0, iblk1_1 V c Gg h1, iblk1_2 V c Hh h0, iblk1_3 V c A h3]
      rw [step1_state Hh Gg A ⟨n + 1, hn⟩ r d, pay4_1_apply, pay5_1_apply, pay6_1_apply, h8]
      rfl
    · obtain ⟨μ', hμ'⟩ := ih (Nat.lt_of_succ_lt hn) r d
      have hrow : rowOf1 ⟨n, Nat.lt_of_succ_lt hn⟩ r = rowOf1 ⟨n + 1, hn⟩ r := by
        apply Fin.ext; show 512 * (n / 8) + r.val = 512 * ((n + 1) / 8) + r.val; omega
      have hkv : n % 8 + 1 = (n + 1) % 8 := by omega
      refine ⟨Function.update μ' ((n + 1) % 8) (tileMax1 (grid1.coords ⟨n + 1, hn⟩) (qb1 Hh ⟨n + 1, hn⟩) Gg r), ?_⟩
      rw [sc1_next V c ⟨n + 1, hn⟩ h8]
      unfold next1; dsimp only
      rw [iblk1_0 V c Hh h0, iblk1_1 V c Gg h1, iblk1_2 V c Hh h0, iblk1_3 V c A h3]
      rw [step1_state Hh Gg A ⟨n + 1, hn⟩ r d, run_succ_eq, Function.update_self]
      have hprev : (⟨(sc1 V c (n + 1 - 1) (Nat.lt_of_le_of_lt (Nat.sub_le _ _) hn)).1 (ix2 r (0 : Fin 1)),
          (sc1 V c (n + 1 - 1) (Nat.lt_of_le_of_lt (Nat.sub_le _ _) hn)).2.1 (ix2 r (0 : Fin 1)),
          (sc1 V c (n + 1 - 1) (Nat.lt_of_le_of_lt (Nat.sub_le _ _) hn)).2.2 (ix2 r d)⟩ : State)
          = run (sRow Hh Gg (rowOf1 ⟨n + 1, hn⟩ r)) (aRow A (rowOf1 ⟨n + 1, hn⟩ r)) (vRow Hh d)
              (Function.update μ' ((n + 1) % 8) (tileMax1 (grid1.coords ⟨n + 1, hn⟩) (qb1 Hh ⟨n + 1, hn⟩) Gg r)) ((n + 1) % 8) := by
        rw [run_congr _ _ _ ((n + 1) % 8) (μ' := μ') (fun j hj => Function.update_of_ne (Nat.ne_of_lt hj) _ _), ← hkv, ← hrow]
        exact hμ'
      rw [← hprev]

include h0 h1 h3 h4 in
/-- THE LAST TILE'S RESULT at row `r`, feature `d` is the specification's attention update of node `rowOf t r`. -/
theorem out1_apply (t : Fin cfg1.N) (h7 : t.val % 8 = 7) (r d : Fin 512) :
    out1 V c t (ix2 r d) = up (attn Hh Gg A X) (ix2 (rowOf1 t r) d) := by
  obtain ⟨μ, hμ⟩ := kept1 V c Hh Gg A h0 h1 h3 t.val t.isLt r d
  rw [h7] at hμ
  obtain ⟨A', L', hL, hacc, hl, hq⟩ := run_final Hh Gg A (rowOf1 t r) d μ
  have hst := congrArg State.acc hμ
  have hsl := congrArg State.l hμ
  unfold out1
  rw [iblk1_4 V c X h4]
  rw [final1_apply _ _ (xb1 X t) r d A' L' hL (hst.trans hacc) (hsl.trans hl), hq]
  rfl

include h0 h1 h3 h4 in
/-- THE CALL'S RESULT ARRAY: the blocks written back at the last tiles of the 16 row blocks are the blocks of the
    specification's attention update of the projected arrays. -/
theorem attn_value1 : (dat1 V c).arrAt 5 cfg1.N = up (attn Hh Gg A X) :=
  arrAt1_5_eq V c (up (attn Hh Gg A X)) fun t h7 r d => out1_apply V c Hh Gg A X h0 h1 h3 h4 t h7 r d

end Call1

/-! # Call 3 -/

section Call3

variable (V : (c : Dev nD) → (b : Ref sig .tc) → Buf (Elt Ideal) ((c : Thread nD τ).loc b)) (c : Dev nD)
variable (Hh Gg : SX.Idx → ℝ) (A : SA.Idx → ℝ) (X : SX.Idx → ℝ)

/-- The point's blocks of the real arrays: the query rows, the mask block, the residual rows. -/
def qb3 (t : Fin cfg3.N) : S512x512.Idx → ℝ := fun y => Hh (ix2 (rowOf3 t (y 0)) (y 1))
def mb3 (t : Fin cfg3.N) : S512x1024.Idx → ℝ := fun y => A (ix2 (rowOf3 t (y 0)) (colOf3 t (y 1)))
def xb3 (t : Fin cfg3.N) : S512x512.Idx → ℝ := fun y => X (ix2 (rowOf3 t (y 0)) (y 1))

variable (h0 : V c main_v11_0 = up Hh) (h1 : V c main_v11_1 = up Gg) (h3 : V c main_arg1 = up A) (h4 : V c main_v6 = up X)

include h0 in
theorem iblk3_0 (t : Fin cfg3.N) : iblk3 V c 0 t = up (qb3 Hh t) := funext fun y => by
  obtain ⟨r, d, rfl⟩ : ∃ (r : Fin 512) (d : Fin 512), y = ix2 r d := ⟨y 0, y 1, eq_ix2 y⟩
  rw [blk3_0, h0]; rfl
include h1 in
theorem iblk3_1 (t : Fin cfg3.N) : iblk3 V c 1 t = up Gg := funext fun y => by
  obtain ⟨q, d, rfl⟩ : ∃ (q : Fin 8192) (d : Fin 512), y = ix2 q d := ⟨y 0, y 1, eq_ix2 y⟩
  rw [blk3_1, h1]
include h0 in
theorem iblk3_2 (t : Fin cfg3.N) : iblk3 V c 2 t = up Hh := funext fun y => by
  obtain ⟨q, d, rfl⟩ : ∃ (q : Fin 8192) (d : Fin 512), y = ix2 q d := ⟨y 0, y 1, eq_ix2 y⟩
  rw [blk3_2, h0]
include h3 in
theorem iblk3_3 (t : Fin cfg3.N) : iblk3 V c 3 t = up (mb3 A t) := funext fun y => by
  obtain ⟨r, j, rfl⟩ : ∃ (r : Fin 512) (j : Fin 1024), y = ix2 r j := ⟨y 0, y 1, eq_ix2 y⟩
  rw [blk3_3, h3]; rfl
include h4 in
theorem iblk3_4 (t : Fin cfg3.N) : iblk3 V c 4 t = up (xb3 X t) := funext fun y => by
  obtain ⟨r, d, rfl⟩ : ∃ (r : Fin 512) (d : Fin 512), y = ix2 r d := ⟨y 0, y 1, eq_ix2 y⟩
  rw [blk3_4, h4]; rfl

/-- The point's tile is tile `t mod 8` of the row: column `j` of the tile is column 1024·(t mod 8) + j. -/
theorem colOf3_eq (t : Fin cfg3.N) (j : Fin 1024) : colOf3 t j = col (t.val % 8) j :=
  Fin.ext ((col_val (Nat.mod_lt _ (by norm_num)) j).symm)

/-- The tile's scores, mask entries and value entries are the row's sequences at tile `t mod 8`. -/
theorem scoreT3_eq (t : Fin cfg3.N) (r : Fin 512) (j : Fin 1024) :
    scoreT3 (grid3.coords t) (qb3 Hh t) Gg r j = sRow Hh Gg (rowOf3 t r) (t.val % 8) j := by
  unfold scoreT3 sRow sc
  refine Finset.sum_congr rfl fun d _ => ?_
  have hc : rowIdx3 (grid3.coords t) j = col (t.val % 8) j :=
    Fin.ext (by
      rw [col_val (Nat.mod_lt _ (by norm_num)) j]
      show 1024 * ((grid3.coords t) 1).val + j.val = _
      rw [(idx_facts3 t).2.2.2.2.2.2.2.2.2.2.2.2])
  rw [hc]; rfl

/-- ONE STEP of the kernel, at row `r` and feature `d` of the point's block, IS one step of the online pass of node
    `rowOf t r`: from any carried values, with the tile's own bound. -/
theorem step3_state (t : Fin cfg3.N) (r d : Fin 512) (sm sl : S512x1.Idx → EReal) (sa : S512x512.Idx → EReal) :
    (⟨stepM3 (F := Ideal) (grid3.coords t) (up (qb3 Hh t)) (up Gg) sm (ix2 r (0 : Fin 1)),
      stepL3 (F := Ideal) (grid3.coords t) (up (qb3 Hh t)) (up Gg) sm sl (ix2 r (0 : Fin 1)),
      stepA3 (F := Ideal) (grid3.coords t) (up (qb3 Hh t)) (up Gg) (up Hh) (up (mb3 A t)) sm sa (ix2 r d)⟩ : State)
      = State.step (fun j : Fin 1024 => (sRow Hh Gg (rowOf3 t r) (t.val % 8) j : EReal))
          (fun j => (aRow A (rowOf3 t r) (t.val % 8) j : EReal)) (fun j => (vRow Hh d (t.val % 8) j : EReal))
          ((tileMax3 (grid3.coords t) (qb3 Hh t) Gg r : ℝ) : EReal) ⟨sm (ix2 r 0), sl (ix2 r 0), sa (ix2 r d)⟩ := by
  unfold State.step
  rw [stepM3_apply, stepL3_apply, stepA3_apply]
  simp only [scoreT3_eq]
  have hc : ∀ j : Fin 1024, rowIdx3 (grid3.coords t) j = col (t.val % 8) j := fun j =>
    Fin.ext (by
      rw [col_val (Nat.mod_lt _ (by norm_num)) j]
      show 1024 * ((grid3.coords t) 1).val + j.val = _
      rw [(idx_facts3 t).2.2.2.2.2.2.2.2.2.2.2.2])
  simp only [hc, mb3, colOf3_eq]
  rfl

include h0 h1 h3 in
/-- THE INVARIANT. After point `n` the three kept buffers hold, at row `r` (and feature `d`), the state of the online pass
    of node `rowOf n r` after `n mod 8 + 1` tiles, for some bounds. -/
theorem kept3 : ∀ (n : ℕ) (hn : n < cfg3.N) (r d : Fin 512), ∃ μ : ℕ → ℝ,
    (⟨(sc3 V c n hn).1 (ix2 r (0 : Fin 1)), (sc3 V c n hn).2.1 (ix2 r (0 : Fin 1)), (sc3 V c n hn).2.2 (ix2 r d)⟩ : State)
      = run (sRow Hh Gg (rowOf3 ⟨n, hn⟩ r)) (aRow A (rowOf3 ⟨n, hn⟩ r)) (vRow Hh d) μ (n % 8 + 1) := by
  intro n
  induction n with
  | zero =>
    intro hn r d
    refine ⟨fun _ => tileMax3 (grid3.coords ⟨0, hn⟩) (qb3 Hh ⟨0, hn⟩) Gg r, ?_⟩
    rw [show sc3 V c 0 hn = first3 V c ⟨0, hn⟩ from rfl]
    unfold first3; dsimp only
    rw [iblk3_0 V c Hh h0, iblk3_1 V c Gg h1, iblk3_2 V c Hh h0, iblk3_3 V c A h3]
    rw [step3_state Hh Gg A ⟨0, hn⟩ r d, pay4_3_apply, pay5_3_apply, pay6_3_apply]
    rfl
  | succ n ih =>
    intro hn r d
    by_cases h8 : (n + 1) % 8 = 0
    · refine ⟨fun _ => tileMax3 (grid3.coords ⟨n + 1, hn⟩) (qb3 Hh ⟨n + 1, hn⟩) Gg r, ?_⟩
      rw [sc3_first V c ⟨n + 1, hn⟩ h8]
      unfold first3; dsimp only
      rw [iblk3_0 V c Hh h0, iblk3_1 V c Gg h1, iblk3_2 V c Hh h0, iblk3_3 V c A h3]
      rw [step3_state Hh Gg A ⟨n + 1, hn⟩ r d, pay4_3_apply, pay5_3_apply, pay6_3_apply, h8]
      rfl
    · obtain ⟨μ', hμ'⟩ := ih (Nat.lt_of_succ_lt hn) r d
      have hrow : rowOf3 ⟨n, Nat.lt_of_succ_lt hn⟩ r = rowOf3 ⟨n + 1, hn⟩ r := by
        apply Fin.ext; show 512 * (n / 8) + r.val = 512 * ((n + 1) / 8) + r.val; omega
      have hkv : n % 8 + 1 = (n + 1) % 8 := by omega
      refine ⟨Function.update μ' ((n + 1) % 8) (tileMax3 (grid3.coords ⟨n + 1, hn⟩) (qb3 Hh ⟨n + 1, hn⟩) Gg r), ?_⟩
      rw [sc3_next V c ⟨n + 1, hn⟩ h8]
      unfold next3; dsimp only
      rw [iblk3_0 V c Hh h0, iblk3_1 V c Gg h1, iblk3_2 V c Hh h0, iblk3_3 V c A h3]
      rw [step3_state Hh Gg A ⟨n + 1, hn⟩ r d, run_succ_eq, Function.update_self]
      have hprev : (⟨(sc3 V c (n + 1 - 1) (Nat.lt_of_le_of_lt (Nat.sub_le _ _) hn)).1 (ix2 r (0 : Fin 1)),
          (sc3 V c (n + 1 - 1) (Nat.lt_of_le_of_lt (Nat.sub_le _ _) hn)).2.1 (ix2 r (0 : Fin 1)),
          (sc3 V c (n + 1 - 1) (Nat.lt_of_le_of_lt (Nat.sub_le _ _) hn)).2.2 (ix2 r d)⟩ : State)
          = run (sRow Hh Gg (rowOf3 ⟨n + 1, hn⟩ r)) (aRow A (rowOf3 ⟨n + 1, hn⟩ r)) (vRow Hh d)
              (Function.update μ' ((n + 1) % 8) (tileMax3 (grid3.coords ⟨n + 1, hn⟩) (qb3 Hh ⟨n + 1, hn⟩) Gg r)) ((n + 1) % 8) := by
        rw [run_congr _ _ _ ((n + 1) % 8) (μ' := μ') (fun j hj => Function.update_of_ne (Nat.ne_of_lt hj) _ _), ← hkv, ← hrow]
        exact hμ'
      rw [← hprev]

include h0 h1 h3 h4 in
/-- THE LAST TILE'S RESULT at row `r`, feature `d` is the specification's attention update of node `rowOf t r`. -/
theorem out3_apply (t : Fin cfg3.N) (h7 : t.val % 8 = 7) (r d : Fin 512) :
    out3 V c t (ix2 r d) = up (attn Hh Gg A X) (ix2 (rowOf3 t r) d) := by
  obtain ⟨μ, hμ⟩ := kept3 V c Hh Gg A h0 h1 h3 t.val t.isLt r d
  rw [h7] at hμ
  obtain ⟨A', L', hL, hacc, hl, hq⟩ := run_final Hh Gg A (rowOf3 t r) d μ
  have hst := congrArg State.acc hμ
  have hsl := congrArg State.l hμ
  unfold out3
  rw [iblk3_4 V c X h4]
  rw [final3_apply _ _ (xb3 X t) r d A' L' hL (hst.trans hacc) (hsl.trans hl), hq]
  rfl

include h0 h1 h3 h4 in
/-- THE CALL'S RESULT ARRAY: the blocks written back at the last tiles of the 16 row blocks are the blocks of the
    specification's attention update of the projected arrays. -/
theorem attn_value3 : (dat3 V c).arrAt 5 cfg3.N = up (attn Hh Gg A X) :=
  arrAt3_5_eq V c (up (attn Hh Gg A X)) fun t h7 r d => out3_apply V c Hh Gg A X h0 h1 h3 h4 t h7 r d

end Call3

end Cert.KernelIdeal.AttnValue

end
-- ==== Proof.ProjValueI.lean ====
/-
  The values of the two projection calls and of the two host stretches, on the extended reals.

  A projection call multiplies the node features (8192 rows of 512) by the two halves of a layer's weight (each 512 by 512),
  1024 rows at a grid point. On the extended reals a change of float format is the identity and the vector unit's product into
  a zero accumulator is the plain sum over the contracted coordinate, so what the body leaves at one entry of a block is the sum
  over k of x (row, k) * w (k, column); the eight blocks of 1024 rows tile the 8192 rows, so each output array ends as that same
  sum read off the whole arrays. The host stretches before the two calls convert the stacked weights (the identity here),
  take one layer, drop its unit axis and cut the 1024 columns in two halves: read at an index, each half is the stacked
  weights at the layer, the same row, and the column (shifted by 512 for the second half).
-/
import proofs.«100610_j61478161875059_2_alg».proof.Proof.ProjDataI
import proofs.«100610_j61478161875059_2_alg».proof.Proof.LibPlainDot
import proofs.«100610_j61478161875059_2_alg».proof.Proof.Spec
import Idealize.ShloMosaic.Lib.Pipeline.Value
import Idealize.ShloMosaic.Lib.ValueIdx

set_option maxRecDepth 16384

noncomputable section

open scoped BigOperators

namespace Cert.KernelIdeal.ProjValue

open Cert.KernelIdeal Cert.KernelIdeal.Gen Cert.KernelIdeal.Proj
open Idealize.ShloMosaic Idealize.ShloMosaic.TcCoe Idealize.ShloMosaic.ValueIdx Idealize.ShloMosaic.PlainDot
open Idealize.SL.Sem
open Idealize.ShloMosaic.Pipeline (Dat)

/-! ## The body's product at one entry -/

/-- The zero offsets of a whole-buffer rectangle, however spelt. -/
theorem hz : (![0, 0] : Fin 2 → Nat) = fun _ => 0 := funext fun a => by fin_cases a <;> rfl

/-- The printed dimension numbers are the plain product's: contract the rows' 512 columns against the weight's 512 rows. -/
theorem plainDims : IsPlain dot_S1024x512_S512x512_S1024x512_1_0_0_1_n_n := ⟨rfl, rfl, rfl, rfl, rfl, rfl⟩

/-- The rows, narrowed, times a weight half (cast to its own shape), accumulated into zero: at entry (r, d) the sum over
    k of x (r, k) * w (k, d). -/
theorem prod_entry (x : FVec Ideal S1024x512 .f32) (w : FVec Ideal S512x512 .bf16) (hb : FTy.bf16.bits < FTy.f32.bits)
    (hc : S512x512.ShapeCasts S512x512) (r : Fin 1024) (d : Fin 512) :
    FloatOps.matmul dot_S1024x512_S512x512_S1024x512_1_0_0_1_n_n none (truncf .bf16 x hb) (shapeCast S512x512 w hc)
        (constant (F := Ideal) S1024x512 .f32 0x00000000#32) (ix2 r d)
      = ∑ k : Fin 512, x (ix2 r k) * w (ix2 k d) := by
  rw [shapeCast_self]
  exact matmul_zero_apply plainDims none (truncf .bf16 x hb) w (ix2 r d)

/-- The same with the rows first cast to their own shape (the layer-1 body's spelling). -/
theorem prod_entry' (x : FVec Ideal S1024x512 .f32) (w : FVec Ideal S512x512 .bf16) (hb : FTy.bf16.bits < FTy.f32.bits)
    (hx : S1024x512.ShapeCasts S1024x512) (hc : S512x512.ShapeCasts S512x512) (r : Fin 1024) (d : Fin 512) :
    FloatOps.matmul dot_S1024x512_S512x512_S1024x512_1_0_0_1_n_n none (truncf .bf16 (shapeCast S1024x512 x hx) hb)
        (shapeCast S512x512 w hc) (constant (F := Ideal) S1024x512 .f32 0x00000000#32) (ix2 r d)
      = ∑ k : Fin 512, x (ix2 r k) * w (ix2 k d) := by
  rw [shapeCast_self x hx]
  exact prod_entry x w hb hc r d

/-- The layer-0 body's first payload at an entry. -/
theorem pay0_2_apply (x : Vec Ideal S1024x512 .f32) (w : Vec Ideal S512x512 .bf16) (r : Fin 1024) (d : Fin 512) :
    k0_pay2 (F := Ideal) x w (ix2 r d) = ∑ k : Fin 512, x (ix2 r k) * w (ix2 k d) := by
  unfold k0_pay2 k0_pay1
  exact prod_entry x w _ _ r d
/-- Its second payload. -/
theorem pay0_3_apply (x : Vec Ideal S1024x512 .f32) (w : Vec Ideal S512x512 .bf16) (r : Fin 1024) (d : Fin 512) :
    k0_pay3 (F := Ideal) x w (ix2 r d) = ∑ k : Fin 512, x (ix2 r k) * w (ix2 k d) := by
  unfold k0_pay3 k0_pay1
  exact prod_entry x w _ _ r d
/-- The layer-1 body's first payload at an entry. -/
theorem pay2_2_apply (x : Vec Ideal S1024x512 .f32) (w : Vec Ideal S512x512 .bf16) (r : Fin 1024) (d : Fin 512) :
    k2_pay2 (F := Ideal) x w (ix2 r d) = ∑ k : Fin 512, x (ix2 r k) * w (ix2 k d) := by
  unfold k2_pay2 k2_pay1
  exact prod_entry' x w _ _ _ r d
/-- Its second payload. -/
theorem pay2_3_apply (x : Vec Ideal S1024x512 .f32) (w : Vec Ideal S512x512 .bf16) (r : Fin 1024) (d : Fin 512) :
    k2_pay3 (F := Ideal) x w (ix2 r d) = ∑ k : Fin 512, x (ix2 r k) * w (ix2 k d) := by
  unfold k2_pay3 k2_pay1
  exact prod_entry' x w _ _ _ r d

/-- What the layer-0 body leaves in its first output buffer, at an entry: the rows times the first weight half. -/
theorem outH0_apply (x : Vec Ideal S1024x512 .f32) (w : Vec Ideal S512x512 .bf16) (r : Fin 1024) (d : Fin 512) :
    outH0 (F := Ideal) x w (ix2 r d) = ∑ k : Fin 512, x (ix2 r k) * w (ix2 k d) := by
  unfold outH0
  rw [View.canon_unit_zero hz, View.ld_unit_zero (S := S1024x512) hz, View.ld_unit_zero (S := S512x512) hz]
  exact pay0_2_apply x w r d
/-- In its second output buffer: the rows times the second weight half. -/
theorem outS0_apply (x : Vec Ideal S1024x512 .f32) (w : Vec Ideal S512x512 .bf16) (r : Fin 1024) (d : Fin 512) :
    outS0 (F := Ideal) x w (ix2 r d) = ∑ k : Fin 512, x (ix2 r k) * w (ix2 k d) := by
  unfold outS0
  rw [View.canon_unit_zero hz, View.ld_unit_zero (S := S1024x512) hz, View.ld_unit_zero (S := S512x512) hz]
  exact pay0_3_apply x w r d
/-- The layer-1 body's first output buffer at an entry. -/
theorem outH2_apply (x : Vec Ideal S1024x512 .f32) (w : Vec Ideal S512x512 .bf16) (r : Fin 1024) (d : Fin 512) :
    outH2 (F := Ideal) x w (ix2 r d) = ∑ k : Fin 512, x (ix2 r k) * w (ix2 k d) := by
  unfold outH2
  rw [View.canon_unit_zero hz, View.ld_unit_zero (S := S1024x512) hz, View.ld_unit_zero (S := S512x512) hz]
  exact pay2_2_apply x w r d
/-- Its second output buffer. -/
theorem outS2_apply (x : Vec Ideal S1024x512 .f32) (w : Vec Ideal S512x512 .bf16) (r : Fin 1024) (d : Fin 512) :
    outS2 (F := Ideal) x w (ix2 r d) = ∑ k : Fin 512, x (ix2 r k) * w (ix2 k d) := by
  unfold outS2
  rw [View.canon_unit_zero hz, View.ld_unit_zero (S := S1024x512) hz, View.ld_unit_zero (S := S512x512) hz]
  exact pay2_3_apply x w r d

/-! ## One block's product as a block of the whole arrays' product -/

/-- What the bodies leave, at any index of the block. -/
theorem outH0_at (x : Vec Ideal S1024x512 .f32) (w : Vec Ideal S512x512 .bf16) (y : S1024x512.Idx) :
    outH0 (F := Ideal) x w y = ∑ k : Fin 512, x (ix2 (y 0) k) * w (ix2 k (y 1)) := by
  obtain ⟨r, d, rfl⟩ : ∃ (r : Fin 1024) (d : Fin 512), y = ix2 r d := ⟨y 0, y 1, eq_ix2 y⟩
  exact outH0_apply x w r d
theorem outS0_at (x : Vec Ideal S1024x512 .f32) (w : Vec Ideal S512x512 .bf16) (y : S1024x512.Idx) :
    outS0 (F := Ideal) x w y = ∑ k : Fin 512, x (ix2 (y 0) k) * w (ix2 k (y 1)) := by
  obtain ⟨r, d, rfl⟩ : ∃ (r : Fin 1024) (d : Fin 512), y = ix2 r d := ⟨y 0, y 1, eq_ix2 y⟩
  exact outS0_apply x w r d
theorem outH2_at (x : Vec Ideal S1024x512 .f32) (w : Vec Ideal S512x512 .bf16) (y : S1024x512.Idx) :
    outH2 (F := Ideal) x w y = ∑ k : Fin 512, x (ix2 (y 0) k) * w (ix2 k (y 1)) := by
  obtain ⟨r, d, rfl⟩ : ∃ (r : Fin 1024) (d : Fin 512), y = ix2 r d := ⟨y 0, y 1, eq_ix2 y⟩
  exact outH2_apply x w r d
theorem outS2_at (x : Vec Ideal S1024x512 .f32) (w : Vec Ideal S512x512 .bf16) (y : S1024x512.Idx) :
    outS2 (F := Ideal) x w y = ∑ k : Fin 512, x (ix2 (y 0) k) * w (ix2 k (y 1)) := by
  obtain ⟨r, d, rfl⟩ : ∃ (r : Fin 1024) (d : Fin 512), y = ix2 r d := ⟨y 0, y 1, eq_ix2 y⟩
  exact outS2_apply x w r d

/-- The product of the whole arrays: at (p, d) the sum over k of X (p, k) * W (k, d). -/
abbrev prodArr (X : Vec Ideal S8192x512 .f32) (W : Vec Ideal S512x512 .bf16) : Vec Ideal S8192x512 .bf16 :=
  fun i => ∑ k : Fin 512, X (ix2 (i 0) k) * W (ix2 k (i 1))

/-- If `xb` is the block of 1024 rows of `X` that starts at row 1024 q and `wb` is all of `W`, the product of the
    block at (r, d) is the product of the whole arrays at (1024 q + r, d). -/
theorem block_sum (X : Vec Ideal S8192x512 .f32) (W : Vec Ideal S512x512 .bf16)
    (xb : Vec Ideal S1024x512 .f32) (wb : Vec Ideal S512x512 .bf16) (q : Nat)
    (hx : ∀ (y : S1024x512.Idx) (i : S8192x512.Idx), (i 0).val = q * 1024 + (y 0).val → (i 1).val = (y 1).val → xb y = X i)
    (hw : ∀ y : S512x512.Idx, wb y = W y)
    (y : S1024x512.Idx) (i : S8192x512.Idx) (h0 : (i 0).val = q * 1024 + (y 0).val) (h1 : (i 1).val = (y 1).val) :
    (∑ k : Fin 512, xb (ix2 (y 0) k) * wb (ix2 k (y 1))) = prodArr X W i := by
  refine Finset.sum_congr rfl fun k _ => ?_
  have e1 : xb (ix2 (y 0) k) = X (ix2 (i 0) k) := hx _ _ h0 rfl
  have e2 : wb (ix2 k (y 1)) = W (ix2 k (i 1)) :=
    (hw _).trans (congrArg (fun z : Fin 512 => W (ix2 k z)) (Fin.ext h1.symm))
  rw [e1, e2]

section Blocks
variable (V : (c : Dev nD) → (b : Ref sig .tc) → Buf (Elt Ideal) ((c : Thread nD τ).loc b))

/-! ## From the blocks to the arrays: the layer-0 projection -/

/-- The printed index maps over the 8 grid points: the rows' block and both outputs' blocks sit at the point's own
    block of 1024 rows, column block 0; the two weight halves are always their block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The rows' block at point `t` is rows 1024 t … 1024 t + 1023 of the features. -/
theorem rows0_apply (c : Dev nD) (t : Fin cfg0.N) (y : S1024x512.Idx) (i : S8192x512.Idx)
    (h0 : (i 0).val = t.val * 1024 + (y 0).val) (h1 : (i 1).val = (y 1).val) :
    (iblk0 V c 0 t : Vec Ideal S1024x512 .f32) y = (V c main_arg0 : Vec Ideal S8192x512 .f32) i := by
  obtain ⟨e00, e01, -⟩ := idx_facts0 t
  unfold iblk0
  rw [View.read_apply]
  show V c main_arg0 _ = V c main_arg0 i
  refine congrArg (V c main_arg0) (funext fun a => Fin.ext ?_)
  match a with
  | ⟨0, _⟩ => show win0_0.index t (0 : Fin 2) * 1024 + 1 * (y 0).val = (i 0).val; rw [e00, h0]; omega
  | ⟨1, _⟩ => show win0_0.index t (1 : Fin 2) * 512 + 1 * (y 1).val = (i 1).val; rw [e01, h1]; omega

/-- The first weight half's block is the whole half, at every point. -/
theorem half0_1_apply (c : Dev nD) (t : Fin cfg0.N) (y : S512x512.Idx) :
    (iblk0 V c 1 t : Vec Ideal S512x512 .bf16) y = (V c main_v3 : Vec Ideal S512x512 .bf16) y := by
  obtain ⟨-, -, e10, e11, -⟩ := idx_facts0 t
  unfold iblk0
  rw [View.read_apply]
  show V c main_v3 _ = V c main_v3 y
  refine congrArg (V c main_v3) (funext fun a => Fin.ext ?_)
  match a with
  | ⟨0, _⟩ => show win0_1.index t (0 : Fin 2) * 512 + 1 * (y 0).val = (y 0).val; rw [e10]; omega
  | ⟨1, _⟩ => show win0_1.index t (1 : Fin 2) * 512 + 1 * (y 1).val = (y 1).val; rw [e11]; omega

/-- The second weight half's block is the whole half, at every point. -/
theorem half0_2_apply (c : Dev nD) (t : Fin cfg0.N) (y : S512x512.Idx) :
    (iblk0 V c 2 t : Vec Ideal S512x512 .bf16) y = (V c main_v4 : Vec Ideal S512x512 .bf16) y := by
  obtain ⟨-, -, -, -, e20, e21, -⟩ := idx_facts0 t
  unfold iblk0
  rw [View.read_apply]
  show V c main_v4 _ = V c main_v4 y
  refine congrArg (V c main_v4) (funext fun a => Fin.ext ?_)
  match a with
  | ⟨0, _⟩ => show win0_2.index t (0 : Fin 2) * 512 + 1 * (y 0).val = (y 0).val; rw [e20]; omega
  | ⟨1, _⟩ => show win0_2.index t (1 : Fin 2) * 512 + 1 * (y 1).val = (y 1).val; rw [e21]; omega

/-- What point `t` writes back to the first output is block `t` of the features times the first weight half. -/
theorem flushed0_3_eq (c : Dev nD) (t : Fin cfg0.N) :
    (dat0 V c).flushed 3 t = ((cfg0.win 3).blk t).view.read (Elt Ideal) (prodArr (V c main_arg0) (V c main_v3)) := by
  show (cfg0.win 3).cut (grid0.coords t) ((dat0 V c).after 3 t) = _
  rw [after0_3]
  obtain ⟨-, -, -, -, -, -, e30, e31, -⟩ := idx_facts0 t
  funext j
  rw [View.read_apply]
  refine (outH0_at _ _ _).trans (block_sum (V c main_arg0) (V c main_v3) (iblk0 V c 0 t) (iblk0 V c 1 t) t.val
    (rows0_apply V c t) (half0_1_apply V c t) _ _ ?_ ?_)
  · show win0_3.index t (0 : Fin 2) * 1024 + 1 * (j 0).val = t.val * 1024 + (j 0).val; rw [e30]; omega
  · show win0_3.index t (1 : Fin 2) * 512 + 1 * (j 1).val = (j 1).val; rw [e31]; omega

/-- What point `t` writes back to the second output is block `t` of the features times the second weight half. -/
theorem flushed0_4_eq (c : Dev nD) (t : Fin cfg0.N) :
    (dat0 V c).flushed 4 t = ((cfg0.win 4).blk t).view.read (Elt Ideal) (prodArr (V c main_arg0) (V c main_v4)) := by
  show (cfg0.win 4).cut (grid0.coords t) ((dat0 V c).after 4 t) = _
  rw [after0_4]
  obtain ⟨-, -, -, -, -, -, -, -, e40, e41⟩ := idx_facts0 t
  funext j
  rw [View.read_apply]
  refine (outS0_at _ _ _).trans (block_sum (V c main_arg0) (V c main_v4) (iblk0 V c 0 t) (iblk0 V c 2 t) t.val
    (rows0_apply V c t) (half0_2_apply V c t) _ _ ?_ ?_)
  · show win0_4.index t (0 : Fin 2) * 1024 + 1 * (j 0).val = t.val * 1024 + (j 0).val; rw [e40]; omega
  · show win0_4.index t (1 : Fin 2) * 512 + 1 * (j 1).val = (j 1).val; rw [e41]; omega

/-- An index of the first output is in point `t`'s block iff each coordinate is in the block's range on its axis. -/
theorem mem_blk0_3 (t : Fin cfg0.N) (i : S8192x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5_0).slice (win0_3.rect t)).set ↔ _
  rw [View.set_slice_whole, Rect.mem_set_unit]
  exact Iff.rfl
/-- The same for the second output. -/
theorem mem_blk0_4 (t : Fin cfg0.N) (i : S8192x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5_1).slice (win0_4.rect t)).set ↔ _
  rw [View.set_slice_whole, Rect.mem_set_unit]
  exact Iff.rfl

/-- Row p of the first output is in the block of point p / 1024, which writes back. -/
theorem cover0_3 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  have ht : t.val = (i 0).val / 1024 := rfl
  obtain ⟨-, -, -, -, -, -, e30, e31, -⟩ := idx_facts0 t
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; rw [e30, ht]; omega
  | ⟨1, _⟩ => show win0_3.index t (1 : Fin 2) * 512 ≤ (i 1).val ∧ (i 1).val < win0_3.index t (1 : Fin 2) * 512 + 512; rw [e31]; omega
/-- The same for the second output. -/
theorem cover0_4 (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  have hN : cfg0.N = 8 := N_0
  let t : Fin cfg0.N := ⟨(i 0).val / 1024, by rw [hN]; omega⟩
  have ht : t.val = (i 0).val / 1024 := rfl
  obtain ⟨-, -, -, -, -, -, -, -, e40, e41⟩ := idx_facts0 t
  refine ⟨t, flush0_4 t, ?_⟩
  rw [mem_blk0_4]
  intro a
  match a with
  | ⟨0, _⟩ => show win0_4.index t (0 : Fin 2) * 1024 ≤ (i 0).val ∧ (i 0).val < win0_4.index t (0 : Fin 2) * 1024 + 1024; rw [e40, ht]; omega
  | ⟨1, _⟩ => show win0_4.index t (1 : Fin 2) * 512 ≤ (i 1).val ∧ (i 1).val < win0_4.index t (1 : Fin 2) * 512 + 512; rw [e41]; omega

/-- THE FIRST OUTPUT after the call: the features times the first weight half, entry by entry. -/
theorem arr0_3 (c : Dev nD) : (dat0 V c).arrAt 3 cfg0.N = prodArr (V c main_arg0) (V c main_v3) :=
  (dat0 V c).arrAt_eq_of_cover 3 (prodArr (V c main_arg0) (V c main_v3)) (fun t _ => flushed0_3_eq V c t) (cover0_3)
/-- THE SECOND OUTPUT after the call: the features times the second weight half. -/
theorem arr0_4 (c : Dev nD) : (dat0 V c).arrAt 4 cfg0.N = prodArr (V c main_arg0) (V c main_v4) :=
  (dat0 V c).arrAt_eq_of_cover 4 (prodArr (V c main_arg0) (V c main_v4)) (fun t _ => flushed0_4_eq V c t) (cover0_4)

/-- The same two, over named contents of the three input arrays. -/
theorem arr0_3_of (c : Dev nD) (X : Vec Ideal S8192x512 .f32) (W3 : Vec Ideal S512x512 .bf16)
    (hX : V c main_arg0 = X) (h3 : V c main_v3 = W3) :
    (dat0 V c).arrAt 3 cfg0.N = fun i => ∑ k : Fin 512, X (ix2 (i 0) k) * W3 (ix2 k (i 1)) := by
  subst hX h3; exact arr0_3 V c
theorem arr0_4_of (c : Dev nD) (X : Vec Ideal S8192x512 .f32) (W4 : Vec Ideal S512x512 .bf16)
    (hX : V c main_arg0 = X) (h4 : V c main_v4 = W4) :
    (dat0 V c).arrAt 4 cfg0.N = fun i => ∑ k : Fin 512, X (ix2 (i 0) k) * W4 (ix2 k (i 1)) := by
  subst hX h4; exact arr0_4 V c

/-! ## From the blocks to the arrays: the layer-1 projection -/

/-- The printed index maps over the 8 grid points: the rows' block and both outputs' blocks sit at the point's own
    block of 1024 rows, column block 0; the two weight halves are always their block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The rows' block at point `t` is rows 1024 t … 1024 t + 1023 of the features. -/
theorem rows2_apply (c : Dev nD) (t : Fin cfg2.N) (y : S1024x512.Idx) (i : S8192x512.Idx)
    (h0 : (i 0).val = t.val * 1024 + (y 0).val) (h1 : (i 1).val = (y 1).val) :
    (iblk2 V c 0 t : Vec Ideal S1024x512 .f32) y = (V c main_v6 : Vec Ideal S8192x512 .f32) i := by
  obtain ⟨e00, e01, -⟩ := idx_facts2 t
  unfold iblk2
  rw [View.read_apply]
  show V c main_v6 _ = V c main_v6 i
  refine congrArg (V c main_v6) (funext fun a => Fin.ext ?_)
  match a with
  | ⟨0, _⟩ => show win2_0.index t (0 : Fin 2) * 1024 + 1 * (y 0).val = (i 0).val; rw [e00, h0]; omega
  | ⟨1, _⟩ => show win2_0.index t (1 : Fin 2) * 512 + 1 * (y 1).val = (i 1).val; rw [e01, h1]; omega

/-- The first weight half's block is the whole half, at every point. -/
theorem half2_1_apply (c : Dev nD) (t : Fin cfg2.N) (y : S512x512.Idx) :
    (iblk2 V c 1 t : Vec Ideal S512x512 .bf16) y = (V c main_v9 : Vec Ideal S512x512 .bf16) y := by
  obtain ⟨-, -, e10, e11, -⟩ := idx_facts2 t
  unfold iblk2
  rw [View.read_apply]
  show V c main_v9 _ = V c main_v9 y
  refine congrArg (V c main_v9) (funext fun a => Fin.ext ?_)
  match a with
  | ⟨0, _⟩ => show win2_1.index t (0 : Fin 2) * 512 + 1 * (y 0).val = (y 0).val; rw [e10]; omega
  | ⟨1, _⟩ => show win2_1.index t (1 : Fin 2) * 512 + 1 * (y 1).val = (y 1).val; rw [e11]; omega

/-- The second weight half's block is the whole half, at every point. -/
theorem half2_2_apply (c : Dev nD) (t : Fin cfg2.N) (y : S512x512.Idx) :
    (iblk2 V c 2 t : Vec Ideal S512x512 .bf16) y = (V c main_v10 : Vec Ideal S512x512 .bf16) y := by
  obtain ⟨-, -, -, -, e20, e21, -⟩ := idx_facts2 t
  unfold iblk2
  rw [View.read_apply]
  show V c main_v10 _ = V c main_v10 y
  refine congrArg (V c main_v10) (funext fun a => Fin.ext ?_)
  match a with
  | ⟨0, _⟩ => show win2_2.index t (0 : Fin 2) * 512 + 1 * (y 0).val = (y 0).val; rw [e20]; omega
  | ⟨1, _⟩ => show win2_2.index t (1 : Fin 2) * 512 + 1 * (y 1).val = (y 1).val; rw [e21]; omega

/-- What point `t` writes back to the first output is block `t` of the features times the first weight half. -/
theorem flushed2_3_eq (c : Dev nD) (t : Fin cfg2.N) :
    (dat2 V c).flushed 3 t = ((cfg2.win 3).blk t).view.read (Elt Ideal) (prodArr (V c main_v6) (V c main_v9)) := by
  show (cfg2.win 3).cut (grid2.coords t) ((dat2 V c).after 3 t) = _
  rw [after2_3]
  obtain ⟨-, -, -, -, -, -, e30, e31, -⟩ := idx_facts2 t
  funext j
  rw [View.read_apply]
  refine (outH2_at _ _ _).trans (block_sum (V c main_v6) (V c main_v9) (iblk2 V c 0 t) (iblk2 V c 1 t) t.val
    (rows2_apply V c t) (half2_1_apply V c t) _ _ ?_ ?_)
  · show win2_3.index t (0 : Fin 2) * 1024 + 1 * (j 0).val = t.val * 1024 + (j 0).val; rw [e30]; omega
  · show win2_3.index t (1 : Fin 2) * 512 + 1 * (j 1).val = (j 1).val; rw [e31]; omega

/-- What point `t` writes back to the second output is block `t` of the features times the second weight half. -/
theorem flushed2_4_eq (c : Dev nD) (t : Fin cfg2.N) :
    (dat2 V c).flushed 4 t = ((cfg2.win 4).blk t).view.read (Elt Ideal) (prodArr (V c main_v6) (V c main_v10)) := by
  show (cfg2.win 4).cut (grid2.coords t) ((dat2 V c).after 4 t) = _
  rw [after2_4]
  obtain ⟨-, -, -, -, -, -, -, -, e40, e41⟩ := idx_facts2 t
  funext j
  rw [View.read_apply]
  refine (outS2_at _ _ _).trans (block_sum (V c main_v6) (V c main_v10) (iblk2 V c 0 t) (iblk2 V c 2 t) t.val
    (rows2_apply V c t) (half2_2_apply V c t) _ _ ?_ ?_)
  · show win2_4.index t (0 : Fin 2) * 1024 + 1 * (j 0).val = t.val * 1024 + (j 0).val; rw [e40]; omega
  · show win2_4.index t (1 : Fin 2) * 512 + 1 * (j 1).val = (j 1).val; rw [e41]; omega

/-- An index of the first output is in point `t`'s block iff each coordinate is in the block's range on its axis. -/
theorem mem_blk2_3 (t : Fin cfg2.N) (i : S8192x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v11_0).slice (win2_3.rect t)).set ↔ _
  rw [View.set_slice_whole, Rect.mem_set_unit]
  exact Iff.rfl
/-- The same for the second output. -/
theorem mem_blk2_4 (t : Fin cfg2.N) (i : S8192x512.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v11_1).slice (win2_4.rect t)).set ↔ _
  rw [View.set_slice_whole, Rect.mem_set_unit]
  exact Iff.rfl

/-- Row p of the first output is in the block of point p / 1024, which writes back. -/
theorem cover2_3 (i : S8192x512.Idx) : ∃ t : Fin cfg2.N, (cfg2.win 3).flush t = true ∧ i ∈ ((cfg2.win 3).blk t).view.set := by
  have hi0 : (i 0).val < 8192 := (i 0).isLt
  have hi1 : (i 1).val < 512 := (i 1).isLt
  have hN : cfg2.N = 8 := N_2
  let t : Fin cfg2.N := ⟨(i 0).val / 1024, by rw [hN]; omega⟩
  have ht : t.val = (i 0).val / 1024 := rfl
  obtain ⟨-, -, -, -, -, -, e30, e31, -⟩ := idx_facts2 t
  refine ⟨t, flush2_3 t, ?_⟩
  rw [mem_blk2_3]
  intro a
  match a with
  | ⟨0, _⟩ => show win2_3.index t (0 : Fin 2) * 1024 ≤ (i 0).val ∧ (i 0).val < win2_3.index t (0 : Fin 2) * 1024 + 1024; rw [e30, ht]; omega
  | ⟨1, _⟩ => show win2_3.index t (1 : Fin 2) * 512 ≤ (i 1).val ∧ (i 1).val < win2_3.index t (1 : Fin 2) * 512 + 512; rw [e31]; omega
/-- The same for the second output. -/
theorem cover2_4 (i : S8192x512.Idx) : ∃ t : Fin cfg2.N, (cfg2.win 4).flush t = true ∧ i ∈ ((cfg2.win 4).blk t).view.set := by
  have hi0 : (i 0).val < 8192 := (i 0).isLt
  have hi1 : (i 1).val < 512 := (i 1).isLt
  have hN : cfg2.N = 8 := N_2
  let t : Fin cfg2.N := ⟨(i 0).val / 1024, by rw [hN]; omega⟩
  have ht : t.val = (i 0).val / 1024 := rfl
  obtain ⟨-, -, -, -, -, -, -, -, e40, e41⟩ := idx_facts2 t
  refine ⟨t, flush2_4 t, ?_⟩
  rw [mem_blk2_4]
  intro a
  match a with
  | ⟨0, _⟩ => show win2_4.index t (0 : Fin 2) * 1024 ≤ (i 0).val ∧ (i 0).val < win2_4.index t (0 : Fin 2) * 1024 + 1024; rw [e40, ht]; omega
  | ⟨1, _⟩ => show win2_4.index t (1 : Fin 2) * 512 ≤ (i 1).val ∧ (i 1).val < win2_4.index t (1 : Fin 2) * 512 + 512; rw [e41]; omega

/-- THE FIRST OUTPUT after the call: the features times the first weight half, entry by entry. -/
theorem arr2_3 (c : Dev nD) : (dat2 V c).arrAt 3 cfg2.N = prodArr (V c main_v6) (V c main_v9) :=
  (dat2 V c).arrAt_eq_of_cover 3 (prodArr (V c main_v6) (V c main_v9)) (fun t _ => flushed2_3_eq V c t) (cover2_3)
/-- THE SECOND OUTPUT after the call: the features times the second weight half. -/
theorem arr2_4 (c : Dev nD) : (dat2 V c).arrAt 4 cfg2.N = prodArr (V c main_v6) (V c main_v10) :=
  (dat2 V c).arrAt_eq_of_cover 4 (prodArr (V c main_v6) (V c main_v10)) (fun t _ => flushed2_4_eq V c t) (cover2_4)

/-- The same two, over named contents of the three input arrays. -/
theorem arr2_3_of (c : Dev nD) (X : Vec Ideal S8192x512 .f32) (W3 : Vec Ideal S512x512 .bf16)
    (hX : V c main_v6 = X) (h3 : V c main_v9 = W3) :
    (dat2 V c).arrAt 3 cfg2.N = fun i => ∑ k : Fin 512, X (ix2 (i 0) k) * W3 (ix2 k (i 1)) := by
  subst hX h3; exact arr2_3 V c
theorem arr2_4_of (c : Dev nD) (X : Vec Ideal S8192x512 .f32) (W4 : Vec Ideal S512x512 .bf16)
    (hX : V c main_v6 = X) (h4 : V c main_v10 = W4) :
    (dat2 V c).arrAt 4 cfg2.N = fun i => ∑ k : Fin 512, X (ix2 (i 0) k) * W4 (ix2 k (i 1)) := by
  subst hX h4; exact arr2_4 V c

end Blocks

/-! ## The host stretches, read at an index -/

/-- A layer of the stacked weights, its unit axis dropped, then a run of 512 of its 1024 columns: at (r, d) the stack at
    (layer, r, first column of the run + d). The offsets are variables with their values as hypotheses, so that the
    printed literals are matched by computation. -/
theorem layer_half_apply {α : Type} (Z : S2x512x1024.Idx → α) (off3 : Fin 3 → Nat) (off2 : Fin 2 → Nat)
    (h3 : S2x512x1024.Slices off3 S1x512x1024) (hc : S1x512x1024.ShapeCasts S512x1024) (h2 : S512x1024.Slices off2 S512x512)
    (l : Fin 2) (h30 : off3 0 = l.val) (h31 : off3 1 = 0) (h32 : off3 2 = 0) (h20 : off2 0 = 0)
    (r d : Fin 512) (col : Fin 1024) (hcol : col.val = off2 1 + d.val) :
    extractStridedSlice S512x512 off2 (shapeCast S512x1024 (extractStridedSlice S1x512x1024 off3 Z h3) hc) h2 (ix2 r d)
      = Z (ix3 l r col) := by
  refine (extractStridedSlice_apply off2 _ h2 (ix2 r d) (ix2 r col) (fun a => match a with
    | ⟨0, _⟩ => by show r.val = off2 0 + r.val; rw [h20]; omega
    | ⟨1, _⟩ => by show col.val = off2 1 + d.val; exact hcol)).trans ?_
  refine (shapeCast_apply _ hc (ix2 r col) (ix3 (0 : Fin 1) r col)
    (by rw [Shape.rowMajor_val_two, Shape.rowMajor_val_three]
        show (0 * 512 + r.val) * 1024 + col.val = r.val * 1024 + col.val; omega)).trans ?_
  exact extractStridedSlice_apply off3 Z h3 _ (ix3 l r col) (fun a => match a with
    | ⟨0, _⟩ => by show l.val = off3 0 + 0; omega
    | ⟨1, _⟩ => by show r.val = off3 1 + r.val; rw [h31]; omega
    | ⟨2, _⟩ => by show col.val = off3 2 + col.val; rw [h32]; omega)

section Host
variable (W0 : Valuation τ sig (Elt Ideal))

/-- After the first host stretch the converted weights are the stacked weights themselves. -/
theorem host0_v0 :
    StableHlo.after (hostOps0 (F := Ideal)) W0 (Proc.devRef .tc main_v0) = (W0 (Proc.devRef .tc main_arg2) : Vec Ideal S2x512x1024 .f32) := by
  after_results
  rfl

/-- After the first host stretch the first weight half of layer 0 is the stacked weights at layer 0, columns 0 … 511. -/
theorem host0_v3 :
    StableHlo.after (hostOps0 (F := Ideal)) W0 (Proc.devRef .tc main_v3)
      = fun i : S512x512.Idx => (W0 (Proc.devRef .tc main_arg2) : Vec Ideal S2x512x1024 .f32)
          (ix3 (0 : Fin 2) (i 0) (⟨(i 1).val, Nat.lt_of_lt_of_le (idx2_lt1 i) (by decide)⟩ : Fin 1024)) := by
  after_results
  funext i
  obtain ⟨r, d, rfl⟩ : ∃ (r d : Fin 512), i = ix2 r d := ⟨i 0, i 1, eq_ix2 i⟩
  exact layer_half_apply (truncf (F := Ideal) .bf16 (W0 (Proc.devRef .tc main_arg2)) bitsLt_bf16_f32) ![0, 0, 0] ![0, 0] _ _ _ 0 rfl rfl rfl rfl r d
    (⟨d.val, Nat.lt_of_lt_of_le d.isLt (by decide)⟩ : Fin 1024) (by show d.val = 0 + d.val; omega)

/-- The second weight half of layer 0: columns 512 … 1023. -/
theorem host0_v4 :
    StableHlo.after (hostOps0 (F := Ideal)) W0 (Proc.devRef .tc main_v4)
      = fun i : S512x512.Idx => (W0 (Proc.devRef .tc main_arg2) : Vec Ideal S2x512x1024 .f32)
          (ix3 (0 : Fin 2) (i 0) (⟨512 + (i 1).val, by have := idx2_lt1 i; omega⟩ : Fin 1024)) := by
  after_results
  funext i
  obtain ⟨r, d, rfl⟩ : ∃ (r d : Fin 512), i = ix2 r d := ⟨i 0, i 1, eq_ix2 i⟩
  exact layer_half_apply (truncf (F := Ideal) .bf16 (W0 (Proc.devRef .tc main_arg2)) bitsLt_bf16_f32) ![0, 0, 0] ![0, 512] _ _ _ 0 rfl rfl rfl rfl r d
    (⟨512 + d.val, by have := d.isLt; omega⟩ : Fin 1024) rfl

/-- After the second host stretch the first weight half of layer 1 is the converted weights at layer 1, columns 0 … 511. -/
theorem host2_v9 :
    StableHlo.after (hostOps2 (F := Ideal)) W0 (Proc.devRef .tc main_v9)
      = fun i : S512x512.Idx => (W0 (Proc.devRef .tc main_v0) : Vec Ideal S2x512x1024 .bf16)
          (ix3 (1 : Fin 2) (i 0) (⟨(i 1).val, Nat.lt_of_lt_of_le (idx2_lt1 i) (by decide)⟩ : Fin 1024)) := by
  after_results
  funext i
  obtain ⟨r, d, rfl⟩ : ∃ (r d : Fin 512), i = ix2 r d := ⟨i 0, i 1, eq_ix2 i⟩
  exact layer_half_apply (W0 (Proc.devRef .tc main_v0) : Vec Ideal S2x512x1024 .bf16) ![1, 0, 0] ![0, 0] _ _ _ 1 rfl rfl rfl rfl r d
    (⟨d.val, Nat.lt_of_lt_of_le d.isLt (by decide)⟩ : Fin 1024) (by show d.val = 0 + d.val; omega)

/-- The second weight half of layer 1: columns 512 … 1023. -/
theorem host2_v10 :
    StableHlo.after (hostOps2 (F := Ideal)) W0 (Proc.devRef .tc main_v10)
      = fun i : S512x512.Idx => (W0 (Proc.devRef .tc main_v0) : Vec Ideal S2x512x1024 .bf16)
          (ix3 (1 : Fin 2) (i 0) (⟨512 + (i 1).val, by have := idx2_lt1 i; omega⟩ : Fin 1024)) := by
  after_results
  funext i
  obtain ⟨r, d, rfl⟩ : ∃ (r d : Fin 512), i = ix2 r d := ⟨i 0, i 1, eq_ix2 i⟩
  exact layer_half_apply (W0 (Proc.devRef .tc main_v0) : Vec Ideal S2x512x1024 .bf16) ![1, 0, 0] ![0, 512] _ _ _ 1 rfl rfl rfl rfl r d
    (⟨512 + d.val, by have := d.isLt; omega⟩ : Fin 1024) rfl

end Host

end Cert.KernelIdeal.ProjValue

end
-- ==== Proof.KernelValueI.lean ====
/-
  The kernel program's result, as the specification's two layers.

  From a launch memory whose three arguments are real arrays x, adj, W (read as finite extended reals), the program's
  buffers between its items are known: the host stretches cut the two halves of each layer's weight out of the stack, a
  projection call leaves the node features times each half — on finite values the extended-real sum of products is the
  real one, so the two outputs are the specification's values h and keys g —, and an attention call, given h, g, the mask
  and the features as real arrays, leaves the layer's update (a fact taken here as a hypothesis per call). The first
  layer's result is the second layer's features, and the two layers in sequence are the specification.
-/
import proofs.«100610_j61478161875059_2_alg».proof.Proof.RunI
import proofs.«100610_j61478161875059_2_alg».proof.Proof.AttnPackI
import proofs.«100610_j61478161875059_2_alg».proof.Proof.AttnRowMath
import proofs.«100610_j61478161875059_2_alg».proof.Proof.Spec
import proofs.«100610_j61478161875059_2_alg».proof.Proof.LibOnlineSoftmax
import proofs.«100610_j61478161875059_2_alg».proof.Proof.ProjValueI

set_option maxRecDepth 16384

noncomputable section

open scoped BigOperators

namespace Cert.KernelIdeal.Value

open Cert.KernelIdeal Cert.KernelIdeal.Gen Cert.KernelIdeal.Proj Cert.KernelIdeal.ProjValue
open Cert.GatSpec
open Idealize.ShloMosaic Idealize.ShloMosaic.TcCoe Idealize.ShloMosaic.ValueIdx
open Idealize.SL.Sem
open Idealize.ShloMosaic.Pipeline (Dat)

/-! ## The weight halves and the products, on real arrays -/

/-- Columns 0 … 511 of layer `l` of a stacked array. -/
def halfL {α : Type} (Z : SW2.Idx → α) (l : Fin 2) : S512x512.Idx → α :=
  fun i => Z (ix3 l (i 0) (⟨(i 1).val, Nat.lt_of_lt_of_le (idx2_lt1 i) (by decide)⟩ : Fin 1024))
/-- Columns 512 … 1023 of layer `l`. -/
def halfR {α : Type} (Z : SW2.Idx → α) (l : Fin 2) : S512x512.Idx → α :=
  fun i => Z (ix3 l (i 0) (⟨512 + (i 1).val, by have := idx2_lt1 i; omega⟩ : Fin 1024))

/-- The product of two real arrays read as extended reals is the real product read as extended reals. -/
theorem prodArr_up (a : SX.Idx → ℝ) (b : S512x512.Idx → ℝ) :
    prodArr (up a) (up b) = up (fun i : SX.Idx => ∑ k : Fin 512, a (ix2 (i 0) k) * b (ix2 k (i 1))) := by
  funext i
  show (∑ k : Fin 512, (a (ix2 (i 0) k) : EReal) * (b (ix2 k (i 1)) : EReal))
    = ((∑ k : Fin 512, a (ix2 (i 0) k) * b (ix2 k (i 1)) : ℝ) : EReal)
  rw [Cert.LibOnlineSoftmax.coe_sum]
  exact Finset.sum_congr rfl fun k _ => (EReal.coe_mul _ _).symm

/-- The features times the left half of layer `l`'s weight are the specification's values … -/
theorem prod_halfL (a : SX.Idx → ℝ) (W : SW2.Idx → ℝ) (l : Fin 2) :
    prodArr (up a) (up (halfL W l)) = up (fun i : SX.Idx => h a (wsel W l) (i 0) (i 1)) :=
  prodArr_up a (halfL W l)
/-- … and times the right half its keys. -/
theorem prod_halfR (a : SX.Idx → ℝ) (W : SW2.Idx → ℝ) (l : Fin 2) :
    prodArr (up a) (up (halfR W l)) = up (fun i : SX.Idx => g a (wsel W l) (i 0) (i 1)) :=
  prodArr_up a (halfR W l)

/-! ## The program's buffers, item by item -/

section Glue
variable (m : (ℓ : Loc nD τ sig) → Buf (Elt Ideal) ℓ) (c : Dev nD)
variable (x : SX.Idx → ℝ) (adj : SA.Idx → ℝ) (W : SW2.Idx → ℝ)

/-- The stacked weights at launch, in the first valuation's spelling. -/
theorem launch_weights (hW : m ((c.tc : Thread nD τ).loc main_arg2) = up W) :
    Run.W0 m c (Proc.devRef .tc main_arg2) = up W := hW

/-- They reach the second host stretch unchanged: the conversion is the identity and no call writes them. -/
theorem kept_weights (hW : m ((c.tc : Thread nD τ).loc main_arg2) = up W) :
    Run.W3 Pack.D1 m c (Proc.devRef .tc main_v0) = up W :=
  (Run.V3_main_v0 Pack.D1 m c).trans ((host0_v0 (Run.W0 m c)).trans (launch_weights m c W hW))

/-- The layer-0 projection's two weights are the two halves of layer 0 of the stack. -/
theorem weight0_L (hW : m ((c.tc : Thread nD τ).loc main_arg2) = up W) : Run.V1 m c main_v3 = up (halfL W 0) :=
  (host0_v3 (Run.W0 m c)).trans (congrArg (fun Z : SW2.Idx → EReal => halfL Z 0) (launch_weights m c W hW))
theorem weight0_R (hW : m ((c.tc : Thread nD τ).loc main_arg2) = up W) : Run.V1 m c main_v4 = up (halfR W 0) :=
  (host0_v4 (Run.W0 m c)).trans (congrArg (fun Z : SW2.Idx → EReal => halfR Z 0) (launch_weights m c W hW))
/-- The layer-1 projection's two weights are the two halves of layer 1. -/
theorem weight1_L (hW : m ((c.tc : Thread nD τ).loc main_arg2) = up W) : Run.V4 Pack.D1 m c main_v9 = up (halfL W 1) :=
  (host2_v9 (Run.W3 Pack.D1 m c)).trans (congrArg (fun Z : SW2.Idx → EReal => halfL Z 1) (kept_weights m c W hW))
theorem weight1_R (hW : m ((c.tc : Thread nD τ).loc main_arg2) = up W) : Run.V4 Pack.D1 m c main_v10 = up (halfR W 1) :=
  (host2_v10 (Run.W3 Pack.D1 m c)).trans (congrArg (fun Z : SW2.Idx → EReal => halfR Z 1) (kept_weights m c W hW))

/-- The layer-0 projection leaves the specification's values and keys of the launch features. -/
theorem values0 (hx : m ((c.tc : Thread nD τ).loc main_arg0) = up x) (hW : m ((c.tc : Thread nD τ).loc main_arg2) = up W) :
    Run.V2 m c main_v5_0 = up (fun i : SX.Idx => h x (wsel W 0) (i 0) (i 1)) :=
  (Run.V2_main_v5_0 m c).trans <|
    (arr0_3_of (Run.V1 m) c (up x) (up (halfL W 0)) ((Run.V1_main_arg0 m c).trans hx) (weight0_L m c W hW)).trans (prod_halfL x W 0)
theorem keys0 (hx : m ((c.tc : Thread nD τ).loc main_arg0) = up x) (hW : m ((c.tc : Thread nD τ).loc main_arg2) = up W) :
    Run.V2 m c main_v5_1 = up (fun i : SX.Idx => g x (wsel W 0) (i 0) (i 1)) :=
  (Run.V2_main_v5_1 m c).trans <|
    (arr0_4_of (Run.V1 m) c (up x) (up (halfR W 0)) ((Run.V1_main_arg0 m c).trans hx) (weight0_R m c W hW)).trans (prod_halfR x W 0)

end Glue

/-! ## The two layers -/

section Layers
variable (m : (ℓ : Loc nD τ sig) → Buf (Elt Ideal) ℓ) (c : Dev nD)
variable (x : SX.Idx → ℝ) (adj : SA.Idx → ℝ) (W : SW2.Idx → ℝ)

/-- What an attention call is assumed to leave: given the values, keys, mask and features as real arrays in its four
    input arrays, the layer's update in its output array. For the layer-0 call … -/
abbrev AttnValue1 : Prop :=
  ∀ (V : (c : Dev nD) → (b : Ref sig .tc) → Buf (Elt Ideal) ((c : Thread nD τ).loc b)) (c : Dev nD)
    (Hh Gg : SX.Idx → ℝ) (A : SA.Idx → ℝ) (X : SX.Idx → ℝ),
    V c main_v5_0 = up Hh → V c main_v5_1 = up Gg → V c main_arg1 = up A → V c main_arg0 = up X →
    (Cert.KernelIdeal.Attn.dat1 V c).arrAt 5 cfg1.N = up (Cert.AttnRow.attn Hh Gg A X)
/-- … and for the layer-1 call. -/
abbrev AttnValue3 : Prop :=
  ∀ (V : (c : Dev nD) → (b : Ref sig .tc) → Buf (Elt Ideal) ((c : Thread nD τ).loc b)) (c : Dev nD)
    (Hh Gg : SX.Idx → ℝ) (A : SA.Idx → ℝ) (X : SX.Idx → ℝ),
    V c main_v11_0 = up Hh → V c main_v11_1 = up Gg → V c main_arg1 = up A → V c main_v6 = up X →
    (Cert.KernelIdeal.Attn.dat3 V c).arrAt 5 cfg3.N = up (Cert.AttnRow.attn Hh Gg A X)

/-- The layer-0 attention call leaves the specification's first layer. -/
theorem layer0 (hAttn1 : AttnValue1)
    (hx : m ((c.tc : Thread nD τ).loc main_arg0) = up x) (ha : m ((c.tc : Thread nD τ).loc main_arg1) = up adj)
    (hW : m ((c.tc : Thread nD τ).loc main_arg2) = up W) :
    (Cert.KernelIdeal.Attn.dat1 (Run.V2 m) c).arrAt 5 cfg1.N = up (layer x adj (wsel W 0)) :=
  (hAttn1 (Run.V2 m) c _ _ adj x (values0 m c x W hx hW) (keys0 m c x W hx hW)
    ((Run.V2_main_arg1 m c).trans ha) ((Run.V2_main_arg0 m c).trans hx)).trans
    (congrArg up (Cert.AttnRow.layer_eq x adj (wsel W 0)).symm)

/-- The layer-1 projection leaves the specification's values and keys of the first layer's result. -/
theorem values1 (hAttn1 : AttnValue1)
    (hx : m ((c.tc : Thread nD τ).loc main_arg0) = up x) (ha : m ((c.tc : Thread nD τ).loc main_arg1) = up adj)
    (hW : m ((c.tc : Thread nD τ).loc main_arg2) = up W) :
    Run.V5 Pack.D1 m c main_v11_0 = up (fun i : SX.Idx => h (layer x adj (wsel W 0)) (wsel W 1) (i 0) (i 1)) :=
  (Run.V5_main_v11_0 Pack.D1 m c).trans <|
    (arr2_3_of (Run.V4 Pack.D1 m) c (up (layer x adj (wsel W 0))) (up (halfL W 1))
      ((Run.V4_main_v6 Pack.D1 m c).trans (layer0 m c x adj W hAttn1 hx ha hW)) (weight1_L m c W hW)).trans
      (prod_halfL (layer x adj (wsel W 0)) W 1)
theorem keys1 (hAttn1 : AttnValue1)
    (hx : m ((c.tc : Thread nD τ).loc main_arg0) = up x) (ha : m ((c.tc : Thread nD τ).loc main_arg1) = up adj)
    (hW : m ((c.tc : Thread nD τ).loc main_arg2) = up W) :
    Run.V5 Pack.D1 m c main_v11_1 = up (fun i : SX.Idx => g (layer x adj (wsel W 0)) (wsel W 1) (i 0) (i 1)) :=
  (Run.V5_main_v11_1 Pack.D1 m c).trans <|
    (arr2_4_of (Run.V4 Pack.D1 m) c (up (layer x adj (wsel W 0))) (up (halfR W 1))
      ((Run.V4_main_v6 Pack.D1 m c).trans (layer0 m c x adj W hAttn1 hx ha hW)) (weight1_R m c W hW)).trans
      (prod_halfR (layer x adj (wsel W 0)) W 1)

/-- THE RESULT: at the return the result buffer holds the specification's two layers of the launch arrays. -/
theorem kernel_value (hAttn1 : AttnValue1) (hAttn3 : AttnValue3)
    (m : (ℓ : Loc nD τ sig) → Buf (Elt Ideal) ℓ) (c : Dev nD) (x : SX.Idx → ℝ) (adj : SA.Idx → ℝ) (W : SW2.Idx → ℝ)
    (hx : m ((c.tc : Thread nD τ).loc main_arg0) = up x) (ha : m ((c.tc : Thread nD τ).loc main_arg1) = up adj)
    (hW : m ((c.tc : Thread nD τ).loc main_arg2) = up W) :
    Run.W6 Pack.D1 Pack.D3 m c (Proc.devRef .tc main_v12) = up (gat x adj W) :=
  (Run.W6_main_v12 Pack.D1 Pack.D3 m c).trans <|
    (hAttn3 (Run.V5 Pack.D1 m) c _ _ adj (layer x adj (wsel W 0)) (values1 m c x adj W hAttn1 hx ha hW) (keys1 m c x adj W hAttn1 hx ha hW)
      ((Run.V5_main_arg1 Pack.D1 m c).trans ha) ((Run.V5_main_v6 Pack.D1 m c).trans (layer0 m c x adj W hAttn1 hx ha hW))).trans
      (congrArg up (Cert.AttnRow.layer_eq (layer x adj (wsel W 0)) adj (wsel W 1)).symm)

end Layers

end Cert.KernelIdeal.Value

end
-- ==== Proof.lean ====
/-
  Two layers of graph attention, computed by four kernel launches, against the plain reference.

  Each layer projects the node features by the layer's weight (a tiled matrix product, in one launch) and then attends:
  every node averages the projected features of all nodes with the softmax of its scores against their keys as weights,
  the weights masked by the adjacency AFTER normalisation, adds its own features and applies a leaky rectifier. The
  kernel never forms a whole row of scores: it walks the row in tiles and keeps a running maximum, a running sum and a
  running weighted sum, rescaling both sums whenever the maximum moves. On the extended reals, with finite inputs, that
  online pass and the reference's two-pass softmax give the same number (the rescaling factor moves the shift of a sum
  of exponentials, and the final quotient does not depend on the shift), the format changes are the identity, and
  the two matrix products are the same sums. The three frames come from running each program: the kernel programs launch
  by launch through their pipelines, the reference operation by operation.
-/
import proofs.«100610_j61478161875059_2_alg».proof.Defs
import proofs.«100610_j61478161875059_2_alg».proof.Proof.Gen.Kernel
import proofs.«100610_j61478161875059_2_alg».proof.Proof.Gen.KernelIdeal
import proofs.«100610_j61478161875059_2_alg».proof.Proof.Gen.ReferenceIdeal
import proofs.«100610_j61478161875059_2_alg».proof.Proof.Gen.Pre_finite_inputs
import proofs.«100610_j61478161875059_2_alg».proof.Proof.RefRun
import proofs.«100610_j61478161875059_2_alg».proof.Proof.AttnPackK
import proofs.«100610_j61478161875059_2_alg».proof.Proof.AttnPackI
import proofs.«100610_j61478161875059_2_alg».proof.Proof.RefValue
import proofs.«100610_j61478161875059_2_alg».proof.Proof.PreFiniteI
import proofs.«100610_j61478161875059_2_alg».proof.Proof.AttnValueI
import proofs.«100610_j61478161875059_2_alg».proof.Proof.KernelValueI

noncomputable section

namespace Cert.Proof

open Idealize.ShloMosaic Idealize.SL.Sem

/-- The word-level kernel program runs and leaves its arguments as they were: its run through the four launches, the
    result dropped. -/
theorem frame_k : Cert.frame_Kernel := fun m ρ _ =>
  (θ_run (Cert.Kernel.defs (F := Bits)) _ _).mono (fun _ h c => (h c).2) (Cert.Kernel.Run.run_main Cert.Kernel.Pack.D1 Cert.Kernel.Pack.D3 m ρ)

/-- The same for the idealized kernel program. -/
theorem frame_ki : Cert.frame_KernelIdeal := fun m ρ _ =>
  (θ_run (Cert.KernelIdeal.defs (F := Ideal)) _ _).mono (fun _ h c => (h c).2) (Cert.KernelIdeal.Run.run_main Cert.KernelIdeal.Pack.D1 Cert.KernelIdeal.Pack.D3 m ρ)

/-- The ideal pass rewrote no operation: nothing to preserve. -/
theorem preserves : Cert.preserves_Kernel_KernelIdeal := trivial

/-- At the ideal instance both programs end at the specification's two layers of the (finite) arguments: the kernel program
    by its run through the four launches read back layer by layer, the reference by its run read operation by operation;
    the arguments are finite by the precondition and agree by hypothesis. -/
theorem algebraic : Cert.algebraic_KernelIdeal_ReferenceIdeal := by
  intro m ρ m' ρ' hpre hagree
  refine ⟨fun c => Cert.KernelIdeal.Run.W6 Cert.KernelIdeal.Pack.D1 Cert.KernelIdeal.Pack.D3 m c
      (Proc.devRef .tc Cert.KernelIdeal.main_v12),
    Cert.KernelIdeal.Run.run_main Cert.KernelIdeal.Pack.D1 Cert.KernelIdeal.Pack.D3 m ρ, ?_⟩
  refine (θ_run (Cert.ReferenceIdeal.defs (F := Ideal)) _ _).mono (fun _ h c => ⟨(h c).1.trans ?_, (h c).2⟩)
    (Cert.ReferenceIdeal.RefRun.run (F := Ideal) m' ρ')
  obtain ⟨x, adj, W, hx, ha, hW⟩ := Cert.KernelIdeal.PreFinite.pre_up m hpre c
  rw [(hagree c).1, (hagree c).2.1, (hagree c).2.2, hx, ha, hW, Cert.ReferenceIdeal.RefValue.refOut_up]
  exact (Cert.KernelIdeal.Value.kernel_value Cert.KernelIdeal.AttnValue.attn_value1 Cert.KernelIdeal.AttnValue.attn_value3
    m c x adj W hx ha hW).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, preserves, algebraic⟩

end Cert.Proof

end
